-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S32x8 : Shape := ⟨2, ![32, 8]⟩
abbrev S_ : Shape := ⟨0, ![]⟩

class Facts : Prop where
  bcast_S_S32x8 : S_.BroadcastsInDim S32x8 (![] : Fin 0 → Fin S32x8.rank)
  reducesTo_S32x8_S_d0_1 : S32x8.ReducesTo [0, 1] S_
  h_S_ : 0 < S_.numel

variable [Facts]

def fn {F : FTy → Type} [FloatOps F] (main_arg0 : FVec F S32x8 .f32) (main_arg1 : IVec S32x8 32) : IVec S_ 1 :=
  let main_v0 : FVec F S32x8 .f32 := Host.absf main_arg0
  let main_cst : FVec F S_ .f32 := constant S_ .f32 0x7F800000#32
  let main_v1 : FVec F S32x8 .f32 := broadcastInDim S32x8 ![] bcast_S_S32x8 main_cst
  let main_v2 : IVec S32x8 1 := cmpf .olt main_v0 main_v1
  let main_c : IVec S_ 1 := constantI S_ 1 1#1
  let main_v3 : IVec S_ 1 := (fun x v => Host.reduce IntOp.andi x v reducesTo_S32x8_S_d0_1 h_S_) main_v2 main_c
  let main_c_0 : IVec S_ 32 := constantI S_ 32 0#32
  let main_v4 : IVec S32x8 32 := broadcastInDim S32x8 ![] bcast_S_S32x8 main_c_0
  let main_v5 : IVec S32x8 1 := cmpi .sge main_arg1 main_v4
  let main_c_1 : IVec S_ 32 := constantI S_ 32 99999#32
  let main_v6 : IVec S32x8 32 := broadcastInDim S32x8 ![] bcast_S_S32x8 main_c_1
  let main_v7 : IVec S32x8 1 := cmpi .sle main_arg1 main_v6
  let main_v8 : IVec S32x8 1 := andi main_v5 main_v7
  let main_c_2 : IVec S_ 1 := constantI S_ 1 1#1
  let main_v9 : IVec S_ 1 := (fun x v => Host.reduce IntOp.andi x v reducesTo_S32x8_S_d0_1 h_S_) main_v8 main_c_2
  let main_v10 : IVec S_ 1 := andi main_v3 main_v9
  main_v10
-- ==== Kernel.lean ====
abbrev S32x8 : Shape := ⟨2, ![32, 8]⟩
abbrev S16x16 : Shape := ⟨2, ![16, 16]⟩
abbrev S32x8x100000 : Shape := ⟨3, ![32, 8, 100000]⟩
abbrev S2x8x100000 : Shape := ⟨3, ![2, 8, 100000]⟩
abbrev S2x8 : Shape := ⟨2, ![2, 8]⟩
abbrev S2x8x1 : Shape := ⟨3, ![2, 8, 1]⟩
abbrev S16 : Shape := ⟨1, ![16]⟩
abbrev S256 : Shape := ⟨1, ![256]⟩
abbrev S_ : Shape := ⟨0, ![]⟩
abbrev S1x16 : Shape := ⟨2, ![1, 16]⟩
abbrev S1 : Shape := ⟨1, ![1]⟩
abbrev S1x1x16 : Shape := ⟨3, ![1, 1, 16]⟩

abbrev nBuf : Table → Nat
  | .hbm => 8
  | .local .tc .vmem => 6
  | .local .scVector .vmem => 4
  | _ => 0

abbrev bufTy : (tb : Table) → Fin (nBuf tb) → BufTy
  | .hbm, ⟨0, _⟩ => ⟨S32x8, .f32⟩
  | .hbm, ⟨1, _⟩ => ⟨S32x8, .i32⟩
  | .hbm, ⟨2, _⟩ => ⟨S16x16, .f32⟩
  | .hbm, ⟨3, _⟩ => ⟨S32x8x100000, .f32⟩
  | .hbm, ⟨4, _⟩ => ⟨S16x16, .f32⟩
  | .hbm, ⟨5, _⟩ => ⟨S16x16, .f32⟩
  | .hbm, ⟨6, _⟩ => ⟨S16x16, .i32⟩
  | .hbm, ⟨7, _⟩ => ⟨S32x8x100000, .f32⟩
  | .local .tc .vmem, ⟨0, _⟩ => ⟨S32x8, .f32⟩
  | .local .tc .vmem, ⟨1, _⟩ => ⟨S16x16, .f32⟩
  | .local .tc .vmem, ⟨2, _⟩ => ⟨S2x8x100000, .f32⟩
  | .local .tc .vmem, ⟨3, _⟩ => ⟨S2x8x100000, .f32⟩
  | .local .tc .vmem, ⟨4, _⟩ => ⟨S16x16, .f32⟩
  | .local .tc .vmem, ⟨5, _⟩ => ⟨S16x16, .f32⟩
  | .local .scVector .vmem, ⟨0, _⟩ => ⟨S16, .f32⟩
  | .local .scVector .vmem, ⟨1, _⟩ => ⟨S16, .f32⟩
  | .local .scVector .vmem, ⟨2, _⟩ => ⟨S16, .i32⟩
  | .local .scVector .vmem, ⟨3, _⟩ => ⟨S256, .f32⟩
  | _, _ => ⟨S32x8, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v2 : Ref sig .tc := ⟨.hbm, 6, rfl⟩
abbrev main_v3 : Ref sig .tc := ⟨.hbm, 7, rfl⟩
abbrev main_v1_1_scv : Ref sig .scVector := ⟨.hbm, 4, rfl⟩
abbrev main_v1_2_scv : Ref sig .scVector := ⟨.hbm, 5, rfl⟩
abbrev main_v2_scv : Ref sig .scVector := ⟨.hbm, 6, rfl⟩
abbrev main_v3_scv : Ref sig .scVector := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c2_i32 : BitVec 32 := 2#32
  let v0 : BitVec 32 := Scalar.muli arg0 c2_i32
  let v1 : Index := Scalar.indexCast v0
  let c0 : Index := 0#32
  ![v1.toNat, 0]
def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_5 : BitVec 32 := 0#32
  let v17 : BitVec 1 := Scalar.cmpi .ne v16 c0_i32_5
  v17

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x8x100000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨2, ![1, 16], ![false, false]⟩

def k1_off1 (i : grid1.Coords) : Fin 2 → Nat :=
  let arg1 : BitVec 32 := BitVec.ofNat 32 (i 1).val
  let c0_i32 : BitVec 32 := 0#32
  ![arg1.toNat, 0]
def k1_off2 (i : grid1.Coords) (v32 : BitVec 32) : Fin 3 → Nat :=
  let arg1 : BitVec 32 := BitVec.ofNat 32 (i 1).val
  let c2_i32 : BitVec 32 := 2#32
  let v64 : BitVec 32 := Scalar.muli arg1 c2_i32
  let c0_i32_20 : BitVec 32 := 0#32
  let v65 : BitVec 32 := Scalar.addi v64 c0_i32_20
  let c0_i32_21 : BitVec 32 := 0#32
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c16_i32 : BitVec 32 := 16#32
  let c0_i32_15 : BitVec 32 := 0#32
  let v39 : BitVec 1 := Scalar.cmpi .sgt c16_i32 c0_i32_15
  let v40 : BitVec 32 := Scalar.extui v39
  let c0_i32_16 : BitVec 32 := 0#32
  let v41 : BitVec 1 := Scalar.cmpi .slt c16_i32 c0_i32_16
  let v42 : BitVec 32 := Scalar.extui v41
  let v43 : BitVec 32 := Scalar.subi v40 v42
  let v44 : BitVec 1 := Scalar.cmpi .ne v38 v43
  let v45 : BitVec 32 := Scalar.remsi v32 c16_i32
  let c0_i32_17 : BitVec 32 := 0#32
  let v46 : BitVec 1 := Scalar.cmpi .ne v45 c0_i32_17
  let v47 : BitVec 1 := Scalar.andi v44 v46
  let v33 : BitVec 32 := Scalar.divsi v32 c16_i32
  let c1_i32 : BitVec 32 := 1#32
  let v48 : BitVec 32 := Scalar.subi v33 c1_i32
  let v49 : BitVec 32 := Scalar.select v47 v48 v33
  let c16_i32_18 : BitVec 32 := 16#32
  let v50 : BitVec 32 := Scalar.muli v49 c16_i32_18
  ![v65.toNat, 0, v50.toNat]

def k1_off3 (i : grid1.Coords) (v73 : BitVec 32) : Fin 3 → Nat :=
  let arg1 : BitVec 32 := BitVec.ofNat 32 (i 1).val
  let c2_i32_32 : BitVec 32 := 2#32
  let v105 : BitVec 32 := Scalar.muli arg1 c2_i32_32
  let c0_i32_33 : BitVec 32 := 0#32
  let v106 : BitVec 32 := Scalar.addi v105 c0_i32_33
  let c1_i32_34 : BitVec 32 := 1#32
  let c0_i32_25 : BitVec 32 := 0#32
  let v75 : BitVec 1 := Scalar.cmpi .sgt v73 c0_i32_25
  let v76 : BitVec 32 := Scalar.extui v75
  let c0_i32_26 : BitVec 32 := 0#32
  let v77 : BitVec 1 := Scalar.cmpi .slt v73 c0_i32_26
  let v78 : BitVec 32 := Scalar.extui v77
  let v79 : BitVec 32 := Scalar.subi v76 v78
  let c16_i32_24 : BitVec 32 := 16#32
  let c0_i32_27 : BitVec 32 := 0#32
  let v80 : BitVec 1 := Scalar.cmpi .sgt c16_i32_24 c0_i32_27
  let v81 : BitVec 32 := Scalar.extui v80
  let c0_i32_28 : BitVec 32 := 0#32
  let v82 : BitVec 1 := Scalar.cmpi .slt c16_i32_24 c0_i32_28
  let v83 : BitVec 32 := Scalar.extui v82
  let v84 : BitVec 32 := Scalar.subi v81 v83
  let v85 : BitVec 1 := Scalar.cmpi .ne v79 v84
  let v86 : BitVec 32 := Scalar.remsi v73 c16_i32_24
  let c0_i32_29 : BitVec 32 := 0#32
  let v87 : BitVec 1 := Scalar.cmpi .ne v86 c0_i32_29
  let v88 : BitVec 1 := Scalar.andi v85 v87
  let v74 : BitVec 32 := Scalar.divsi v73 c16_i32_24
  let c1_i32_30 : BitVec 32 := 1#32
  let v89 : BitVec 32 := Scalar.subi v74 c1_i32_30
  let v90 : BitVec 32 := Scalar.select v88 v89 v74
  let c16_i32_31 : BitVec 32 := 16#32
  let v91 : BitVec 32 := Scalar.muli v90 c16_i32_31
  ![v106.toNat, 1, v91.toNat]

def k1_off4 (i : grid1.Coords) (v114 : BitVec 32) : Fin 3 → Nat :=
  let arg1 : BitVec 32 := BitVec.ofNat 32 (i 1).val
  let c2_i32_45 : BitVec 32 := 2#32
  let v146 : BitVec 32 := Scalar.muli arg1 c2_i32_45
  let c0_i32_46 : BitVec 32 := 0#32
  let v147 : BitVec 32 := Scalar.addi v146 c0_i32_46
  let c2_i32_47 : BitVec 32 := 2#32
  let c0_i32_38 : BitVec 32 := 0#32
  let v116 : BitVec 1 := Scalar.cmpi .sgt v114 c0_i32_38
  let v117 : BitVec 32 := Scalar.extui v116
  let c0_i32_39 : BitVec 32 := 0#32
  let v118 : BitVec 1 := Scalar.cmpi .slt v114 c0_i32_39
  let v119 : BitVec 32 := Scalar.extui v118
  let v120 : BitVec 32 := Scalar.subi v117 v119
  let c16_i32_37 : BitVec 32 := 16#32
  let c0_i32_40 : BitVec 32 := 0#32
  let v121 : BitVec 1 := Scalar.cmpi .sgt c16_i32_37 c0_i32_40
  let v122 : BitVec 32 := Scalar.extui v121
  let c0_i32_41 : BitVec 32 := 0#32
  let v123 : BitVec 1 := Scalar.cmpi .slt c16_i32_37 c0_i32_41
  let v124 : BitVec 32 := Scalar.extui v123
  let v125 : BitVec 32 := Scalar.subi v122 v124
  let v126 : BitVec 1 := Scalar.cmpi .ne v120 v125
  let v127 : BitVec 32 := Scalar.remsi v114 c16_i32_37
  let c0_i32_42 : BitVec 32 := 0#32
  let v128 : BitVec 1 := Scalar.cmpi .ne v127 c0_i32_42
  let v129 : BitVec 1 := Scalar.andi v126 v128
  let v115 : BitVec 32 := Scalar.divsi v114 c16_i32_37
  let c1_i32_43 : BitVec 32 := 1#32
  let v130 : BitVec 32 := Scalar.subi v115 c1_i32_43
  let v131 : BitVec 32 := Scalar.select v129 v130 v115
  let c16_i32_44 : BitVec 32 := 16#32
  let v132 : BitVec 32 := Scalar.muli v131 c16_i32_44
  ![v147.toNat, 2, v132.toNat]

def k1_off5 (i : grid1.Coords) (v155 : BitVec 32) : Fin 3 → Nat :=
  let arg1 : BitVec 32 := BitVec.ofNat 32 (i 1).val
  let c2_i32_57 : BitVec 32 := 2#32
  let v187 : BitVec 32 := Scalar.muli arg1 c2_i32_57
  let c0_i32_58 : BitVec 32 := 0#32
  let v188 : BitVec 32 := Scalar.addi v187 c0_i32_58
  let c3_i32 : BitVec 32 := 3#32
  let c0_i32_50 : BitVec 32 := 0#32
  let v157 : BitVec 1 := Scalar.cmpi .sgt v155 c0_i32_50
  let v158 : BitVec 32 := Scalar.extui v157
  let c0_i32_51 : BitVec 32 := 0#32
  let v159 : BitVec 1 := Scalar.cmpi .slt v155 c0_i32_51
  let v160 : BitVec 32 := Scalar.extui v159
  let v161 : BitVec 32 := Scalar.subi v158 v160
  let c16_i32_49 : BitVec 32 := 16#32
  let c0_i32_52 : BitVec 32 := 0#32
  let v162 : BitVec 1 := Scalar.cmpi .sgt c16_i32_49 c0_i32_52
  let v163 : BitVec 32 := Scalar.extui v162
  let c0_i32_53 : BitVec 32 := 0#32
  let v164 : BitVec 1 := Scalar.cmpi .slt c16_i32_49 c0_i32_53
  let v165 : BitVec 32 := Scalar.extui v164
  let v166 : BitVec 32 := Scalar.subi v163 v165
  let v167 : BitVec 1 := Scalar.cmpi .ne v161 v166
  let v168 : BitVec 32 := Scalar.remsi v155 c16_i32_49
  let c0_i32_54 : BitVec 32 := 0#32
  let v169 : BitVec 1 := Scalar.cmpi .ne v168 c0_i32_54
  let v170 : BitVec 1 := Scalar.andi v167 v169
  let v156 : BitVec 32 := Scalar.divsi v155 c16_i32_49
  let c1_i32_55 : BitVec 32 := 1#32
  let v171 : BitVec 32 := Scalar.subi v156 c1_i32_55
  let v172 : BitVec 32 := Scalar.select v170 v171 v156
  let c16_i32_56 : BitVec 32 := 16#32
  let v173 : BitVec 32 := Scalar.muli v172 c16_i32_56
  ![v188.toNat, 3, v173.toNat]

def k1_off6 (i : grid1.Coords) (v196 : BitVec 32) : Fin 3 → Nat :=
  let arg1 : BitVec 32 := BitVec.ofNat 32 (i 1).val
  let c2_i32_68 : BitVec 32 := 2#32
  let v228 : BitVec 32 := Scalar.muli arg1 c2_i32_68
  let c0_i32_69 : BitVec 32 := 0#32
  let v229 : BitVec 32 := Scalar.addi v228 c0_i32_69
  let c4_i32 : BitVec 32 := 4#32
  let c0_i32_61 : BitVec 32 := 0#32
  let v198 : BitVec 1 := Scalar.cmpi .sgt v196 c0_i32_61
  let v199 : BitVec 32 := Scalar.extui v198
  let c0_i32_62 : BitVec 32 := 0#32
  let v200 : BitVec 1 := Scalar.cmpi .slt v196 c0_i32_62
  let v201 : BitVec 32 := Scalar.extui v200
  let v202 : BitVec 32 := Scalar.subi v199 v201
  let c16_i32_60 : BitVec 32 := 16#32
  let c0_i32_63 : BitVec 32 := 0#32
  let v203 : BitVec 1 := Scalar.cmpi .sgt c16_i32_60 c0_i32_63
  let v204 : BitVec 32 := Scalar.extui v203
  let c0_i32_64 : BitVec 32 := 0#32
  let v205 : BitVec 1 := Scalar.cmpi .slt c16_i32_60 c0_i32_64
  let v206 : BitVec 32 := Scalar.extui v205
  let v207 : BitVec 32 := Scalar.subi v204 v206
  let v208 : BitVec 1 := Scalar.cmpi .ne v202 v207
  let v209 : BitVec 32 := Scalar.remsi v196 c16_i32_60
  let c0_i32_65 : BitVec 32 := 0#32
  let v210 : BitVec 1 := Scalar.cmpi .ne v209 c0_i32_65
  let v211 : BitVec 1 := Scalar.andi v208 v210
  let v197 : BitVec 32 := Scalar.divsi v196 c16_i32_60
  let c1_i32_66 : BitVec 32 := 1#32
  let v212 : BitVec 32 := Scalar.subi v197 c1_i32_66
  let v213 : BitVec 32 := Scalar.select v211 v212 v197
  let c16_i32_67 : BitVec 32 := 16#32
  let v214 : BitVec 32 := Scalar.muli v213 c16_i32_67
  ![v229.toNat, 4, v214.toNat]

def k1_off7 (i : grid1.Coords) (v237 : BitVec 32) : Fin 3 → Nat :=
  let arg1 : BitVec 32 := BitVec.ofNat 32 (i 1).val
  let c2_i32_79 : BitVec 32 := 2#32
  let v269 : BitVec 32 := Scalar.muli arg1 c2_i32_79
  let c0_i32_80 : BitVec 32 := 0#32
  let v270 : BitVec 32 := Scalar.addi v269 c0_i32_80
  let c5_i32 : BitVec 32 := 5#32
  let c0_i32_72 : BitVec 32 := 0#32
  let v239 : BitVec 1 := Scalar.cmpi .sgt v237 c0_i32_72
  let v240 : BitVec 32 := Scalar.extui v239
  let c0_i32_73 : BitVec 32 := 0#32
  let v241 : BitVec 1 := Scalar.cmpi .slt v237 c0_i32_73
  let v242 : BitVec 32 := Scalar.extui v241
  let v243 : BitVec 32 := Scalar.subi v240 v242
  let c16_i32_71 : BitVec 32 := 16#32
  let c0_i32_74 : BitVec 32 := 0#32
  let v244 : BitVec 1 := Scalar.cmpi .sgt c16_i32_71 c0_i32_74
  let v245 : BitVec 32 := Scalar.extui v244
  let c0_i32_75 : BitVec 32 := 0#32
  let v246 : BitVec 1 := Scalar.cmpi .slt c16_i32_71 c0_i32_75
  let v247 : BitVec 32 := Scalar.extui v246
  let v248 : BitVec 32 := Scalar.subi v245 v247
  let v249 : BitVec 1 := Scalar.cmpi .ne v243 v248
  let v250 : BitVec 32 := Scalar.remsi v237 c16_i32_71
  let c0_i32_76 : BitVec 32 := 0#32
  let v251 : BitVec 1 := Scalar.cmpi .ne v250 c0_i32_76
  let v252 : BitVec 1 := Scalar.andi v249 v251
  let v238 : BitVec 32 := Scalar.divsi v237 c16_i32_71
  let c1_i32_77 : BitVec 32 := 1#32
  let v253 : BitVec 32 := Scalar.subi v238 c1_i32_77
  let v254 : BitVec 32 := Scalar.select v252 v253 v238
  let c16_i32_78 : BitVec 32 := 16#32
  let v255 : BitVec 32 := Scalar.muli v254 c16_i32_78
  ![v270.toNat, 5, v255.toNat]

def k1_off8 (i : grid1.Coords) (v278 : BitVec 32) : Fin 3 → Nat :=
  let arg1 : BitVec 32 := BitVec.ofNat 32 (i 1).val
  let c2_i32_90 : BitVec 32 := 2#32
  let v310 : BitVec 32 := Scalar.muli arg1 c2_i32_90
  let c0_i32_91 : BitVec 32 := 0#32
  let v311 : BitVec 32 := Scalar.addi v310 c0_i32_91
  let c6_i32 : BitVec 32 := 6#32
  let c0_i32_83 : BitVec 32 := 0#32
  let v280 : BitVec 1 := Scalar.cmpi .sgt v278 c0_i32_83
  let v281 : BitVec 32 := Scalar.extui v280
  let c0_i32_84 : BitVec 32 := 0#32
  let v282 : BitVec 1 := Scalar.cmpi .slt v278 c0_i32_84
  let v283 : BitVec 32 := Scalar.extui v282
  let v284 : BitVec 32 := Scalar.subi v281 v283
  let c16_i32_82 : BitVec 32 := 16#32
  let c0_i32_85 : BitVec 32 := 0#32
  let v285 : BitVec 1 := Scalar.cmpi .sgt c16_i32_82 c0_i32_85
  let v286 : BitVec 32 := Scalar.extui v285
  let c0_i32_86 : BitVec 32 := 0#32
  let v287 : BitVec 1 := Scalar.cmpi .slt c16_i32_82 c0_i32_86
  let v288 : BitVec 32 := Scalar.extui v287
  let v289 : BitVec 32 := Scalar.subi v286 v288
  let v290 : BitVec 1 := Scalar.cmpi .ne v284 v289
  let v291 : BitVec 32 := Scalar.remsi v278 c16_i32_82
  let c0_i32_87 : BitVec 32 := 0#32
  let v292 : BitVec 1 := Scalar.cmpi .ne v291 c0_i32_87
  let v293 : BitVec 1 := Scalar.andi v290 v292
  let v279 : BitVec 32 := Scalar.divsi v278 c16_i32_82
  let c1_i32_88 : BitVec 32 := 1#32
  let v294 : BitVec 32 := Scalar.subi v279 c1_i32_88
  let v295 : BitVec 32 := Scalar.select v293 v294 v279
  let c16_i32_89 : BitVec 32 := 16#32
  let v296 : BitVec 32 := Scalar.muli v295 c16_i32_89
  ![v311.toNat, 6, v296.toNat]

def k1_off9 (i : grid1.Coords) (v319 : BitVec 32) : Fin 3 → Nat :=
  let arg1 : BitVec 32 := BitVec.ofNat 32 (i 1).val
  let c2_i32_101 : BitVec 32 := 2#32
  let v351 : BitVec 32 := Scalar.muli arg1 c2_i32_101
  let c0_i32_102 : BitVec 32 := 0#32
  let v352 : BitVec 32 := Scalar.addi v351 c0_i32_102
  let c7_i32 : BitVec 32 := 7#32
  let c0_i32_94 : BitVec 32 := 0#32
  let v321 : BitVec 1 := Scalar.cmpi .sgt v319 c0_i32_94
  let v322 : BitVec 32 := Scalar.extui v321
  let c0_i32_95 : BitVec 32 := 0#32
  let v323 : BitVec 1 := Scalar.cmpi .slt v319 c0_i32_95
  let v324 : BitVec 32 := Scalar.extui v323
  let v325 : BitVec 32 := Scalar.subi v322 v324
  let c16_i32_93 : BitVec 32 := 16#32
  let c0_i32_96 : BitVec 32 := 0#32
  let v326 : BitVec 1 := Scalar.cmpi .sgt c16_i32_93 c0_i32_96
  let v327 : BitVec 32 := Scalar.extui v326
  let c0_i32_97 : BitVec 32 := 0#32
  let v328 : BitVec 1 := Scalar.cmpi .slt c16_i32_93 c0_i32_97
  let v329 : BitVec 32 := Scalar.extui v328
  let v330 : BitVec 32 := Scalar.subi v327 v329
  let v331 : BitVec 1 := Scalar.cmpi .ne v325 v330
  let v332 : BitVec 32 := Scalar.remsi v319 c16_i32_93
  let c0_i32_98 : BitVec 32 := 0#32
  let v333 : BitVec 1 := Scalar.cmpi .ne v332 c0_i32_98
  let v334 : BitVec 1 := Scalar.andi v331 v333
  let v320 : BitVec 32 := Scalar.divsi v319 c16_i32_93
  let c1_i32_99 : BitVec 32 := 1#32
  let v335 : BitVec 32 := Scalar.subi v320 c1_i32_99
  let v336 : BitVec 32 := Scalar.select v334 v335 v320
  let c16_i32_100 : BitVec 32 := 16#32
  let v337 : BitVec 32 := Scalar.muli v336 c16_i32_100
  ![v352.toNat, 7, v337.toNat]

def k1_off10 (i : grid1.Coords) (v360 : BitVec 32) : Fin 3 → Nat :=
  let arg1 : BitVec 32 := BitVec.ofNat 32 (i 1).val
  let c2_i32_112 : BitVec 32 := 2#32
  let v392 : BitVec 32 := Scalar.muli arg1 c2_i32_112
  let c1_i32_113 : BitVec 32 := 1#32
  let v393 : BitVec 32 := Scalar.addi v392 c1_i32_113
  let c0_i32_114 : BitVec 32 := 0#32
  let c0_i32_105 : BitVec 32 := 0#32
  let v362 : BitVec 1 := Scalar.cmpi .sgt v360 c0_i32_105
  let v363 : BitVec 32 := Scalar.extui v362
  let c0_i32_106 : BitVec 32 := 0#32
  let v364 : BitVec 1 := Scalar.cmpi .slt v360 c0_i32_106
  let v365 : BitVec 32 := Scalar.extui v364
  let v366 : BitVec 32 := Scalar.subi v363 v365
  let c16_i32_104 : BitVec 32 := 16#32
  let c0_i32_107 : BitVec 32 := 0#32
  let v367 : BitVec 1 := Scalar.cmpi .sgt c16_i32_104 c0_i32_107
  let v368 : BitVec 32 := Scalar.extui v367
  let c0_i32_108 : BitVec 32 := 0#32
  let v369 : BitVec 1 := Scalar.cmpi .slt c16_i32_104 c0_i32_108
  let v370 : BitVec 32 := Scalar.extui v369
  let v371 : BitVec 32 := Scalar.subi v368 v370
  let v372 : BitVec 1 := Scalar.cmpi .ne v366 v371
  let v373 : BitVec 32 := Scalar.remsi v360 c16_i32_104
  let c0_i32_109 : BitVec 32 := 0#32
  let v374 : BitVec 1 := Scalar.cmpi .ne v373 c0_i32_109
  let v375 : BitVec 1 := Scalar.andi v372 v374
  let v361 : BitVec 32 := Scalar.divsi v360 c16_i32_104
  let c1_i32_110 : BitVec 32 := 1#32
  let v376 : BitVec 32 := Scalar.subi v361 c1_i32_110
  let v377 : BitVec 32 := Scalar.select v375 v376 v361
  let c16_i32_111 : BitVec 32 := 16#32
  let v378 : BitVec 32 := Scalar.muli v377 c16_i32_111
  ![v393.toNat, 0, v378.toNat]

def k1_off11 (i : grid1.Coords) (v401 : BitVec 32) : Fin 3 → Nat :=
  let arg1 : BitVec 32 := BitVec.ofNat 32 (i 1).val
  let c2_i32_124 : BitVec 32 := 2#32
  let v433 : BitVec 32 := Scalar.muli arg1 c2_i32_124
  let c1_i32_125 : BitVec 32 := 1#32
  let v434 : BitVec 32 := Scalar.addi v433 c1_i32_125
  let c1_i32_126 : BitVec 32 := 1#32
  let c0_i32_117 : BitVec 32 := 0#32
  let v403 : BitVec 1 := Scalar.cmpi .sgt v401 c0_i32_117
  let v404 : BitVec 32 := Scalar.extui v403
  let c0_i32_118 : BitVec 32 := 0#32
  let v405 : BitVec 1 := Scalar.cmpi .slt v401 c0_i32_118
  let v406 : BitVec 32 := Scalar.extui v405
  let v407 : BitVec 32 := Scalar.subi v404 v406
  let c16_i32_116 : BitVec 32 := 16#32
  let c0_i32_119 : BitVec 32 := 0#32
  let v408 : BitVec 1 := Scalar.cmpi .sgt c16_i32_116 c0_i32_119
  let v409 : BitVec 32 := Scalar.extui v408
  let c0_i32_120 : BitVec 32 := 0#32
  let v410 : BitVec 1 := Scalar.cmpi .slt c16_i32_116 c0_i32_120
  let v411 : BitVec 32 := Scalar.extui v410
  let v412 : BitVec 32 := Scalar.subi v409 v411
  let v413 : BitVec 1 := Scalar.cmpi .ne v407 v412
  let v414 : BitVec 32 := Scalar.remsi v401 c16_i32_116
  let c0_i32_121 : BitVec 32 := 0#32
  let v415 : BitVec 1 := Scalar.cmpi .ne v414 c0_i32_121
  let v416 : BitVec 1 := Scalar.andi v413 v415
  let v402 : BitVec 32 := Scalar.divsi v401 c16_i32_116
  let c1_i32_122 : BitVec 32 := 1#32
  let v417 : BitVec 32 := Scalar.subi v402 c1_i32_122
  let v418 : BitVec 32 := Scalar.select v416 v417 v402
  let c16_i32_123 : BitVec 32 := 16#32
  let v419 : BitVec 32 := Scalar.muli v418 c16_i32_123
  ![v434.toNat, 1, v419.toNat]

def k1_off12 (i : grid1.Coords) (v442 : BitVec 32) : Fin 3 → Nat :=
  let arg1 : BitVec 32 := BitVec.ofNat 32 (i 1).val
  let c2_i32_136 : BitVec 32 := 2#32
  let v474 : BitVec 32 := Scalar.muli arg1 c2_i32_136
  let c1_i32_137 : BitVec 32 := 1#32
  let v475 : BitVec 32 := Scalar.addi v474 c1_i32_137
  let c2_i32_138 : BitVec 32 := 2#32
  let c0_i32_129 : BitVec 32 := 0#32
  let v444 : BitVec 1 := Scalar.cmpi .sgt v442 c0_i32_129
  let v445 : BitVec 32 := Scalar.extui v444
  let c0_i32_130 : BitVec 32 := 0#32
  let v446 : BitVec 1 := Scalar.cmpi .slt v442 c0_i32_130
  let v447 : BitVec 32 := Scalar.extui v446
  let v448 : BitVec 32 := Scalar.subi v445 v447
  let c16_i32_128 : BitVec 32 := 16#32
  let c0_i32_131 : BitVec 32 := 0#32
  let v449 : BitVec 1 := Scalar.cmpi .sgt c16_i32_128 c0_i32_131
  let v450 : BitVec 32 := Scalar.extui v449
  let c0_i32_132 : BitVec 32 := 0#32
  let v451 : BitVec 1 := Scalar.cmpi .slt c16_i32_128 c0_i32_132
  let v452 : BitVec 32 := Scalar.extui v451
  let v453 : BitVec 32 := Scalar.subi v450 v452
  let v454 : BitVec 1 := Scalar.cmpi .ne v448 v453
  let v455 : BitVec 32 := Scalar.remsi v442 c16_i32_128
  let c0_i32_133 : BitVec 32 := 0#32
  let v456 : BitVec 1 := Scalar.cmpi .ne v455 c0_i32_133
  let v457 : BitVec 1 := Scalar.andi v454 v456
  let v443 : BitVec 32 := Scalar.divsi v442 c16_i32_128
  let c1_i32_134 : BitVec 32 := 1#32
  let v458 : BitVec 32 := Scalar.subi v443 c1_i32_134
  let v459 : BitVec 32 := Scalar.select v457 v458 v443
  let c16_i32_135 : BitVec 32 := 16#32
  let v460 : BitVec 32 := Scalar.muli v459 c16_i32_135
  ![v475.toNat, 2, v460.toNat]

def k1_off13 (i : grid1.Coords) (v483 : BitVec 32) : Fin 3 → Nat :=
  let arg1 : BitVec 32 := BitVec.ofNat 32 (i 1).val
  let c2_i32_148 : BitVec 32 := 2#32
  let v515 : BitVec 32 := Scalar.muli arg1 c2_i32_148
  let c1_i32_149 : BitVec 32 := 1#32
  let v516 : BitVec 32 := Scalar.addi v515 c1_i32_149
  let c3_i32_150 : BitVec 32 := 3#32
  let c0_i32_141 : BitVec 32 := 0#32
  let v485 : BitVec 1 := Scalar.cmpi .sgt v483 c0_i32_141
  let v486 : BitVec 32 := Scalar.extui v485
  let c0_i32_142 : BitVec 32 := 0#32
  let v487 : BitVec 1 := Scalar.cmpi .slt v483 c0_i32_142
  let v488 : BitVec 32 := Scalar.extui v487
  let v489 : BitVec 32 := Scalar.subi v486 v488
  let c16_i32_140 : BitVec 32 := 16#32
  let c0_i32_143 : BitVec 32 := 0#32
  let v490 : BitVec 1 := Scalar.cmpi .sgt c16_i32_140 c0_i32_143
  let v491 : BitVec 32 := Scalar.extui v490
  let c0_i32_144 : BitVec 32 := 0#32
  let v492 : BitVec 1 := Scalar.cmpi .slt c16_i32_140 c0_i32_144
  let v493 : BitVec 32 := Scalar.extui v492
  let v494 : BitVec 32 := Scalar.subi v491 v493
  let v495 : BitVec 1 := Scalar.cmpi .ne v489 v494
  let v496 : BitVec 32 := Scalar.remsi v483 c16_i32_140
  let c0_i32_145 : BitVec 32 := 0#32
  let v497 : BitVec 1 := Scalar.cmpi .ne v496 c0_i32_145
  let v498 : BitVec 1 := Scalar.andi v495 v497
  let v484 : BitVec 32 := Scalar.divsi v483 c16_i32_140
  let c1_i32_146 : BitVec 32 := 1#32
  let v499 : BitVec 32 := Scalar.subi v484 c1_i32_146
  let v500 : BitVec 32 := Scalar.select v498 v499 v484
  let c16_i32_147 : BitVec 32 := 16#32
  let v501 : BitVec 32 := Scalar.muli v500 c16_i32_147
  ![v516.toNat, 3, v501.toNat]

def k1_off14 (i : grid1.Coords) (v524 : BitVec 32) : Fin 3 → Nat :=
  let arg1 : BitVec 32 := BitVec.ofNat 32 (i 1).val
  let c2_i32_160 : BitVec 32 := 2#32
  let v556 : BitVec 32 := Scalar.muli arg1 c2_i32_160
  let c1_i32_161 : BitVec 32 := 1#32
  let v557 : BitVec 32 := Scalar.addi v556 c1_i32_161
  let c4_i32_162 : BitVec 32 := 4#32
  let c0_i32_153 : BitVec 32 := 0#32
  let v526 : BitVec 1 := Scalar.cmpi .sgt v524 c0_i32_153
  let v527 : BitVec 32 := Scalar.extui v526
  let c0_i32_154 : BitVec 32 := 0#32
  let v528 : BitVec 1 := Scalar.cmpi .slt v524 c0_i32_154
  let v529 : BitVec 32 := Scalar.extui v528
  let v530 : BitVec 32 := Scalar.subi v527 v529
  let c16_i32_152 : BitVec 32 := 16#32
  let c0_i32_155 : BitVec 32 := 0#32
  let v531 : BitVec 1 := Scalar.cmpi .sgt c16_i32_152 c0_i32_155
  let v532 : BitVec 32 := Scalar.extui v531
  let c0_i32_156 : BitVec 32 := 0#32
  let v533 : BitVec 1 := Scalar.cmpi .slt c16_i32_152 c0_i32_156
  let v534 : BitVec 32 := Scalar.extui v533
  let v535 : BitVec 32 := Scalar.subi v532 v534
  let v536 : BitVec 1 := Scalar.cmpi .ne v530 v535
  let v537 : BitVec 32 := Scalar.remsi v524 c16_i32_152
  let c0_i32_157 : BitVec 32 := 0#32
  let v538 : BitVec 1 := Scalar.cmpi .ne v537 c0_i32_157
  let v539 : BitVec 1 := Scalar.andi v536 v538
  let v525 : BitVec 32 := Scalar.divsi v524 c16_i32_152
  let c1_i32_158 : BitVec 32 := 1#32
  let v540 : BitVec 32 := Scalar.subi v525 c1_i32_158
  let v541 : BitVec 32 := Scalar.select v539 v540 v525
  let c16_i32_159 : BitVec 32 := 16#32
  let v542 : BitVec 32 := Scalar.muli v541 c16_i32_159
  ![v557.toNat, 4, v542.toNat]

def k1_off15 (i : grid1.Coords) (v565 : BitVec 32) : Fin 3 → Nat :=
  let arg1 : BitVec 32 := BitVec.ofNat 32 (i 1).val
  let c2_i32_172 : BitVec 32 := 2#32
  let v597 : BitVec 32 := Scalar.muli arg1 c2_i32_172
  let c1_i32_173 : BitVec 32 := 1#32
  let v598 : BitVec 32 := Scalar.addi v597 c1_i32_173
  let c5_i32_174 : BitVec 32 := 5#32
  let c0_i32_165 : BitVec 32 := 0#32
  let v567 : BitVec 1 := Scalar.cmpi .sgt v565 c0_i32_165
  let v568 : BitVec 32 := Scalar.extui v567
  let c0_i32_166 : BitVec 32 := 0#32
  let v569 : BitVec 1 := Scalar.cmpi .slt v565 c0_i32_166
  let v570 : BitVec 32 := Scalar.extui v569
  let v571 : BitVec 32 := Scalar.subi v568 v570
  let c16_i32_164 : BitVec 32 := 16#32
  let c0_i32_167 : BitVec 32 := 0#32
  let v572 : BitVec 1 := Scalar.cmpi .sgt c16_i32_164 c0_i32_167
  let v573 : BitVec 32 := Scalar.extui v572
  let c0_i32_168 : BitVec 32 := 0#32
  let v574 : BitVec 1 := Scalar.cmpi .slt c16_i32_164 c0_i32_168
  let v575 : BitVec 32 := Scalar.extui v574
  let v576 : BitVec 32 := Scalar.subi v573 v575
  let v577 : BitVec 1 := Scalar.cmpi .ne v571 v576
  let v578 : BitVec 32 := Scalar.remsi v565 c16_i32_164
  let c0_i32_169 : BitVec 32 := 0#32
  let v579 : BitVec 1 := Scalar.cmpi .ne v578 c0_i32_169
  let v580 : BitVec 1 := Scalar.andi v577 v579
  let v566 : BitVec 32 := Scalar.divsi v565 c16_i32_164
  let c1_i32_170 : BitVec 32 := 1#32
  let v581 : BitVec 32 := Scalar.subi v566 c1_i32_170
  let v582 : BitVec 32 := Scalar.select v580 v581 v566
  let c16_i32_171 : BitVec 32 := 16#32
  let v583 : BitVec 32 := Scalar.muli v582 c16_i32_171
  ![v598.toNat, 5, v583.toNat]

def k1_off16 (i : grid1.Coords) (v606 : BitVec 32) : Fin 3 → Nat :=
  let arg1 : BitVec 32 := BitVec.ofNat 32 (i 1).val
  let c2_i32_184 : BitVec 32 := 2#32
  let v638 : BitVec 32 := Scalar.muli arg1 c2_i32_184
  let c1_i32_185 : BitVec 32 := 1#32
  let v639 : BitVec 32 := Scalar.addi v638 c1_i32_185
  let c6_i32_186 : BitVec 32 := 6#32
  let c0_i32_177 : BitVec 32 := 0#32
  let v608 : BitVec 1 := Scalar.cmpi .sgt v606 c0_i32_177
  let v609 : BitVec 32 := Scalar.extui v608
  let c0_i32_178 : BitVec 32 := 0#32
  let v610 : BitVec 1 := Scalar.cmpi .slt v606 c0_i32_178
  let v611 : BitVec 32 := Scalar.extui v610
  let v612 : BitVec 32 := Scalar.subi v609 v611
  let c16_i32_176 : BitVec 32 := 16#32
  let c0_i32_179 : BitVec 32 := 0#32
  let v613 : BitVec 1 := Scalar.cmpi .sgt c16_i32_176 c0_i32_179
  let v614 : BitVec 32 := Scalar.extui v613
  let c0_i32_180 : BitVec 32 := 0#32
  let v615 : BitVec 1 := Scalar.cmpi .slt c16_i32_176 c0_i32_180
  let v616 : BitVec 32 := Scalar.extui v615
  let v617 : BitVec 32 := Scalar.subi v614 v616
  let v618 : BitVec 1 := Scalar.cmpi .ne v612 v617
  let v619 : BitVec 32 := Scalar.remsi v606 c16_i32_176
  let c0_i32_181 : BitVec 32 := 0#32
  let v620 : BitVec 1 := Scalar.cmpi .ne v619 c0_i32_181
  let v621 : BitVec 1 := Scalar.andi v618 v620
  let v607 : BitVec 32 := Scalar.divsi v606 c16_i32_176
  let c1_i32_182 : BitVec 32 := 1#32
  let v622 : BitVec 32 := Scalar.subi v607 c1_i32_182
  let v623 : BitVec 32 := Scalar.select v621 v622 v607
  let c16_i32_183 : BitVec 32 := 16#32
  let v624 : BitVec 32 := Scalar.muli v623 c16_i32_183
  ![v639.toNat, 6, v624.toNat]

def k1_off17 (i : grid1.Coords) (v647 : BitVec 32) : Fin 3 → Nat :=
  let arg1 : BitVec 32 := BitVec.ofNat 32 (i 1).val
  let c2_i32_196 : BitVec 32 := 2#32
  let v679 : BitVec 32 := Scalar.muli arg1 c2_i32_196
  let c1_i32_197 : BitVec 32 := 1#32
  let v680 : BitVec 32 := Scalar.addi v679 c1_i32_197
  let c7_i32_198 : BitVec 32 := 7#32
  let c0_i32_189 : BitVec 32 := 0#32
  let v649 : BitVec 1 := Scalar.cmpi .sgt v647 c0_i32_189
  let v650 : BitVec 32 := Scalar.extui v649
  let c0_i32_190 : BitVec 32 := 0#32
  let v651 : BitVec 1 := Scalar.cmpi .slt v647 c0_i32_190
  let v652 : BitVec 32 := Scalar.extui v651
  let v653 : BitVec 32 := Scalar.subi v650 v652
  let c16_i32_188 : BitVec 32 := 16#32
  let c0_i32_191 : BitVec 32 := 0#32
  let v654 : BitVec 1 := Scalar.cmpi .sgt c16_i32_188 c0_i32_191
  let v655 : BitVec 32 := Scalar.extui v654
  let c0_i32_192 : BitVec 32 := 0#32
  let v656 : BitVec 1 := Scalar.cmpi .slt c16_i32_188 c0_i32_192
  let v657 : BitVec 32 := Scalar.extui v656
  let v658 : BitVec 32 := Scalar.subi v655 v657
  let v659 : BitVec 1 := Scalar.cmpi .ne v653 v658
  let v660 : BitVec 32 := Scalar.remsi v647 c16_i32_188
  let c0_i32_193 : BitVec 32 := 0#32
  let v661 : BitVec 1 := Scalar.cmpi .ne v660 c0_i32_193
  let v662 : BitVec 1 := Scalar.andi v659 v661
  let v648 : BitVec 32 := Scalar.divsi v647 c16_i32_188
  let c1_i32_194 : BitVec 32 := 1#32
  let v663 : BitVec 32 := Scalar.subi v648 c1_i32_194
  let v664 : BitVec 32 := Scalar.select v662 v663 v648
  let c16_i32_195 : BitVec 32 := 16#32
  let v665 : BitVec 32 := Scalar.muli v664 c16_i32_195
  ![v680.toNat, 7, v665.toNat]

def k1_chk16 (i : grid1.Coords) (v647 : BitVec 32) : Prop :=
  (∀ a, (k1_off17 i v647) a + S1x1x16.size a ≤ S32x8x100000.size a)
instance k1_chk16.dec : ∀ (i : grid1.Coords) (v647 : BitVec 32), Decidable (k1_chk16 i v647) := fun i v647 => decidable_of_iff' _ (Iff.of_eq (k1_chk16.eq_1 i v647))
theorem k1_off17_inb : ∀ (i : grid1.Coords) (v647 : BitVec 32) (k1_hw16 : k1_chk16 i v647), ∀ a, (k1_off17 i v647) a + S1x1x16.size a ≤ S32x8x100000.size a := fun i v647 k1_hw16 => k1_hw16

def k1_off18 (i : grid1.Coords) (v32 : BitVec 32) : Fin 3 → Nat :=
  let arg1 : BitVec 32 := BitVec.ofNat 32 (i 1).val
  let c2_i32 : BitVec 32 := 2#32
  let v64 : BitVec 32 := Scalar.muli arg1 c2_i32
  let c0_i32_20 : BitVec 32 := 0#32
  let v65 : BitVec 32 := Scalar.addi v64 c0_i32_20
  let c0_i32_200 : BitVec 32 := 0#32
  let c0_i32_13 : BitVec 32 := 0#32
  let v34 : BitVec 1 := Scalar.cmpi .sgt v32 c0_i32_13
  let v35 : BitVec 32 := Scalar.extui v34
  let c0_i32_14 : BitVec 32 := 0#32
  let v36 : BitVec 1 := Scalar.cmpi .slt v32 c0_i32_14
  let v37 : BitVec 32 := Scalar.extui v36
  let v38 : BitVec 32 := Scalar.subi v35 v37
  let c16_i32 : BitVec 32 := 16#32
  let c0_i32_15 : BitVec 32 := 0#32
  let v39 : BitVec 1 := Scalar.cmpi .sgt c16_i32 c0_i32_15
  let v40 : BitVec 32 := Scalar.extui v39
  let c0_i32_16 : BitVec 32 := 0#32
  let v41 : BitVec 1 := Scalar.cmpi .slt c16_i32 c0_i32_16
  let v42 : BitVec 32 := Scalar.extui v41
  let v43 : BitVec 32 := Scalar.subi v40 v42
  let v44 : BitVec 1 := Scalar.cmpi .ne v38 v43
  let v45 : BitVec 32 := Scalar.remsi v32 c16_i32
  let c0_i32_17 : BitVec 32 := 0#32
  let v46 : BitVec 1 := Scalar.cmpi .ne v45 c0_i32_17
  let v47 : BitVec 1 := Scalar.andi v44 v46
  let v33 : BitVec 32 := Scalar.divsi v32 c16_i32
  let c1_i32 : BitVec 32 := 1#32
  let v48 : BitVec 32 := Scalar.subi v33 c1_i32
  let v49 : BitVec 32 := Scalar.select v47 v48 v33
  let c16_i32_18 : BitVec 32 := 16#32
  let v50 : BitVec 32 := Scalar.muli v49 c16_i32_18
  ![v65.toNat, 0, v50.toNat]

def k1_chk1 (i : grid1.Coords) (v32 : BitVec 32) : Prop :=
  (∀ a, (k1_off2 i v32) a + S1x1x16.size a ≤ S32x8x100000.size a) ∧
  (∀ a, (k1_off18 i v32) a + S1x1x16.size a ≤ S32x8x100000.size a)
instance k1_chk1.dec : ∀ (i : grid1.Coords) (v32 : BitVec 32), Decidable (k1_chk1 i v32) := fun i v32 => decidable_of_iff' _ (Iff.of_eq (k1_chk1.eq_1 i v32))
theorem k1_off2_inb : ∀ (i : grid1.Coords) (v32 : BitVec 32) (k1_hw1 : k1_chk1 i v32), ∀ a, (k1_off2 i v32) a + S1x1x16.size a ≤ S32x8x100000.size a := fun i v32 k1_hw1 => k1_hw1.1
theorem k1_off18_inb : ∀ (i : grid1.Coords) (v32 : BitVec 32) (k1_hw1 : k1_chk1 i v32), ∀ a, (k1_off18 i v32) a + S1x1x16.size a ≤ S32x8x100000.size a := fun i v32 k1_hw1 => k1_hw1.2

def k1_off19 (i : grid1.Coords) (v73 : BitVec 32) : Fin 3 → Nat :=
  let arg1 : BitVec 32 := BitVec.ofNat 32 (i 1).val
  let c2_i32_32 : BitVec 32 := 2#32
  let v105 : BitVec 32 := Scalar.muli arg1 c2_i32_32
  let c0_i32_33 : BitVec 32 := 0#32
  let v106 : BitVec 32 := Scalar.addi v105 c0_i32_33
  let c1_i32_203 : BitVec 32 := 1#32
  let c0_i32_25 : BitVec 32 := 0#32
  let v75 : BitVec 1 := Scalar.cmpi .sgt v73 c0_i32_25
  let v76 : BitVec 32 := Scalar.extui v75
  let c0_i32_26 : BitVec 32 := 0#32
  let v77 : BitVec 1 := Scalar.cmpi .slt v73 c0_i32_26
  let v78 : BitVec 32 := Scalar.extui v77
  let v79 : BitVec 32 := Scalar.subi v76 v78
  let c16_i32_24 : BitVec 32 := 16#32
  let c0_i32_27 : BitVec 32 := 0#32
  let v80 : BitVec 1 := Scalar.cmpi .sgt c16_i32_24 c0_i32_27
  let v81 : BitVec 32 := Scalar.extui v80
  let c0_i32_28 : BitVec 32 := 0#32
  let v82 : BitVec 1 := Scalar.cmpi .slt c16_i32_24 c0_i32_28
  let v83 : BitVec 32 := Scalar.extui v82
  let v84 : BitVec 32 := Scalar.subi v81 v83
  let v85 : BitVec 1 := Scalar.cmpi .ne v79 v84
  let v86 : BitVec 32 := Scalar.remsi v73 c16_i32_24
  let c0_i32_29 : BitVec 32 := 0#32
  let v87 : BitVec 1 := Scalar.cmpi .ne v86 c0_i32_29
  let v88 : BitVec 1 := Scalar.andi v85 v87
  let v74 : BitVec 32 := Scalar.divsi v73 c16_i32_24
  let c1_i32_30 : BitVec 32 := 1#32
  let v89 : BitVec 32 := Scalar.subi v74 c1_i32_30
  let v90 : BitVec 32 := Scalar.select v88 v89 v74
  let c16_i32_31 : BitVec 32 := 16#32
  let v91 : BitVec 32 := Scalar.muli v90 c16_i32_31
  ![v106.toNat, 1, v91.toNat]

def k1_chk2 (i : grid1.Coords) (v73 : BitVec 32) : Prop :=
  (∀ a, (k1_off3 i v73) a + S1x1x16.size a ≤ S32x8x100000.size a) ∧
  (∀ a, (k1_off19 i v73) a + S1x1x16.size a ≤ S32x8x100000.size a)
instance k1_chk2.dec : ∀ (i : grid1.Coords) (v73 : BitVec 32), Decidable (k1_chk2 i v73) := fun i v73 => decidable_of_iff' _ (Iff.of_eq (k1_chk2.eq_1 i v73))
theorem k1_off3_inb : ∀ (i : grid1.Coords) (v73 : BitVec 32) (k1_hw2 : k1_chk2 i v73), ∀ a, (k1_off3 i v73) a + S1x1x16.size a ≤ S32x8x100000.size a := fun i v73 k1_hw2 => k1_hw2.1
theorem k1_off19_inb : ∀ (i : grid1.Coords) (v73 : BitVec 32) (k1_hw2 : k1_chk2 i v73), ∀ a, (k1_off19 i v73) a + S1x1x16.size a ≤ S32x8x100000.size a := fun i v73 k1_hw2 => k1_hw2.2

def k1_off20 (i : grid1.Coords) (v114 : BitVec 32) : Fin 3 → Nat :=
  let arg1 : BitVec 32 := BitVec.ofNat 32 (i 1).val
  let c2_i32_45 : BitVec 32 := 2#32
  let v146 : BitVec 32 := Scalar.muli arg1 c2_i32_45
  let c0_i32_46 : BitVec 32 := 0#32
  let v147 : BitVec 32 := Scalar.addi v146 c0_i32_46
  let c2_i32_206 : BitVec 32 := 2#32
  let c0_i32_38 : BitVec 32 := 0#32
  let v116 : BitVec 1 := Scalar.cmpi .sgt v114 c0_i32_38
  let v117 : BitVec 32 := Scalar.extui v116
  let c0_i32_39 : BitVec 32 := 0#32
  let v118 : BitVec 1 := Scalar.cmpi .slt v114 c0_i32_39
  let v119 : BitVec 32 := Scalar.extui v118
  let v120 : BitVec 32 := Scalar.subi v117 v119
  let c16_i32_37 : BitVec 32 := 16#32
  let c0_i32_40 : BitVec 32 := 0#32
  let v121 : BitVec 1 := Scalar.cmpi .sgt c16_i32_37 c0_i32_40
  let v122 : BitVec 32 := Scalar.extui v121
  let c0_i32_41 : BitVec 32 := 0#32
  let v123 : BitVec 1 := Scalar.cmpi .slt c16_i32_37 c0_i32_41
  let v124 : BitVec 32 := Scalar.extui v123
  let v125 : BitVec 32 := Scalar.subi v122 v124
  let v126 : BitVec 1 := Scalar.cmpi .ne v120 v125
  let v127 : BitVec 32 := Scalar.remsi v114 c16_i32_37
  let c0_i32_42 : BitVec 32 := 0#32
  let v128 : BitVec 1 := Scalar.cmpi .ne v127 c0_i32_42
  let v129 : BitVec 1 := Scalar.andi v126 v128
  let v115 : BitVec 32 := Scalar.divsi v114 c16_i32_37
  let c1_i32_43 : BitVec 32 := 1#32
  let v130 : BitVec 32 := Scalar.subi v115 c1_i32_43
  let v131 : BitVec 32 := Scalar.select v129 v130 v115
  let c16_i32_44 : BitVec 32 := 16#32
  let v132 : BitVec 32 := Scalar.muli v131 c16_i32_44
  ![v147.toNat, 2, v132.toNat]

def k1_chk3 (i : grid1.Coords) (v114 : BitVec 32) : Prop :=
  (∀ a, (k1_off4 i v114) a + S1x1x16.size a ≤ S32x8x100000.size a) ∧
  (∀ a, (k1_off20 i v114) a + S1x1x16.size a ≤ S32x8x100000.size a)
instance k1_chk3.dec : ∀ (i : grid1.Coords) (v114 : BitVec 32), Decidable (k1_chk3 i v114) := fun i v114 => decidable_of_iff' _ (Iff.of_eq (k1_chk3.eq_1 i v114))
theorem k1_off4_inb : ∀ (i : grid1.Coords) (v114 : BitVec 32) (k1_hw3 : k1_chk3 i v114), ∀ a, (k1_off4 i v114) a + S1x1x16.size a ≤ S32x8x100000.size a := fun i v114 k1_hw3 => k1_hw3.1
theorem k1_off20_inb : ∀ (i : grid1.Coords) (v114 : BitVec 32) (k1_hw3 : k1_chk3 i v114), ∀ a, (k1_off20 i v114) a + S1x1x16.size a ≤ S32x8x100000.size a := fun i v114 k1_hw3 => k1_hw3.2

def k1_off21 (i : grid1.Coords) (v155 : BitVec 32) : Fin 3 → Nat :=
  let arg1 : BitVec 32 := BitVec.ofNat 32 (i 1).val
  let c2_i32_57 : BitVec 32 := 2#32
  let v187 : BitVec 32 := Scalar.muli arg1 c2_i32_57
  let c0_i32_58 : BitVec 32 := 0#32
  let v188 : BitVec 32 := Scalar.addi v187 c0_i32_58
  let c3_i32_209 : BitVec 32 := 3#32
  let c0_i32_50 : BitVec 32 := 0#32
  let v157 : BitVec 1 := Scalar.cmpi .sgt v155 c0_i32_50
  let v158 : BitVec 32 := Scalar.extui v157
  let c0_i32_51 : BitVec 32 := 0#32
  let v159 : BitVec 1 := Scalar.cmpi .slt v155 c0_i32_51
  let v160 : BitVec 32 := Scalar.extui v159
  let v161 : BitVec 32 := Scalar.subi v158 v160
  let c16_i32_49 : BitVec 32 := 16#32
  let c0_i32_52 : BitVec 32 := 0#32
  let v162 : BitVec 1 := Scalar.cmpi .sgt c16_i32_49 c0_i32_52
  let v163 : BitVec 32 := Scalar.extui v162
  let c0_i32_53 : BitVec 32 := 0#32
  let v164 : BitVec 1 := Scalar.cmpi .slt c16_i32_49 c0_i32_53
  let v165 : BitVec 32 := Scalar.extui v164
  let v166 : BitVec 32 := Scalar.subi v163 v165
  let v167 : BitVec 1 := Scalar.cmpi .ne v161 v166
  let v168 : BitVec 32 := Scalar.remsi v155 c16_i32_49
  let c0_i32_54 : BitVec 32 := 0#32
  let v169 : BitVec 1 := Scalar.cmpi .ne v168 c0_i32_54
  let v170 : BitVec 1 := Scalar.andi v167 v169
  let v156 : BitVec 32 := Scalar.divsi v155 c16_i32_49
  let c1_i32_55 : BitVec 32 := 1#32
  let v171 : BitVec 32 := Scalar.subi v156 c1_i32_55
  let v172 : BitVec 32 := Scalar.select v170 v171 v156
  let c16_i32_56 : BitVec 32 := 16#32
  let v173 : BitVec 32 := Scalar.muli v172 c16_i32_56
  ![v188.toNat, 3, v173.toNat]

def k1_chk4 (i : grid1.Coords) (v155 : BitVec 32) : Prop :=
  (∀ a, (k1_off5 i v155) a + S1x1x16.size a ≤ S32x8x100000.size a) ∧
  (∀ a, (k1_off21 i v155) a + S1x1x16.size a ≤ S32x8x100000.size a)
instance k1_chk4.dec : ∀ (i : grid1.Coords) (v155 : BitVec 32), Decidable (k1_chk4 i v155) := fun i v155 => decidable_of_iff' _ (Iff.of_eq (k1_chk4.eq_1 i v155))
theorem k1_off5_inb : ∀ (i : grid1.Coords) (v155 : BitVec 32) (k1_hw4 : k1_chk4 i v155), ∀ a, (k1_off5 i v155) a + S1x1x16.size a ≤ S32x8x100000.size a := fun i v155 k1_hw4 => k1_hw4.1
theorem k1_off21_inb : ∀ (i : grid1.Coords) (v155 : BitVec 32) (k1_hw4 : k1_chk4 i v155), ∀ a, (k1_off21 i v155) a + S1x1x16.size a ≤ S32x8x100000.size a := fun i v155 k1_hw4 => k1_hw4.2

def k1_off22 (i : grid1.Coords) (v196 : BitVec 32) : Fin 3 → Nat :=
  let arg1 : BitVec 32 := BitVec.ofNat 32 (i 1).val
  let c2_i32_68 : BitVec 32 := 2#32
  let v228 : BitVec 32 := Scalar.muli arg1 c2_i32_68
  let c0_i32_69 : BitVec 32 := 0#32
  let v229 : BitVec 32 := Scalar.addi v228 c0_i32_69
  let c4_i32_212 : BitVec 32 := 4#32
  let c0_i32_61 : BitVec 32 := 0#32
  let v198 : BitVec 1 := Scalar.cmpi .sgt v196 c0_i32_61
  let v199 : BitVec 32 := Scalar.extui v198
  let c0_i32_62 : BitVec 32 := 0#32
  let v200 : BitVec 1 := Scalar.cmpi .slt v196 c0_i32_62
  let v201 : BitVec 32 := Scalar.extui v200
  let v202 : BitVec 32 := Scalar.subi v199 v201
  let c16_i32_60 : BitVec 32 := 16#32
  let c0_i32_63 : BitVec 32 := 0#32
  let v203 : BitVec 1 := Scalar.cmpi .sgt c16_i32_60 c0_i32_63
  let v204 : BitVec 32 := Scalar.extui v203
  let c0_i32_64 : BitVec 32 := 0#32
  let v205 : BitVec 1 := Scalar.cmpi .slt c16_i32_60 c0_i32_64
  let v206 : BitVec 32 := Scalar.extui v205
  let v207 : BitVec 32 := Scalar.subi v204 v206
  let v208 : BitVec 1 := Scalar.cmpi .ne v202 v207
  let v209 : BitVec 32 := Scalar.remsi v196 c16_i32_60
  let c0_i32_65 : BitVec 32 := 0#32
  let v210 : BitVec 1 := Scalar.cmpi .ne v209 c0_i32_65
  let v211 : BitVec 1 := Scalar.andi v208 v210
  let v197 : BitVec 32 := Scalar.divsi v196 c16_i32_60
  let c1_i32_66 : BitVec 32 := 1#32
  let v212 : BitVec 32 := Scalar.subi v197 c1_i32_66
  let v213 : BitVec 32 := Scalar.select v211 v212 v197
  let c16_i32_67 : BitVec 32 := 16#32
  let v214 : BitVec 32 := Scalar.muli v213 c16_i32_67
  ![v229.toNat, 4, v214.toNat]

def k1_chk5 (i : grid1.Coords) (v196 : BitVec 32) : Prop :=
  (∀ a, (k1_off6 i v196) a + S1x1x16.size a ≤ S32x8x100000.size a) ∧
  (∀ a, (k1_off22 i v196) a + S1x1x16.size a ≤ S32x8x100000.size a)
instance k1_chk5.dec : ∀ (i : grid1.Coords) (v196 : BitVec 32), Decidable (k1_chk5 i v196) := fun i v196 => decidable_of_iff' _ (Iff.of_eq (k1_chk5.eq_1 i v196))
theorem k1_off6_inb : ∀ (i : grid1.Coords) (v196 : BitVec 32) (k1_hw5 : k1_chk5 i v196), ∀ a, (k1_off6 i v196) a + S1x1x16.size a ≤ S32x8x100000.size a := fun i v196 k1_hw5 => k1_hw5.1
theorem k1_off22_inb : ∀ (i : grid1.Coords) (v196 : BitVec 32) (k1_hw5 : k1_chk5 i v196), ∀ a, (k1_off22 i v196) a + S1x1x16.size a ≤ S32x8x100000.size a := fun i v196 k1_hw5 => k1_hw5.2

def k1_off23 (i : grid1.Coords) (v237 : BitVec 32) : Fin 3 → Nat :=
  let arg1 : BitVec 32 := BitVec.ofNat 32 (i 1).val
  let c2_i32_79 : BitVec 32 := 2#32
  let v269 : BitVec 32 := Scalar.muli arg1 c2_i32_79
  let c0_i32_80 : BitVec 32 := 0#32
  let v270 : BitVec 32 := Scalar.addi v269 c0_i32_80
  let c5_i32_215 : BitVec 32 := 5#32
  let c0_i32_72 : BitVec 32 := 0#32
  let v239 : BitVec 1 := Scalar.cmpi .sgt v237 c0_i32_72
  let v240 : BitVec 32 := Scalar.extui v239
  let c0_i32_73 : BitVec 32 := 0#32
  let v241 : BitVec 1 := Scalar.cmpi .slt v237 c0_i32_73
  let v242 : BitVec 32 := Scalar.extui v241
  let v243 : BitVec 32 := Scalar.subi v240 v242
  let c16_i32_71 : BitVec 32 := 16#32
  let c0_i32_74 : BitVec 32 := 0#32
  let v244 : BitVec 1 := Scalar.cmpi .sgt c16_i32_71 c0_i32_74
  let v245 : BitVec 32 := Scalar.extui v244
  let c0_i32_75 : BitVec 32 := 0#32
  let v246 : BitVec 1 := Scalar.cmpi .slt c16_i32_71 c0_i32_75
  let v247 : BitVec 32 := Scalar.extui v246
  let v248 : BitVec 32 := Scalar.subi v245 v247
  let v249 : BitVec 1 := Scalar.cmpi .ne v243 v248
  let v250 : BitVec 32 := Scalar.remsi v237 c16_i32_71
  let c0_i32_76 : BitVec 32 := 0#32
  let v251 : BitVec 1 := Scalar.cmpi .ne v250 c0_i32_76
  let v252 : BitVec 1 := Scalar.andi v249 v251
  let v238 : BitVec 32 := Scalar.divsi v237 c16_i32_71
  let c1_i32_77 : BitVec 32 := 1#32
  let v253 : BitVec 32 := Scalar.subi v238 c1_i32_77
  let v254 : BitVec 32 := Scalar.select v252 v253 v238
  let c16_i32_78 : BitVec 32 := 16#32
  let v255 : BitVec 32 := Scalar.muli v254 c16_i32_78
  ![v270.toNat, 5, v255.toNat]

def k1_chk6 (i : grid1.Coords) (v237 : BitVec 32) : Prop :=
  (∀ a, (k1_off7 i v237) a + S1x1x16.size a ≤ S32x8x100000.size a) ∧
  (∀ a, (k1_off23 i v237) a + S1x1x16.size a ≤ S32x8x100000.size a)
instance k1_chk6.dec : ∀ (i : grid1.Coords) (v237 : BitVec 32), Decidable (k1_chk6 i v237) := fun i v237 => decidable_of_iff' _ (Iff.of_eq (k1_chk6.eq_1 i v237))
theorem k1_off7_inb : ∀ (i : grid1.Coords) (v237 : BitVec 32) (k1_hw6 : k1_chk6 i v237), ∀ a, (k1_off7 i v237) a + S1x1x16.size a ≤ S32x8x100000.size a := fun i v237 k1_hw6 => k1_hw6.1
theorem k1_off23_inb : ∀ (i : grid1.Coords) (v237 : BitVec 32) (k1_hw6 : k1_chk6 i v237), ∀ a, (k1_off23 i v237) a + S1x1x16.size a ≤ S32x8x100000.size a := fun i v237 k1_hw6 => k1_hw6.2

def k1_off24 (i : grid1.Coords) (v278 : BitVec 32) : Fin 3 → Nat :=
  let arg1 : BitVec 32 := BitVec.ofNat 32 (i 1).val
  let c2_i32_90 : BitVec 32 := 2#32
  let v310 : BitVec 32 := Scalar.muli arg1 c2_i32_90
  let c0_i32_91 : BitVec 32 := 0#32
  let v311 : BitVec 32 := Scalar.addi v310 c0_i32_91
  let c6_i32_218 : BitVec 32 := 6#32
  let c0_i32_83 : BitVec 32 := 0#32
  let v280 : BitVec 1 := Scalar.cmpi .sgt v278 c0_i32_83
  let v281 : BitVec 32 := Scalar.extui v280
  let c0_i32_84 : BitVec 32 := 0#32
  let v282 : BitVec 1 := Scalar.cmpi .slt v278 c0_i32_84
  let v283 : BitVec 32 := Scalar.extui v282
  let v284 : BitVec 32 := Scalar.subi v281 v283
  let c16_i32_82 : BitVec 32 := 16#32
  let c0_i32_85 : BitVec 32 := 0#32
  let v285 : BitVec 1 := Scalar.cmpi .sgt c16_i32_82 c0_i32_85
  let v286 : BitVec 32 := Scalar.extui v285
  let c0_i32_86 : BitVec 32 := 0#32
  let v287 : BitVec 1 := Scalar.cmpi .slt c16_i32_82 c0_i32_86
  let v288 : BitVec 32 := Scalar.extui v287
  let v289 : BitVec 32 := Scalar.subi v286 v288
  let v290 : BitVec 1 := Scalar.cmpi .ne v284 v289
  let v291 : BitVec 32 := Scalar.remsi v278 c16_i32_82
  let c0_i32_87 : BitVec 32 := 0#32
  let v292 : BitVec 1 := Scalar.cmpi .ne v291 c0_i32_87
  let v293 : BitVec 1 := Scalar.andi v290 v292
  let v279 : BitVec 32 := Scalar.divsi v278 c16_i32_82
  let c1_i32_88 : BitVec 32 := 1#32
  let v294 : BitVec 32 := Scalar.subi v279 c1_i32_88
  let v295 : BitVec 32 := Scalar.select v293 v294 v279
  let c16_i32_89 : BitVec 32 := 16#32
  let v296 : BitVec 32 := Scalar.muli v295 c16_i32_89
  ![v311.toNat, 6, v296.toNat]

def k1_chk7 (i : grid1.Coords) (v278 : BitVec 32) : Prop :=
  (∀ a, (k1_off8 i v278) a + S1x1x16.size a ≤ S32x8x100000.size a) ∧
  (∀ a, (k1_off24 i v278) a + S1x1x16.size a ≤ S32x8x100000.size a)
instance k1_chk7.dec : ∀ (i : grid1.Coords) (v278 : BitVec 32), Decidable (k1_chk7 i v278) := fun i v278 => decidable_of_iff' _ (Iff.of_eq (k1_chk7.eq_1 i v278))
theorem k1_off8_inb : ∀ (i : grid1.Coords) (v278 : BitVec 32) (k1_hw7 : k1_chk7 i v278), ∀ a, (k1_off8 i v278) a + S1x1x16.size a ≤ S32x8x100000.size a := fun i v278 k1_hw7 => k1_hw7.1
theorem k1_off24_inb : ∀ (i : grid1.Coords) (v278 : BitVec 32) (k1_hw7 : k1_chk7 i v278), ∀ a, (k1_off24 i v278) a + S1x1x16.size a ≤ S32x8x100000.size a := fun i v278 k1_hw7 => k1_hw7.2

def k1_off25 (i : grid1.Coords) (v319 : BitVec 32) : Fin 3 → Nat :=
  let arg1 : BitVec 32 := BitVec.ofNat 32 (i 1).val
  let c2_i32_101 : BitVec 32 := 2#32
  let v351 : BitVec 32 := Scalar.muli arg1 c2_i32_101
  let c0_i32_102 : BitVec 32 := 0#32
  let v352 : BitVec 32 := Scalar.addi v351 c0_i32_102
  let c7_i32_221 : BitVec 32 := 7#32
  let c0_i32_94 : BitVec 32 := 0#32
  let v321 : BitVec 1 := Scalar.cmpi .sgt v319 c0_i32_94
  let v322 : BitVec 32 := Scalar.extui v321
  let c0_i32_95 : BitVec 32 := 0#32
  let v323 : BitVec 1 := Scalar.cmpi .slt v319 c0_i32_95
  let v324 : BitVec 32 := Scalar.extui v323
  let v325 : BitVec 32 := Scalar.subi v322 v324
  let c16_i32_93 : BitVec 32 := 16#32
  let c0_i32_96 : BitVec 32 := 0#32
  let v326 : BitVec 1 := Scalar.cmpi .sgt c16_i32_93 c0_i32_96
  let v327 : BitVec 32 := Scalar.extui v326
  let c0_i32_97 : BitVec 32 := 0#32
  let v328 : BitVec 1 := Scalar.cmpi .slt c16_i32_93 c0_i32_97
  let v329 : BitVec 32 := Scalar.extui v328
  let v330 : BitVec 32 := Scalar.subi v327 v329
  let v331 : BitVec 1 := Scalar.cmpi .ne v325 v330
  let v332 : BitVec 32 := Scalar.remsi v319 c16_i32_93
  let c0_i32_98 : BitVec 32 := 0#32
  let v333 : BitVec 1 := Scalar.cmpi .ne v332 c0_i32_98
  let v334 : BitVec 1 := Scalar.andi v331 v333
  let v320 : BitVec 32 := Scalar.divsi v319 c16_i32_93
  let c1_i32_99 : BitVec 32 := 1#32
  let v335 : BitVec 32 := Scalar.subi v320 c1_i32_99
  let v336 : BitVec 32 := Scalar.select v334 v335 v320
  let c16_i32_100 : BitVec 32 := 16#32
  let v337 : BitVec 32 := Scalar.muli v336 c16_i32_100
  ![v352.toNat, 7, v337.toNat]

def k1_chk8 (i : grid1.Coords) (v319 : BitVec 32) : Prop :=
  (∀ a, (k1_off9 i v319) a + S1x1x16.size a ≤ S32x8x100000.size a) ∧
  (∀ a, (k1_off25 i v319) a + S1x1x16.size a ≤ S32x8x100000.size a)
instance k1_chk8.dec : ∀ (i : grid1.Coords) (v319 : BitVec 32), Decidable (k1_chk8 i v319) := fun i v319 => decidable_of_iff' _ (Iff.of_eq (k1_chk8.eq_1 i v319))
theorem k1_off9_inb : ∀ (i : grid1.Coords) (v319 : BitVec 32) (k1_hw8 : k1_chk8 i v319), ∀ a, (k1_off9 i v319) a + S1x1x16.size a ≤ S32x8x100000.size a := fun i v319 k1_hw8 => k1_hw8.1
theorem k1_off25_inb : ∀ (i : grid1.Coords) (v319 : BitVec 32) (k1_hw8 : k1_chk8 i v319), ∀ a, (k1_off25 i v319) a + S1x1x16.size a ≤ S32x8x100000.size a := fun i v319 k1_hw8 => k1_hw8.2

def k1_off26 (i : grid1.Coords) (v360 : BitVec 32) : Fin 3 → Nat :=
  let arg1 : BitVec 32 := BitVec.ofNat 32 (i 1).val
  let c2_i32_112 : BitVec 32 := 2#32
  let v392 : BitVec 32 := Scalar.muli arg1 c2_i32_112
  let c1_i32_113 : BitVec 32 := 1#32
  let v393 : BitVec 32 := Scalar.addi v392 c1_i32_113
  let c0_i32_224 : BitVec 32 := 0#32
  let c0_i32_105 : BitVec 32 := 0#32
  let v362 : BitVec 1 := Scalar.cmpi .sgt v360 c0_i32_105
  let v363 : BitVec 32 := Scalar.extui v362
  let c0_i32_106 : BitVec 32 := 0#32
  let v364 : BitVec 1 := Scalar.cmpi .slt v360 c0_i32_106
  let v365 : BitVec 32 := Scalar.extui v364
  let v366 : BitVec 32 := Scalar.subi v363 v365
  let c16_i32_104 : BitVec 32 := 16#32
  let c0_i32_107 : BitVec 32 := 0#32
  let v367 : BitVec 1 := Scalar.cmpi .sgt c16_i32_104 c0_i32_107
  let v368 : BitVec 32 := Scalar.extui v367
  let c0_i32_108 : BitVec 32 := 0#32
  let v369 : BitVec 1 := Scalar.cmpi .slt c16_i32_104 c0_i32_108
  let v370 : BitVec 32 := Scalar.extui v369
  let v371 : BitVec 32 := Scalar.subi v368 v370
  let v372 : BitVec 1 := Scalar.cmpi .ne v366 v371
  let v373 : BitVec 32 := Scalar.remsi v360 c16_i32_104
  let c0_i32_109 : BitVec 32 := 0#32
  let v374 : BitVec 1 := Scalar.cmpi .ne v373 c0_i32_109
  let v375 : BitVec 1 := Scalar.andi v372 v374
  let v361 : BitVec 32 := Scalar.divsi v360 c16_i32_104
  let c1_i32_110 : BitVec 32 := 1#32
  let v376 : BitVec 32 := Scalar.subi v361 c1_i32_110
  let v377 : BitVec 32 := Scalar.select v375 v376 v361
  let c16_i32_111 : BitVec 32 := 16#32
  let v378 : BitVec 32 := Scalar.muli v377 c16_i32_111
  ![v393.toNat, 0, v378.toNat]

def k1_chk9 (i : grid1.Coords) (v360 : BitVec 32) : Prop :=
  (∀ a, (k1_off10 i v360) a + S1x1x16.size a ≤ S32x8x100000.size a) ∧
  (∀ a, (k1_off26 i v360) a + S1x1x16.size a ≤ S32x8x100000.size a)
instance k1_chk9.dec : ∀ (i : grid1.Coords) (v360 : BitVec 32), Decidable (k1_chk9 i v360) := fun i v360 => decidable_of_iff' _ (Iff.of_eq (k1_chk9.eq_1 i v360))
theorem k1_off10_inb : ∀ (i : grid1.Coords) (v360 : BitVec 32) (k1_hw9 : k1_chk9 i v360), ∀ a, (k1_off10 i v360) a + S1x1x16.size a ≤ S32x8x100000.size a := fun i v360 k1_hw9 => k1_hw9.1
theorem k1_off26_inb : ∀ (i : grid1.Coords) (v360 : BitVec 32) (k1_hw9 : k1_chk9 i v360), ∀ a, (k1_off26 i v360) a + S1x1x16.size a ≤ S32x8x100000.size a := fun i v360 k1_hw9 => k1_hw9.2

def k1_off27 (i : grid1.Coords) (v401 : BitVec 32) : Fin 3 → Nat :=
  let arg1 : BitVec 32 := BitVec.ofNat 32 (i 1).val
  let c2_i32_124 : BitVec 32 := 2#32
  let v433 : BitVec 32 := Scalar.muli arg1 c2_i32_124
  let c1_i32_125 : BitVec 32 := 1#32
  let v434 : BitVec 32 := Scalar.addi v433 c1_i32_125
  let c1_i32_227 : BitVec 32 := 1#32
  let c0_i32_117 : BitVec 32 := 0#32
  let v403 : BitVec 1 := Scalar.cmpi .sgt v401 c0_i32_117
  let v404 : BitVec 32 := Scalar.extui v403
  let c0_i32_118 : BitVec 32 := 0#32
  let v405 : BitVec 1 := Scalar.cmpi .slt v401 c0_i32_118
  let v406 : BitVec 32 := Scalar.extui v405
  let v407 : BitVec 32 := Scalar.subi v404 v406
  let c16_i32_116 : BitVec 32 := 16#32
  let c0_i32_119 : BitVec 32 := 0#32
  let v408 : BitVec 1 := Scalar.cmpi .sgt c16_i32_116 c0_i32_119
  let v409 : BitVec 32 := Scalar.extui v408
  let c0_i32_120 : BitVec 32 := 0#32
  let v410 : BitVec 1 := Scalar.cmpi .slt c16_i32_116 c0_i32_120
  let v411 : BitVec 32 := Scalar.extui v410
  let v412 : BitVec 32 := Scalar.subi v409 v411
  let v413 : BitVec 1 := Scalar.cmpi .ne v407 v412
  let v414 : BitVec 32 := Scalar.remsi v401 c16_i32_116
  let c0_i32_121 : BitVec 32 := 0#32
  let v415 : BitVec 1 := Scalar.cmpi .ne v414 c0_i32_121
  let v416 : BitVec 1 := Scalar.andi v413 v415
  let v402 : BitVec 32 := Scalar.divsi v401 c16_i32_116
  let c1_i32_122 : BitVec 32 := 1#32
  let v417 : BitVec 32 := Scalar.subi v402 c1_i32_122
  let v418 : BitVec 32 := Scalar.select v416 v417 v402
  let c16_i32_123 : BitVec 32 := 16#32
  let v419 : BitVec 32 := Scalar.muli v418 c16_i32_123
  ![v434.toNat, 1, v419.toNat]

def k1_chk10 (i : grid1.Coords) (v401 : BitVec 32) : Prop :=
  (∀ a, (k1_off11 i v401) a + S1x1x16.size a ≤ S32x8x100000.size a) ∧
  (∀ a, (k1_off27 i v401) a + S1x1x16.size a ≤ S32x8x100000.size a)
instance k1_chk10.dec : ∀ (i : grid1.Coords) (v401 : BitVec 32), Decidable (k1_chk10 i v401) := fun i v401 => decidable_of_iff' _ (Iff.of_eq (k1_chk10.eq_1 i v401))
theorem k1_off11_inb : ∀ (i : grid1.Coords) (v401 : BitVec 32) (k1_hw10 : k1_chk10 i v401), ∀ a, (k1_off11 i v401) a + S1x1x16.size a ≤ S32x8x100000.size a := fun i v401 k1_hw10 => k1_hw10.1
theorem k1_off27_inb : ∀ (i : grid1.Coords) (v401 : BitVec 32) (k1_hw10 : k1_chk10 i v401), ∀ a, (k1_off27 i v401) a + S1x1x16.size a ≤ S32x8x100000.size a := fun i v401 k1_hw10 => k1_hw10.2

def k1_off28 (i : grid1.Coords) (v442 : BitVec 32) : Fin 3 → Nat :=
  let arg1 : BitVec 32 := BitVec.ofNat 32 (i 1).val
  let c2_i32_136 : BitVec 32 := 2#32
  let v474 : BitVec 32 := Scalar.muli arg1 c2_i32_136
  let c1_i32_137 : BitVec 32 := 1#32
  let v475 : BitVec 32 := Scalar.addi v474 c1_i32_137
  let c2_i32_230 : BitVec 32 := 2#32
  let c0_i32_129 : BitVec 32 := 0#32
  let v444 : BitVec 1 := Scalar.cmpi .sgt v442 c0_i32_129
  let v445 : BitVec 32 := Scalar.extui v444
  let c0_i32_130 : BitVec 32 := 0#32
  let v446 : BitVec 1 := Scalar.cmpi .slt v442 c0_i32_130
  let v447 : BitVec 32 := Scalar.extui v446
  let v448 : BitVec 32 := Scalar.subi v445 v447
  let c16_i32_128 : BitVec 32 := 16#32
  let c0_i32_131 : BitVec 32 := 0#32
  let v449 : BitVec 1 := Scalar.cmpi .sgt c16_i32_128 c0_i32_131
  let v450 : BitVec 32 := Scalar.extui v449
  let c0_i32_132 : BitVec 32 := 0#32
  let v451 : BitVec 1 := Scalar.cmpi .slt c16_i32_128 c0_i32_132
  let v452 : BitVec 32 := Scalar.extui v451
  let v453 : BitVec 32 := Scalar.subi v450 v452
  let v454 : BitVec 1 := Scalar.cmpi .ne v448 v453
  let v455 : BitVec 32 := Scalar.remsi v442 c16_i32_128
  let c0_i32_133 : BitVec 32 := 0#32
  let v456 : BitVec 1 := Scalar.cmpi .ne v455 c0_i32_133
  let v457 : BitVec 1 := Scalar.andi v454 v456
  let v443 : BitVec 32 := Scalar.divsi v442 c16_i32_128
  let c1_i32_134 : BitVec 32 := 1#32
  let v458 : BitVec 32 := Scalar.subi v443 c1_i32_134
  let v459 : BitVec 32 := Scalar.select v457 v458 v443
  let c16_i32_135 : BitVec 32 := 16#32
  let v460 : BitVec 32 := Scalar.muli v459 c16_i32_135
  ![v475.toNat, 2, v460.toNat]

def k1_chk11 (i : grid1.Coords) (v442 : BitVec 32) : Prop :=
  (∀ a, (k1_off12 i v442) a + S1x1x16.size a ≤ S32x8x100000.size a) ∧
  (∀ a, (k1_off28 i v442) a + S1x1x16.size a ≤ S32x8x100000.size a)
instance k1_chk11.dec : ∀ (i : grid1.Coords) (v442 : BitVec 32), Decidable (k1_chk11 i v442) := fun i v442 => decidable_of_iff' _ (Iff.of_eq (k1_chk11.eq_1 i v442))
theorem k1_off12_inb : ∀ (i : grid1.Coords) (v442 : BitVec 32) (k1_hw11 : k1_chk11 i v442), ∀ a, (k1_off12 i v442) a + S1x1x16.size a ≤ S32x8x100000.size a := fun i v442 k1_hw11 => k1_hw11.1
theorem k1_off28_inb : ∀ (i : grid1.Coords) (v442 : BitVec 32) (k1_hw11 : k1_chk11 i v442), ∀ a, (k1_off28 i v442) a + S1x1x16.size a ≤ S32x8x100000.size a := fun i v442 k1_hw11 => k1_hw11.2

def k1_off29 (i : grid1.Coords) (v483 : BitVec 32) : Fin 3 → Nat :=
  let arg1 : BitVec 32 := BitVec.ofNat 32 (i 1).val
  let c2_i32_148 : BitVec 32 := 2#32
  let v515 : BitVec 32 := Scalar.muli arg1 c2_i32_148
  let c1_i32_149 : BitVec 32 := 1#32
  let v516 : BitVec 32 := Scalar.addi v515 c1_i32_149
  let c3_i32_233 : BitVec 32 := 3#32
  let c0_i32_141 : BitVec 32 := 0#32
  let v485 : BitVec 1 := Scalar.cmpi .sgt v483 c0_i32_141
  let v486 : BitVec 32 := Scalar.extui v485
  let c0_i32_142 : BitVec 32 := 0#32
  let v487 : BitVec 1 := Scalar.cmpi .slt v483 c0_i32_142
  let v488 : BitVec 32 := Scalar.extui v487
  let v489 : BitVec 32 := Scalar.subi v486 v488
  let c16_i32_140 : BitVec 32 := 16#32
  let c0_i32_143 : BitVec 32 := 0#32
  let v490 : BitVec 1 := Scalar.cmpi .sgt c16_i32_140 c0_i32_143
  let v491 : BitVec 32 := Scalar.extui v490
  let c0_i32_144 : BitVec 32 := 0#32
  let v492 : BitVec 1 := Scalar.cmpi .slt c16_i32_140 c0_i32_144
  let v493 : BitVec 32 := Scalar.extui v492
  let v494 : BitVec 32 := Scalar.subi v491 v493
  let v495 : BitVec 1 := Scalar.cmpi .ne v489 v494
  let v496 : BitVec 32 := Scalar.remsi v483 c16_i32_140
  let c0_i32_145 : BitVec 32 := 0#32
  let v497 : BitVec 1 := Scalar.cmpi .ne v496 c0_i32_145
  let v498 : BitVec 1 := Scalar.andi v495 v497
  let v484 : BitVec 32 := Scalar.divsi v483 c16_i32_140
  let c1_i32_146 : BitVec 32 := 1#32
  let v499 : BitVec 32 := Scalar.subi v484 c1_i32_146
  let v500 : BitVec 32 := Scalar.select v498 v499 v484
  let c16_i32_147 : BitVec 32 := 16#32
  let v501 : BitVec 32 := Scalar.muli v500 c16_i32_147
  ![v516.toNat, 3, v501.toNat]

def k1_chk12 (i : grid1.Coords) (v483 : BitVec 32) : Prop :=
  (∀ a, (k1_off13 i v483) a + S1x1x16.size a ≤ S32x8x100000.size a) ∧
  (∀ a, (k1_off29 i v483) a + S1x1x16.size a ≤ S32x8x100000.size a)
instance k1_chk12.dec : ∀ (i : grid1.Coords) (v483 : BitVec 32), Decidable (k1_chk12 i v483) := fun i v483 => decidable_of_iff' _ (Iff.of_eq (k1_chk12.eq_1 i v483))
theorem k1_off13_inb : ∀ (i : grid1.Coords) (v483 : BitVec 32) (k1_hw12 : k1_chk12 i v483), ∀ a, (k1_off13 i v483) a + S1x1x16.size a ≤ S32x8x100000.size a := fun i v483 k1_hw12 => k1_hw12.1
theorem k1_off29_inb : ∀ (i : grid1.Coords) (v483 : BitVec 32) (k1_hw12 : k1_chk12 i v483), ∀ a, (k1_off29 i v483) a + S1x1x16.size a ≤ S32x8x100000.size a := fun i v483 k1_hw12 => k1_hw12.2

def k1_off30 (i : grid1.Coords) (v524 : BitVec 32) : Fin 3 → Nat :=
  let arg1 : BitVec 32 := BitVec.ofNat 32 (i 1).val
  let c2_i32_160 : BitVec 32 := 2#32
  let v556 : BitVec 32 := Scalar.muli arg1 c2_i32_160
  let c1_i32_161 : BitVec 32 := 1#32
  let v557 : BitVec 32 := Scalar.addi v556 c1_i32_161
  let c4_i32_236 : BitVec 32 := 4#32
  let c0_i32_153 : BitVec 32 := 0#32
  let v526 : BitVec 1 := Scalar.cmpi .sgt v524 c0_i32_153
  let v527 : BitVec 32 := Scalar.extui v526
  let c0_i32_154 : BitVec 32 := 0#32
  let v528 : BitVec 1 := Scalar.cmpi .slt v524 c0_i32_154
  let v529 : BitVec 32 := Scalar.extui v528
  let v530 : BitVec 32 := Scalar.subi v527 v529
  let c16_i32_152 : BitVec 32 := 16#32
  let c0_i32_155 : BitVec 32 := 0#32
  let v531 : BitVec 1 := Scalar.cmpi .sgt c16_i32_152 c0_i32_155
  let v532 : BitVec 32 := Scalar.extui v531
  let c0_i32_156 : BitVec 32 := 0#32
  let v533 : BitVec 1 := Scalar.cmpi .slt c16_i32_152 c0_i32_156
  let v534 : BitVec 32 := Scalar.extui v533
  let v535 : BitVec 32 := Scalar.subi v532 v534
  let v536 : BitVec 1 := Scalar.cmpi .ne v530 v535
  let v537 : BitVec 32 := Scalar.remsi v524 c16_i32_152
  let c0_i32_157 : BitVec 32 := 0#32
  let v538 : BitVec 1 := Scalar.cmpi .ne v537 c0_i32_157
  let v539 : BitVec 1 := Scalar.andi v536 v538
  let v525 : BitVec 32 := Scalar.divsi v524 c16_i32_152
  let c1_i32_158 : BitVec 32 := 1#32
  let v540 : BitVec 32 := Scalar.subi v525 c1_i32_158
  let v541 : BitVec 32 := Scalar.select v539 v540 v525
  let c16_i32_159 : BitVec 32 := 16#32
  let v542 : BitVec 32 := Scalar.muli v541 c16_i32_159
  ![v557.toNat, 4, v542.toNat]

def k1_chk13 (i : grid1.Coords) (v524 : BitVec 32) : Prop :=
  (∀ a, (k1_off14 i v524) a + S1x1x16.size a ≤ S32x8x100000.size a) ∧
  (∀ a, (k1_off30 i v524) a + S1x1x16.size a ≤ S32x8x100000.size a)
instance k1_chk13.dec : ∀ (i : grid1.Coords) (v524 : BitVec 32), Decidable (k1_chk13 i v524) := fun i v524 => decidable_of_iff' _ (Iff.of_eq (k1_chk13.eq_1 i v524))
theorem k1_off14_inb : ∀ (i : grid1.Coords) (v524 : BitVec 32) (k1_hw13 : k1_chk13 i v524), ∀ a, (k1_off14 i v524) a + S1x1x16.size a ≤ S32x8x100000.size a := fun i v524 k1_hw13 => k1_hw13.1
theorem k1_off30_inb : ∀ (i : grid1.Coords) (v524 : BitVec 32) (k1_hw13 : k1_chk13 i v524), ∀ a, (k1_off30 i v524) a + S1x1x16.size a ≤ S32x8x100000.size a := fun i v524 k1_hw13 => k1_hw13.2

def k1_off31 (i : grid1.Coords) (v565 : BitVec 32) : Fin 3 → Nat :=
  let arg1 : BitVec 32 := BitVec.ofNat 32 (i 1).val
  let c2_i32_172 : BitVec 32 := 2#32
  let v597 : BitVec 32 := Scalar.muli arg1 c2_i32_172
  let c1_i32_173 : BitVec 32 := 1#32
  let v598 : BitVec 32 := Scalar.addi v597 c1_i32_173
  let c5_i32_239 : BitVec 32 := 5#32
  let c0_i32_165 : BitVec 32 := 0#32
  let v567 : BitVec 1 := Scalar.cmpi .sgt v565 c0_i32_165
  let v568 : BitVec 32 := Scalar.extui v567
  let c0_i32_166 : BitVec 32 := 0#32
  let v569 : BitVec 1 := Scalar.cmpi .slt v565 c0_i32_166
  let v570 : BitVec 32 := Scalar.extui v569
  let v571 : BitVec 32 := Scalar.subi v568 v570
  let c16_i32_164 : BitVec 32 := 16#32
  let c0_i32_167 : BitVec 32 := 0#32
  let v572 : BitVec 1 := Scalar.cmpi .sgt c16_i32_164 c0_i32_167
  let v573 : BitVec 32 := Scalar.extui v572
  let c0_i32_168 : BitVec 32 := 0#32
  let v574 : BitVec 1 := Scalar.cmpi .slt c16_i32_164 c0_i32_168
  let v575 : BitVec 32 := Scalar.extui v574
  let v576 : BitVec 32 := Scalar.subi v573 v575
  let v577 : BitVec 1 := Scalar.cmpi .ne v571 v576
  let v578 : BitVec 32 := Scalar.remsi v565 c16_i32_164
  let c0_i32_169 : BitVec 32 := 0#32
  let v579 : BitVec 1 := Scalar.cmpi .ne v578 c0_i32_169
  let v580 : BitVec 1 := Scalar.andi v577 v579
  let v566 : BitVec 32 := Scalar.divsi v565 c16_i32_164
  let c1_i32_170 : BitVec 32 := 1#32
  let v581 : BitVec 32 := Scalar.subi v566 c1_i32_170
  let v582 : BitVec 32 := Scalar.select v580 v581 v566
  let c16_i32_171 : BitVec 32 := 16#32
  let v583 : BitVec 32 := Scalar.muli v582 c16_i32_171
  ![v598.toNat, 5, v583.toNat]

def k1_chk14 (i : grid1.Coords) (v565 : BitVec 32) : Prop :=
  (∀ a, (k1_off15 i v565) a + S1x1x16.size a ≤ S32x8x100000.size a) ∧
  (∀ a, (k1_off31 i v565) a + S1x1x16.size a ≤ S32x8x100000.size a)
instance k1_chk14.dec : ∀ (i : grid1.Coords) (v565 : BitVec 32), Decidable (k1_chk14 i v565) := fun i v565 => decidable_of_iff' _ (Iff.of_eq (k1_chk14.eq_1 i v565))
theorem k1_off15_inb : ∀ (i : grid1.Coords) (v565 : BitVec 32) (k1_hw14 : k1_chk14 i v565), ∀ a, (k1_off15 i v565) a + S1x1x16.size a ≤ S32x8x100000.size a := fun i v565 k1_hw14 => k1_hw14.1
theorem k1_off31_inb : ∀ (i : grid1.Coords) (v565 : BitVec 32) (k1_hw14 : k1_chk14 i v565), ∀ a, (k1_off31 i v565) a + S1x1x16.size a ≤ S32x8x100000.size a := fun i v565 k1_hw14 => k1_hw14.2

def k1_off32 (i : grid1.Coords) (v606 : BitVec 32) : Fin 3 → Nat :=
  let arg1 : BitVec 32 := BitVec.ofNat 32 (i 1).val
  let c2_i32_184 : BitVec 32 := 2#32
  let v638 : BitVec 32 := Scalar.muli arg1 c2_i32_184
  let c1_i32_185 : BitVec 32 := 1#32
  let v639 : BitVec 32 := Scalar.addi v638 c1_i32_185
  let c6_i32_242 : BitVec 32 := 6#32
  let c0_i32_177 : BitVec 32 := 0#32
  let v608 : BitVec 1 := Scalar.cmpi .sgt v606 c0_i32_177
  let v609 : BitVec 32 := Scalar.extui v608
  let c0_i32_178 : BitVec 32 := 0#32
  let v610 : BitVec 1 := Scalar.cmpi .slt v606 c0_i32_178
  let v611 : BitVec 32 := Scalar.extui v610
  let v612 : BitVec 32 := Scalar.subi v609 v611
  let c16_i32_176 : BitVec 32 := 16#32
  let c0_i32_179 : BitVec 32 := 0#32
  let v613 : BitVec 1 := Scalar.cmpi .sgt c16_i32_176 c0_i32_179
  let v614 : BitVec 32 := Scalar.extui v613
  let c0_i32_180 : BitVec 32 := 0#32
  let v615 : BitVec 1 := Scalar.cmpi .slt c16_i32_176 c0_i32_180
  let v616 : BitVec 32 := Scalar.extui v615
  let v617 : BitVec 32 := Scalar.subi v614 v616
  let v618 : BitVec 1 := Scalar.cmpi .ne v612 v617
  let v619 : BitVec 32 := Scalar.remsi v606 c16_i32_176
  let c0_i32_181 : BitVec 32 := 0#32
  let v620 : BitVec 1 := Scalar.cmpi .ne v619 c0_i32_181
  let v621 : BitVec 1 := Scalar.andi v618 v620
  let v607 : BitVec 32 := Scalar.divsi v606 c16_i32_176
  let c1_i32_182 : BitVec 32 := 1#32
  let v622 : BitVec 32 := Scalar.subi v607 c1_i32_182
  let v623 : BitVec 32 := Scalar.select v621 v622 v607
  let c16_i32_183 : BitVec 32 := 16#32
  let v624 : BitVec 32 := Scalar.muli v623 c16_i32_183
  ![v639.toNat, 6, v624.toNat]

def k1_chk15 (i : grid1.Coords) (v606 : BitVec 32) : Prop :=
  (∀ a, (k1_off16 i v606) a + S1x1x16.size a ≤ S32x8x100000.size a) ∧
  (∀ a, (k1_off32 i v606) a + S1x1x16.size a ≤ S32x8x100000.size a)
instance k1_chk15.dec : ∀ (i : grid1.Coords) (v606 : BitVec 32), Decidable (k1_chk15 i v606) := fun i v606 => decidable_of_iff' _ (Iff.of_eq (k1_chk15.eq_1 i v606))
theorem k1_off16_inb : ∀ (i : grid1.Coords) (v606 : BitVec 32) (k1_hw15 : k1_chk15 i v606), ∀ a, (k1_off16 i v606) a + S1x1x16.size a ≤ S32x8x100000.size a := fun i v606 k1_hw15 => k1_hw15.1
theorem k1_off32_inb : ∀ (i : grid1.Coords) (v606 : BitVec 32) (k1_hw15 : k1_chk15 i v606), ∀ a, (k1_off32 i v606) a + S1x1x16.size a ≤ S32x8x100000.size a := fun i v606 k1_hw15 => k1_hw15.2

abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S32x8_S16x16 : S32x8.ShapeCasts S16x16
  h_S2x8 : 0 < S2x8.numel
  shapeCasts_S2x8_S2x8x1 : S2x8.ShapeCasts S2x8x1
  shapeCasts_S2x8x1_S2x8x1 : S2x8x1.ShapeCasts S2x8x1
  broadcasts_S2x8x1_S2x8x100000 : S2x8x1.Broadcasts S2x8x100000
  inb_S2x8x100000_S2x8x100000_0_0_0 : ∀ a, (![0, 0, 0] : Fin 3 → Nat) a + S2x8x100000.size a ≤ S2x8x100000.size a
  h_S2x8x100000 : 0 < S2x8x100000.numel
  inb_S16x16_S16x16_0_0 : ∀ a, (![0, 0] : Fin 2 → Nat) a + S16x16.size a ≤ S16x16.size a
  h_S16x16 : 0 < S16x16.numel
  shapeCasts_S16x16_S16x16 : S16x16.ShapeCasts S16x16
  squeezes_S1x16_S16 : S1x16.Squeezes S16
  inb_S16_S16_0 : ∀ a, (![0] : Fin 1 → Nat) a + S16.size a ≤ S16.size a
  h_S16 : 0 < S16.numel
  shapeCasts_S16_S16 : S16.ShapeCasts S16
  iota_S16_d0_w32_scVector : S16.Iotas .scVector 32 [0]
  slices_S16_o0_S1 : S16.Slices ![0] S1
  inpos_S1_p0 : ∀ a, (![0] : Fin 1 → Nat) a < S1.size a
  inb_S256_S16_0 : ∀ a, (![0] : Fin 1 → Nat) a + S16.size a ≤ S256.size a
  squeezes_S1x1x16_S16 : S1x1x16.Squeezes S16
  slices_S16_o1_S1 : S16.Slices ![1] S1
  inb_S256_S16_16 : ∀ a, (![16] : Fin 1 → Nat) a + S16.size a ≤ S256.size a
  slices_S16_o2_S1 : S16.Slices ![2] S1
  inb_S256_S16_32 : ∀ a, (![32] : Fin 1 → Nat) a + S16.size a ≤ S256.size a
  slices_S16_o3_S1 : S16.Slices ![3] S1
  inb_S256_S16_48 : ∀ a, (![48] : Fin 1 → Nat) a + S16.size a ≤ S256.size a
  slices_S16_o4_S1 : S16.Slices ![4] S1
  inb_S256_S16_64 : ∀ a, (![64] : Fin 1 → Nat) a + S16.size a ≤ S256.size a
  slices_S16_o5_S1 : S16.Slices ![5] S1
  inb_S256_S16_80 : ∀ a, (![80] : Fin 1 → Nat) a + S16.size a ≤ S256.size a
  slices_S16_o6_S1 : S16.Slices ![6] S1
  inb_S256_S16_96 : ∀ a, (![96] : Fin 1 → Nat) a + S16.size a ≤ S256.size a
  slices_S16_o7_S1 : S16.Slices ![7] S1
  inb_S256_S16_112 : ∀ a, (![112] : Fin 1 → Nat) a + S16.size a ≤ S256.size a
  slices_S16_o8_S1 : S16.Slices ![8] S1
  inb_S256_S16_128 : ∀ a, (![128] : Fin 1 → Nat) a + S16.size a ≤ S256.size a
  slices_S16_o9_S1 : S16.Slices ![9] S1
  inb_S256_S16_144 : ∀ a, (![144] : Fin 1 → Nat) a + S16.size a ≤ S256.size a
  slices_S16_o10_S1 : S16.Slices ![10] S1
  inb_S256_S16_160 : ∀ a, (![160] : Fin 1 → Nat) a + S16.size a ≤ S256.size a
  slices_S16_o11_S1 : S16.Slices ![11] S1
  inb_S256_S16_176 : ∀ a, (![176] : Fin 1 → Nat) a + S16.size a ≤ S256.size a
  slices_S16_o12_S1 : S16.Slices ![12] S1
  inb_S256_S16_192 : ∀ a, (![192] : Fin 1 → Nat) a + S16.size a ≤ S256.size a
  slices_S16_o13_S1 : S16.Slices ![13] S1
  inb_S256_S16_208 : ∀ a, (![208] : Fin 1 → Nat) a + S16.size a ≤ S256.size a
  slices_S16_o14_S1 : S16.Slices ![14] S1
  inb_S256_S16_224 : ∀ a, (![224] : Fin 1 → Nat) a + S16.size a ≤ S256.size a
  slices_S16_o15_S1 : S16.Slices ![15] S1
  inb_S256_S16_240 : ∀ a, (![240] : Fin 1 → Nat) a + S16.size a ≤ S256.size a
  hcc1_scratch4 : 6 + S_.numel ≤ 7
  hscKind : ∀ q, scKind q ≠ .tc
  hscCore : ∀ q, scNCore q ≤ τ.nSC
  hscSub : ∀ q, scNSub q ≤ τ.nSub
  hrank0 : 0 < grid0.rank
  k0_off1_inb : ∀ i : grid0.Coords, ∀ a, (k0_off1 i) a + S2x8.size a ≤ S32x8.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x8.size a ≤ S32x8.size a
  hwx0_0 : ∀ i : grid0.Coords, EltTy.bits .f32 = 32 ∨ (Rect.block (s := S32x8) S32x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x16.size a ≤ S16x16.size a
  hwx0_1 : ∀ i : grid0.Coords, EltTy.bits .f32 = 32 ∨ (Rect.block (s := S16x16) S16x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x8x100000.size a ≤ S32x8x100000.size a
  hwx0_2 : ∀ i : grid0.Coords, EltTy.bits .f32 = 32 ∨ (Rect.block (s := S32x8x100000) S2x8x100000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x16.size a ≤ S16x16.size a
  hwx0_3 : ∀ i : grid0.Coords, EltTy.bits .f32 = 32 ∨ (Rect.block (s := S16x16) S16x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x16.size a ≤ S16x16.size a
  hwx0_4 : ∀ i : grid0.Coords, EltTy.bits .f32 = 32 ∨ (Rect.block (s := S16x16) S16x16.size (cc0_transform_4 i) (hinb0_4 i)).WholeWords (EltTy.packing .f32)
  hcore1 : grid1.bound 0 ≤ τ.nSC
  hsub1 : grid1.bound 1 ≤ τ.nSub
  k1_off1_inb : ∀ i : grid1.Coords, ∀ a, (k1_off1 i) a + S1x16.size a ≤ S16x16.size a

variable [Facts₀]

abbrev cc1_scratch4 : DmaSems sig S_ := SemArray.consecutive 6 S_ hcc1_scratch4

abbrev win0_0 : Pipeline.Window sig grid0 :=
  Pipeline.Window.ofSpec (Memref.whole main_arg0) S32x8.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S2x8x100000.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S16x16.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S16x16.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond1 i == 1#1) | 4 => fun i => !(k0_cond1 i == 1#1) | ⟨_ + 5, h⟩ => absurd h (Nat.not_lt.2 (Nat.le_add_left _ _))

class Facts : Prop extends Facts₀ where

variable [Facts]
-- ==== ReferenceIdeal.lean ====
abbrev S32x8 : Shape := ⟨2, ![32, 8]⟩
abbrev S_ : Shape := ⟨0, ![]⟩
abbrev S32x8x100000 : Shape := ⟨3, ![32, 8, 100000]⟩
abbrev S32x8x1 : Shape := ⟨3, ![32, 8, 1]⟩
abbrev S32 : Shape := ⟨1, ![32]⟩
abbrev S8 : Shape := ⟨1, ![8]⟩
abbrev S1x32x8 : Shape := ⟨3, ![1, 32, 8]⟩
abbrev S2x32x8 : Shape := ⟨3, ![2, 32, 8]⟩
abbrev S32x8x3 : Shape := ⟨3, ![32, 8, 3]⟩

abbrev nBuf : Space → Nat
  | .hbm => 60
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S32x8, .i32⟩
  | .hbm, ⟨2, _⟩ => ⟨S32x8, .f32⟩
  | .hbm, ⟨3, _⟩ => ⟨S32x8, .f32⟩
  | .hbm, ⟨4, _⟩ => ⟨S_, .f32⟩
  | .hbm, ⟨5, _⟩ => ⟨S32x8, .f32⟩
  | .hbm, ⟨6, _⟩ => ⟨S32x8, .f32⟩
  | .hbm, ⟨7, _⟩ => ⟨S_, .f32⟩
  | .hbm, ⟨8, _⟩ => ⟨S32x8, .f32⟩
  | .hbm, ⟨9, _⟩ => ⟨S32x8, .f32⟩
  | .hbm, ⟨10, _⟩ => ⟨S_, .f32⟩
  | .hbm, ⟨11, _⟩ => ⟨S32x8x100000, .f32⟩
  | .hbm, ⟨12, _⟩ => ⟨S32x8x1, .f32⟩
  | .hbm, ⟨13, _⟩ => ⟨S_, .f32⟩
  | .hbm, ⟨14, _⟩ => ⟨S32x8x1, .f32⟩
  | .hbm, ⟨15, _⟩ => ⟨S32x8x1, .f32⟩
  | .hbm, ⟨16, _⟩ => ⟨S32x8x100000, .f32⟩
  | .hbm, ⟨17, _⟩ => ⟨S32x8x100000, .f32⟩
  | .hbm, ⟨18, _⟩ => ⟨S32, .i32⟩
  | .hbm, ⟨19, _⟩ => ⟨S32x8, .i32⟩
  | .hbm, ⟨20, _⟩ => ⟨S8, .i32⟩
  | .hbm, ⟨21, _⟩ => ⟨S32x8, .i32⟩
  | .hbm, ⟨22, _⟩ => ⟨S1x32x8, .i32⟩
  | .hbm, ⟨23, _⟩ => ⟨S1x32x8, .i32⟩
  | .hbm, ⟨24, _⟩ => ⟨S2x32x8, .i32⟩
  | .hbm, ⟨25, _⟩ => ⟨S1x32x8, .i32⟩
  | .hbm, ⟨26, _⟩ => ⟨S32x8, .i32⟩
  | .hbm, ⟨27, _⟩ => ⟨S1x32x8, .i32⟩
  | .hbm, ⟨28, _⟩ => ⟨S32x8, .i32⟩
  | .hbm, ⟨29, _⟩ => ⟨S_, .i32⟩
  | .hbm, ⟨30, _⟩ => ⟨S32x8, .i32⟩
  | .hbm, ⟨31, _⟩ => ⟨S32x8, .i1⟩
  | .hbm, ⟨32, _⟩ => ⟨S_, .i32⟩
  | .hbm, ⟨33, _⟩ => ⟨S32x8, .i32⟩
  | .hbm, ⟨34, _⟩ => ⟨S32x8, .i32⟩
  | .hbm, ⟨35, _⟩ => ⟨S32x8, .i32⟩
  | .hbm, ⟨36, _⟩ => ⟨S_, .i32⟩
  | .hbm, ⟨37, _⟩ => ⟨S32x8, .i32⟩
  | .hbm, ⟨38, _⟩ => ⟨S32x8, .i1⟩
  | .hbm, ⟨39, _⟩ => ⟨S_, .i32⟩
  | .hbm, ⟨40, _⟩ => ⟨S32x8, .i32⟩
  | .hbm, ⟨41, _⟩ => ⟨S32x8, .i32⟩
  | .hbm, ⟨42, _⟩ => ⟨S32x8, .i32⟩
  | .hbm, ⟨43, _⟩ => ⟨S_, .i32⟩
  | .hbm, ⟨44, _⟩ => ⟨S32x8, .i32⟩
  | .hbm, ⟨45, _⟩ => ⟨S32x8, .i1⟩
  | .hbm, ⟨46, _⟩ => ⟨S_, .i32⟩
  | .hbm, ⟨47, _⟩ => ⟨S32x8, .i32⟩
  | .hbm, ⟨48, _⟩ => ⟨S32x8, .i32⟩
  | .hbm, ⟨49, _⟩ => ⟨S32x8, .i32⟩
  | .hbm, ⟨50, _⟩ => ⟨S32x8x1, .i32⟩
  | .hbm, ⟨51, _⟩ => ⟨S32x8x1, .i32⟩
  | .hbm, ⟨52, _⟩ => ⟨S32x8x1, .i32⟩
  | .hbm, ⟨53, _⟩ => ⟨S32x8x3, .i32⟩
  | .hbm, ⟨54, _⟩ => ⟨S32x8x100000, .f32⟩
  | .hbm, ⟨55, _⟩ => ⟨S32x8x100000, .f32⟩
  | .hbm, ⟨56, _⟩ => ⟨S_, .f32⟩
  | .hbm, ⟨57, _⟩ => ⟨S_, .f32⟩
  | .hbm, ⟨58, _⟩ => ⟨S32x8x100000, .f32⟩
  | .hbm, ⟨59, _⟩ => ⟨S32x8x100000, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c : Ref sig .tc := ⟨.hbm, 29, rfl⟩
abbrev main_v23 : Ref sig .tc := ⟨.hbm, 30, rfl⟩
abbrev main_v24 : Ref sig .tc := ⟨.hbm, 31, rfl⟩
abbrev main_c_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_4 : Ref sig .tc := ⟨.hbm, 36, rfl⟩
abbrev main_v28 : Ref sig .tc := ⟨.hbm, 37, rfl⟩
abbrev main_v29 : Ref sig .tc := ⟨.hbm, 38, rfl⟩
abbrev main_c_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_6 : Ref sig .tc := ⟨.hbm, 43, rfl⟩
abbrev main_v33 : Ref sig .tc := ⟨.hbm, 44, rfl⟩
abbrev main_v34 : Ref sig .tc := ⟨.hbm, 45, rfl⟩
abbrev main_c_7 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_8 : Ref sig .tc := ⟨.hbm, 56, rfl⟩
abbrev main_call0_v0 : Ref sig .tc := ⟨.hbm, 57, rfl⟩
abbrev main_call0_v1 : Ref sig .tc := ⟨.hbm, 58, rfl⟩
abbrev main_v44 : Ref sig .tc := ⟨.hbm, 59, rfl⟩

abbrev nD : Nat := 1
abbrev τ : Topo := Topo.v7x

variable {F : FTy → Type} [FloatOps F]

class Facts₀ : Prop where
  bcast_S_S32x8 : S_.BroadcastsInDim S32x8 (![] : Fin 0 → Fin S32x8.rank)
  bcast_S_S32x8x100000 : S_.BroadcastsInDim S32x8x100000 (![] : Fin 0 → Fin S32x8x100000.rank)
  bcast_S32x8_S32x8x1_0_1 : S32x8.BroadcastsInDim S32x8x1 (![0, 1] : Fin 2 → Fin S32x8x1.rank)
  bcast_S_S32x8x1 : S_.BroadcastsInDim S32x8x1 (![] : Fin 0 → Fin S32x8x1.rank)
  bcast_S32x8x1_S32x8x100000_0_1_2 : S32x8x1.BroadcastsInDim S32x8x100000 (![0, 1, 2] : Fin 3 → Fin S32x8x100000.rank)
  bcast_S32_S32x8_0 : S32.BroadcastsInDim S32x8 (![0] : Fin 1 → Fin S32x8.rank)
  bcast_S8_S32x8_1 : S8.BroadcastsInDim S32x8 (![1] : Fin 1 → Fin S32x8.rank)
  bcast_S32x8_S1x32x8_1_2 : S32x8.BroadcastsInDim S1x32x8 (![1, 2] : Fin 2 → Fin S1x32x8.rank)
  concatenates_S1x32x8_S1x32x8_S2x32x8_d0 : Shape.Concatenates [S1x32x8, S1x32x8] S2x32x8 0
  slices_S2x32x8_S1x32x8_0_0_0 : S2x32x8.Slices ![0, 0, 0] S1x32x8
  shapeCasts_S1x32x8_S32x8 : S1x32x8.ShapeCasts S32x8
  slices_S2x32x8_S1x32x8_1_0_0 : S2x32x8.Slices ![1, 0, 0] S1x32x8
  concatenates_S32x8x1_S32x8x1_S32x8x1_S32x8x3_d2 : Shape.Concatenates [S32x8x1, S32x8x1, S32x8x1] S32x8x3 2
  scatter_S32x8x100000_S32x8x3_S32x8_n_012_012_2_wf : ScatterDims.WF S32x8x100000 S32x8x3 S32x8 [] [0, 1, 2] [0, 1, 2] 2

variable [Facts₀]

def scatter_S32x8x100000_S32x8x3_S32x8_n_012_012_2 : ScatterDims S32x8x100000 S32x8x3 S32x8 where
  updateWindowDims := []
  insertedWindowDims := [0, 1, 2]
  scatterDimsToOperandDims := [0, 1, 2]
  indexVectorDim := 2
  wf := scatter_S32x8x100000_S32x8x3_S32x8_n_012_012_2_wf

class Facts : Prop extends Facts₀ where

variable [Facts]
-- ==== Proof.Spec.lean ====
/-
  The specification of the result, as one function of the two argument arrays, index by index.
  With s = logistic, u the f32 word 0x3727C5AC, the floor the f32 word 0xC9742400 and one the f32 word
  0x3F800000, an output row (b, q) holds  max (log ((one - s x) * u)) floor  at every vocabulary position but
  the one the integer argument names, where it holds  max (log ((one - s x) * u + s x)) floor,  x the float
  argument at (b, q).  The literals are kept as the words they are printed as; none is evaluated here.
-/
import Idealize.ShloMosaic.PureOps.Ideal
import Idealize.ShloMosaic.Lib.ValueIdx

noncomputable section

namespace Cert.Spec

open Idealize.ShloMosaic Idealize.ShloMosaic.ValueIdx

/-- The two argument arrays' shape. -/
abbrev S32x8 : Shape := ⟨2, ![32, 8]⟩
/-- The result's shape. -/
abbrev S32x8x100000 : Shape := ⟨3, ![32, 8, 100000]⟩

/-- The f32 word of one. -/
abbrev one : Ideal .f32 := Ideal.ofBits .f32 0x3F800000#32
/-- The f32 word nearest 1/100000: the uniform prior's weight. -/
abbrev u : Ideal .f32 := Ideal.ofBits .f32 0x3727C5AC#32
/-- The f32 word of -1000000: the floor the logarithm is clipped at. -/
abbrev floor : Ideal .f32 := Ideal.ofBits .f32 0xC9742400#32

/-- The value away from the named position: the clipped logarithm of the prior's share. -/
def baseV (x : Ideal .f32) : Ideal .f32 :=
  max (Ideal.log ((one - Ideal.logistic x) * u)) floor

/-- The value at the named position: the clipped logarithm of the prior's share plus the mixing rate. -/
def peakV (x : Ideal .f32) : Ideal .f32 :=
  max (Ideal.log ((one - Ideal.logistic x) * u + Ideal.logistic x)) floor

/-- The result, index by index. -/
def G (x : FVec Ideal S32x8 .f32) (ids : IVec S32x8 32) : FVec Ideal S32x8x100000 .f32 :=
  fun j => if (j 2).val = (ids (ix2 (j 0) (j 1))).toNat then peakV (x (ix2 (j 0) (j 1)))
    else baseV (x (ix2 (j 0) (j 1)))

/-- The result at coordinates. -/
theorem G_apply (x : FVec Ideal S32x8 .f32) (ids : IVec S32x8 32) (b : Fin 32) (q : Fin 8) (v : Fin 100000) :
    G x ids (ix3 b q v) = if v.val = (ids (ix2 b q)).toNat then peakV (x (ix2 b q)) else baseV (x (ix2 b q)) := rfl

end Cert.Spec

end
-- ==== Proof.RefValue.lean ====
/-
  The reference program at the ideal instance computes the specification's function.
  Its frame is its generated run with the result dropped.  Its result term is read index by index: the float chain
  1 / (1 + exp (-x)) is the logistic function; the product with the prior's weight is broadcast along the vocabulary axis; the
  accumulating scatter adds the mixing rate of row-and-column (b, q) at the one position (b, q, ids[b, q]) — the index table
  is the row number, the column number and the integer argument's word, each left alone by the negative-index wrap because
  it is not negative — so at (b, q, v) the sum over the updates that land there is that one update when v is the named
  position and empty otherwise; the logarithm and the clip at the floor follow, the clip's maximum taken in the other order
  than the specification's.
-/
import proofs.«211088_g14680198218050_cont_week2b_81_31_alg».proof.Defs
import proofs.«211088_g14680198218050_cont_week2b_81_31_alg».proof.Proof.Gen.ReferenceIdeal.Run
import proofs.«211088_g14680198218050_cont_week2b_81_31_alg».proof.Proof.Gen.ReferenceIdeal.Read
import proofs.«211088_g14680198218050_cont_week2b_81_31_alg».proof.Proof.Gen.Pre_input_domain
import proofs.«211088_g14680198218050_cont_week2b_81_31_alg».proof.Proof.Spec
import Idealize.ShloMosaic.Lib.IdealHost

noncomputable section

namespace Cert.RefValue

open Idealize.ShloMosaic Idealize.ShloMosaic.TcCoe Idealize.SL.Sem Idealize.ShloMosaic.ValueIdx
open Cert.ReferenceIdeal Cert.ReferenceIdeal.Gen Cert.ReferenceIdeal.Read

/-! ## The index table of the scatter -/

/-- A word below 2^31 is not negative, so the negative-index wrap leaves it alone. -/
theorem wrap_nonneg (a k : BitVec 32) (h : a.toNat < 2147483648) :
    Scalar.select (IntOp.cmpi .slt a 0#32) (IntOp.addi a k) a = a := by
  have h0 : a.slt 0#32 = false := by
    rw [BitVec.slt_eq_decide, BitVec.toInt_eq_toNat_cond]
    simp
    omega
  unfold Scalar.select IntOp.cmpi
  simp [h0]

theorem v20_apply (b : Fin 32) (q : Fin 8) : val_main_v20 (F := Ideal) (ix2 b q) = BitVec.ofNat 32 b.val := by
  rw [val_main_v20_apply, val_main_v19_apply]
  unfold val_main_v18
  rw [concatenate_pair_apply_left (t := S2x32x8) (s₁ := S1x32x8) (s₂ := S1x32x8) 0 _ _ _ _ rfl (idx_main_v20 (ix2 b q))
    (fun a => by match a with | ⟨0, _⟩ => rfl | ⟨1, _⟩ => rfl | ⟨2, _⟩ => rfl)]
  rw [val_main_v16_apply, val_main_v13_apply, val_main_v12_apply]
  congr 1
  show ((b.val * 8 + q.val) / 8 % 32) = b.val
  omega

theorem v22_apply (b : Fin 32) (q : Fin 8) : val_main_v22 (F := Ideal) (ix2 b q) = BitVec.ofNat 32 q.val := by
  rw [val_main_v22_apply, val_main_v21_apply]
  unfold val_main_v18
  rw [concatenate_pair_apply_right (t := S2x32x8) (s₁ := S1x32x8) (s₂ := S1x32x8) 0 _ _ _ _ rfl rfl (idx_main_v22 (ix2 b q))
    (fun a ha => by match a with | ⟨0, _⟩ => exact absurd rfl ha | ⟨1, _⟩ => rfl | ⟨2, _⟩ => rfl) rfl]
  rw [val_main_v17_apply, val_main_v15_apply, val_main_v14_apply]
  congr 1
  show ((b.val * 8 + q.val) % 8) = q.val
  omega

theorem v27_apply (b : Fin 32) (q : Fin 8) : val_main_v27 (F := Ideal) (ix2 b q) = BitVec.ofNat 32 b.val := by
  rw [val_main_v27_apply, val_main_v24_apply, val_main_v26_apply, val_main_v23_apply, val_main_c_apply, v20_apply]
  exact wrap_nonneg _ _ (by rw [BitVec.toNat_ofNat]; have := b.isLt; omega)

theorem v32_apply (b : Fin 32) (q : Fin 8) : val_main_v32 (F := Ideal) (ix2 b q) = BitVec.ofNat 32 q.val := by
  rw [val_main_v32_apply, val_main_v29_apply, val_main_v31_apply, val_main_v28_apply, val_main_c_4_apply, v22_apply]
  exact wrap_nonneg _ _ (by rw [BitVec.toNat_ofNat]; have := q.isLt; omega)

theorem v37_apply (ids : IVec S32x8 32) (i : S32x8.Idx) (h : (ids i).toNat < 100000) :
    val_main_v37 (F := Ideal) ids i = ids i := by
  rw [val_main_v37_apply, val_main_v34_apply, val_main_v36_apply, val_main_v33_apply, val_main_c_6_apply]
  exact wrap_nonneg _ _ (by omega)

/-- The broadcast to a trailing unit axis reads the row-and-column index. -/
theorem idx38 (b : Fin 32) (q : Fin 8) (z : Fin 1) : idx_main_v38 (ix3 b q z) = ix2 b q := by
  funext a; match a with | ⟨0, _⟩ => rfl | ⟨1, _⟩ => rfl
theorem idx39 (b : Fin 32) (q : Fin 8) (z : Fin 1) : idx_main_v39 (ix3 b q z) = ix2 b q := by
  funext a; match a with | ⟨0, _⟩ => rfl | ⟨1, _⟩ => rfl
theorem idx40 (b : Fin 32) (q : Fin 8) (z : Fin 1) : idx_main_v40 (ix3 b q z) = ix2 b q := by
  funext a; match a with | ⟨0, _⟩ => rfl | ⟨1, _⟩ => rfl

/-- The scatter's index table at `(b, q, 0)`: the row. -/
theorem v41_apply0 (ids : IVec S32x8 32) (b : Fin 32) (q : Fin 8) :
    val_main_v41 (F := Ideal) ids (ix3 b q (0 : Fin 3)) = BitVec.ofNat 32 b.val := by
  unfold val_main_v41
  rw [concatenate_apply_piece (t := S32x8x3) 2 _ _ _ 0 (by simp) S32x8x1 _ rfl rfl 0 rfl (ix3 b q (0 : Fin 1))
    (fun a ha => by match a with | ⟨0, _⟩ => rfl | ⟨1, _⟩ => rfl | ⟨2, _⟩ => exact absurd rfl ha) rfl]
  rw [val_main_v38_apply, idx38, v27_apply]

/-- The scatter's index table at `(b, q, 1)`: the column. -/
theorem v41_apply1 (ids : IVec S32x8 32) (b : Fin 32) (q : Fin 8) :
    val_main_v41 (F := Ideal) ids (ix3 b q (1 : Fin 3)) = BitVec.ofNat 32 q.val := by
  unfold val_main_v41
  rw [concatenate_apply_piece (t := S32x8x3) 2 _ _ _ 1 (by simp) S32x8x1 _ rfl rfl 1 rfl (ix3 b q (0 : Fin 1))
    (fun a ha => by match a with | ⟨0, _⟩ => rfl | ⟨1, _⟩ => rfl | ⟨2, _⟩ => exact absurd rfl ha) rfl]
  rw [val_main_v39_apply, idx39, v32_apply]

/-- The scatter's index table at `(b, q, 2)`: the integer argument's word, when that is in range. -/
theorem v41_apply2 (ids : IVec S32x8 32) (b : Fin 32) (q : Fin 8) (h : (ids (ix2 b q)).toNat < 100000) :
    val_main_v41 (F := Ideal) ids (ix3 b q (2 : Fin 3)) = ids (ix2 b q) := by
  unfold val_main_v41
  rw [concatenate_apply_piece (t := S32x8x3) 2 _ _ _ 2 (by simp) S32x8x1 _ rfl rfl 2 rfl (ix3 b q (0 : Fin 1))
    (fun a ha => by match a with | ⟨0, _⟩ => rfl | ⟨1, _⟩ => rfl | ⟨2, _⟩ => exact absurd rfl ha) rfl]
  rw [val_main_v40_apply, idx40, v37_apply _ _ h]

/-! ## The scatter's dimension numbers, read at an update index -/

/-- The scatter's dimension numbers: every operand axis is an inserted window axis, the index vector's three
    components go to the three operand axes in order. -/
abbrev D : ScatterDims S32x8x100000 S32x8x3 S32x8 := scatter_S32x8x100000_S32x8x3_S32x8_n_012_012_2

/-- A word below 2^31 read signed is its unsigned value. -/
theorem toInt_small (a : BitVec 32) (h : a.toNat < 2147483648) : a.toInt = (a.toNat : Int) := by
  rw [BitVec.toInt_eq_toNat_cond, if_pos (by omega)]

/-- No operand axis is kept, so every window coordinate is zero. -/
theorem window_eq (j : S32x8.Idx) (a : Fin 3) : D.window j a = 0 := by
  unfold ScatterDims.window
  rw [dif_neg ((by decide : ∀ a : Fin 3, a ∉ D.sKept) a)]

/-- The start on operand axis `a` for update `(b, q)` is the index table's word at `(b, q, a)`, read signed. -/
theorem start_eq (idx : IVec S32x8x3 32) (b : Fin 32) (q : Fin 8) (a : Fin 3) :
    D.start (ix2 b q) idx a = (idx (ix3 b q a)).toInt := by
  match a with
  | ⟨0, _⟩ =>
    unfold ScatterDims.start
    rw [dif_pos ((by decide : ∀ a : Fin 3, a ∈ D.scatterDimsToOperandDims) _)]
    exact congrArg (fun z => (idx z).toInt) (funext fun c => by match c with | ⟨0, _⟩ => rfl | ⟨1, _⟩ => rfl | ⟨2, _⟩ => rfl)
  | ⟨1, _⟩ =>
    unfold ScatterDims.start
    rw [dif_pos ((by decide : ∀ a : Fin 3, a ∈ D.scatterDimsToOperandDims) _)]
    exact congrArg (fun z => (idx z).toInt) (funext fun c => by match c with | ⟨0, _⟩ => rfl | ⟨1, _⟩ => rfl | ⟨2, _⟩ => rfl)
  | ⟨2, _⟩ =>
    unfold ScatterDims.start
    rw [dif_pos ((by decide : ∀ a : Fin 3, a ∈ D.scatterDimsToOperandDims) _)]
    exact congrArg (fun z => (idx z).toInt) (funext fun c => by match c with | ⟨0, _⟩ => rfl | ⟨1, _⟩ => rfl | ⟨2, _⟩ => rfl)

/-- Update `(b, q)` lands at `(b, q, p)` when the index table holds the row, the column and a word `p` below the
    vocabulary size there. -/
theorem resultIdx_eq (idx : IVec S32x8x3 32) (b : Fin 32) (q : Fin 8) (p : Fin 100000)
    (h0 : idx (ix3 b q (0 : Fin 3)) = BitVec.ofNat 32 b.val) (h1 : idx (ix3 b q (1 : Fin 3)) = BitVec.ofNat 32 q.val)
    (h2 : (idx (ix3 b q (2 : Fin 3))).toNat = p.val) :
    D.resultIdx? (ix2 b q) idx = some (ix3 b q p) := by
  have sw : ∀ a : Fin 3, D.start (ix2 b q) idx a + D.window (ix2 b q) a = (((ix3 b q p) a).val : Int) := by
    intro a
    rw [start_eq, window_eq, Int.natCast_zero, Int.add_zero]
    match a with
    | ⟨0, _⟩ =>
      show (idx (ix3 b q (0 : Fin 3))).toInt = (b.val : Int)
      have hb := b.isLt
      rw [h0, toInt_small _ (by rw [BitVec.toNat_ofNat]; omega), BitVec.toNat_ofNat]
      congr 1; omega
    | ⟨1, _⟩ =>
      show (idx (ix3 b q (1 : Fin 3))).toInt = (q.val : Int)
      have hq := q.isLt
      rw [h1, toInt_small _ (by rw [BitVec.toNat_ofNat]; omega), BitVec.toNat_ofNat]
      congr 1; omega
    | ⟨2, _⟩ =>
      show (idx (ix3 b q (2 : Fin 3))).toInt = (p.val : Int)
      have hp := p.isLt
      rw [toInt_small _ (by omega), h2]
  have H : ∀ a : Fin 3, 0 ≤ D.start (ix2 b q) idx a + D.window (ix2 b q) a
      ∧ D.start (ix2 b q) idx a + D.window (ix2 b q) a < ((S32x8x100000.size a : Nat) : Int) := by
    intro a
    rw [sw a]
    exact ⟨Int.natCast_nonneg _, Int.ofNat_lt.mpr ((ix3 b q p) a).isLt⟩
  unfold ScatterDims.resultIdx?
  rw [dif_pos H]
  congr 1
  funext a
  apply Fin.ext
  show (D.start (ix2 b q) idx a + D.window (ix2 b q) a).toNat = ((ix3 b q p) a).val
  rw [sw a, Int.toNat_natCast]

/-! ## The accumulating scatter at an index -/

/-- Every update lands: update `(b, q)` at `(b, q, ids[b, q])`. -/
theorem resultIdx_v41 (ids : IVec S32x8 32) (hids : ∀ i, (ids i).toNat < 100000) (b : Fin 32) (q : Fin 8) :
    D.resultIdx? (ix2 b q) (val_main_v41 (F := Ideal) ids) = some (ix3 b q ⟨(ids (ix2 b q)).toNat, hids _⟩) :=
  resultIdx_eq _ b q _ (v41_apply0 ids b q) (v41_apply1 ids b q) (by rw [v41_apply2 ids b q (hids _)])

/-- The scatter at `(b, q, v)`: the operand there, plus the update `(b, q)` when `v` is the position it names. -/
theorem scatter_apply (x0 : FVec Ideal S32x8 .f32) (ids : IVec S32x8 32) (hids : ∀ i, (ids i).toNat < 100000)
    (b : Fin 32) (q : Fin 8) (v : Fin 100000) :
    val_main_v42 (F := Ideal) x0 ids (ix3 b q v)
      = val_main_v11 (F := Ideal) x0 (ix3 b q v)
        + (if v.val = (ids (ix2 b q)).toNat then val_main_v5 (F := Ideal) x0 (ix2 b q) else 0) := by
  unfold val_main_v42 Host.scatterAdd
  show Ideal.hostScatterAdd D _ _ _ _ = _
  unfold Ideal.hostScatterAdd
  refine congrArg (fun z => val_main_v11 (F := Ideal) x0 (ix3 b q v) + z) ?_
  by_cases hv : v.val = (ids (ix2 b q)).toNat
  · rw [if_pos hv, Finset.sum_eq_single (ix2 b q)]
    · intro j hj hne
      obtain ⟨b', q', rfl⟩ : ∃ (b' : Fin 32) (q' : Fin 8), j = ix2 b' q' := ⟨j 0, j 1, eq_ix2 j⟩
      rw [Finset.mem_filter, resultIdx_v41 ids hids b' q'] at hj
      have e := Option.some.inj hj.2
      have e0 : b' = b := congrFun e 0
      have e1 : q' = q := congrFun e 1
      subst e0 e1
      exact absurd rfl hne
    · intro hnot
      exfalso
      apply hnot
      rw [Finset.mem_filter]
      refine ⟨Finset.mem_univ _, ?_⟩
      rw [resultIdx_v41 ids hids b q]
      exact congrArg some (congrArg (ix3 b q) (Fin.ext hv.symm))
  · rw [if_neg hv]
    refine Finset.sum_eq_zero fun j hj => ?_
    exfalso
    obtain ⟨b', q', rfl⟩ : ∃ (b' : Fin 32) (q' : Fin 8), j = ix2 b' q' := ⟨j 0, j 1, eq_ix2 j⟩
    rw [Finset.mem_filter, resultIdx_v41 ids hids b' q'] at hj
    have e := Option.some.inj hj.2
    have e0 : b' = b := congrFun e 0
    have e1 : q' = q := congrFun e 1
    have e2 : (ids (ix2 b' q')).toNat = v.val := congrArg Fin.val (congrFun e 2)
    subst e0 e1
    exact hv e2.symm
/-! ## The float chain -/

/-- The reference's quotient 1 / (1 + exp (-x)), its ones the f32 word of one, is the logistic function. -/
theorem sigmoid_eq (x : EReal) :
    Ideal.div (Ideal.ofBits .f32 0x3F800000#32) (Ideal.ofBits .f32 0x3F800000#32 + Ideal.exp (-x)) = Ideal.logistic x := by
  rw [Ideal.ofBits_one_f32]; rfl

/-- The mixing rate at `(b, q)`. -/
theorem v5_apply (x0 : FVec Ideal S32x8 .f32) (i : S32x8.Idx) :
    val_main_v5 (F := Ideal) x0 i = Ideal.logistic (x0 i) := by
  rw [val_main_v5_apply, val_main_v4_apply, val_main_cst_0_apply, val_main_v3_apply, val_main_v2_apply, val_main_cst_apply,
    val_main_v1_apply, val_main_v0_apply]
  exact sigmoid_eq (x0 i)

theorem idx7_10 (b : Fin 32) (q : Fin 8) (v : Fin 100000) : idx_main_v7 (idx_main_v10 (ix3 b q v)) = ix2 b q := by
  funext a; match a with | ⟨0, _⟩ => rfl | ⟨1, _⟩ => rfl

/-- The prior's share at `(b, q, v)`. -/
theorem v11_apply (x0 : FVec Ideal S32x8 .f32) (b : Fin 32) (q : Fin 8) (v : Fin 100000) :
    val_main_v11 (F := Ideal) x0 (ix3 b q v) = (Cert.Spec.one - Ideal.logistic (x0 (ix2 b q))) * Cert.Spec.u := by
  rw [val_main_v11_apply, val_main_v10_apply, val_main_v9_apply, val_main_v8_apply, val_main_cst_2_apply, val_main_v7_apply,
    val_main_v6_apply, val_main_cst_1_apply, v5_apply, idx7_10]
  rfl

/-! ## The reference is the specification -/

/-- The reference's result term, at the ideal instance, is the specification's function of the two argument arrays,
    when the integer argument's words are below the vocabulary size. -/
theorem result_eq (x0 : FVec Ideal S32x8 .f32) (ids : IVec S32x8 32) (hids : ∀ i, (ids i).toNat < 100000) :
    val_main_v44 (F := Ideal) x0 ids = Cert.Spec.G x0 ids := by
  funext j
  obtain ⟨b, q, v, rfl⟩ : ∃ (b : Fin 32) (q : Fin 8) (v : Fin 100000), j = ix3 b q v := ⟨j 0, j 1, j 2, eq_ix3 j⟩
  rw [val_main_v44_apply, val_main_call0_v1_apply, val_main_call0_v0_apply, val_main_cst_8_apply, val_main_v43_apply,
    scatter_apply x0 ids hids, v11_apply, v5_apply, Cert.Spec.G_apply]
  by_cases hv : v.val = (ids (ix2 b q)).toNat
  · rw [if_pos hv, if_pos hv]
    exact max_comm _ _
  · rw [if_neg hv, if_neg hv, add_zero]
    exact max_comm _ _

/-! ## The run -/

/-- The run's result term is the specification's function of the arguments' launch contents. -/
theorem res_eq (m : (ℓ : Loc nD τ sig) → Buf (Elt Ideal) ℓ) (c : Dev nD)
    (hids : ∀ i, ((m ((c.tc : Thread nD τ).loc main_arg1) : IVec S32x8 32) i).toNat < 100000) :
    Cert.ReferenceIdeal.Value.res_main_v44 (F := Ideal) m c
      = Cert.Spec.G (m ((c.tc : Thread nD τ).loc main_arg0)) (m ((c.tc : Thread nD τ).loc main_arg1)) :=
  (val_main_v44_eq m c).trans (result_eq _ _ hids)

/-- The reference runs, faults nowhere and leaves its arguments unchanged: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The reference's run with its result named by the specification, when the integer argument's words are below the
    vocabulary size. -/
theorem run_G (m : (ℓ : Loc nD τ sig) → Buf (Elt Ideal) ℓ) (ρ : Dev nD → PrngReg)
    (hids : ∀ (c : Dev nD) i, ((m ((c.tc : Thread nD τ).loc main_arg1) : IVec S32x8 32) i).toNat < 100000) :
    θ_run defs (onTc (τ := τ) (main (F := Ideal))) ⟨m, fun _ => 0, ρ⟩ fun r => ∀ c : Dev nD,
      r.2.mem ((c.tc : Thread nD τ).loc main_v44)
          = Cert.Spec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (res_eq m c (hids c)), (h c).2⟩)
    (Cert.ReferenceIdeal.Value.run (F := Ideal) m ρ)

end Cert.RefValue

end
-- ==== Proof.Common.lean ====
/-
  The shared setting of the kernel's frame and value proof.  The program is @main on the TensorCore — two reshapes,
  one TensorCore kernel region that fills the result with the off-token value and produces the two 16×16 tables of
  off-token and on-token values, a copy of the filled array, and one SparseCore vector-subcore call — beside the
  sequencers' and the sixteen tiles' threads.  Tile `s` reads row `s` of the two tables and of the reshaped token
  ids and overwrites, for each of its sixteen (row, column) positions, the aligned block of sixteen lanes that holds
  the position's token id.  Stated here: the program as the launch theorem reads it, the ghost state (the handshakes'
  rounds, the staging cells' rounds, the transfers' counters), the arrays by name, the array the tiles leave (`outV`),
  and what the handshakes carry.
-/
import proofs.«211088_g14680198218050_cont_week2b_81_31_alg».proof.KernelIdeal
import proofs.«211088_g14680198218050_cont_week2b_81_31_alg».proof.Proof.Gen.KernelIdeal
import proofs.«211088_g14680198218050_cont_week2b_81_31_alg».proof.Proof.Gen.KernelIdeal.Launch
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Batch
import Idealize.ShloMosaic.Lib.ValueIdx
import Idealize.ShloMosaic.Lib.Tactic

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 1 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the staging cells' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds, the left factor. -/
abbrev EH : Emb UH (MT nD τ sig (HIx 1) (Elt F) ℕ UU ℕ) := embL
/-- The staging cells' rounds, the left of the right factor. -/
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP embR; infer_instance

/-- The one admissible contents of the (absent) prefetched tables of the TensorCore kernel's pipeline. -/
abbrev adm : (p : Fin 1) → (pcfgs (F := F) p).Adm := fun p => (cfgs p).toPCfg_adm

/-! ## The arrays -/

abbrev aLoc (d : Dev nD) : Loc nD τ sig := (SparseCore.T d).loc main_arg0   -- the log-SNR argument, f32[32,8]
abbrev iLoc (d : Dev nD) : Loc nD τ sig := (SparseCore.T d).loc main_arg1   -- the token ids, i32[32,8]
abbrev xLoc (d : Dev nD) : Loc nD τ sig := (SparseCore.T d).loc main_v0     -- the log-SNR reshaped, f32[16,16]
abbrev fLoc (d : Dev nD) : Loc nD τ sig := (SparseCore.T d).loc main_v1_0   -- the filled array, f32[32,8,100000]
abbrev bLoc (d : Dev nD) : Loc nD τ sig := (SparseCore.T d).loc main_v1_1   -- the off-token table, f32[16,16]
abbrev pLoc (d : Dev nD) : Loc nD τ sig := (SparseCore.T d).loc main_v1_2   -- the on-token table, f32[16,16]
abbrev jLoc (d : Dev nD) : Loc nD τ sig := (SparseCore.T d).loc main_v2     -- the token ids reshaped, i32[16,16]
abbrev oLoc (d : Dev nD) : Loc nD τ sig := (SparseCore.T d).loc main_v3     -- the result, f32[32,8,100000]

/-- The arrays the SparseCore call starts from, per device: the result array as the copy left it (`fv`), the two
    tables (`bv`, `pv`) and the reshaped token ids (`iv`). -/
structure Vals (F : FTy → Type) where
  fv : (d : Dev nD) → Buf (Elt F) (oLoc d)
  bv : (d : Dev nD) → Buf (Elt F) (bLoc d)
  pv : (d : Dev nD) → Buf (Elt F) (pLoc d)
  iv : (d : Dev nD) → Buf (Elt F) (jLoc d)

/-- The tile that owns row `b` of the result, and the position's number within the tile. -/
abbrev tileOf (b : Fin 32) : Fin 16 := ⟨b.val / 2, by omega⟩
abbrev posOf (b : Fin 32) (c : Fin 8) : Fin 16 := ⟨(b.val % 2) * 8 + c.val, by omega⟩

/-- The result array as the sixteen tiles leave it: at position `(b, c)` the aligned block of sixteen lanes holding the
    position's token id `p` is overwritten — lane `p` by the on-token table's entry, the others by the off-token
    table's —, every other lane keeps what the copy left. -/
def outV (vals : Vals F) (d : Dev nD) : Buf (Elt F) (oLoc d) := fun j =>
  let b : Fin 32 := j 0
  let c : Fin 8 := j 1
  let t : S16x16.Idx := ValueIdx.ix2 (tileOf b) (posOf b c)
  let p : Nat := (vals.iv d t : BitVec 32).toNat
  if 16 * (p / 16) ≤ (j 2).val ∧ (j 2).val < 16 * (p / 16) + 16 then
    (if (j 2).val = p then vals.pv d t else vals.bv d t)
  else vals.fv d j

/-- What the proof asks of the token ids: every one is below the vocabulary's size. -/
def IdsOK (vals : Vals F) : Prop := ∀ (d : Dev nD) (t : S16x16.Idx), (vals.iv d t : BitVec 32).toNat < 100000

/-! ## The rows of the tables and the slabs of the result, one per tile -/

abbrev bV : Memref sig .scVector .hbm S16x16 .f32 := Memref.whole main_v1_1_scv
abbrev pV : Memref sig .scVector .hbm S16x16 .f32 := Memref.whole main_v1_2_scv
abbrev iV : Memref sig .scVector .hbm S16x16 .i32 := Memref.whole main_v2_scv
abbrev oV : Memref sig .scVector .hbm S32x8x100000 .f32 := Memref.whole main_v3_scv

theorem hdiv16 : 16 ∣ S16x16.size 0 := ⟨1, rfl⟩
theorem hdiv32 : 16 ∣ S32x8x100000.size 0 := ⟨2, rfl⟩
/-- Row `i` of a 16×16 table. -/
abbrev row (i : Fin 16) : Rect S16x16 := Rect.part (s := S16x16) (a₀ := 0) hdiv16 i
/-- Tile `i`'s slab of the result: rows `2 i` and `2 i + 1`. -/
abbrev slab (i : Fin 16) : Rect S32x8x100000 := Rect.part (s := S32x8x100000) (a₀ := 0) hdiv32 i
abbrev rowSet (i : Fin 16) : Finset S16x16.Idx := (row i).set
abbrev slabSet (i : Fin 16) : Finset S32x8x100000.Idx := (slab i).set

/-! ## What the handshakes carry -/

section Pay

variable (vals : Vals F)

abbrev bPts (d : Dev nD) : sProp 𝕄 := bLoc d ↦{fullShare} vals.bv d
abbrev pPts (d : Dev nD) : sProp 𝕄 := pLoc d ↦{fullShare} vals.pv d
abbrev iPts (d : Dev nD) : sProp 𝕄 := jLoc d ↦{fullShare} vals.iv d
abbrev oPts (d : Dev nD) (f : Buf (Elt F) (oLoc d)) : sProp 𝕄 := oLoc d ↦{fullShare} f
abbrev bRowPts (d : Dev nD) (i : Fin 16) : sProp 𝕄 := bLoc d ↦[rowSet i]{fullShare} vals.bv d
abbrev pRowPts (d : Dev nD) (i : Fin 16) : sProp 𝕄 := pLoc d ↦[rowSet i]{fullShare} vals.pv d
abbrev iRowPts (d : Dev nD) (i : Fin 16) : sProp 𝕄 := jLoc d ↦[rowSet i]{fullShare} vals.iv d
abbrev oSlabPts (d : Dev nD) (i : Fin 16) (f : Buf (Elt F) (oLoc d)) : sProp 𝕄 := oLoc d ↦[slabSet i]{fullShare} f

/-- The one call takes the two tables, the reshaped ids and the result array whole; each task gets row `i` of the first
    three and slab `i` of the result, and brings them back, the slab at what the tiles leave (`outV`). -/
def P : (K (F := F)).Pay (nD := nD) (Val := Elt F) (Name := ℕ) (U := UU) where
  st := fun q d _ => match q with | 0 => iprop(bPts vals d ∗ pPts vals d ∗ iPts vals d ∗ oPts d (vals.fv d))
  dn := fun q d _ => match q with | 0 => iprop(bPts vals d ∗ pPts vals d ∗ iPts vals d ∗ oPts d (outV vals d))
  go := fun q d _ i => match q with
    | 0 => iprop(bRowPts vals d (Fin.cast nSub_zero i) ∗ pRowPts vals d (Fin.cast nSub_zero i) ∗ iRowPts vals d (Fin.cast nSub_zero i)
        ∗ oSlabPts d (Fin.cast nSub_zero i) (vals.fv d))
  td := fun q d _ i => match q with
    | 0 => iprop(bRowPts vals d (Fin.cast nSub_zero i) ∗ pRowPts vals d (Fin.cast nSub_zero i) ∗ iRowPts vals d (Fin.cast nSub_zero i)
        ∗ oSlabPts d (Fin.cast nSub_zero i) (outV vals d))
  x := fun _ _ => iprop(emp)

instance P_storable : (P (F := F) vals).IsStorable where
  st q d _ := match q with
    | 0 => (inferInstance : BI.Storable (upEmb : UEmb _ 𝕄) iprop(bPts vals d ∗ pPts vals d ∗ iPts vals d ∗ oPts d (vals.fv d)))
  dn q d _ := match q with
    | 0 => (inferInstance : BI.Storable (upEmb : UEmb _ 𝕄) iprop(bPts vals d ∗ pPts vals d ∗ iPts vals d ∗ oPts d (outV vals d)))
  go q d _ i := match q with
    | 0 => (inferInstance : BI.Storable (upEmb : UEmb _ 𝕄)
        iprop(bRowPts vals d (Fin.cast nSub_zero i) ∗ pRowPts vals d (Fin.cast nSub_zero i) ∗ iRowPts vals d (Fin.cast nSub_zero i)
          ∗ oSlabPts d (Fin.cast nSub_zero i) (vals.fv d)))
  td q d _ i := match q with
    | 0 => (inferInstance : BI.Storable (upEmb : UEmb _ 𝕄)
        iprop(bRowPts vals d (Fin.cast nSub_zero i) ∗ pRowPts vals d (Fin.cast nSub_zero i) ∗ iRowPts vals d (Fin.cast nSub_zero i)
          ∗ oSlabPts d (Fin.cast nSub_zero i) (outV vals d)))

end Pay

end Cert.KernelIdeal.Hand

end
-- ==== Proof.TcPay.lean ====
/-
  The three values the TensorCore body stores, read at an index at the ideal instance.
  The filled block holds, at (a, b, v), the clipped logarithm of the prior's share of the loaded row-and-column element
  (a, b) — the value is computed on the [2, 8] block, given a trailing unit axis and broadcast along the vocabulary axis —;
  the two [16, 16] side tables hold, elementwise, that same value and the value with the mixing rate added before the
  logarithm.  Every operation is the specification's own, so each equation is an unfolding once the layout operations
  (the shape casts and the broadcast) have been read at the index.
-/
import proofs.«211088_g14680198218050_cont_week2b_81_31_alg».proof.Proof.Gen.KernelIdeal.Skeleton
import proofs.«211088_g14680198218050_cont_week2b_81_31_alg».proof.Proof.Spec
import Idealize.ShloMosaic.Lib.Pipeline.Value

noncomputable section

namespace Cert.TcPay

open Idealize.ShloMosaic Idealize.ShloMosaic.ValueIdx
open Cert.KernelIdeal Cert.KernelIdeal.Gen

/-- The filled block at `(a, b, v)`: the base value of the loaded element `(a, b)`. -/
theorem fill_apply (v2 : Vec Ideal S2x8 .f32) (a : Fin 2) (b : Fin 8) (v : Fin 100000) :
    k0_pay1 (F := Ideal) v2 (ix3 a b v) = Cert.Spec.baseV (v2 (ix2 a b)) := by
  dsimp only [k0_pay1]
  rw [broadcastTo_apply _ _ (ix3 a b v) (ix3 a b (0 : Fin 1)) (fun c => by
        match c with
        | ⟨0, _⟩ => show a.val = if (2 : Nat) = 1 then 0 else a.val; rw [if_neg (by decide)]
        | ⟨1, _⟩ => show b.val = if (8 : Nat) = 1 then 0 else b.val; rw [if_neg (by decide)]
        | ⟨2, _⟩ => show 0 = if (1 : Nat) = 1 then 0 else v.val; rw [if_pos rfl]),
    shapeCast_self,
    shapeCast_apply _ _ (ix3 a b (0 : Fin 1)) (ix2 a b) (by
        rw [Shape.rowMajor_val_two, Shape.rowMajor_val_three]
        show a.val * 8 + b.val = (a.val * 8 + b.val) * 1 + 0
        omega)]
  rfl

/-- The base table at an index: the base value of the loaded element there. -/
theorem base_apply (v18 : Vec Ideal S16x16 .f32) (j : S16x16.Idx) :
    k0_pay4 (F := Ideal) v18 j = Cert.Spec.baseV (v18 j) := by
  dsimp only [k0_pay4, k0_pay3, k0_pay2]
  rw [shapeCast_self]
  rfl

/-- The peak table at an index: the peak value of the loaded element there. -/
theorem peak_apply (v18 : Vec Ideal S16x16 .f32) (j : S16x16.Idx) :
    k0_pay5 (F := Ideal) v18 j = Cert.Spec.peakV (v18 j) := by
  dsimp only [k0_pay5, k0_pay3, k0_pay2]
  rw [shapeCast_self]
  rfl

end Cert.TcPay

end
-- ==== Proof.Bridge.lean ====
/-
  The array the tiles leave is the specification's function.
  At a result position (b, c, v) the tiles' array reads, when v lies in the aligned block of sixteen lanes that holds the
  named position p = ids[b, c], the peak-table entry at lane p and the base-table entry at the other lanes, and elsewhere
  what the fill left.  The tables' entry for (b, c) is at row b / 2, column 8 (b % 2) + c of the 16-by-16 reshape, which
  reads the original arrays at (b, c); the fill left the base value of (b, c) at every lane.  So the block only changes
  lane p, to the peak value: the specification.
-/
import proofs.«211088_g14680198218050_cont_week2b_81_31_alg».proof.Proof.Common
import proofs.«211088_g14680198218050_cont_week2b_81_31_alg».proof.Proof.Spec
import proofs.«211088_g14680198218050_cont_week2b_81_31_alg».proof.Proof.TcPay

noncomputable section

namespace Cert.Bridge

open Idealize.ShloMosaic Idealize.ShloMosaic.ValueIdx
open Cert.KernelIdeal Cert.KernelIdeal.Gen Cert.KernelIdeal.Hand

/-- The TensorCore body's filled array as one function of the float argument: grid point `j 0 / 2` loads rows
    `2 (j 0 / 2)` and `2 (j 0 / 2) + 1` and stores its block's payload, read here at row `j 0 % 2` of the block. -/
def fillV (a : FVec Ideal S32x8 .f32) : FVec Ideal S32x8x100000 .f32 := fun j =>
  k0_pay1 (F := Ideal)
    (fun r : S2x8.Idx => a (ix2 (⟨2 * ((j 0).val / 2) + (r 0).val, by
        have h0 : (j 0).val < 32 := (j 0).isLt
        have h1 : (r 0).val < 2 := (r 0).isLt
        omega⟩ : Fin 32) (⟨(r 1).val, (r 1).isLt⟩ : Fin 8)))
    (ix3 (⟨(j 0).val % 2, Nat.mod_lt _ (by decide)⟩ : Fin 2) (⟨(j 1).val, (j 1).isLt⟩ : Fin 8)
      (⟨(j 2).val, (j 2).isLt⟩ : Fin 100000))
/-- The base table as a function of the reshaped float argument. -/
def baseT (x : FVec Ideal S16x16 .f32) : FVec Ideal S16x16 .f32 := k0_pay4 (F := Ideal) x
/-- The peak table as a function of the reshaped float argument. -/
def peakT (x : FVec Ideal S16x16 .f32) : FVec Ideal S16x16 .f32 := k0_pay5 (F := Ideal) x

/-- The fill's payload at `(a, c, v)` of a block whose row `a` is row `b` of the argument: the base value of `(b, c)`. -/
theorem fill_at (x : FVec Ideal S32x8 .f32) (v2 : Vec Ideal S2x8 .f32) (a : Fin 2) (b : Fin 32) (c : Fin 8)
    (v : Fin 100000) (h : v2 (ix2 a c) = x (ix2 b c)) :
    k0_pay1 (F := Ideal) v2 (ix3 a c v) = Cert.Spec.baseV (x (ix2 b c)) := by
  rw [Cert.TcPay.fill_apply, h]

/-- The filled array at `(b, c, v)`: the base value of `(b, c)`. -/
theorem fillV_apply (x : FVec Ideal S32x8 .f32) (b : Fin 32) (c : Fin 8) (v : Fin 100000) :
    fillV x (ix3 b c v) = Cert.Spec.baseV (x (ix2 b c)) := by
  have hb := b.isLt
  refine fill_at x _ ⟨b.val % 2, Nat.mod_lt _ (by decide)⟩ b c v ?_
  show x (ix2 (⟨2 * (b.val / 2) + b.val % 2, _⟩ : Fin 32) (⟨c.val, _⟩ : Fin 8)) = x (ix2 b c)
  congr 2
  exact Fin.ext (by show 2 * (b.val / 2) + b.val % 2 = b.val; omega)

/-- THE BRIDGE, for any four arrays with the stated readings: the float array `fv` the fill left (the base value at
    every lane), the two tables (base and peak values of the reshaped float argument), the reshaped integer argument. -/
theorem bridge_of (x : FVec Ideal S32x8 .f32) (ids : IVec S32x8 32)
    (X16 : FVec Ideal S16x16 .f32) (I16 : IVec S16x16 32)
    (fv : FVec Ideal S32x8x100000 .f32) (bv pv : FVec Ideal S16x16 .f32)
    (hX : ∀ s q : Fin 16, X16 (ix2 s q)
      = x (ix2 (⟨2 * s.val + q.val / 8, by have := s.isLt; have := q.isLt; omega⟩ : Fin 32) (⟨q.val % 8, by omega⟩ : Fin 8)))
    (hI : ∀ s q : Fin 16, I16 (ix2 s q)
      = ids (ix2 (⟨2 * s.val + q.val / 8, by have := s.isLt; have := q.isLt; omega⟩ : Fin 32) (⟨q.val % 8, by omega⟩ : Fin 8)))
    (hf : ∀ (b : Fin 32) (c : Fin 8) (v : Fin 100000), fv (ix3 b c v) = Cert.Spec.baseV (x (ix2 b c)))
    (hb : ∀ t, bv t = Cert.Spec.baseV (X16 t)) (hp : ∀ t, pv t = Cert.Spec.peakV (X16 t)) (d : Dev nD) :
    outV (F := Ideal) ⟨fun _ => fv, fun _ => bv, fun _ => pv, fun _ => I16⟩ d = Cert.Spec.G x ids := by
  funext j
  obtain ⟨b, c, v, rfl⟩ : ∃ (b : Fin 32) (c : Fin 8) (v : Fin 100000), j = ix3 b c v := ⟨j 0, j 1, j 2, eq_ix3 j⟩
  have hb' := b.isLt
  have hc' := c.isLt
  have hrow : (⟨2 * (tileOf b).val + (posOf b c).val / 8, by
      show 2 * (b.val / 2) + (b.val % 2 * 8 + c.val) / 8 < 32; omega⟩ : Fin 32) = b :=
    Fin.ext (by show 2 * (b.val / 2) + (b.val % 2 * 8 + c.val) / 8 = b.val; omega)
  have hcol : (⟨(posOf b c).val % 8, by omega⟩ : Fin 8) = c :=
    Fin.ext (by show (b.val % 2 * 8 + c.val) % 8 = c.val; omega)
  have eX : X16 (ix2 (tileOf b) (posOf b c)) = x (ix2 b c) := by rw [hX]; congr 2
  have eI : I16 (ix2 (tileOf b) (posOf b c)) = ids (ix2 b c) := by rw [hI]; congr 2
  rw [Cert.Spec.G_apply]
  show (if 16 * ((I16 (ix2 (tileOf b) (posOf b c))).toNat / 16) ≤ v.val
        ∧ v.val < 16 * ((I16 (ix2 (tileOf b) (posOf b c))).toNat / 16) + 16 then
      (if v.val = (I16 (ix2 (tileOf b) (posOf b c))).toNat then pv (ix2 (tileOf b) (posOf b c))
        else bv (ix2 (tileOf b) (posOf b c)))
      else fv (ix3 b c v)) = _
  rw [eI, hb, hp, eX, hf]
  by_cases hv : v.val = (ids (ix2 b c)).toNat
  · rw [if_pos (by omega)]
  · rw [if_neg hv]
    exact ite_self _

/-- THE BRIDGE at the TensorCore body's own terms: the fill, the two tables of the reshaped float argument and the reshaped
    integer argument give the specification. -/
theorem bridge (x : FVec Ideal S32x8 .f32) (ids : IVec S32x8 32)
    (X16 : FVec Ideal S16x16 .f32) (I16 : IVec S16x16 32)
    (hX : ∀ s q : Fin 16, X16 (ix2 s q)
      = x (ix2 (⟨2 * s.val + q.val / 8, by have := s.isLt; have := q.isLt; omega⟩ : Fin 32) (⟨q.val % 8, by omega⟩ : Fin 8)))
    (hI : ∀ s q : Fin 16, I16 (ix2 s q)
      = ids (ix2 (⟨2 * s.val + q.val / 8, by have := s.isLt; have := q.isLt; omega⟩ : Fin 32) (⟨q.val % 8, by omega⟩ : Fin 8)))
    (d : Dev nD) :
    outV (F := Ideal) ⟨fun _ => fillV x, fun _ => baseT X16, fun _ => peakT X16, fun _ => I16⟩ d = Cert.Spec.G x ids :=
  bridge_of x ids X16 I16 (fillV x) (baseT X16) (peakT X16) hX hI (fillV_apply x)
    (fun t => Cert.TcPay.base_apply X16 t) (fun t => Cert.TcPay.peak_apply X16 t) d

/-- THE BRIDGE over a record of arrays: only the four arrays of device `d` are read. -/
theorem bridge_vals (vals : Vals Ideal) (d : Dev nD) (x : FVec Ideal S32x8 .f32) (ids : IVec S32x8 32)
    (X16 : FVec Ideal S16x16 .f32) (I16 : IVec S16x16 32)
    (hX : ∀ s q : Fin 16, X16 (ix2 s q)
      = x (ix2 (⟨2 * s.val + q.val / 8, by have := s.isLt; have := q.isLt; omega⟩ : Fin 32) (⟨q.val % 8, by omega⟩ : Fin 8)))
    (hI : ∀ s q : Fin 16, I16 (ix2 s q)
      = ids (ix2 (⟨2 * s.val + q.val / 8, by have := s.isLt; have := q.isLt; omega⟩ : Fin 32) (⟨q.val % 8, by omega⟩ : Fin 8)))
    (hf : ∀ (b : Fin 32) (c : Fin 8) (v : Fin 100000),
      (vals.fv d : FVec Ideal S32x8x100000 .f32) (ix3 b c v) = Cert.Spec.baseV (x (ix2 b c)))
    (hb : ∀ t, (vals.bv d : FVec Ideal S16x16 .f32) t = Cert.Spec.baseV (X16 t))
    (hp : ∀ t, (vals.pv d : FVec Ideal S16x16 .f32) t = Cert.Spec.peakV (X16 t))
    (hi : (vals.iv d : IVec S16x16 32) = I16) :
    outV (F := Ideal) vals d = Cert.Spec.G x ids := by
  have e : outV (F := Ideal) vals d
      = outV (F := Ideal) ⟨fun _ => vals.fv d, fun _ => vals.bv d, fun _ => vals.pv d, fun _ => vals.iv d⟩ d := rfl
  rw [e]
  exact bridge_of x ids X16 (vals.iv d) (vals.fv d) (vals.bv d) (vals.pv d) hX (by rw [hi]; exact hI) hf hb hp d

end Cert.Bridge

end
-- ==== Proof.PreIds.lean ====
/- The token ids read back from the precondition: the printed predicate ends in the conjunction
   of two `all`s, the second over `0 ≤ ids ∧ ids ≤ 99999` (both signed); where the predicate is
   true, every id, read unsigned, is below 100000. -/
import proofs.«211088_g14680198218050_cont_week2b_81_31_alg».proof.Pre_input_domain
import proofs.«211088_g14680198218050_cont_week2b_81_31_alg».proof.Proof.Gen.Pre_input_domain
import Idealize.ShloMosaic.Lib.ReduceAll
import Idealize.ShloMosaic.Lib.ValueIdx
import Mathlib.Tactic

namespace Cert.PreIds

open Idealize.ShloMosaic
open Cert.Pre_input_domain

/-- The scalar shape has one index. -/
instance subsingleton_S_ : Subsingleton S_.Idx := ⟨fun a b => funext fun d => d.elim0⟩

/-- A word that is signed-nonnegative and signed-at-most 99999 is, read unsigned, below 100000. -/
theorem lt_of_sge_sle (v : BitVec 32) (h1 : IntOp.cmpi .sge v 0#32 = 1#1)
    (h2 : IntOp.cmpi .sle v 99999#32 = 1#1) : v.toNat < 100000 := by
  rw [IntOp.cmpi_sge] at h1
  rw [IntOp.cmpi_sle] at h2
  have z : (0#32 : BitVec 32).toInt = 0 := by decide
  have n : (99999#32 : BitVec 32).toInt = 99999 := by decide
  rw [z] at h1; rw [n] at h2
  have hc := BitVec.toInt_eq_toNat_cond v
  have hlt := v.isLt
  by_cases hm : 2 * v.toNat < 2 ^ 32
  · rw [if_pos hm] at hc; omega
  · rw [if_neg hm] at hc; omega

/-- Where the precondition holds, every token id is below 100000. -/
theorem ids_lt {F : FTy → Type} [FloatOps F] (a0 : FVec F S32x8 .f32) (a1 : IVec S32x8 32)
    (h : Cert.Pre_input_domain.fn (F := F) a0 a1 = fun _ => 1#1) :
    ∀ j : S32x8.Idx, (a1 j).toNat < 100000 := by
  intro j
  have e := congrFun h ValueIdx.ix0
  dsimp only [Cert.Pre_input_domain.fn] at e
  have e2 := (IntOp.andi_eq_one.1 e).2
  have e3 := Host.reduce_andi_all _ _ _ _ _ e2 j
  obtain ⟨h1, h2⟩ := IntOp.andi_eq_one.1 e3
  exact lt_of_sge_sle (a1 j) h1 h2

end Cert.PreIds
-- ==== Proof.Reshape.lean ====
/- Reading a 32×8 array through its row-major reshape to 16×16: row `s`, column `q` of the
   reshaped array is row `2 s + q / 8`, column `q % 8` of the original. -/
import Idealize.ShloMosaic.Lib.Pipeline.Value
import Idealize.ShloMosaic.Lib.ValueIdx
import Mathlib.Tactic

namespace Cert.Reshape

open Idealize.ShloMosaic Idealize.ShloMosaic.ValueIdx

/-- The reshape read at `(s, q)`. -/
theorem shapeCast_32x8_16x16 {α : Type} (x : (⟨2, ![32, 8]⟩ : Shape).Idx → α)
    (h : (⟨2, ![32, 8]⟩ : Shape).ShapeCasts ⟨2, ![16, 16]⟩) (s q : Fin 16) :
    shapeCast ⟨2, ![16, 16]⟩ x h (ix2 s q)
      = x (ix2 (⟨2 * s.val + q.val / 8, by have := s.isLt; have := q.isLt; omega⟩ : Fin 32)
              (⟨q.val % 8, by omega⟩ : Fin 8)) := by
  have hs := s.isLt
  have hq := q.isLt
  refine shapeCast_apply x h (ix2 s q) _ ?_
  rw [Shape.rowMajor_val_two, Shape.rowMajor_val_two]
  show (2 * s.val + q.val / 8) * 8 + q.val % 8 = s.val * 16 + q.val
  omega

/-- The same at any index of the reshaped array. -/
theorem shapeCast_32x8_16x16_apply {α : Type} (x : (⟨2, ![32, 8]⟩ : Shape).Idx → α)
    (h : (⟨2, ![32, 8]⟩ : Shape).ShapeCasts ⟨2, ![16, 16]⟩) (j : (⟨2, ![16, 16]⟩ : Shape).Idx) :
    shapeCast ⟨2, ![16, 16]⟩ x h j
      = x (ix2 (⟨2 * (j 0).val + (j 1).val / 8, by have := idx2_lt0 j; have := idx2_lt1 j; omega⟩ : Fin 32)
              (⟨(j 1).val % 8, by omega⟩ : Fin 8)) := by
  exact (congrArg (shapeCast ⟨2, ![16, 16]⟩ x h) (eq_ix2 j)).trans (shapeCast_32x8_16x16 x h (j 0) (j 1))

/-- The other way: row `b`, column `c` of the original is row `b / 2`, column `8 (b % 2) + c` of
    the reshaped array. -/
theorem shapeCast_32x8_16x16_inv {α : Type} (x : (⟨2, ![32, 8]⟩ : Shape).Idx → α)
    (h : (⟨2, ![32, 8]⟩ : Shape).ShapeCasts ⟨2, ![16, 16]⟩) (b : Fin 32) (c : Fin 8) :
    shapeCast ⟨2, ![16, 16]⟩ x h
        (ix2 (⟨b.val / 2, by have := b.isLt; omega⟩ : Fin 16)
             (⟨8 * (b.val % 2) + c.val, by have := c.isLt; omega⟩ : Fin 16))
      = x (ix2 b c) := by
  have hb := b.isLt
  have hc := c.isLt
  refine shapeCast_apply x h _ (ix2 b c) ?_
  rw [Shape.rowMajor_val_two, Shape.rowMajor_val_two]
  show b.val * 8 + c.val = b.val / 2 * 16 + (8 * (b.val % 2) + c.val)
  omega

end Cert.Reshape
-- ==== Proof.Split.lean ====
import proofs.«211088_g14680198218050_cont_week2b_81_31_alg».proof.Proof.Common

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## The call's operands split among the tiles, and the results gather -/

theorem rows_disjoint : ∀ i ∈ (Finset.univ : Finset (Fin 16)), ∀ j ∈ (Finset.univ : Finset (Fin 16)), i ≠ j → Disjoint (rowSet i) (rowSet j) :=
  fun i _ j _ h => Rect.part_disjoint hdiv16 h
theorem rows_cover : (Finset.univ : Finset (Fin 16)).biUnion rowSet = Finset.univ := Rect.biUnion_part hdiv16
theorem slabs_disjoint : ∀ i ∈ (Finset.univ : Finset (Fin 16)), ∀ j ∈ (Finset.univ : Finset (Fin 16)), i ≠ j → Disjoint (slabSet i) (slabSet j) :=
  fun i _ j _ h => Rect.part_disjoint hdiv32 h
theorem slabs_cover : (Finset.univ : Finset (Fin 16)).biUnion slabSet = Finset.univ := Rect.biUnion_part hdiv32

theorem bPts_rows (d : Dev nD) (f : Buf (Elt F) (bLoc d)) :
    (bLoc d ↦{fullShare} f : sProp 𝕄) = bigSep Finset.univ fun i : Fin 16 => bLoc d ↦[rowSet i]{fullShare} f := by
  rw [← pointsTo_biUnion Finset.univ (ℓ := bLoc d) rowSet rows_disjoint, rows_cover]; try rfl
theorem pPts_rows (d : Dev nD) (f : Buf (Elt F) (pLoc d)) :
    (pLoc d ↦{fullShare} f : sProp 𝕄) = bigSep Finset.univ fun i : Fin 16 => pLoc d ↦[rowSet i]{fullShare} f := by
  rw [← pointsTo_biUnion Finset.univ (ℓ := pLoc d) rowSet rows_disjoint, rows_cover]; try rfl
theorem iPts_rows (d : Dev nD) (f : Buf (Elt F) (jLoc d)) :
    (jLoc d ↦{fullShare} f : sProp 𝕄) = bigSep Finset.univ fun i : Fin 16 => jLoc d ↦[rowSet i]{fullShare} f := by
  rw [← pointsTo_biUnion Finset.univ (ℓ := jLoc d) rowSet rows_disjoint, rows_cover]; try rfl
theorem oPts_slabs (d : Dev nD) (f : Buf (Elt F) (oLoc d)) :
    (oLoc d ↦{fullShare} f : sProp 𝕄) = bigSep Finset.univ fun i : Fin 16 => oLoc d ↦[slabSet i]{fullShare} f := by
  rw [← pointsTo_biUnion Finset.univ (ℓ := oLoc d) slabSet slabs_disjoint, slabs_cover]; try rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- Each table and the ids split into their sixteen rows, the result array into its sixteen slabs; what the tiles bring
    back joins to the whole arrays again, the result at the one function every slab holds. -/
theorem vecSplit (vals : Vals F) : (K (F := F)).VecSplit' (P vals) 0 := by
  intro d c
  show iprop(bPts vals d ∗ pPts vals d ∗ iPts vals d ∗ oPts d (vals.fv d)) ⊢ |={Set.univ}=> iprop(
      (bigSep Finset.univ fun i : Fin ((K (F := F)).nSub 0) =>
        iprop(bRowPts vals d (Fin.cast nSub_zero i) ∗ pRowPts vals d (Fin.cast nSub_zero i) ∗ iRowPts vals d (Fin.cast nSub_zero i)
          ∗ oSlabPts d (Fin.cast nSub_zero i) (vals.fv d)))
      ∗ ((bigSep Finset.univ fun i : Fin ((K (F := F)).nSub 0) =>
          iprop(bRowPts vals d (Fin.cast nSub_zero i) ∗ pRowPts vals d (Fin.cast nSub_zero i) ∗ iRowPts vals d (Fin.cast nSub_zero i)
            ∗ oSlabPts d (Fin.cast nSub_zero i) (outV vals d)))
          -∗ iprop(bPts vals d ∗ pPts vals d ∗ iPts vals d ∗ oPts d (outV vals d))))
  rw [bigSep_tasks (F := F) (fun i => iprop(bRowPts vals d i ∗ pRowPts vals d i ∗ iRowPts vals d i ∗ oSlabPts d i (vals.fv d))),
    bigSep_tasks (F := F) (fun i => iprop(bRowPts vals d i ∗ pRowPts vals d i ∗ iRowPts vals d i ∗ oSlabPts d i (outV vals d))),
    bigSep_sep', bigSep_sep', bigSep_sep', bigSep_sep', bigSep_sep', bigSep_sep']
  unfold bPts pPts iPts oPts bRowPts pRowPts iRowPts oSlabPts
  rw [bPts_rows, pPts_rows, iPts_rows, oPts_slabs, oPts_slabs]
  iintro H; imodintro
  isplitl [H]; · iexact H
  iintro H; iexact H

end Cert.KernelIdeal.Hand

end
-- ==== Proof.LaunchElem.lean ====
import proofs.«211088_g14680198218050_cont_week2b_81_31_alg».proof.Proof.Common
import proofs.«211088_g14680198218050_cont_week2b_81_31_alg».proof.Proof.Split

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## The launch element: the handshakes' rounds, the staging cells' rounds, nothing for the transfers' counters -/

def u₀ : UU :=
  (initOf (K (F := F)).hsCells (K (F := F)).hsToks,
    (initOf (Pipeline.cells (nD := nD) (τ := τ) cfgs cellOf_inj) (Pipeline.launchToks (nD := nD) (τ := τ) cfgs cellOf_inj), 1))

/-- What @main's proof starts from beyond the launch's deal: the staging cells' ghost state and the duty tokens of
    the region's transfers. -/
abbrev G₀ (d : Dev nD) : sProp 𝕄 :=
  iprop(Pipeline.cellsGhost (nD := nD) (τ := τ) cfgs (EP (F := F)) 0 d ∗ Pipeline.toksInit (nD := nD) (τ := τ) cfgs (EP (F := F)) 0 d)

theorem bigSep_emp' {I : Type} (s : Finset I) : (bigSep s fun _ => iprop(emp)) = (iprop(emp) : sProp 𝕄) := bigSep_emp_const s

theorem hu₀ (vals : Vals F) : (ownU (u₀ (F := F)) : sProp 𝕄)
    ⊢ |={Set.univ}=> iprop(BI.own (EH (initOf (K (F := F)).hsCells (K (F := F)).hsToks)) ∗ (bigSep Finset.univ fun d : Dev nD => G₀ (F := F) d)
        ∗ bigSep Finset.univ fun thr : Thread nD τ => bigSep Finset.univ fun q : Fin 1 => (P vals).x q thr) := by
  unfold u₀
  have hEP : (BI.own (((Emb.inl : Emb UP (UP × Counters)).trans embR) (initOf (Pipeline.cells (nD := nD) (τ := τ) cfgs cellOf_inj) (Pipeline.launchToks (nD := nD) (τ := τ) cfgs cellOf_inj))) : sProp 𝕄)
      ⊢ BI.own ((EP (F := F)) (initOf (Pipeline.cells (nD := nD) (τ := τ) cfgs cellOf_inj) (Pipeline.launchToks (nD := nD) (τ := τ) cfgs cellOf_inj))) := Entails.of_eq rfl
  iintro Hu
  ihave H := (ownU_pair _ _) $$ Hu
  icases H with ⟨HH, HR⟩
  ihave H2 := (own_pair_emb embR _ _) $$ HR
  icases H2 with ⟨HP, -⟩
  ihave HP2 := hEP $$ HP
  imod (Pipeline.fund_ghost (nD := nD) (τ := τ) cfgs (EP (F := F)) cellOf_inj) $$ HP2 with ⟨Hg, Ht⟩
  imodintro
  isplitl [HH]; · iexact HH
  isplitl [Hg Ht]
  · rw [bigSep_sep']
    isplitl [Hg]
    · rw [bigSep_congr (fun d _ => bigSep_univ_of_subsingleton (0 : Fin 1) (Φ := fun p => Pipeline.cellsGhost (nD := nD) (τ := τ) cfgs (EP (F := F)) p d))]
      exact BI.Entails.refl _
    · rw [bigSep_congr (fun d _ => bigSep_univ_of_subsingleton (0 : Fin 1) (Φ := fun p => Pipeline.toksInit (nD := nD) (τ := τ) cfgs (EP (F := F)) p d))]
      exact BI.Entails.refl _
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.KernelIdeal.Hand

end
-- ==== Proof.FillBody.lean ====
/-
  The TensorCore kernel of the fill region, run once per control case.  At every grid point the body reads two rows of
  the 32×8 argument and stores the off-token value of each of their sixteen entries along the whole vocabulary axis of
  the result's 2×8×100000 block; at the first grid point it also reads the reshaped 16×16 argument and stores the two
  16×16 tables of off-token and on-token values.  Every store covers its whole block, so what each staging buffer holds
  afterwards is named in closed form over what the input buffers held.
-/
import proofs.«211088_g14680198218050_cont_week2b_81_31_alg».proof.Proof.Common
import proofs.«211088_g14680198218050_cont_week2b_81_31_alg».proof.Proof.Gen.KernelIdeal.Points
import proofs.«211088_g14680198218050_cont_week2b_81_31_alg».proof.Proof.Gen.KernelIdeal.Skeleton
import Idealize.ShloMosaic.Lib.Pipeline.FrameBody

noncomputable section

namespace Cert.KernelIdeal.Hand

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

/-! ## What the region is entered with -/

/-- The contents the region is entered with, per device: the argument and its reshape, whatever the three result arrays
    hold, and what the TensorCore owes. -/
structure FillIn (F : FTy → Type) where
  a : (d : Dev nD) → Buf (Elt F) (aLoc d)
  x : (d : Dev nD) → Buf (Elt F) (xLoc d)
  f0 : (d : Dev nD) → Buf (Elt F) (fLoc d)
  b0 : (d : Dev nD) → Buf (Elt F) (bLoc d)
  p0 : (d : Dev nD) → Buf (Elt F) (pLoc d)
  O : (d : Dev nD) → CellTallies nD τ sig (HIx 1)

/-! ## Whole rectangles -/

/-- The whole rectangle of a 2×8×100000 block places an index at itself. -/
theorem emb_whole3 (y : S2x8x100000.Idx) :
    (Rect.unit (s := S2x8x100000) ![0, 0, 0] S2x8x100000.size inb_S2x8x100000_S2x8x100000_0_0_0).emb y = y := by
  funext a; apply Fin.ext; rw [Rect.emb_apply]
  fin_cases a <;> simp

/-- The whole rectangle of a 16×16 table places an index at itself. -/
theorem emb_whole2 (y : S16x16.Idx) :
    (Rect.unit (s := S16x16) ![0, 0] S16x16.size inb_S16x16_S16x16_0_0).emb y = y := by
  funext a; apply Fin.ext; rw [Rect.emb_apply]
  fin_cases a <;> simp

/-- A store through the whole rectangle leaves its payload, whatever was there. -/
theorem read_store3 (v : View sig .tc .vmem S2x8x100000 .f32) (f : v.ty.Contents (Elt F)) (w : Vec F S2x8x100000 .f32) :
    v.read (Elt F) (v.writes (Elt F) f [⟨Rect.unit (s := S2x8x100000) ![0, 0, 0] S2x8x100000.size inb_S2x8x100000_S2x8x100000_0_0_0, w⟩]) = w := by
  funext y
  have h := View.read_writes_cons_emb v f (Rect.unit (s := S2x8x100000) ![0, 0, 0] S2x8x100000.size inb_S2x8x100000_S2x8x100000_0_0_0) w [] y
  rw [emb_whole3] at h; exact h

theorem read_store2 (v : View sig .tc .vmem S16x16 .f32) (f : v.ty.Contents (Elt F)) (w : Vec F S16x16 .f32) :
    v.read (Elt F) (v.writes (Elt F) f [⟨Rect.unit (s := S16x16) ![0, 0] S16x16.size inb_S16x16_S16x16_0_0, w⟩]) = w := by
  funext y
  have h := View.read_writes_cons_emb v f (Rect.unit (s := S16x16) ![0, 0] S16x16.size inb_S16x16_S16x16_0_0) w [] y
  rw [emb_whole2] at h; exact h

/-- A load through the whole rectangle of a whole 16×16 buffer reads its contents. -/
theorem readAt_whole2 {m : Memref sig .tc .vmem S16x16 .f32} (h : m.IsWhole) (X : Vec F S16x16 .f32) :
    View.readAt (Elt F) m.view (Rect.unit (s := S16x16) ![0, 0] S16x16.size inb_S16x16_S16x16_0_0).toLoadRect (h.unread X) = X := by
  funext y
  rw [View.readAt_apply, h.read_unread]
  exact congrArg X (emb_whole2 y)

/-! ## What the body stores -/

/-- The two rows the body reads at grid point `i`: rows `2 i` and `2 i + 1` of the 32×8 argument. -/
abbrev rowsAt (i : grid0.Coords) : LoadRect S32x8 := (Rect.unit (s := S32x8) (k0_off1 i) S2x8.size (k0_off1_inb i)).toLoadRect

/-- What the body stores into the result's block at grid point `i`, of the argument's contents `X`: the off-token value
    of the two rows read, along the vocabulary axis. -/
def fillBlk (i : grid0.Coords) (X : Vec F S32x8 .f32) : Vec F S2x8x100000 .f32 :=
  k0_pay1 (fun y => X ((rowsAt i).idx y))

theorem readAt_rows {m : Memref sig .tc .vmem S32x8 .f32} (h : m.IsWhole) (i : grid0.Coords) (X : Vec F S32x8 .f32) :
    View.readAt (Elt F) m.view (rowsAt i) (h.unread X) = fun y => X ((rowsAt i).idx y) := by
  funext y
  rw [View.readAt_apply, h.read_unread]

/-! ## The body, run once per control case, on any whole staging memrefs -/

set_option maxHeartbeats 1000000 in
/-- The first grid point (`k0_cond1 i = 1`): the block of the result is stored, and the two tables. -/
theorem run_A (c : Dev nD) (i : grid0.Coords)
    (arg1 : Memref sig .tc .vmem S32x8 .f32) (harg1 : arg1.IsWhole) (arg2 : Memref sig .tc .vmem S16x16 .f32) (harg2 : arg2.IsWhole)
    (arg3 : Memref sig .tc .vmem S2x8x100000 .f32) (harg3 : arg3.IsWhole) (arg4 : Memref sig .tc .vmem S16x16 .f32) (harg4 : arg4.IsWhole)
    (arg5 : Memref sig .tc .vmem S16x16 .f32) (harg5 : arg5.IsWhole) (hc : k0_cond1 i = 1#1)
    (x0 : Vec F S32x8 .f32) (x1 : Vec F S16x16 .f32) (E : Set ℕ) (Kk : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (fillBlk i x0) ∗ owns (c : Thread nD τ) arg4 fullShare (k0_pay4 x1)
            ∗ owns (c : Thread nD τ) arg5 fullShare (k0_pay5 x1)) -∗ Kk ⟨⟩))
      ⊢ wp frame (wpE (defs₀ (F := F)) Variants.none c none) E (cc0__fill_body i arg1 harg1 arg2 harg2 arg3 harg3 arg4 harg4 arg5 harg5) Kk := by
  simp only [cc0__fill_body_eq_skeleton]; unfold cc0__fill_body_skel
  unfold owns
  iintro ⟨⟨%f0, %hf0, H0⟩, ⟨%f1, %hf1, H1⟩, ⟨%d2, %f2, -, H2⟩, ⟨%d3, %f3, -, H3⟩, ⟨%d4, %f4, -, H4⟩, Hk⟩
  obtain rfl := harg1.eq_unread hf0
  obtain rfl := harg2.eq_unread hf1
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro; rw [read_store3, readAt_rows]; rfl
  isplitl [H3]
  · iexists _; isplitr
    swap; · iexact H3
    ipureintro; rw [read_store2, readAt_whole2]
  iexists _; isplitr
  swap; · iexact H4
  ipureintro; rw [read_store2, readAt_whole2]

set_option maxHeartbeats 1000000 in
/-- Every later grid point (`k0_cond1 i ≠ 1`): the block of the result is stored; the two tables' buffers are not touched. -/
theorem run_B (c : Dev nD) (i : grid0.Coords)
    (arg1 : Memref sig .tc .vmem S32x8 .f32) (harg1 : arg1.IsWhole) (arg2 : Memref sig .tc .vmem S16x16 .f32) (harg2 : arg2.IsWhole)
    (arg3 : Memref sig .tc .vmem S2x8x100000 .f32) (harg3 : arg3.IsWhole) (arg4 : Memref sig .tc .vmem S16x16 .f32) (harg4 : arg4.IsWhole)
    (arg5 : Memref sig .tc .vmem S16x16 .f32) (harg5 : arg5.IsWhole) (hc : ¬ k0_cond1 i = 1#1)
    (x0 : Vec F S32x8 .f32) (x1 : Vec F S16x16 .f32) (y3 y4 : Vec F S16x16 .f32) (E : Set ℕ) (Kk : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare y3 ∗ owns (c : Thread nD τ) arg5 fullShare y4
        ∗ (iprop(owns (c : Thread nD τ) arg1 fullShare x0 ∗ owns (c : Thread nD τ) arg2 fullShare x1
            ∗ owns (c : Thread nD τ) arg3 fullShare (fillBlk i x0) ∗ owns (c : Thread nD τ) arg4 fullShare y3
            ∗ owns (c : Thread nD τ) arg5 fullShare y4) -∗ Kk ⟨⟩))
      ⊢ wp frame (wpE (defs₀ (F := F)) Variants.none c none) E (cc0__fill_body i arg1 harg1 arg2 harg2 arg3 harg3 arg4 harg4 arg5 harg5) Kk := by
  simp only [cc0__fill_body_eq_skeleton]; unfold cc0__fill_body_skel
  unfold owns
  iintro ⟨⟨%f0, %hf0, H0⟩, H1, ⟨%d2, %f2, -, H2⟩, H3, H4, Hk⟩
  obtain rfl := harg1.eq_unread hf0
  sl_exec (disch := first | exact hc)
  sl_step
  iapply Hk
  isplitl [H0]
  · iexists _; isplitr; · ipureintro; exact harg1.read_unread _
    iexact H0
  isplitl [H1]; · iexact H1
  isplitl [H2]
  · iexists _; isplitr
    swap; · iexact H2
    ipureintro; rw [read_store3, readAt_rows]; rfl
  isplitl [H3]; · iexact H3
  iexact H4

end Cert.KernelIdeal.Hand

end
-- ==== Proof.FillData.lean ====
/-
  The proof data of the fill region's pipeline and its body obligation.  Sixteen grid points; the argument and its
  reshape are whole-array windows fetched once; the result's window is the block of two rows at the point, written back
  at every point; the two tables' windows are whole arrays stored at the first point only, idle at every later point and
  written back at the last: their staging buffers carry the tables across the grid.
-/
import proofs.«211088_g14680198218050_cont_week2b_81_31_alg».proof.Proof.FillBody
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

/-! ## The arrays at entry and the inputs' blocks -/

/-- The five windows' arrays as the region finds them. -/
def arrs (I : FillIn F) (d : Dev nD) : (w : Fin cfg0.W) → Buf (Elt F) ((cfg0.win w).arr.view.loc (d.tc : Thread nD τ))
  | ⟨0, _⟩ => I.a d
  | ⟨1, _⟩ => I.x d
  | ⟨2, _⟩ => I.f0 d
  | ⟨3, _⟩ => I.b0 d
  | ⟨4, _⟩ => I.p0 d

/-- Window `w`'s block at point `t`, read off its array as the region finds it. -/
def inBlk (I : FillIn F) (d : Dev nD) (w : Fin cfg0.W) (t : Fin cfg0.N) : ((cfg0.win w).xblock (cfg0.grid.coords t)).Idx → Elt F (cfg0.win w).elt :=
  ((cfg0.win w).blk t).view.read (Elt F) (arrs I d w)

/-- The first grid point. -/
abbrev pt0 : Fin cfg0.N := t0_0

/-- The two tables the first grid point stores: of the reshaped argument's block. -/
def tblB (I : FillIn F) (d : Dev nD) : Vec F S16x16 .f32 := k0_pay4 (inBlk I d 1 pt0)
def tblP (I : FillIn F) (d : Dev nD) : Vec F S16x16 .f32 := k0_pay5 (inBlk I d 1 pt0)

/-- The branch is taken at the first grid point only. -/
theorem hcond : ∀ t : Fin cfg0.N, k0_cond1 (grid0.coords t) = 1#1 ↔ t.val = 0 :=
  (by decide +kernel : ∀ t : Fin grid0.N, k0_cond1 (grid0.coords t) = 1#1 ↔ t.val = 0)

/-! ## The proof data -/

/-- The proof data of the pipeline on device `d`: after the body at point `t` each input's buffer holds its block, the
    result's buffer the off-token block of the two rows read, and the two tables' buffers — stored at the first point,
    carried untouched to the last — the tables; the invariant is empty; the TensorCore owes what it owed, its recorded
    pairs all at the kernels' own index. -/
def fdat (I : FillIn F) (d : Dev nD) : Dat τ (Elt F) (HIx 1) ℕ UU ℕ cfg0 d where
  A := arrs I d
  after w t := match w with
    | ⟨0, _⟩ => inBlk I d 0 t
    | ⟨1, _⟩ => inBlk I d 1 t
    | ⟨2, _⟩ => fillBlk (grid0.coords t) (inBlk I d 0 t)
    | ⟨3, _⟩ => tblB I d
    | ⟨4, _⟩ => tblP I d
  Φ _ := iprop(emp)
  q _ := fullShare
  owed _ := I.O d
  recorded _ := {p | p.2 = none}

theorem A_eq (I : FillIn F) (d : Dev nD) (w : Fin cfg0.W) : (fdat I d).A w = arrs I d w := by dsimp only [fdat]
theorem after_0 (I : FillIn F) (d : Dev nD) (t : Fin cfg0.N) : (fdat I d).after 0 t = inBlk I d 0 t := by dsimp only [fdat]
theorem after_1 (I : FillIn F) (d : Dev nD) (t : Fin cfg0.N) : (fdat I d).after 1 t = inBlk I d 1 t := by dsimp only [fdat]
theorem after_2 (I : FillIn F) (d : Dev nD) (t : Fin cfg0.N) : (fdat I d).after 2 t = fillBlk (grid0.coords t) (inBlk I d 0 t) := by dsimp only [fdat]
theorem after_3 (I : FillIn F) (d : Dev nD) (t : Fin cfg0.N) : (fdat I d).after 3 t = tblB I d := by dsimp only [fdat]
theorem after_4 (I : FillIn F) (d : Dev nD) (t : Fin cfg0.N) : (fdat I d).after 4 t = tblP I d := by dsimp only [fdat]

/-- An input's current staging buffer holds its block at every point, fetched there or not. -/
theorem before_0 (I : FillIn F) (d : Dev nD) (t : Fin cfg0.N) (x) : (fdat I d).before 0 t x = inBlk I d 0 t :=
  ((fdat I d).before_in_eq_fetched 0 rfl (fun _ => rfl) (fun _ _ _ => rfl)
      (fun t => by rw [after_0]; unfold Dat.blockOf inBlk; rw [A_eq]; try rfl) t x).trans
    (by unfold Dat.fetched Dat.blockOf inBlk; rw [A_eq]; try rfl)
theorem before_1 (I : FillIn F) (d : Dev nD) (t : Fin cfg0.N) (x) : (fdat I d).before 1 t x = inBlk I d 1 t :=
  ((fdat I d).before_in_eq_fetched 1 rfl (fun _ => rfl) (fun _ _ _ => rfl)
      (fun t => by rw [after_1]; unfold Dat.blockOf inBlk; rw [A_eq]; try rfl) t x).trans
    (by unfold Dat.fetched Dat.blockOf inBlk; rw [A_eq]; try rfl)

/-- The reshaped argument's window is the whole array at every point: its block does not depend on the point. -/
theorem inBlk_1_const (I : FillIn F) (d : Dev nD) (t : Fin cfg0.N) : inBlk I d 1 t = inBlk I d 1 pt0 := rfl

/-! ## The tables' buffers between the first point and the last -/

/-- Where the tables' windows are idle: everywhere but the first point. -/
theorem idle_3 (t : Fin cfg0.N) : cfg0.idle 3 (cfg0.grid.coords t) = decide (t.val ≠ 0) :=
  (by decide +kernel : ∀ t : Fin grid0.N, idle0 3 (grid0.coords t) = decide (t.val ≠ 0)) t
theorem idle_4 (t : Fin cfg0.N) : cfg0.idle 4 (cfg0.grid.coords t) = decide (t.val ≠ 0) :=
  (by decide +kernel : ∀ t : Fin grid0.N, idle0 4 (grid0.coords t) = decide (t.val ≠ 0)) t

theorem flush_3_false (t : Fin cfg0.N) (h : t.val + 1 < cfg0.N) : (cfg0.win 3).flush t = false :=
  Bool.eq_false_iff.mpr fun hf => by
    have h1 := (flush0_3 t).mp hf
    have hN : cfg0.N = 16 := N_0
    omega
theorem flush_4_false (t : Fin cfg0.N) (h : t.val + 1 < cfg0.N) : (cfg0.win 4).flush t = false :=
  Bool.eq_false_iff.mpr fun hf => by
    have h1 := (flush0_4 t).mp hf
    have hN : cfg0.N = 16 := N_0
    omega

/-- After the first point a table's staging buffer holds the table: stored at the first point, not written back before the
    last, untouched by the body at the idle points in between. -/
theorem before_3 (I : FillIn F) (d : Dev nD) : ∀ (n : ℕ) (h : n + 1 < cfg0.N) (x), (fdat I d).before 3 ⟨n + 1, h⟩ x = tblB I d := by
  intro n
  induction n with
  | zero =>
    intro h x
    rw [(fdat I d).before_of_pos 3 ⟨0 + 1, h⟩ (by simp) ((cfg0.win 3).fetch_out rfl _) x]
    show (if (cfg0.win 3).flush ⟨0, Nat.lt_of_succ_lt h⟩ = true then x else (fdat I d).left 3 ⟨0, Nat.lt_of_succ_lt h⟩ x) = tblB I d
    rw [flush_3_false ⟨0, Nat.lt_of_succ_lt h⟩ h, if_neg Bool.false_ne_true]
    unfold Dat.left
    rw [show cfg0.idle 3 (cfg0.grid.coords ⟨0, Nat.lt_of_succ_lt h⟩) = false from (idle_3 _).trans (by simp)]
    rfl
  | succ n ih =>
    intro h x
    rw [(fdat I d).before_of_pos 3 ⟨n + 1 + 1, h⟩ (by simp) ((cfg0.win 3).fetch_out rfl _) x]
    show (if (cfg0.win 3).flush ⟨n + 1, Nat.lt_of_succ_lt h⟩ = true then x else (fdat I d).left 3 ⟨n + 1, Nat.lt_of_succ_lt h⟩ x) = tblB I d
    rw [flush_3_false ⟨n + 1, Nat.lt_of_succ_lt h⟩ h, if_neg Bool.false_ne_true]
    unfold Dat.left
    rw [show cfg0.idle 3 (cfg0.grid.coords ⟨n + 1, Nat.lt_of_succ_lt h⟩) = true from (idle_3 _).trans (by simp)]
    exact ih (Nat.lt_of_succ_lt h) x

theorem before_4 (I : FillIn F) (d : Dev nD) : ∀ (n : ℕ) (h : n + 1 < cfg0.N) (x), (fdat I d).before 4 ⟨n + 1, h⟩ x = tblP I d := by
  intro n
  induction n with
  | zero =>
    intro h x
    rw [(fdat I d).before_of_pos 4 ⟨0 + 1, h⟩ (by simp) ((cfg0.win 4).fetch_out rfl _) x]
    show (if (cfg0.win 4).flush ⟨0, Nat.lt_of_succ_lt h⟩ = true then x else (fdat I d).left 4 ⟨0, Nat.lt_of_succ_lt h⟩ x) = tblP I d
    rw [flush_4_false ⟨0, Nat.lt_of_succ_lt h⟩ h, if_neg Bool.false_ne_true]
    unfold Dat.left
    rw [show cfg0.idle 4 (cfg0.grid.coords ⟨0, Nat.lt_of_succ_lt h⟩) = false from (idle_4 _).trans (by simp)]
    rfl
  | succ n ih =>
    intro h x
    rw [(fdat I d).before_of_pos 4 ⟨n + 1 + 1, h⟩ (by simp) ((cfg0.win 4).fetch_out rfl _) x]
    show (if (cfg0.win 4).flush ⟨n + 1, Nat.lt_of_succ_lt h⟩ = true then x else (fdat I d).left 4 ⟨n + 1, Nat.lt_of_succ_lt h⟩ x) = tblP I d
    rw [flush_4_false ⟨n + 1, Nat.lt_of_succ_lt h⟩ h, if_neg Bool.false_ne_true]
    unfold Dat.left
    rw [show cfg0.idle 4 (cfg0.grid.coords ⟨n + 1, Nat.lt_of_succ_lt h⟩) = true from (idle_4 _).trans (by simp)]
    exact ih (Nat.lt_of_succ_lt h) x

/-- The same at a point named as a point. -/
theorem before_3' (I : FillIn F) (d : Dev nD) (t : Fin cfg0.N) (ht : t.val ≠ 0) (x) : (fdat I d).before 3 t x = tblB I d := by
  obtain ⟨n, hn⟩ := t
  cases n with
  | zero => exact absurd rfl ht
  | succ n => exact before_3 I d n hn x
theorem before_4' (I : FillIn F) (d : Dev nD) (t : Fin cfg0.N) (ht : t.val ≠ 0) (x) : (fdat I d).before 4 t x = tblP I d := by
  obtain ⟨n, hn⟩ := t
  cases n with
  | zero => exact absurd rfl ht
  | succ n => exact before_4 I d n hn x

/-! ## The body obligation -/

/-- Each window's current staging memref at point `t`, as the pipeline passes it, and its wholeness. -/
abbrev ms0 (t : Fin cfg0.N) : Memref sig .tc .vmem S32x8 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S16x16 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2x8x100000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S16x16 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S16x16 .f32 := win0_4.stage (cfg0.slots t 4)
abbrev hs4 (t : Fin cfg0.N) : (ms4 t).IsWhole := hstage0_4 ((cfg0.slots t 4).cast nbuf0_4)

/-- What the obligation asks of a table's buffer after the body, from the buffer at the table: at the first point the
    stored table; at an idle point what was found there, which is the table; at the last point, which writes it back,
    the table. -/
theorem leaves_3 (I : FillIn F) (d : Dev nD) (t : Fin cfg0.N) :
    owns (d : Thread nD τ) (ms3 t) fullShare (tblB I d) ⊢ ((fdat I d).leavesExact 3 t : sProp 𝕄) := by
  unfold Dat.leavesExact
  by_cases h0 : t.val = 0
  · rw [show cfg0.idle 3 (cfg0.grid.coords t) = false from (idle_3 t).trans (by simp [h0]), after_3]
  · rw [show cfg0.idle 3 (cfg0.grid.coords t) = true from (idle_3 t).trans (by simp [h0])]
    cases hf : (cfg0.win 3).flush t
    · iintro H; iexists (tblB I d); rw [before_3' I d t h0]; iexact H
    · rw [after_3]
theorem leaves_4 (I : FillIn F) (d : Dev nD) (t : Fin cfg0.N) :
    owns (d : Thread nD τ) (ms4 t) fullShare (tblP I d) ⊢ ((fdat I d).leavesExact 4 t : sProp 𝕄) := by
  unfold Dat.leavesExact
  by_cases h0 : t.val = 0
  · rw [show cfg0.idle 4 (cfg0.grid.coords t) = false from (idle_4 t).trans (by simp [h0]), after_4]
  · rw [show cfg0.idle 4 (cfg0.grid.coords t) = true from (idle_4 t).trans (by simp [h0])]
    cases hf : (cfg0.win 4).flush t
    · iintro H; iexists (tblP I d); rw [before_4' I d t h0]; iexact H
    · rw [after_4]

set_option maxHeartbeats 800000 in
/-- The body at any point: the inputs' buffers hold their blocks; at the first point the branch is taken and the tables
    are stored, at every later point it is not and the tables' buffers, which hold the tables, pass through. -/
theorem sound_body (I : FillIn F) (d : Dev nD) (t : Fin cfg0.N) :
    iprop((fdat I d).Φ t.castSucc ∗ (fdat I d).owesAt (none : HIx 1) t.castSucc
        ∗ (∃ x, owns (d : Thread nD τ) (ms0 t) fullShare ((fdat I d).before 0 t x))
        ∗ (∃ x, owns (d : Thread nD τ) (ms1 t) fullShare ((fdat I d).before 1 t x))
        ∗ (∃ x, owns (d : Thread nD τ) (ms2 t) fullShare ((fdat I d).before 2 t x))
        ∗ (∃ x, owns (d : Thread nD τ) (ms3 t) fullShare ((fdat I d).before 3 t x))
        ∗ (∃ x, owns (d : Thread nD τ) (ms4 t) fullShare ((fdat I d).before 4 t x)))
      ⊢ wp frame (wpE (defs₀ (F := F)) Variants.none d none) Set.univ (bodyAt0 t) (fun _ =>
          iprop((fdat I d).Φ t.succ ∗ (fdat I d).owesAt (none : HIx 1) t.succ
            ∗ owns (d : Thread nD τ) (ms0 t) fullShare ((fdat I d).after 0 t)
            ∗ owns (d : Thread nD τ) (ms1 t) fullShare ((fdat I d).after 1 t)
            ∗ owns (d : Thread nD τ) (ms2 t) fullShare ((fdat I d).after 2 t)
            ∗ (fdat I d).leavesExact 3 t
            ∗ (fdat I d).leavesExact 4 t)) := by
  unfold bodyAt0
  simp only [before_0, before_1]
  rw [show (fdat I d).Φ t.succ = (fdat I d).Φ t.castSucc from rfl,
    show (fdat I d).owesAt (none : HIx 1) t.succ = (fdat I d).owesAt (none : HIx 1) t.castSucc from rfl,
    after_0, after_1, after_2]
  by_cases h0 : t.val = 0
  · iintro ⟨HΦ, Ho, ⟨%x0, H0⟩, ⟨%x1, H1⟩, ⟨%x2, H2⟩, ⟨%x3, H3⟩, ⟨%x4, H4⟩⟩
    iapply (run_A d (grid0.coords t) _ (hs0 t) _ (hs1 t) _ (hs2 t) _ (hs3 t) _ (hs4 t) ((hcond t).mpr h0) (inBlk I d 0 t) (inBlk I d 1 t) Set.univ _)
    isplitl [H0]; · iexact H0
    isplitl [H1]; · iexact H1
    isplitl [H2]; · iexists _; iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]
    · iapply (leaves_3 I d t); iexact H3
    iapply (leaves_4 I d t); iexact H4
  · simp only [before_3' I d t h0, before_4' I d t h0]
    iintro ⟨HΦ, Ho, ⟨%x0, H0⟩, ⟨%x1, H1⟩, ⟨%x2, H2⟩, ⟨%x3, H3⟩, ⟨%x4, H4⟩⟩
    iapply (run_B d (grid0.coords t) _ (hs0 t) _ (hs1 t) _ (hs2 t) _ (hs3 t) _ (hs4 t) (fun h => h0 ((hcond t).mp h)) (inBlk I d 0 t) (inBlk I d 1 t)
      (tblB I d) (tblP I d) Set.univ _)
    isplitl [H0]; · iexact H0
    isplitl [H1]; · iexact H1
    isplitl [H2]; · iexists _; iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]
    · iapply (leaves_3 I d t); iexact H3
    iapply (leaves_4 I d t); iexact H4

/-- The library's body obligation, at every point. -/
theorem body_obligation (I : FillIn F) (d : Dev nD) : BodyObligation (fdat I d) (defs₀ (F := F)) 𝒱₀ (none : HIx 1) Set.univ := fun t => by
  rw [bigSep_W0, bigSep_W0]
  exact sound_body I d t

end Cert.KernelIdeal.Hand

end
-- ==== Proof.Fill.lean ====
/-
  The fill region of @main run from the region boundary to the region boundary inside the SparseCore program: the
  pipeline's record (its layout, the body obligation, the wait evidence, and how the five arrays and what the
  TensorCore owes enter and leave it) and the region's triple for any continuation.
-/
import proofs.«211088_g14680198218050_cont_week2b_81_31_alg».proof.Proof.FillData
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

/-! ## The region's two ends -/

/-- What the region is entered with: the argument and its reshape at their contents, the three result arrays at
    whatever they hold, and the TensorCore owing `I.O d`, its recorded pairs all at the kernels' own index. -/
def fillPre (I : FillIn F) (d : Dev nD) : sProp 𝕄 :=
  iprop((aLoc d ↦{fullShare} I.a d) ∗ (xLoc d ↦{fullShare} I.x d) ∗ (fLoc d ↦{fullShare} I.f0 d) ∗ (bLoc d ↦{fullShare} I.b0 d) ∗ (pLoc d ↦{fullShare} I.p0 d)
    ∗ ∃ W, ⌜∀ p ∈ W, p.2 = none⌝ ∗ owes (T d : Thread nD τ) (I.O d) W)

/-- What it leaves, the results as the pipeline's write-backs compute them. -/
def fillPostAt (I : FillIn F) (d : Dev nD) : sProp 𝕄 :=
  iprop((aLoc d ↦{fullShare} I.a d) ∗ (xLoc d ↦{fullShare} I.x d) ∗ (fLoc d ↦{fullShare} (fdat I d).arrAt 2 cfg0.N)
    ∗ (bLoc d ↦{fullShare} (fdat I d).arrAt 3 cfg0.N) ∗ (pLoc d ↦{fullShare} (fdat I d).arrAt 4 cfg0.N)
    ∗ ∃ W, ⌜∀ p ∈ W, p.2 = none⌝ ∗ owes (T d : Thread nD τ) (I.O d) W)

/-- The proof data of the program's one pipeline. -/
def pdats (I : FillIn F) (p : Fin 1) (d : Dev nD) : Dat τ (Elt F) (HIx 1) ℕ UU ℕ (Pipeline.pin (pcfgs (F := F)) adm p) d := fdat I d

theorem share_full (I : FillIn F) (d : Dev nD) (w : Fin cfg0.W) : (fdat I d).share w = fullShare :=
  (fdat I d).share_full (fun _ => rfl) w

/-- The arrays at contents `G`, one by one. -/
theorem arrays_chain (I : FillIn F) (d : Dev nD) (G : (w : Fin cfg0.W) → Buf (Elt F) ((cfg0.win w).arr.view.loc (d.tc : Thread nD τ))) :
    ((fdat I d).arrays G : sProp 𝕄)
      = iprop((aLoc d ↦{fullShare} G 0) ∗ (xLoc d ↦{fullShare} G 1) ∗ (fLoc d ↦{fullShare} G 2) ∗ (bLoc d ↦{fullShare} G 3) ∗ (pLoc d ↦{fullShare} G 4)) := by
  rw [Pipeline.arrays_eq (cfgs) (fun _ d => fdat I d) (0 : Fin 1) d arr_whole0 (share_full I d) G, bigSep_W0]

/-- The region's record. -/
def seg (I : FillIn F) (hO : ∀ d g, I.O d g none = 0) :
    Pipeline.RegionSeg (pcfgs (F := F)) adm (pdats I) (none : HIx 1) defs₀ 𝒱₀ (K (F := F)).L (K (F := F)).lev (0 : Fin 1) where
  win := winFacts0.to₀
  block_pos := block_pos0
  stage_whole := stage_whole0
  K := PEmpty
  osem := fun k => k.elim
  ho := Pipeline.OwnSemFacts.none _
  hbody := fun d => (body_obligation I d).loose
  hwaits := fun d => Pipeline.cellsWaits_intro (Pipeline.pin (pcfgs (F := F)) adm) (pdats I) (none : HIx 1) (0 : Fin 1) d
    fun w s t => (K (F := F)).mayWait_none _ (hO d)
  pre := fillPre I
  post := fillPostAt I
  X := fun _ => iprop(emp)
  Y := fun _ => iprop(emp)
  Z := fun _ => iprop(emp)
  hentry := fun d => by
    show iprop(fillPre I d ∗ _ ∗ _) ⊢ |={Set.univ}=> iprop((fdat I d).arrays ((fdat I d).arrAt · 0) ∗ _ ∗ (fdat I d).owesAt (none : HIx 1) 0 ∗ emp ∗ emp)
    rw [arrays_chain]
    unfold fillPre
    iintro ⟨⟨Ha, Hx, Hf, Hb, Hp, ⟨%W, %hW, Ho⟩⟩, -, -⟩
    imodintro
    isplitl [Ha Hx Hf Hb Hp]
    · isplitl [Ha]; · iexact Ha
      isplitl [Hx]; · iexact Hx
      isplitl [Hf]; · iexact Hf
      isplitl [Hb]; · iexact Hb
      iexact Hp
    isplitr
    · unfold Pipeline.prefHeld; rw [Finset.univ_eq_empty, bigSep_empty]; iempintro
    isplitl [Ho]
    · iexists W; isplitr
      · ipureintro; exact fun p hp => Or.inl (hW p hp)
      iexact Ho
    isplitr <;> iempintro
  hin := fun d => by iintro -; iempintro
  hout := fun d => by
    show iprop(emp) ⊢ iprop(emp ∗ Pipeline.ownSems0 (fun k : PEmpty => k.elim) d ∗ Pipeline.scopedRest spec0 d)
    rw [Pipeline.ownSems0_none _ _ _ _ _ _ _ _ d, scopedRest0_eq]
    iintro -
    isplitr; · iempintro
    isplitr <;> iempintro
  hexit := fun d => by
    show iprop((fdat I d).arrays ((fdat I d).arrAt · cfg0.N) ∗ (fdat I d).owesAt (none : HIx 1) (Fin.last cfg0.N) ∗ emp ∗ emp) ⊢ |={Set.univ}=> fillPostAt I d
    rw [arrays_chain]
    unfold fillPostAt
    rw [(fdat I d).arrAt_in 0 rfl cfg0.N, (fdat I d).arrAt_in 1 rfl cfg0.N]
    iintro ⟨⟨Ha, Hx, Hf, Hb, Hp⟩, ⟨%W, %hW, Ho⟩, -, -⟩
    imodintro
    isplitl [Ha]; · iexact Ha
    isplitl [Hx]; · iexact Hx
    isplitl [Hf]; · iexact Hf
    isplitl [Hb]; · iexact Hb
    isplitl [Hp]; · iexact Hp
    iexists W; isplitr
    · ipureintro
      intro p hp
      rcases hW hp with h | ⟨w, s, rfl⟩
      · exact h
      · rfl
    iexact Ho

set_option backward.isDefEq.respectTransparency.types false in
/-- THE REGION, FRAMED: from the region boundary, the five arrays and what the TensorCore owes, the level facts and the
    pipeline's ghost state, the region's call runs to the region boundary and the arrays as the pipeline leaves them,
    for any continuation. -/
theorem wp_fill_at (I : FillIn F) (hO : ∀ d g, I.O d g none = 0) (d : Dev nD) {α : Type}
    (k : PUnit → Prog (TpuEff nD τ sig (Elt F) (SparseCore.Sig (ΛP (F := F)) 1) .tc) α) (Φ : α → sProp 𝕄) :
    iprop(levAts (K (F := F)).L (K (F := F)).lev ∗ boundary (T d : Thread nD τ) ∗ fillPre I d
        ∗ Pipeline.cellsGhost (Pipeline.pin (pcfgs (F := F)) adm) EP 0 d ∗ Pipeline.toksInit (Pipeline.pin (pcfgs (F := F)) adm) EP 0 d
        ∗ (iprop(boundary (T d : Thread nD τ) ∗ fillPostAt I d) -∗ wp frame (wpE ((K (F := F)).defs D) 𝒱 (T d) none) Set.univ (k ⟨⟩) Φ))
      ⊢ wp frame (wpE ((K (F := F)).defs D) 𝒱 (T d) none) Set.univ (.op (.customCall (SparseCore.inner (Pipeline.entry 0)) ()) k) Φ := by
  have hlift := (K (F := F)).wp_liftProg (D (F := F)) 𝒱 (T d) (Set.univ : Set ℕ) none
    (.op (.customCall (Pipeline.entry (0 : Fin 1)) ()) fun _ => .ret PUnit.unit)
    (fun _ => wp frame (wpE ((K (F := F)).defs D) 𝒱 (T d) none) Set.univ (k ⟨⟩) Φ)
  have hreg := Pipeline.RegionSeg.wp (pcfgs (F := F)) adm (pdats I) (none : HIx 1) cellOf_inj EP defs₀ 𝒱₀ (K (F := F)).L (K (F := F)).lev (seg I hO) d none
    (fun _ h => by cases h) (fun _ => .ret PUnit.unit)
    (fun _ => wp frame (wpE ((K (F := F)).defs D) 𝒱 (T d) none) Set.univ (k ⟨⟩) Φ)
  rw [show (seg I hO).pre d = fillPre I d from rfl, show (seg I hO).post d = fillPostAt I d from rfl] at hreg
  rw [show (Prog.op (.customCall (SparseCore.inner (Pipeline.entry (0 : Fin 1))) ()) k
        : Prog (TpuEff nD τ sig (Elt F) (SparseCore.Sig (ΛP (F := F)) 1) .tc) α)
      = (SparseCore.liftProg (.op (.customCall (Pipeline.entry (0 : Fin 1)) ()) fun _ => .ret PUnit.unit) >>= k) from rfl, wp_bind]
  refine BIBase.Entails.trans ?_ hlift
  refine BIBase.Entails.trans ?_ hreg
  iintro ⟨Hlev, Hb, Hpre, Hg, Ht, Hk⟩
  isplitl [Hk]
  · iintro H
    rw [wp_ret]
    imodintro
    iapply Hk; iexact H
  isplitl [Hb]; · iexact Hb
  isplitl [Hpre]; · iexact Hpre
  isplitl [Hlev]; · iexact Hlev
  isplitl [Hg]; · iexact Hg
  iexact Ht

end Cert.KernelIdeal.Hand

end
-- ==== Proof.FillValue.lean ====
/-
  The fill region's three result arrays in closed form.  Every block the pipeline writes back is the block of ONE
  whole-array function of the argument: the result array holds, at (b, q, v), the off-token value of the argument's
  entry (b, q) — the body's payload of the two rows 2 (b / 2), 2 (b / 2) + 1 read at (b % 2, q, v) —, and the two tables
  are the payloads of the whole reshaped argument.  The blocks cover the arrays, so the arrays end holding these.
-/
import proofs.«211088_g14680198218050_cont_week2b_81_31_alg».proof.Proof.Fill
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

open Idealize.ShloMosaic.ValueIdx

/-! ## The printed index maps, decided over the grid -/

theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-! ## A whole-array window's block is the array -/

theorem emb_blk0 (t : Fin cfg0.N) (y : S32x8.Idx) : ((cfg0.win 0).blk t).view.emb y = y := by
  obtain ⟨e0, e1, -⟩ := idx_facts t
  funext a; apply Fin.ext
  match a with
  | ⟨0, _⟩ => show win0_0.index t (0 : Fin 2) * 32 + 1 * (y 0).val = (y 0).val; omega
  | ⟨1, _⟩ => show win0_0.index t (1 : Fin 2) * 8 + 1 * (y 1).val = (y 1).val; omega
theorem emb_blk1 (t : Fin cfg0.N) (y : S16x16.Idx) : ((cfg0.win 1).blk t).view.emb y = y := by
  obtain ⟨-, -, e0, e1, -⟩ := idx_facts t
  funext a; apply Fin.ext
  match a with
  | ⟨0, _⟩ => show win0_1.index t (0 : Fin 2) * 16 + 1 * (y 0).val = (y 0).val; omega
  | ⟨1, _⟩ => show win0_1.index t (1 : Fin 2) * 16 + 1 * (y 1).val = (y 1).val; omega
theorem emb_blk3 (t : Fin cfg0.N) (y : S16x16.Idx) : ((cfg0.win 3).blk t).view.emb y = y := by
  obtain ⟨-, -, -, -, -, -, -, e0, e1, -⟩ := idx_facts t
  funext a; apply Fin.ext
  match a with
  | ⟨0, _⟩ => show win0_3.index t (0 : Fin 2) * 16 + 1 * (y 0).val = (y 0).val; omega
  | ⟨1, _⟩ => show win0_3.index t (1 : Fin 2) * 16 + 1 * (y 1).val = (y 1).val; omega
theorem emb_blk4 (t : Fin cfg0.N) (y : S16x16.Idx) : ((cfg0.win 4).blk t).view.emb y = y := by
  obtain ⟨-, -, -, -, -, -, -, -, -, e0, e1⟩ := idx_facts t
  funext a; apply Fin.ext
  match a with
  | ⟨0, _⟩ => show win0_4.index t (0 : Fin 2) * 16 + 1 * (y 0).val = (y 0).val; omega
  | ⟨1, _⟩ => show win0_4.index t (1 : Fin 2) * 16 + 1 * (y 1).val = (y 1).val; omega

/-- The argument's block at any point is the argument; the reshaped argument's likewise. -/
theorem inBlk_0 (I : FillIn F) (d : Dev nD) (t : Fin cfg0.N) : inBlk I d 0 t = I.a d := by
  funext y
  show I.a d (((cfg0.win 0).blk t).view.emb y) = I.a d y
  rw [emb_blk0]
theorem inBlk_1 (I : FillIn F) (d : Dev nD) (t : Fin cfg0.N) : inBlk I d 1 t = I.x d := by
  funext y
  show I.x d (((cfg0.win 1).blk t).view.emb y) = I.x d y
  rw [emb_blk1]

/-! ## The two tables -/

/-- The off-token table: the payload of the whole reshaped argument. -/
theorem final3 (I : FillIn F) (d : Dev nD) : (fdat I d).arrAt 3 cfg0.N = (k0_pay4 (I.x d) : Vec F S16x16 .f32) := by
  refine (fdat I d).arrAt_eq_of_cover 3 _ (fun t _ => ?_) (fun i => ⟨t0_15, (flush0_3 _).mpr rfl, ?_⟩)
  · show (cfg0.win 3).cut (grid0.coords t) ((fdat I d).after 3 t) = _
    rw [after_3]; unfold tblB; rw [inBlk_1]
    funext j
    show k0_pay4 (I.x d) j = k0_pay4 (I.x d) (((cfg0.win 3).blk t).view.emb j)
    rw [emb_blk3]
  · have h := ((cfg0.win 3).blk t0_15).view.emb_mem_set i
    rwa [emb_blk3] at h
/-- The on-token table. -/
theorem final4 (I : FillIn F) (d : Dev nD) : (fdat I d).arrAt 4 cfg0.N = (k0_pay5 (I.x d) : Vec F S16x16 .f32) := by
  refine (fdat I d).arrAt_eq_of_cover 4 _ (fun t _ => ?_) (fun i => ⟨t0_15, (flush0_4 _).mpr rfl, ?_⟩)
  · show (cfg0.win 4).cut (grid0.coords t) ((fdat I d).after 4 t) = _
    rw [after_4]; unfold tblP; rw [inBlk_1]
    funext j
    show k0_pay5 (I.x d) j = k0_pay5 (I.x d) (((cfg0.win 4).blk t).view.emb j)
    rw [emb_blk4]
  · have h := ((cfg0.win 4).blk t0_15).view.emb_mem_set i
    rwa [emb_blk4] at h

/-! ## The filled array -/

/-- The grid point whose block holds row `b` of the result. -/
def ptOf (b : Fin 32) : Fin cfg0.N := ⟨b.val / 2, by rw [show cfg0.N = 16 from N_0]; omega⟩
/-- An index of the result inside its block. -/
def inIdx (j : S32x8x100000.Idx) : S2x8x100000.Idx :=
  ix3 (⟨(j 0).val % 2, Nat.mod_lt _ (by decide)⟩ : Fin 2) (j 1 : Fin 8) (j 2 : Fin 100000)

/-- The filled array as one function of the argument: at (b, q, v) the body's payload of the two rows read at grid point
    `b / 2`, at (b % 2, q, v). -/
def fillV (a : Vec F S32x8 .f32) : Vec F S32x8x100000 .f32 := fun j => fillBlk (grid0.coords (ptOf (j 0))) a (inIdx j)

/-- What point `t` writes back is block `t` of `fillV` of the argument. -/
theorem flushed2_eq (I : FillIn F) (d : Dev nD) (t : Fin cfg0.N) :
    (fdat I d).flushed 2 t = ((cfg0.win 2).blk t).view.read (Elt F) (fillV (I.a d)) := by
  show (cfg0.win 2).cut (grid0.coords t) ((fdat I d).after 2 t) = _
  rw [after_2, inBlk_0]
  obtain ⟨-, -, -, -, e0, e1, e2, -⟩ := idx_facts t
  funext y
  show fillBlk (grid0.coords t) (I.a d) y = fillV (I.a d) (((cfg0.win 2).blk t).view.emb y)
  unfold fillV
  have hy0 : (y 0).val < 2 := (y 0).isLt
  have hp : ptOf ((((cfg0.win 2).blk t).view.emb y) 0) = t := by
    apply Fin.ext
    show (win0_2.index t (0 : Fin 3) * 2 + 1 * (y 0).val) / 2 = t.val
    omega
  have hy : inIdx (((cfg0.win 2).blk t).view.emb y) = y := by
    funext a; apply Fin.ext
    match a with
    | ⟨0, _⟩ => show (win0_2.index t (0 : Fin 3) * 2 + 1 * (y 0).val) % 2 = (y 0).val; omega
    | ⟨1, _⟩ => show win0_2.index t (1 : Fin 3) * 8 + 1 * (y 1).val = (y 1).val; omega
    | ⟨2, _⟩ => show win0_2.index t (2 : Fin 3) * 100000 + 1 * (y 2).val = (y 2).val; omega
  rw [hp, hy]

/-- Every index of the result is in the block of the point that holds its row. -/
theorem cover2 (i : S32x8x100000.Idx) : ∃ t : Fin cfg0.N, (cfg0.win 2).flush t = true ∧ i ∈ ((cfg0.win 2).blk t).view.set := by
  refine ⟨ptOf (i 0), flush0_2 _, ?_⟩
  obtain ⟨-, -, -, -, e0, e1, e2, -⟩ := idx_facts (ptOf (i 0))
  have hi0 : (i 0).val < 32 := (i 0).isLt
  have hpt : (ptOf (i 0)).val = (i 0).val / 2 := rfl
  have h := ((cfg0.win 2).blk (ptOf (i 0))).view.emb_mem_set (inIdx i)
  have he : ((cfg0.win 2).blk (ptOf (i 0))).view.emb (inIdx i) = i := by
    funext a; apply Fin.ext
    match a with
    | ⟨0, _⟩ => show win0_2.index (ptOf (i 0)) (0 : Fin 3) * 2 + 1 * ((i 0).val % 2) = (i 0).val; omega
    | ⟨1, _⟩ => show win0_2.index (ptOf (i 0)) (1 : Fin 3) * 8 + 1 * (i 1).val = (i 1).val; omega
    | ⟨2, _⟩ => show win0_2.index (ptOf (i 0)) (2 : Fin 3) * 100000 + 1 * (i 2).val = (i 2).val; omega
  rwa [he] at h

/-- The filled array after the run. -/
theorem final2 (I : FillIn F) (d : Dev nD) : (fdat I d).arrAt 2 cfg0.N = fillV (I.a d) :=
  (fdat I d).arrAt_eq_of_cover 2 (fillV (I.a d)) (fun t _ => flushed2_eq I d t) cover2

/-! ## The region, with its values -/

/-- What the region leaves: the argument and its reshape as they were, the filled array, the two tables. -/
def fillPost (I : FillIn F) (d : Dev nD) : sProp 𝕄 :=
  iprop((aLoc d ↦{fullShare} I.a d) ∗ (xLoc d ↦{fullShare} I.x d) ∗ (fLoc d ↦{fullShare} fillV (I.a d))
    ∗ (bLoc d ↦{fullShare} (k0_pay4 (I.x d) : Vec F S16x16 .f32)) ∗ (pLoc d ↦{fullShare} (k0_pay5 (I.x d) : Vec F S16x16 .f32))
    ∗ ∃ W, ⌜∀ p ∈ W, p.2 = none⌝ ∗ owes (T d : Thread nD τ) (I.O d) W)

theorem fillPostAt_eq (I : FillIn F) (d : Dev nD) : fillPostAt I d = fillPost I d := by
  unfold fillPostAt fillPost
  rw [final2, final3, final4]

/-- THE REGION WITH ITS VALUES: from the region boundary, the five arrays and what the TensorCore owes, the level facts
    and the pipeline's ghost state, the region's call runs to the region boundary, the filled array and the two tables
    for any continuation. -/
theorem wp_fill (I : FillIn F) (hO : ∀ d g, I.O d g none = 0) (d : Dev nD) {α : Type}
    (k : PUnit → Prog (TpuEff nD τ sig (Elt F) (SparseCore.Sig (ΛP (F := F)) 1) .tc) α) (Φ : α → sProp 𝕄) :
    iprop(levAts (K (F := F)).L (K (F := F)).lev ∗ boundary (T d : Thread nD τ) ∗ fillPre I d
        ∗ Pipeline.cellsGhost (Pipeline.pin (pcfgs (F := F)) adm) EP 0 d ∗ Pipeline.toksInit (Pipeline.pin (pcfgs (F := F)) adm) EP 0 d
        ∗ (iprop(boundary (T d : Thread nD τ) ∗ fillPost I d) -∗ wp frame (wpE ((K (F := F)).defs D) 𝒱 (T d) none) Set.univ (k ⟨⟩) Φ))
      ⊢ wp frame (wpE ((K (F := F)).defs D) 𝒱 (T d) none) Set.univ (.op (.customCall (SparseCore.inner (Pipeline.entry 0)) ()) k) Φ := by
  rw [← fillPostAt_eq]
  exact wp_fill_at I hO d k Φ

end Cert.KernelIdeal.Hand

end
-- ==== Proof.MainTc.lean ====
import proofs.«211088_g14680198218050_cont_week2b_81_31_alg».proof.Proof.Common
import proofs.«211088_g14680198218050_cont_week2b_81_31_alg».proof.Proof.LaunchElem
import proofs.«211088_g14680198218050_cont_week2b_81_31_alg».proof.Proof.FillValue

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

/-! ## @main on the TensorCore -/

abbrev a' : DevRef τ sig := Proc.devRef .tc (main_arg0 : Ref sig .tc)
abbrev i' : DevRef τ sig := Proc.devRef .tc (main_arg1 : Ref sig .tc)
abbrev x' : DevRef τ sig := Proc.devRef .tc (main_v0 : Ref sig .tc)
abbrev f' : DevRef τ sig := Proc.devRef .tc (main_v1_0 : Ref sig .tc)
abbrev b' : DevRef τ sig := Proc.devRef .tc (main_v1_1 : Ref sig .tc)
abbrev p' : DevRef τ sig := Proc.devRef .tc (main_v1_2 : Ref sig .tc)
abbrev j' : DevRef τ sig := Proc.devRef .tc (main_v2 : Ref sig .tc)
abbrev o' : DevRef τ sig := Proc.devRef .tc (main_v3 : Ref sig .tc)

/-- The TensorCore's arrays, all unscoped. -/
abbrev S8 : Finset (DevRef τ sig) := {a', i', x', f', b', p', j', o'}

abbrev op1 : HloOp τ sig (Elt F) := StableHlo.reshape main_arg0 main_v0 rfl Cert.KernelIdeal.Gen.shapeCasts_S32x8_S16x16
abbrev op2 : HloOp τ sig (Elt F) := StableHlo.reshape main_arg1 main_v2 rfl Cert.KernelIdeal.Gen.shapeCasts_S32x8_S16x16
abbrev op3 : HloOp τ sig (Elt F) := StableHlo.unary main_v1_0 main_v3 id

/-- The two tables as functions of the reshaped log-SNR: the region's stored payloads. -/
abbrev baseT (x : Vec F S16x16 .f32) : Vec F S16x16 .f32 := k0_pay4 x
abbrev peakT (x : Vec F S16x16 .f32) : Vec F S16x16 .f32 := k0_pay5 x

variable (m : (ℓ : Loc nD τ sig) → Buf (Elt F) ℓ) (ρ : Dev nD → PrngReg)

/-- The arrays' contents along @main: at the launch; after the first reshape; after the region; after the second
    reshape; after the copy. -/
def V0 (d : Dev nD) : Valuation τ sig (Elt F) := fun b => m (d, b)
def V1 (d : Dev nD) : Valuation τ sig (Elt F) := (op1 (F := F)).result (V0 m d)
def V2 (d : Dev nD) : Valuation τ sig (Elt F) :=
  Function.update (Function.update (Function.update (V1 m d) f' (fillV (V1 m d a'))) b' (baseT (V1 m d x'))) p' (peakT (V1 m d x'))
def V3 (d : Dev nD) : Valuation τ sig (Elt F) := (op2 (F := F)).result (V2 m d)
def V4 (d : Dev nD) : Valuation τ sig (Elt F) := (op3 (F := F)).result (V3 m d)

/-- The arrays the SparseCore call starts from. -/
def vals : Vals F := ⟨fun d => V4 m d o', fun d => V4 m d b', fun d => V4 m d p', fun d => V4 m d j'⟩

theorem held_S8 (d : Dev nD) (W : Valuation τ sig (Elt F)) :
    (held (T d) S8 W : sProp 𝕄) = iprop((aLoc d ↦{fullShare} W a') ∗ (iLoc d ↦{fullShare} W i') ∗ (xLoc d ↦{fullShare} W x') ∗ (fLoc d ↦{fullShare} W f')
      ∗ (bLoc d ↦{fullShare} W b') ∗ (pLoc d ↦{fullShare} W p') ∗ (jLoc d ↦{fullShare} W j') ∗ (oLoc d ↦{fullShare} W o')) := by
  unfold held S8
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((aLoc d ↦{fullShare} W main_arg0) ∗ (iLoc d ↦{fullShare} W main_arg1) ∗ (xLoc d ↦{fullShare} W main_v0) ∗ (fLoc d ↦{fullShare} W main_v1_0)
      ∗ (bLoc d ↦{fullShare} W main_v1_1) ∗ (pLoc d ↦{fullShare} W main_v1_2) ∗ (jLoc d ↦{fullShare} W main_v2) ∗ (oLoc d ↦{fullShare} W main_v3)) := by
  unfold unscopedBufs
  rw [show (Finset.univ.filter fun b : Ref sig .tc => ¬ b.isScoped) = {main_arg0, main_arg1, main_v0, main_v1_0, main_v1_1, main_v1_2, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscoped_held (d : Dev nD) : (unscopedBufs d (fun b => m ((SparseCore.T d).loc b)) : sProp 𝕄) = held (T d) S8 (V0 m d) := by
  rw [unscopedBufs_eq, held_S8]; rfl

end Cert.KernelIdeal.Hand

end
-- ==== Proof.Values.lean ====
/- The arrays' contents along @main in closed form: the filled array, the two tables and the
   reshaped token ids the SparseCore call starts from, as functions of the two arguments; and
   the token ids' range, from the precondition. -/
import proofs.«211088_g14680198218050_cont_week2b_81_31_alg».proof.Proof.MainTc
import proofs.«211088_g14680198218050_cont_week2b_81_31_alg».proof.Proof.PreIds
import proofs.«211088_g14680198218050_cont_week2b_81_31_alg».proof.Proof.Reshape

noncomputable section

namespace Cert.KernelIdeal.Hand

open Cert.KernelIdeal Cert.KernelIdeal.Gen

open Idealize.ShloMosaic
open Idealize.ShloMosaic.SparseCore (S V T)

variable {F : FTy → Type} [FloatOps F]

variable (m : (ℓ : Loc nD τ sig) → Buf (Elt F) ℓ)

/-! ## One step at a time -/

theorem V1_of_ne (d : Dev nD) {r : Ref sig .tc} (h : r ≠ main_v0) :
    V1 m d (Proc.devRef .tc r) = V0 m d (Proc.devRef .tc r) := by
  unfold V1; exact StableHlo.reshape_result_ne' _ _ _ _ _ h

theorem V1_x (d : Dev nD) :
    V1 m d x' = shapeCast S16x16 (V0 m d a') shapeCasts_S32x8_S16x16 := by
  unfold V1; exact (StableHlo.reshape_result' _ _ _ _ _).trans rfl

theorem V3_of_ne (d : Dev nD) {r : Ref sig .tc} (h : r ≠ main_v2) :
    V3 m d (Proc.devRef .tc r) = V2 m d (Proc.devRef .tc r) := by
  unfold V3; exact StableHlo.reshape_result_ne' _ _ _ _ _ h

theorem V3_j (d : Dev nD) :
    V3 m d j' = shapeCast S16x16 (V2 m d i') shapeCasts_S32x8_S16x16 := by
  unfold V3; exact (StableHlo.reshape_result' _ _ _ _ _).trans rfl

theorem V4_of_ne (d : Dev nD) {r : Ref sig .tc} (h : r ≠ main_v3) :
    V4 m d (Proc.devRef .tc r) = V3 m d (Proc.devRef .tc r) := by
  unfold V4; exact StableHlo.unary_result_ne' _ _ _ _ h

theorem V4_o (d : Dev nD) : V4 m d o' = V3 m d f' := by
  unfold V4; exact StableHlo.unary_result' _ _ _ _

theorem V2_f (d : Dev nD) : V2 m d f' = fillV (V1 m d a') := by
  unfold V2
  rw [Function.update_of_ne (by decide : (f' : DevRef τ sig) ≠ p'),
    Function.update_of_ne (by decide : (f' : DevRef τ sig) ≠ b'), Function.update_self]

theorem V2_b (d : Dev nD) : V2 m d b' = baseT (V1 m d x') := by
  unfold V2
  rw [Function.update_of_ne (by decide : (b' : DevRef τ sig) ≠ p'), Function.update_self]

theorem V2_p (d : Dev nD) : V2 m d p' = peakT (V1 m d x') := by
  unfold V2
  rw [Function.update_self]

theorem V2_of_ne (d : Dev nD) (r : DevRef τ sig) (hf : r ≠ f') (hb : r ≠ b') (hp : r ≠ p') :
    V2 m d r = V1 m d r := by
  unfold V2
  rw [Function.update_of_ne hp, Function.update_of_ne hb, Function.update_of_ne hf]

/-! ## The arguments are never written -/

theorem V4_a (d : Dev nD) : V4 m d a' = m (aLoc d) := by
  rw [V4_of_ne m d (by decide : (main_arg0 : Ref sig .tc) ≠ main_v3),
    V3_of_ne m d (by decide : (main_arg0 : Ref sig .tc) ≠ main_v2),
    V2_of_ne m d _ (by decide) (by decide) (by decide),
    V1_of_ne m d (by decide : (main_arg0 : Ref sig .tc) ≠ main_v0)]
  rfl

theorem V4_i (d : Dev nD) : V4 m d i' = m (iLoc d) := by
  rw [V4_of_ne m d (by decide : (main_arg1 : Ref sig .tc) ≠ main_v3),
    V3_of_ne m d (by decide : (main_arg1 : Ref sig .tc) ≠ main_v2),
    V2_of_ne m d _ (by decide) (by decide) (by decide),
    V1_of_ne m d (by decide : (main_arg1 : Ref sig .tc) ≠ main_v0)]
  rfl

theorem V1_a (d : Dev nD) : V1 m d a' = m (aLoc d) := by
  rw [V1_of_ne m d (by decide : (main_arg0 : Ref sig .tc) ≠ main_v0)]; rfl

theorem V2_i (d : Dev nD) : V2 m d i' = m (iLoc d) := by
  rw [V2_of_ne m d _ (by decide) (by decide) (by decide),
    V1_of_ne m d (by decide : (main_arg1 : Ref sig .tc) ≠ main_v0)]
  rfl

/-- The log-SNR argument reshaped to 16×16. -/
theorem V1_x_eq (d : Dev nD) :
    V1 m d x' = shapeCast S16x16 (m (aLoc d)) shapeCasts_S32x8_S16x16 := by
  rw [V1_x]; rfl

/-! ## What the SparseCore call starts from -/

theorem vals_fv (d : Dev nD) : (vals m).fv d = fillV (m (aLoc d)) := by
  show V4 m d o' = _
  rw [V4_o, V3_of_ne m d (by decide : (main_v1_0 : Ref sig .tc) ≠ main_v2), V2_f, V1_a]

theorem vals_bv (d : Dev nD) :
    (vals m).bv d = baseT (shapeCast S16x16 (m (aLoc d)) shapeCasts_S32x8_S16x16) := by
  show V4 m d b' = _
  rw [V4_of_ne m d (by decide : (main_v1_1 : Ref sig .tc) ≠ main_v3),
    V3_of_ne m d (by decide : (main_v1_1 : Ref sig .tc) ≠ main_v2), V2_b, V1_x_eq]

theorem vals_pv (d : Dev nD) :
    (vals m).pv d = peakT (shapeCast S16x16 (m (aLoc d)) shapeCasts_S32x8_S16x16) := by
  show V4 m d p' = _
  rw [V4_of_ne m d (by decide : (main_v1_2 : Ref sig .tc) ≠ main_v3),
    V3_of_ne m d (by decide : (main_v1_2 : Ref sig .tc) ≠ main_v2), V2_p, V1_x_eq]

theorem vals_iv (d : Dev nD) :
    (vals m).iv d = shapeCast S16x16 (m (iLoc d)) shapeCasts_S32x8_S16x16 := by
  show V4 m d j' = _
  rw [V4_of_ne m d (by decide : (main_v2 : Ref sig .tc) ≠ main_v3), V3_j, V2_i]

/-! ## The token ids' range -/

/-- Where the precondition holds on every device, every reshaped token id is below 100000. -/
theorem idsOK_of_pre
    (h : ∀ d : Dev nD, Cert.Pre_input_domain.fn (F := F) (m (aLoc d)) (m (iLoc d)) = fun _ => 1#1) :
    IdsOK (vals m) := by
  intro d t
  rw [vals_iv]
  rw [Cert.Reshape.shapeCast_32x8_16x16_apply]
  exact Cert.PreIds.ids_lt _ _ (h d) _

end Cert.KernelIdeal.Hand

end
-- ==== Proof.CommonBits.lean ====
/-
  The shared setting of the kernel's frame and value proof.  The program is @main on the TensorCore — two reshapes,
  one TensorCore kernel region that fills the result with the off-token value and produces the two 16×16 tables of
  off-token and on-token values, a copy of the filled array, and one SparseCore vector-subcore call — beside the
  sequencers' and the sixteen tiles' threads.  Tile `s` reads row `s` of the two tables and of the reshaped token
  ids and overwrites, for each of its sixteen (row, column) positions, the aligned block of sixteen lanes that holds
  the position's token id.  Stated here: the program as the launch theorem reads it, the ghost state (the handshakes'
  rounds, the staging cells' rounds, the transfers' counters), the arrays by name, the array the tiles leave (`outV`),
  and what the handshakes carry.
-/
import proofs.«211088_g14680198218050_cont_week2b_81_31_alg».proof.Kernel
import proofs.«211088_g14680198218050_cont_week2b_81_31_alg».proof.Proof.Gen.Kernel
import proofs.«211088_g14680198218050_cont_week2b_81_31_alg».proof.Proof.Gen.Kernel.Launch
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Batch
import Idealize.ShloMosaic.Lib.ValueIdx
import Idealize.ShloMosaic.Lib.Tactic

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 1 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the staging cells' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds, the left factor. -/
abbrev EH : Emb UH (MT nD τ sig (HIx 1) (Elt F) ℕ UU ℕ) := embL
/-- The staging cells' rounds, the left of the right factor. -/
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP embR; infer_instance

/-- The one admissible contents of the (absent) prefetched tables of the TensorCore kernel's pipeline. -/
abbrev adm : (p : Fin 1) → (pcfgs (F := F) p).Adm := fun p => (cfgs p).toPCfg_adm

/-! ## The arrays -/

abbrev aLoc (d : Dev nD) : Loc nD τ sig := (SparseCore.T d).loc main_arg0   -- the log-SNR argument, f32[32,8]
abbrev iLoc (d : Dev nD) : Loc nD τ sig := (SparseCore.T d).loc main_arg1   -- the token ids, i32[32,8]
abbrev xLoc (d : Dev nD) : Loc nD τ sig := (SparseCore.T d).loc main_v0     -- the log-SNR reshaped, f32[16,16]
abbrev fLoc (d : Dev nD) : Loc nD τ sig := (SparseCore.T d).loc main_v1_0   -- the filled array, f32[32,8,100000]
abbrev bLoc (d : Dev nD) : Loc nD τ sig := (SparseCore.T d).loc main_v1_1   -- the off-token table, f32[16,16]
abbrev pLoc (d : Dev nD) : Loc nD τ sig := (SparseCore.T d).loc main_v1_2   -- the on-token table, f32[16,16]
abbrev jLoc (d : Dev nD) : Loc nD τ sig := (SparseCore.T d).loc main_v2     -- the token ids reshaped, i32[16,16]
abbrev oLoc (d : Dev nD) : Loc nD τ sig := (SparseCore.T d).loc main_v3     -- the result, f32[32,8,100000]

/-- The arrays the SparseCore call starts from, per device: the result array as the copy left it (`fv`), the two
    tables (`bv`, `pv`) and the reshaped token ids (`iv`). -/
structure Vals (F : FTy → Type) where
  fv : (d : Dev nD) → Buf (Elt F) (oLoc d)
  bv : (d : Dev nD) → Buf (Elt F) (bLoc d)
  pv : (d : Dev nD) → Buf (Elt F) (pLoc d)
  iv : (d : Dev nD) → Buf (Elt F) (jLoc d)

/-- The tile that owns row `b` of the result, and the position's number within the tile. -/
abbrev tileOf (b : Fin 32) : Fin 16 := ⟨b.val / 2, by omega⟩
abbrev posOf (b : Fin 32) (c : Fin 8) : Fin 16 := ⟨(b.val % 2) * 8 + c.val, by omega⟩

/-- The result array as the sixteen tiles leave it: at position `(b, c)` the aligned block of sixteen lanes holding the
    position's token id `p` is overwritten — lane `p` by the on-token table's entry, the others by the off-token
    table's —, every other lane keeps what the copy left. -/
def outV (vals : Vals F) (d : Dev nD) : Buf (Elt F) (oLoc d) := fun j =>
  let b : Fin 32 := j 0
  let c : Fin 8 := j 1
  let t : S16x16.Idx := ValueIdx.ix2 (tileOf b) (posOf b c)
  let p : Nat := (vals.iv d t : BitVec 32).toNat
  if 16 * (p / 16) ≤ (j 2).val ∧ (j 2).val < 16 * (p / 16) + 16 then
    (if (j 2).val = p then vals.pv d t else vals.bv d t)
  else vals.fv d j

/-- What the proof asks of the token ids: every one is below the vocabulary's size. -/
def IdsOK (vals : Vals F) : Prop := ∀ (d : Dev nD) (t : S16x16.Idx), (vals.iv d t : BitVec 32).toNat < 100000

/-! ## The rows of the tables and the slabs of the result, one per tile -/

abbrev bV : Memref sig .scVector .hbm S16x16 .f32 := Memref.whole main_v1_1_scv
abbrev pV : Memref sig .scVector .hbm S16x16 .f32 := Memref.whole main_v1_2_scv
abbrev iV : Memref sig .scVector .hbm S16x16 .i32 := Memref.whole main_v2_scv
abbrev oV : Memref sig .scVector .hbm S32x8x100000 .f32 := Memref.whole main_v3_scv

theorem hdiv16 : 16 ∣ S16x16.size 0 := ⟨1, rfl⟩
theorem hdiv32 : 16 ∣ S32x8x100000.size 0 := ⟨2, rfl⟩
/-- Row `i` of a 16×16 table. -/
abbrev row (i : Fin 16) : Rect S16x16 := Rect.part (s := S16x16) (a₀ := 0) hdiv16 i
/-- Tile `i`'s slab of the result: rows `2 i` and `2 i + 1`. -/
abbrev slab (i : Fin 16) : Rect S32x8x100000 := Rect.part (s := S32x8x100000) (a₀ := 0) hdiv32 i
abbrev rowSet (i : Fin 16) : Finset S16x16.Idx := (row i).set
abbrev slabSet (i : Fin 16) : Finset S32x8x100000.Idx := (slab i).set

/-! ## What the handshakes carry -/

section Pay

variable (vals : Vals F)

abbrev bPts (d : Dev nD) : sProp 𝕄 := bLoc d ↦{fullShare} vals.bv d
abbrev pPts (d : Dev nD) : sProp 𝕄 := pLoc d ↦{fullShare} vals.pv d
abbrev iPts (d : Dev nD) : sProp 𝕄 := jLoc d ↦{fullShare} vals.iv d
abbrev oPts (d : Dev nD) (f : Buf (Elt F) (oLoc d)) : sProp 𝕄 := oLoc d ↦{fullShare} f
abbrev bRowPts (d : Dev nD) (i : Fin 16) : sProp 𝕄 := bLoc d ↦[rowSet i]{fullShare} vals.bv d
abbrev pRowPts (d : Dev nD) (i : Fin 16) : sProp 𝕄 := pLoc d ↦[rowSet i]{fullShare} vals.pv d
abbrev iRowPts (d : Dev nD) (i : Fin 16) : sProp 𝕄 := jLoc d ↦[rowSet i]{fullShare} vals.iv d
abbrev oSlabPts (d : Dev nD) (i : Fin 16) (f : Buf (Elt F) (oLoc d)) : sProp 𝕄 := oLoc d ↦[slabSet i]{fullShare} f

/-- The one call takes the two tables, the reshaped ids and the result array whole; each task gets row `i` of the first
    three and slab `i` of the result, and brings them back, the slab at what the tiles leave (`outV`). -/
def P : (K (F := F)).Pay (nD := nD) (Val := Elt F) (Name := ℕ) (U := UU) where
  st := fun q d _ => match q with | 0 => iprop(bPts vals d ∗ pPts vals d ∗ iPts vals d ∗ oPts d (vals.fv d))
  dn := fun q d _ => match q with | 0 => iprop(bPts vals d ∗ pPts vals d ∗ iPts vals d ∗ oPts d (outV vals d))
  go := fun q d _ i => match q with
    | 0 => iprop(bRowPts vals d (Fin.cast nSub_zero i) ∗ pRowPts vals d (Fin.cast nSub_zero i) ∗ iRowPts vals d (Fin.cast nSub_zero i)
        ∗ oSlabPts d (Fin.cast nSub_zero i) (vals.fv d))
  td := fun q d _ i => match q with
    | 0 => iprop(bRowPts vals d (Fin.cast nSub_zero i) ∗ pRowPts vals d (Fin.cast nSub_zero i) ∗ iRowPts vals d (Fin.cast nSub_zero i)
        ∗ oSlabPts d (Fin.cast nSub_zero i) (outV vals d))
  x := fun _ _ => iprop(emp)

instance P_storable : (P (F := F) vals).IsStorable where
  st q d _ := match q with
    | 0 => (inferInstance : BI.Storable (upEmb : UEmb _ 𝕄) iprop(bPts vals d ∗ pPts vals d ∗ iPts vals d ∗ oPts d (vals.fv d)))
  dn q d _ := match q with
    | 0 => (inferInstance : BI.Storable (upEmb : UEmb _ 𝕄) iprop(bPts vals d ∗ pPts vals d ∗ iPts vals d ∗ oPts d (outV vals d)))
  go q d _ i := match q with
    | 0 => (inferInstance : BI.Storable (upEmb : UEmb _ 𝕄)
        iprop(bRowPts vals d (Fin.cast nSub_zero i) ∗ pRowPts vals d (Fin.cast nSub_zero i) ∗ iRowPts vals d (Fin.cast nSub_zero i)
          ∗ oSlabPts d (Fin.cast nSub_zero i) (vals.fv d)))
  td q d _ i := match q with
    | 0 => (inferInstance : BI.Storable (upEmb : UEmb _ 𝕄)
        iprop(bRowPts vals d (Fin.cast nSub_zero i) ∗ pRowPts vals d (Fin.cast nSub_zero i) ∗ iRowPts vals d (Fin.cast nSub_zero i)
          ∗ oSlabPts d (Fin.cast nSub_zero i) (outV vals d)))

end Pay

end Cert.Kernel.Hand

end
-- ==== Proof.SplitBits.lean ====
import proofs.«211088_g14680198218050_cont_week2b_81_31_alg».proof.Proof.CommonBits

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## The call's operands split among the tiles, and the results gather -/

theorem rows_disjoint : ∀ i ∈ (Finset.univ : Finset (Fin 16)), ∀ j ∈ (Finset.univ : Finset (Fin 16)), i ≠ j → Disjoint (rowSet i) (rowSet j) :=
  fun i _ j _ h => Rect.part_disjoint hdiv16 h
theorem rows_cover : (Finset.univ : Finset (Fin 16)).biUnion rowSet = Finset.univ := Rect.biUnion_part hdiv16
theorem slabs_disjoint : ∀ i ∈ (Finset.univ : Finset (Fin 16)), ∀ j ∈ (Finset.univ : Finset (Fin 16)), i ≠ j → Disjoint (slabSet i) (slabSet j) :=
  fun i _ j _ h => Rect.part_disjoint hdiv32 h
theorem slabs_cover : (Finset.univ : Finset (Fin 16)).biUnion slabSet = Finset.univ := Rect.biUnion_part hdiv32

theorem bPts_rows (d : Dev nD) (f : Buf (Elt F) (bLoc d)) :
    (bLoc d ↦{fullShare} f : sProp 𝕄) = bigSep Finset.univ fun i : Fin 16 => bLoc d ↦[rowSet i]{fullShare} f := by
  rw [← pointsTo_biUnion Finset.univ (ℓ := bLoc d) rowSet rows_disjoint, rows_cover]; try rfl
theorem pPts_rows (d : Dev nD) (f : Buf (Elt F) (pLoc d)) :
    (pLoc d ↦{fullShare} f : sProp 𝕄) = bigSep Finset.univ fun i : Fin 16 => pLoc d ↦[rowSet i]{fullShare} f := by
  rw [← pointsTo_biUnion Finset.univ (ℓ := pLoc d) rowSet rows_disjoint, rows_cover]; try rfl
theorem iPts_rows (d : Dev nD) (f : Buf (Elt F) (jLoc d)) :
    (jLoc d ↦{fullShare} f : sProp 𝕄) = bigSep Finset.univ fun i : Fin 16 => jLoc d ↦[rowSet i]{fullShare} f := by
  rw [← pointsTo_biUnion Finset.univ (ℓ := jLoc d) rowSet rows_disjoint, rows_cover]; try rfl
theorem oPts_slabs (d : Dev nD) (f : Buf (Elt F) (oLoc d)) :
    (oLoc d ↦{fullShare} f : sProp 𝕄) = bigSep Finset.univ fun i : Fin 16 => oLoc d ↦[slabSet i]{fullShare} f := by
  rw [← pointsTo_biUnion Finset.univ (ℓ := oLoc d) slabSet slabs_disjoint, slabs_cover]; try rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- Each table and the ids split into their sixteen rows, the result array into its sixteen slabs; what the tiles bring
    back joins to the whole arrays again, the result at the one function every slab holds. -/
theorem vecSplit (vals : Vals F) : (K (F := F)).VecSplit' (P vals) 0 := by
  intro d c
  show iprop(bPts vals d ∗ pPts vals d ∗ iPts vals d ∗ oPts d (vals.fv d)) ⊢ |={Set.univ}=> iprop(
      (bigSep Finset.univ fun i : Fin ((K (F := F)).nSub 0) =>
        iprop(bRowPts vals d (Fin.cast nSub_zero i) ∗ pRowPts vals d (Fin.cast nSub_zero i) ∗ iRowPts vals d (Fin.cast nSub_zero i)
          ∗ oSlabPts d (Fin.cast nSub_zero i) (vals.fv d)))
      ∗ ((bigSep Finset.univ fun i : Fin ((K (F := F)).nSub 0) =>
          iprop(bRowPts vals d (Fin.cast nSub_zero i) ∗ pRowPts vals d (Fin.cast nSub_zero i) ∗ iRowPts vals d (Fin.cast nSub_zero i)
            ∗ oSlabPts d (Fin.cast nSub_zero i) (outV vals d)))
          -∗ iprop(bPts vals d ∗ pPts vals d ∗ iPts vals d ∗ oPts d (outV vals d))))
  rw [bigSep_tasks (F := F) (fun i => iprop(bRowPts vals d i ∗ pRowPts vals d i ∗ iRowPts vals d i ∗ oSlabPts d i (vals.fv d))),
    bigSep_tasks (F := F) (fun i => iprop(bRowPts vals d i ∗ pRowPts vals d i ∗ iRowPts vals d i ∗ oSlabPts d i (outV vals d))),
    bigSep_sep', bigSep_sep', bigSep_sep', bigSep_sep', bigSep_sep', bigSep_sep']
  unfold bPts pPts iPts oPts bRowPts pRowPts iRowPts oSlabPts
  rw [bPts_rows, pPts_rows, iPts_rows, oPts_slabs, oPts_slabs]
  iintro H; imodintro
  isplitl [H]; · iexact H
  iintro H; iexact H

end Cert.Kernel.Hand

end
-- ==== Proof.LaunchElemBits.lean ====
import proofs.«211088_g14680198218050_cont_week2b_81_31_alg».proof.Proof.CommonBits
import proofs.«211088_g14680198218050_cont_week2b_81_31_alg».proof.Proof.SplitBits

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

/-! ## The launch element: the handshakes' rounds, the staging cells' rounds, nothing for the transfers' counters -/

def u₀ : UU :=
  (initOf (K (F := F)).hsCells (K (F := F)).hsToks,
    (initOf (Pipeline.cells (nD := nD) (τ := τ) cfgs cellOf_inj) (Pipeline.launchToks (nD := nD) (τ := τ) cfgs cellOf_inj), 1))

/-- What @main's proof starts from beyond the launch's deal: the staging cells' ghost state and the duty tokens of
    the region's transfers. -/
abbrev G₀ (d : Dev nD) : sProp 𝕄 :=
  iprop(Pipeline.cellsGhost (nD := nD) (τ := τ) cfgs (EP (F := F)) 0 d ∗ Pipeline.toksInit (nD := nD) (τ := τ) cfgs (EP (F := F)) 0 d)

theorem bigSep_emp' {I : Type} (s : Finset I) : (bigSep s fun _ => iprop(emp)) = (iprop(emp) : sProp 𝕄) := bigSep_emp_const s

theorem hu₀ (vals : Vals F) : (ownU (u₀ (F := F)) : sProp 𝕄)
    ⊢ |={Set.univ}=> iprop(BI.own (EH (initOf (K (F := F)).hsCells (K (F := F)).hsToks)) ∗ (bigSep Finset.univ fun d : Dev nD => G₀ (F := F) d)
        ∗ bigSep Finset.univ fun thr : Thread nD τ => bigSep Finset.univ fun q : Fin 1 => (P vals).x q thr) := by
  unfold u₀
  have hEP : (BI.own (((Emb.inl : Emb UP (UP × Counters)).trans embR) (initOf (Pipeline.cells (nD := nD) (τ := τ) cfgs cellOf_inj) (Pipeline.launchToks (nD := nD) (τ := τ) cfgs cellOf_inj))) : sProp 𝕄)
      ⊢ BI.own ((EP (F := F)) (initOf (Pipeline.cells (nD := nD) (τ := τ) cfgs cellOf_inj) (Pipeline.launchToks (nD := nD) (τ := τ) cfgs cellOf_inj))) := Entails.of_eq rfl
  iintro Hu
  ihave H := (ownU_pair _ _) $$ Hu
  icases H with ⟨HH, HR⟩
  ihave H2 := (own_pair_emb embR _ _) $$ HR
  icases H2 with ⟨HP, -⟩
  ihave HP2 := hEP $$ HP
  imod (Pipeline.fund_ghost (nD := nD) (τ := τ) cfgs (EP (F := F)) cellOf_inj) $$ HP2 with ⟨Hg, Ht⟩
  imodintro
  isplitl [HH]; · iexact HH
  isplitl [Hg Ht]
  · rw [bigSep_sep']
    isplitl [Hg]
    · rw [bigSep_congr (fun d _ => bigSep_univ_of_subsingleton (0 : Fin 1) (Φ := fun p => Pipeline.cellsGhost (nD := nD) (τ := τ) cfgs (EP (F := F)) p d))]
      exact BI.Entails.refl _
    · rw [bigSep_congr (fun d _ => bigSep_univ_of_subsingleton (0 : Fin 1) (Φ := fun p => Pipeline.toksInit (nD := nD) (τ := τ) cfgs (EP (F := F)) p d))]
      exact BI.Entails.refl _
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Kernel.Hand

end
-- ==== Proof.FillBodyBits.lean ====
/-
  The TensorCore kernel of the fill region, run once per control case.  At every grid point the body reads two rows of
  the 32×8 argument and stores the off-token value of each of their sixteen entries along the whole vocabulary axis of
  the result's 2×8×100000 block; at the first grid point it also reads the reshaped 16×16 argument and stores the two
  16×16 tables of off-token and on-token values.  Every store covers its whole block, so what each staging buffer holds
  afterwards is named in closed form over what the input buffers held.
-/
import proofs.«211088_g14680198218050_cont_week2b_81_31_alg».proof.Proof.CommonBits
import proofs.«211088_g14680198218050_cont_week2b_81_31_alg».proof.Proof.Gen.Kernel.Points
import proofs.«211088_g14680198218050_cont_week2b_81_31_alg».proof.Proof.Gen.Kernel.Skeleton
import Idealize.ShloMosaic.Lib.Pipeline.FrameBody

noncomputable section

namespace Cert.Kernel.Hand

open Cert.Kernel Cert.Kernel.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

/-! ## What the region is entered with -/

/-- The contents the region is entered with, per device: the argument and its reshape, whatever the three result arrays
    hold, and what the TensorCore owes. -/
structure FillIn (F : FTy → Type) where
  a : (d : Dev nD) → Buf (Elt F) (aLoc d)
  x : (d : Dev nD) → Buf (Elt F) (xLoc d)
  f0 : (d : Dev nD) → Buf (Elt F) (fLoc d)
  b0 : (d : Dev nD) → Buf (Elt F) (bLoc d)
  p0 : (d : Dev nD) → Buf (Elt F) (pLoc d)
  O : (d : Dev nD) → CellTallies nD τ sig (HIx 1)

/-! ## Whole rectangles -/

/-- The whole rectangle of a 2×8×100000 block places an index at itself. -/
theorem emb_whole3 (y : S2x8x100000.Idx) :
    (Rect.unit (s := S2x8x100000) ![0, 0, 0] S2x8x100000.size inb_S2x8x100000_S2x8x100000_0_0_0).emb y = y := by
  funext a; apply Fin.ext; rw [Rect.emb_apply]
  fin_cases a <;> simp

/-- The whole rectangle of a 16×16 table places an index at itself. -/
theorem emb_whole2 (y : S16x16.Idx) :
    (Rect.unit (s := S16x16) ![0, 0] S16x16.size inb_S16x16_S16x16_0_0).emb y = y := by
  funext a; apply Fin.ext; rw [Rect.emb_apply]
  fin_cases a <;> simp

/-- A store through the whole rectangle leaves its payload, whatever was there. -/
theorem read_store3 (v : View sig .tc .vmem S2x8x100000 .f32) (f : v.ty.Contents (Elt F)) (w : Vec F S2x8x100000 .f32) :
    v.read (Elt F) (v.writes (Elt F) f [⟨Rect.unit (s := S2x8x100000) ![0, 0, 0] S2x8x100000.size inb_S2x8x100000_S2x8x100000_0_0_0, w⟩]) = w := by
  funext y
  have h := View.read_writes_cons_emb v f (Rect.unit (s := S2x8x100000) ![0, 0, 0] S2x8x100000.size inb_S2x8x100000_S2x8x100000_0_0_0) w [] y
  rw [emb_whole3] at h; exact h

theorem read_store2 (v : View sig .tc .vmem S16x16 .f32) (f : v.ty.Contents (Elt F)) (w : Vec F S16x16 .f32) :
    v.read (Elt F) (v.writes (Elt F) f [⟨Rect.unit (s := S16x16) ![0, 0] S16x16.size inb_S16x16_S16x16_0_0, w⟩]) = w := by
  funext y
  have h := View.read_writes_cons_emb v f (Rect.unit (s := S16x16) ![0, 0] S16x16.size inb_S16x16_S16x16_0_0) w [] y
  rw [emb_whole2] at h; exact h

/-- A load through the whole rectangle of a whole 16×16 buffer reads its contents. -/
theorem readAt_whole2 {m : Memref sig .tc .vmem S16x16 .f32} (h : m.IsWhole) (X : Vec F S16x16 .f32) :
    View.readAt (Elt F) m.view (Rect.unit (s := S16x16) ![0, 0] S16x16.size inb_S16x16_S16x16_0_0).toLoadRect (h.unread X) = X := by
  funext y
  rw [View.readAt_apply, h.read_unread]
  exact congrArg X (emb_whole2 y)

/-! ## What the body stores -/

/-- The two rows the body reads at grid point `i`: rows `2 i` and `2 i + 1` of the 32×8 argument. -/
abbrev rowsAt (i : grid0.Coords) : LoadRect S32x8 := (Rect.unit (s := S32x8) (k0_off1 i) S2x8.size (k0_off1_inb i)).toLoadRect

/-- What the body stores into the result's block at grid point `i`, of the argument's contents `X`: the off-token value
    of the two rows read, along the vocabulary axis. -/
def fillBlk (i : grid0.Coords) (X : Vec F S32x8 .f32) : Vec F S2x8x100000 .f32 :=
  k0_pay1 (fun y => X ((rowsAt i).idx y))

theorem readAt_rows {m : Memref sig .tc .vmem S32x8 .f32} (h : m.IsWhole) (i : grid0.Coords) (X : Vec F S32x8 .f32) :
    View.readAt (Elt F) m.view (rowsAt i) (h.unread X) = fun y => X ((rowsAt i).idx y) := by
  funext y
  rw [View.readAt_apply, h.read_unread]

/-! ## The body, run once per control case, on any whole staging memrefs -/

set_option maxHeartbeats 1000000 in
/-- The first grid point (`k0_cond1 i = 1`): the block of the result is stored, and the two tables. -/
theorem run_A (c : Dev nD) (i : grid0.Coords)
    (arg1 : Memref sig .tc .vmem S32x8 .f32) (harg1 : arg1.IsWhole) (arg2 : Memref sig .tc .vmem S16x16 .f32) (harg2 : arg2.IsWhole)
    (arg3 : Memref sig .tc .vmem S2x8x100000 .f32) (harg3 : arg3.IsWhole) (arg4 : Memref sig .tc .vmem S16x16 .f32) (harg4 : arg4.IsWhole)
    (arg5 : Memref sig .tc .vmem S16x16 .f32) (harg5 : arg5.IsWhole) (hc : k0_cond1 i = 1#1)
    (x0 : Vec F S32x8 .f32) (x1 : Vec F S16x16 .f32) (E : Set ℕ) (Kk : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (fillBlk i x0) ∗ owns (c : Thread nD τ) arg4 fullShare (k0_pay4 x1)
            ∗ owns (c : Thread nD τ) arg5 fullShare (k0_pay5 x1)) -∗ Kk ⟨⟩))
      ⊢ wp frame (wpE (defs₀ (F := F)) Variants.none c none) E (cc0__fill_body i arg1 harg1 arg2 harg2 arg3 harg3 arg4 harg4 arg5 harg5) Kk := by
  simp only [cc0__fill_body_eq_skeleton]; unfold cc0__fill_body_skel
  unfold owns
  iintro ⟨⟨%f0, %hf0, H0⟩, ⟨%f1, %hf1, H1⟩, ⟨%d2, %f2, -, H2⟩, ⟨%d3, %f3, -, H3⟩, ⟨%d4, %f4, -, H4⟩, Hk⟩
  obtain rfl := harg1.eq_unread hf0
  obtain rfl := harg2.eq_unread hf1
  sl_exec (disch := first | exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro; rw [read_store3, readAt_rows]; rfl
  isplitl [H3]
  · iexists _; isplitr
    swap; · iexact H3
    ipureintro; rw [read_store2, readAt_whole2]
  iexists _; isplitr
  swap; · iexact H4
  ipureintro; rw [read_store2, readAt_whole2]

set_option maxHeartbeats 1000000 in
/-- Every later grid point (`k0_cond1 i ≠ 1`): the block of the result is stored; the two tables' buffers are not touched. -/
theorem run_B (c : Dev nD) (i : grid0.Coords)
    (arg1 : Memref sig .tc .vmem S32x8 .f32) (harg1 : arg1.IsWhole) (arg2 : Memref sig .tc .vmem S16x16 .f32) (harg2 : arg2.IsWhole)
    (arg3 : Memref sig .tc .vmem S2x8x100000 .f32) (harg3 : arg3.IsWhole) (arg4 : Memref sig .tc .vmem S16x16 .f32) (harg4 : arg4.IsWhole)
    (arg5 : Memref sig .tc .vmem S16x16 .f32) (harg5 : arg5.IsWhole) (hc : ¬ k0_cond1 i = 1#1)
    (x0 : Vec F S32x8 .f32) (x1 : Vec F S16x16 .f32) (y3 y4 : Vec F S16x16 .f32) (E : Set ℕ) (Kk : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare y3 ∗ owns (c : Thread nD τ) arg5 fullShare y4
        ∗ (iprop(owns (c : Thread nD τ) arg1 fullShare x0 ∗ owns (c : Thread nD τ) arg2 fullShare x1
            ∗ owns (c : Thread nD τ) arg3 fullShare (fillBlk i x0) ∗ owns (c : Thread nD τ) arg4 fullShare y3
            ∗ owns (c : Thread nD τ) arg5 fullShare y4) -∗ Kk ⟨⟩))
      ⊢ wp frame (wpE (defs₀ (F := F)) Variants.none c none) E (cc0__fill_body i arg1 harg1 arg2 harg2 arg3 harg3 arg4 harg4 arg5 harg5) Kk := by
  simp only [cc0__fill_body_eq_skeleton]; unfold cc0__fill_body_skel
  unfold owns
  iintro ⟨⟨%f0, %hf0, H0⟩, H1, ⟨%d2, %f2, -, H2⟩, H3, H4, Hk⟩
  obtain rfl := harg1.eq_unread hf0
  sl_exec (disch := first | exact hc)
  sl_step
  iapply Hk
  isplitl [H0]
  · iexists _; isplitr; · ipureintro; exact harg1.read_unread _
    iexact H0
  isplitl [H1]; · iexact H1
  isplitl [H2]
  · iexists _; isplitr
    swap; · iexact H2
    ipureintro; rw [read_store3, readAt_rows]; rfl
  isplitl [H3]; · iexact H3
  iexact H4

end Cert.Kernel.Hand

end
-- ==== Proof.FillDataBits.lean ====
/-
  The proof data of the fill region's pipeline and its body obligation.  Sixteen grid points; the argument and its
  reshape are whole-array windows fetched once; the result's window is the block of two rows at the point, written back
  at every point; the two tables' windows are whole arrays stored at the first point only, idle at every later point and
  written back at the last: their staging buffers carry the tables across the grid.
-/
import proofs.«211088_g14680198218050_cont_week2b_81_31_alg».proof.Proof.FillBodyBits
import Idealize.ShloMosaic.Lib.Pipeline.Value

noncomputable section

namespace Cert.Kernel.Hand

open Cert.Kernel Cert.Kernel.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

/-! ## The arrays at entry and the inputs' blocks -/

/-- The five windows' arrays as the region finds them. -/
def arrs (I : FillIn F) (d : Dev nD) : (w : Fin cfg0.W) → Buf (Elt F) ((cfg0.win w).arr.view.loc (d.tc : Thread nD τ))
  | ⟨0, _⟩ => I.a d
  | ⟨1, _⟩ => I.x d
  | ⟨2, _⟩ => I.f0 d
  | ⟨3, _⟩ => I.b0 d
  | ⟨4, _⟩ => I.p0 d

/-- Window `w`'s block at point `t`, read off its array as the region finds it. -/
def inBlk (I : FillIn F) (d : Dev nD) (w : Fin cfg0.W) (t : Fin cfg0.N) : ((cfg0.win w).xblock (cfg0.grid.coords t)).Idx → Elt F (cfg0.win w).elt :=
  ((cfg0.win w).blk t).view.read (Elt F) (arrs I d w)

/-- The first grid point. -/
abbrev pt0 : Fin cfg0.N := t0_0

/-- The two tables the first grid point stores: of the reshaped argument's block. -/
def tblB (I : FillIn F) (d : Dev nD) : Vec F S16x16 .f32 := k0_pay4 (inBlk I d 1 pt0)
def tblP (I : FillIn F) (d : Dev nD) : Vec F S16x16 .f32 := k0_pay5 (inBlk I d 1 pt0)

/-- The branch is taken at the first grid point only. -/
theorem hcond : ∀ t : Fin cfg0.N, k0_cond1 (grid0.coords t) = 1#1 ↔ t.val = 0 :=
  (by decide +kernel : ∀ t : Fin grid0.N, k0_cond1 (grid0.coords t) = 1#1 ↔ t.val = 0)

/-! ## The proof data -/

/-- The proof data of the pipeline on device `d`: after the body at point `t` each input's buffer holds its block, the
    result's buffer the off-token block of the two rows read, and the two tables' buffers — stored at the first point,
    carried untouched to the last — the tables; the invariant is empty; the TensorCore owes what it owed, its recorded
    pairs all at the kernels' own index. -/
def fdat (I : FillIn F) (d : Dev nD) : Dat τ (Elt F) (HIx 1) ℕ UU ℕ cfg0 d where
  A := arrs I d
  after w t := match w with
    | ⟨0, _⟩ => inBlk I d 0 t
    | ⟨1, _⟩ => inBlk I d 1 t
    | ⟨2, _⟩ => fillBlk (grid0.coords t) (inBlk I d 0 t)
    | ⟨3, _⟩ => tblB I d
    | ⟨4, _⟩ => tblP I d
  Φ _ := iprop(emp)
  q _ := fullShare
  owed _ := I.O d
  recorded _ := {p | p.2 = none}

theorem A_eq (I : FillIn F) (d : Dev nD) (w : Fin cfg0.W) : (fdat I d).A w = arrs I d w := by dsimp only [fdat]
theorem after_0 (I : FillIn F) (d : Dev nD) (t : Fin cfg0.N) : (fdat I d).after 0 t = inBlk I d 0 t := by dsimp only [fdat]
theorem after_1 (I : FillIn F) (d : Dev nD) (t : Fin cfg0.N) : (fdat I d).after 1 t = inBlk I d 1 t := by dsimp only [fdat]
theorem after_2 (I : FillIn F) (d : Dev nD) (t : Fin cfg0.N) : (fdat I d).after 2 t = fillBlk (grid0.coords t) (inBlk I d 0 t) := by dsimp only [fdat]
theorem after_3 (I : FillIn F) (d : Dev nD) (t : Fin cfg0.N) : (fdat I d).after 3 t = tblB I d := by dsimp only [fdat]
theorem after_4 (I : FillIn F) (d : Dev nD) (t : Fin cfg0.N) : (fdat I d).after 4 t = tblP I d := by dsimp only [fdat]

/-- An input's current staging buffer holds its block at every point, fetched there or not. -/
theorem before_0 (I : FillIn F) (d : Dev nD) (t : Fin cfg0.N) (x) : (fdat I d).before 0 t x = inBlk I d 0 t :=
  ((fdat I d).before_in_eq_fetched 0 rfl (fun _ => rfl) (fun _ _ _ => rfl)
      (fun t => by rw [after_0]; unfold Dat.blockOf inBlk; rw [A_eq]; try rfl) t x).trans
    (by unfold Dat.fetched Dat.blockOf inBlk; rw [A_eq]; try rfl)
theorem before_1 (I : FillIn F) (d : Dev nD) (t : Fin cfg0.N) (x) : (fdat I d).before 1 t x = inBlk I d 1 t :=
  ((fdat I d).before_in_eq_fetched 1 rfl (fun _ => rfl) (fun _ _ _ => rfl)
      (fun t => by rw [after_1]; unfold Dat.blockOf inBlk; rw [A_eq]; try rfl) t x).trans
    (by unfold Dat.fetched Dat.blockOf inBlk; rw [A_eq]; try rfl)

/-- The reshaped argument's window is the whole array at every point: its block does not depend on the point. -/
theorem inBlk_1_const (I : FillIn F) (d : Dev nD) (t : Fin cfg0.N) : inBlk I d 1 t = inBlk I d 1 pt0 := rfl

/-! ## The tables' buffers between the first point and the last -/

/-- Where the tables' windows are idle: everywhere but the first point. -/
theorem idle_3 (t : Fin cfg0.N) : cfg0.idle 3 (cfg0.grid.coords t) = decide (t.val ≠ 0) :=
  (by decide +kernel : ∀ t : Fin grid0.N, idle0 3 (grid0.coords t) = decide (t.val ≠ 0)) t
theorem idle_4 (t : Fin cfg0.N) : cfg0.idle 4 (cfg0.grid.coords t) = decide (t.val ≠ 0) :=
  (by decide +kernel : ∀ t : Fin grid0.N, idle0 4 (grid0.coords t) = decide (t.val ≠ 0)) t

theorem flush_3_false (t : Fin cfg0.N) (h : t.val + 1 < cfg0.N) : (cfg0.win 3).flush t = false :=
  Bool.eq_false_iff.mpr fun hf => by
    have h1 := (flush0_3 t).mp hf
    have hN : cfg0.N = 16 := N_0
    omega
theorem flush_4_false (t : Fin cfg0.N) (h : t.val + 1 < cfg0.N) : (cfg0.win 4).flush t = false :=
  Bool.eq_false_iff.mpr fun hf => by
    have h1 := (flush0_4 t).mp hf
    have hN : cfg0.N = 16 := N_0
    omega

/-- After the first point a table's staging buffer holds the table: stored at the first point, not written back before the
    last, untouched by the body at the idle points in between. -/
theorem before_3 (I : FillIn F) (d : Dev nD) : ∀ (n : ℕ) (h : n + 1 < cfg0.N) (x), (fdat I d).before 3 ⟨n + 1, h⟩ x = tblB I d := by
  intro n
  induction n with
  | zero =>
    intro h x
    rw [(fdat I d).before_of_pos 3 ⟨0 + 1, h⟩ (by simp) ((cfg0.win 3).fetch_out rfl _) x]
    show (if (cfg0.win 3).flush ⟨0, Nat.lt_of_succ_lt h⟩ = true then x else (fdat I d).left 3 ⟨0, Nat.lt_of_succ_lt h⟩ x) = tblB I d
    rw [flush_3_false ⟨0, Nat.lt_of_succ_lt h⟩ h, if_neg Bool.false_ne_true]
    unfold Dat.left
    rw [show cfg0.idle 3 (cfg0.grid.coords ⟨0, Nat.lt_of_succ_lt h⟩) = false from (idle_3 _).trans (by simp)]
    rfl
  | succ n ih =>
    intro h x
    rw [(fdat I d).before_of_pos 3 ⟨n + 1 + 1, h⟩ (by simp) ((cfg0.win 3).fetch_out rfl _) x]
    show (if (cfg0.win 3).flush ⟨n + 1, Nat.lt_of_succ_lt h⟩ = true then x else (fdat I d).left 3 ⟨n + 1, Nat.lt_of_succ_lt h⟩ x) = tblB I d
    rw [flush_3_false ⟨n + 1, Nat.lt_of_succ_lt h⟩ h, if_neg Bool.false_ne_true]
    unfold Dat.left
    rw [show cfg0.idle 3 (cfg0.grid.coords ⟨n + 1, Nat.lt_of_succ_lt h⟩) = true from (idle_3 _).trans (by simp)]
    exact ih (Nat.lt_of_succ_lt h) x

theorem before_4 (I : FillIn F) (d : Dev nD) : ∀ (n : ℕ) (h : n + 1 < cfg0.N) (x), (fdat I d).before 4 ⟨n + 1, h⟩ x = tblP I d := by
  intro n
  induction n with
  | zero =>
    intro h x
    rw [(fdat I d).before_of_pos 4 ⟨0 + 1, h⟩ (by simp) ((cfg0.win 4).fetch_out rfl _) x]
    show (if (cfg0.win 4).flush ⟨0, Nat.lt_of_succ_lt h⟩ = true then x else (fdat I d).left 4 ⟨0, Nat.lt_of_succ_lt h⟩ x) = tblP I d
    rw [flush_4_false ⟨0, Nat.lt_of_succ_lt h⟩ h, if_neg Bool.false_ne_true]
    unfold Dat.left
    rw [show cfg0.idle 4 (cfg0.grid.coords ⟨0, Nat.lt_of_succ_lt h⟩) = false from (idle_4 _).trans (by simp)]
    rfl
  | succ n ih =>
    intro h x
    rw [(fdat I d).before_of_pos 4 ⟨n + 1 + 1, h⟩ (by simp) ((cfg0.win 4).fetch_out rfl _) x]
    show (if (cfg0.win 4).flush ⟨n + 1, Nat.lt_of_succ_lt h⟩ = true then x else (fdat I d).left 4 ⟨n + 1, Nat.lt_of_succ_lt h⟩ x) = tblP I d
    rw [flush_4_false ⟨n + 1, Nat.lt_of_succ_lt h⟩ h, if_neg Bool.false_ne_true]
    unfold Dat.left
    rw [show cfg0.idle 4 (cfg0.grid.coords ⟨n + 1, Nat.lt_of_succ_lt h⟩) = true from (idle_4 _).trans (by simp)]
    exact ih (Nat.lt_of_succ_lt h) x

/-- The same at a point named as a point. -/
theorem before_3' (I : FillIn F) (d : Dev nD) (t : Fin cfg0.N) (ht : t.val ≠ 0) (x) : (fdat I d).before 3 t x = tblB I d := by
  obtain ⟨n, hn⟩ := t
  cases n with
  | zero => exact absurd rfl ht
  | succ n => exact before_3 I d n hn x
theorem before_4' (I : FillIn F) (d : Dev nD) (t : Fin cfg0.N) (ht : t.val ≠ 0) (x) : (fdat I d).before 4 t x = tblP I d := by
  obtain ⟨n, hn⟩ := t
  cases n with
  | zero => exact absurd rfl ht
  | succ n => exact before_4 I d n hn x

/-! ## The body obligation -/

/-- Each window's current staging memref at point `t`, as the pipeline passes it, and its wholeness. -/
abbrev ms0 (t : Fin cfg0.N) : Memref sig .tc .vmem S32x8 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S16x16 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2x8x100000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S16x16 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S16x16 .f32 := win0_4.stage (cfg0.slots t 4)
abbrev hs4 (t : Fin cfg0.N) : (ms4 t).IsWhole := hstage0_4 ((cfg0.slots t 4).cast nbuf0_4)

/-- What the obligation asks of a table's buffer after the body, from the buffer at the table: at the first point the
    stored table; at an idle point what was found there, which is the table; at the last point, which writes it back,
    the table. -/
theorem leaves_3 (I : FillIn F) (d : Dev nD) (t : Fin cfg0.N) :
    owns (d : Thread nD τ) (ms3 t) fullShare (tblB I d) ⊢ ((fdat I d).leavesExact 3 t : sProp 𝕄) := by
  unfold Dat.leavesExact
  by_cases h0 : t.val = 0
  · rw [show cfg0.idle 3 (cfg0.grid.coords t) = false from (idle_3 t).trans (by simp [h0]), after_3]
  · rw [show cfg0.idle 3 (cfg0.grid.coords t) = true from (idle_3 t).trans (by simp [h0])]
    cases hf : (cfg0.win 3).flush t
    · iintro H; iexists (tblB I d); rw [before_3' I d t h0]; iexact H
    · rw [after_3]
theorem leaves_4 (I : FillIn F) (d : Dev nD) (t : Fin cfg0.N) :
    owns (d : Thread nD τ) (ms4 t) fullShare (tblP I d) ⊢ ((fdat I d).leavesExact 4 t : sProp 𝕄) := by
  unfold Dat.leavesExact
  by_cases h0 : t.val = 0
  · rw [show cfg0.idle 4 (cfg0.grid.coords t) = false from (idle_4 t).trans (by simp [h0]), after_4]
  · rw [show cfg0.idle 4 (cfg0.grid.coords t) = true from (idle_4 t).trans (by simp [h0])]
    cases hf : (cfg0.win 4).flush t
    · iintro H; iexists (tblP I d); rw [before_4' I d t h0]; iexact H
    · rw [after_4]

set_option maxHeartbeats 800000 in
/-- The body at any point: the inputs' buffers hold their blocks; at the first point the branch is taken and the tables
    are stored, at every later point it is not and the tables' buffers, which hold the tables, pass through. -/
theorem sound_body (I : FillIn F) (d : Dev nD) (t : Fin cfg0.N) :
    iprop((fdat I d).Φ t.castSucc ∗ (fdat I d).owesAt (none : HIx 1) t.castSucc
        ∗ (∃ x, owns (d : Thread nD τ) (ms0 t) fullShare ((fdat I d).before 0 t x))
        ∗ (∃ x, owns (d : Thread nD τ) (ms1 t) fullShare ((fdat I d).before 1 t x))
        ∗ (∃ x, owns (d : Thread nD τ) (ms2 t) fullShare ((fdat I d).before 2 t x))
        ∗ (∃ x, owns (d : Thread nD τ) (ms3 t) fullShare ((fdat I d).before 3 t x))
        ∗ (∃ x, owns (d : Thread nD τ) (ms4 t) fullShare ((fdat I d).before 4 t x)))
      ⊢ wp frame (wpE (defs₀ (F := F)) Variants.none d none) Set.univ (bodyAt0 t) (fun _ =>
          iprop((fdat I d).Φ t.succ ∗ (fdat I d).owesAt (none : HIx 1) t.succ
            ∗ owns (d : Thread nD τ) (ms0 t) fullShare ((fdat I d).after 0 t)
            ∗ owns (d : Thread nD τ) (ms1 t) fullShare ((fdat I d).after 1 t)
            ∗ owns (d : Thread nD τ) (ms2 t) fullShare ((fdat I d).after 2 t)
            ∗ (fdat I d).leavesExact 3 t
            ∗ (fdat I d).leavesExact 4 t)) := by
  unfold bodyAt0
  simp only [before_0, before_1]
  rw [show (fdat I d).Φ t.succ = (fdat I d).Φ t.castSucc from rfl,
    show (fdat I d).owesAt (none : HIx 1) t.succ = (fdat I d).owesAt (none : HIx 1) t.castSucc from rfl,
    after_0, after_1, after_2]
  by_cases h0 : t.val = 0
  · iintro ⟨HΦ, Ho, ⟨%x0, H0⟩, ⟨%x1, H1⟩, ⟨%x2, H2⟩, ⟨%x3, H3⟩, ⟨%x4, H4⟩⟩
    iapply (run_A d (grid0.coords t) _ (hs0 t) _ (hs1 t) _ (hs2 t) _ (hs3 t) _ (hs4 t) ((hcond t).mpr h0) (inBlk I d 0 t) (inBlk I d 1 t) Set.univ _)
    isplitl [H0]; · iexact H0
    isplitl [H1]; · iexact H1
    isplitl [H2]; · iexists _; iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]
    · iapply (leaves_3 I d t); iexact H3
    iapply (leaves_4 I d t); iexact H4
  · simp only [before_3' I d t h0, before_4' I d t h0]
    iintro ⟨HΦ, Ho, ⟨%x0, H0⟩, ⟨%x1, H1⟩, ⟨%x2, H2⟩, ⟨%x3, H3⟩, ⟨%x4, H4⟩⟩
    iapply (run_B d (grid0.coords t) _ (hs0 t) _ (hs1 t) _ (hs2 t) _ (hs3 t) _ (hs4 t) (fun h => h0 ((hcond t).mp h)) (inBlk I d 0 t) (inBlk I d 1 t)
      (tblB I d) (tblP I d) Set.univ _)
    isplitl [H0]; · iexact H0
    isplitl [H1]; · iexact H1
    isplitl [H2]; · iexists _; iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]
    · iapply (leaves_3 I d t); iexact H3
    iapply (leaves_4 I d t); iexact H4

/-- The library's body obligation, at every point. -/
theorem body_obligation (I : FillIn F) (d : Dev nD) : BodyObligation (fdat I d) (defs₀ (F := F)) 𝒱₀ (none : HIx 1) Set.univ := fun t => by
  rw [bigSep_W0, bigSep_W0]
  exact sound_body I d t

end Cert.Kernel.Hand

end
-- ==== Proof.FillBits.lean ====
/-
  The fill region of @main run from the region boundary to the region boundary inside the SparseCore program: the
  pipeline's record (its layout, the body obligation, the wait evidence, and how the five arrays and what the
  TensorCore owes enter and leave it) and the region's triple for any continuation.
-/
import proofs.«211088_g14680198218050_cont_week2b_81_31_alg».proof.Proof.FillDataBits
import Idealize.ShloMosaic.Lib.Pipeline.Value

noncomputable section

namespace Cert.Kernel.Hand

open Cert.Kernel Cert.Kernel.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

/-! ## The region's two ends -/

/-- What the region is entered with: the argument and its reshape at their contents, the three result arrays at
    whatever they hold, and the TensorCore owing `I.O d`, its recorded pairs all at the kernels' own index. -/
def fillPre (I : FillIn F) (d : Dev nD) : sProp 𝕄 :=
  iprop((aLoc d ↦{fullShare} I.a d) ∗ (xLoc d ↦{fullShare} I.x d) ∗ (fLoc d ↦{fullShare} I.f0 d) ∗ (bLoc d ↦{fullShare} I.b0 d) ∗ (pLoc d ↦{fullShare} I.p0 d)
    ∗ ∃ W, ⌜∀ p ∈ W, p.2 = none⌝ ∗ owes (T d : Thread nD τ) (I.O d) W)

/-- What it leaves, the results as the pipeline's write-backs compute them. -/
def fillPostAt (I : FillIn F) (d : Dev nD) : sProp 𝕄 :=
  iprop((aLoc d ↦{fullShare} I.a d) ∗ (xLoc d ↦{fullShare} I.x d) ∗ (fLoc d ↦{fullShare} (fdat I d).arrAt 2 cfg0.N)
    ∗ (bLoc d ↦{fullShare} (fdat I d).arrAt 3 cfg0.N) ∗ (pLoc d ↦{fullShare} (fdat I d).arrAt 4 cfg0.N)
    ∗ ∃ W, ⌜∀ p ∈ W, p.2 = none⌝ ∗ owes (T d : Thread nD τ) (I.O d) W)

/-- The proof data of the program's one pipeline. -/
def pdats (I : FillIn F) (p : Fin 1) (d : Dev nD) : Dat τ (Elt F) (HIx 1) ℕ UU ℕ (Pipeline.pin (pcfgs (F := F)) adm p) d := fdat I d

theorem share_full (I : FillIn F) (d : Dev nD) (w : Fin cfg0.W) : (fdat I d).share w = fullShare :=
  (fdat I d).share_full (fun _ => rfl) w

/-- The arrays at contents `G`, one by one. -/
theorem arrays_chain (I : FillIn F) (d : Dev nD) (G : (w : Fin cfg0.W) → Buf (Elt F) ((cfg0.win w).arr.view.loc (d.tc : Thread nD τ))) :
    ((fdat I d).arrays G : sProp 𝕄)
      = iprop((aLoc d ↦{fullShare} G 0) ∗ (xLoc d ↦{fullShare} G 1) ∗ (fLoc d ↦{fullShare} G 2) ∗ (bLoc d ↦{fullShare} G 3) ∗ (pLoc d ↦{fullShare} G 4)) := by
  rw [Pipeline.arrays_eq (cfgs) (fun _ d => fdat I d) (0 : Fin 1) d arr_whole0 (share_full I d) G, bigSep_W0]

/-- The region's record. -/
def seg (I : FillIn F) (hO : ∀ d g, I.O d g none = 0) :
    Pipeline.RegionSeg (pcfgs (F := F)) adm (pdats I) (none : HIx 1) defs₀ 𝒱₀ (K (F := F)).L (K (F := F)).lev (0 : Fin 1) where
  win := winFacts0.to₀
  block_pos := block_pos0
  stage_whole := stage_whole0
  K := PEmpty
  osem := fun k => k.elim
  ho := Pipeline.OwnSemFacts.none _
  hbody := fun d => (body_obligation I d).loose
  hwaits := fun d => Pipeline.cellsWaits_intro (Pipeline.pin (pcfgs (F := F)) adm) (pdats I) (none : HIx 1) (0 : Fin 1) d
    fun w s t => (K (F := F)).mayWait_none _ (hO d)
  pre := fillPre I
  post := fillPostAt I
  X := fun _ => iprop(emp)
  Y := fun _ => iprop(emp)
  Z := fun _ => iprop(emp)
  hentry := fun d => by
    show iprop(fillPre I d ∗ _ ∗ _) ⊢ |={Set.univ}=> iprop((fdat I d).arrays ((fdat I d).arrAt · 0) ∗ _ ∗ (fdat I d).owesAt (none : HIx 1) 0 ∗ emp ∗ emp)
    rw [arrays_chain]
    unfold fillPre
    iintro ⟨⟨Ha, Hx, Hf, Hb, Hp, ⟨%W, %hW, Ho⟩⟩, -, -⟩
    imodintro
    isplitl [Ha Hx Hf Hb Hp]
    · isplitl [Ha]; · iexact Ha
      isplitl [Hx]; · iexact Hx
      isplitl [Hf]; · iexact Hf
      isplitl [Hb]; · iexact Hb
      iexact Hp
    isplitr
    · unfold Pipeline.prefHeld; rw [Finset.univ_eq_empty, bigSep_empty]; iempintro
    isplitl [Ho]
    · iexists W; isplitr
      · ipureintro; exact fun p hp => Or.inl (hW p hp)
      iexact Ho
    isplitr <;> iempintro
  hin := fun d => by iintro -; iempintro
  hout := fun d => by
    show iprop(emp) ⊢ iprop(emp ∗ Pipeline.ownSems0 (fun k : PEmpty => k.elim) d ∗ Pipeline.scopedRest spec0 d)
    rw [Pipeline.ownSems0_none _ _ _ _ _ _ _ _ d, scopedRest0_eq]
    iintro -
    isplitr; · iempintro
    isplitr <;> iempintro
  hexit := fun d => by
    show iprop((fdat I d).arrays ((fdat I d).arrAt · cfg0.N) ∗ (fdat I d).owesAt (none : HIx 1) (Fin.last cfg0.N) ∗ emp ∗ emp) ⊢ |={Set.univ}=> fillPostAt I d
    rw [arrays_chain]
    unfold fillPostAt
    rw [(fdat I d).arrAt_in 0 rfl cfg0.N, (fdat I d).arrAt_in 1 rfl cfg0.N]
    iintro ⟨⟨Ha, Hx, Hf, Hb, Hp⟩, ⟨%W, %hW, Ho⟩, -, -⟩
    imodintro
    isplitl [Ha]; · iexact Ha
    isplitl [Hx]; · iexact Hx
    isplitl [Hf]; · iexact Hf
    isplitl [Hb]; · iexact Hb
    isplitl [Hp]; · iexact Hp
    iexists W; isplitr
    · ipureintro
      intro p hp
      rcases hW hp with h | ⟨w, s, rfl⟩
      · exact h
      · rfl
    iexact Ho

set_option backward.isDefEq.respectTransparency.types false in
/-- THE REGION, FRAMED: from the region boundary, the five arrays and what the TensorCore owes, the level facts and the
    pipeline's ghost state, the region's call runs to the region boundary and the arrays as the pipeline leaves them,
    for any continuation. -/
theorem wp_fill_at (I : FillIn F) (hO : ∀ d g, I.O d g none = 0) (d : Dev nD) {α : Type}
    (k : PUnit → Prog (TpuEff nD τ sig (Elt F) (SparseCore.Sig (ΛP (F := F)) 1) .tc) α) (Φ : α → sProp 𝕄) :
    iprop(levAts (K (F := F)).L (K (F := F)).lev ∗ boundary (T d : Thread nD τ) ∗ fillPre I d
        ∗ Pipeline.cellsGhost (Pipeline.pin (pcfgs (F := F)) adm) EP 0 d ∗ Pipeline.toksInit (Pipeline.pin (pcfgs (F := F)) adm) EP 0 d
        ∗ (iprop(boundary (T d : Thread nD τ) ∗ fillPostAt I d) -∗ wp frame (wpE ((K (F := F)).defs D) 𝒱 (T d) none) Set.univ (k ⟨⟩) Φ))
      ⊢ wp frame (wpE ((K (F := F)).defs D) 𝒱 (T d) none) Set.univ (.op (.customCall (SparseCore.inner (Pipeline.entry 0)) ()) k) Φ := by
  have hlift := (K (F := F)).wp_liftProg (D (F := F)) 𝒱 (T d) (Set.univ : Set ℕ) none
    (.op (.customCall (Pipeline.entry (0 : Fin 1)) ()) fun _ => .ret PUnit.unit)
    (fun _ => wp frame (wpE ((K (F := F)).defs D) 𝒱 (T d) none) Set.univ (k ⟨⟩) Φ)
  have hreg := Pipeline.RegionSeg.wp (pcfgs (F := F)) adm (pdats I) (none : HIx 1) cellOf_inj EP defs₀ 𝒱₀ (K (F := F)).L (K (F := F)).lev (seg I hO) d none
    (fun _ h => by cases h) (fun _ => .ret PUnit.unit)
    (fun _ => wp frame (wpE ((K (F := F)).defs D) 𝒱 (T d) none) Set.univ (k ⟨⟩) Φ)
  rw [show (seg I hO).pre d = fillPre I d from rfl, show (seg I hO).post d = fillPostAt I d from rfl] at hreg
  rw [show (Prog.op (.customCall (SparseCore.inner (Pipeline.entry (0 : Fin 1))) ()) k
        : Prog (TpuEff nD τ sig (Elt F) (SparseCore.Sig (ΛP (F := F)) 1) .tc) α)
      = (SparseCore.liftProg (.op (.customCall (Pipeline.entry (0 : Fin 1)) ()) fun _ => .ret PUnit.unit) >>= k) from rfl, wp_bind]
  refine BIBase.Entails.trans ?_ hlift
  refine BIBase.Entails.trans ?_ hreg
  iintro ⟨Hlev, Hb, Hpre, Hg, Ht, Hk⟩
  isplitl [Hk]
  · iintro H
    rw [wp_ret]
    imodintro
    iapply Hk; iexact H
  isplitl [Hb]; · iexact Hb
  isplitl [Hpre]; · iexact Hpre
  isplitl [Hlev]; · iexact Hlev
  isplitl [Hg]; · iexact Hg
  iexact Ht

end Cert.Kernel.Hand

end
-- ==== Proof.FillValueBits.lean ====
/-
  The fill region's three result arrays in closed form.  Every block the pipeline writes back is the block of ONE
  whole-array function of the argument: the result array holds, at (b, q, v), the off-token value of the argument's
  entry (b, q) — the body's payload of the two rows 2 (b / 2), 2 (b / 2) + 1 read at (b % 2, q, v) —, and the two tables
  are the payloads of the whole reshaped argument.  The blocks cover the arrays, so the arrays end holding these.
-/
import proofs.«211088_g14680198218050_cont_week2b_81_31_alg».proof.Proof.FillBits
import Idealize.ShloMosaic.Lib.Pipeline.Value

noncomputable section

namespace Cert.Kernel.Hand

open Cert.Kernel Cert.Kernel.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (HIx 1) (Elt F) ℕ UU ℕ

open Idealize.ShloMosaic.ValueIdx

/-! ## The printed index maps, decided over the grid -/

theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-! ## A whole-array window's block is the array -/

theorem emb_blk0 (t : Fin cfg0.N) (y : S32x8.Idx) : ((cfg0.win 0).blk t).view.emb y = y := by
  obtain ⟨e0, e1, -⟩ := idx_facts t
  funext a; apply Fin.ext
  match a with
  | ⟨0, _⟩ => show win0_0.index t (0 : Fin 2) * 32 + 1 * (y 0).val = (y 0).val; omega
  | ⟨1, _⟩ => show win0_0.index t (1 : Fin 2) * 8 + 1 * (y 1).val = (y 1).val; omega
theorem emb_blk1 (t : Fin cfg0.N) (y : S16x16.Idx) : ((cfg0.win 1).blk t).view.emb y = y := by
  obtain ⟨-, -, e0, e1, -⟩ := idx_facts t
  funext a; apply Fin.ext
  match a with
  | ⟨0, _⟩ => show win0_1.index t (0 : Fin 2) * 16 + 1 * (y 0).val = (y 0).val; omega
  | ⟨1, _⟩ => show win0_1.index t (1 : Fin 2) * 16 + 1 * (y 1).val = (y 1).val; omega
theorem emb_blk3 (t : Fin cfg0.N) (y : S16x16.Idx) : ((cfg0.win 3).blk t).view.emb y = y := by
  obtain ⟨-, -, -, -, -, -, -, e0, e1, -⟩ := idx_facts t
  funext a; apply Fin.ext
  match a with
  | ⟨0, _⟩ => show win0_3.index t (0 : Fin 2) * 16 + 1 * (y 0).val = (y 0).val; omega
  | ⟨1, _⟩ => show win0_3.index t (1 : Fin 2) * 16 + 1 * (y 1).val = (y 1).val; omega
theorem emb_blk4 (t : Fin cfg0.N) (y : S16x16.Idx) : ((cfg0.win 4).blk t).view.emb y = y := by
  obtain ⟨-, -, -, -, -, -, -, -, -, e0, e1⟩ := idx_facts t
  funext a; apply Fin.ext
  match a with
  | ⟨0, _⟩ => show win0_4.index t (0 : Fin 2) * 16 + 1 * (y 0).val = (y 0).val; omega
  | ⟨1, _⟩ => show win0_4.index t (1 : Fin 2) * 16 + 1 * (y 1).val = (y 1).val; omega

/-- The argument's block at any point is the argument; the reshaped argument's likewise. -/
theorem inBlk_0 (I : FillIn F) (d : Dev nD) (t : Fin cfg0.N) : inBlk I d 0 t = I.a d := by
  funext y
  show I.a d (((cfg0.win 0).blk t).view.emb y) = I.a d y
  rw [emb_blk0]
theorem inBlk_1 (I : FillIn F) (d : Dev nD) (t : Fin cfg0.N) : inBlk I d 1 t = I.x d := by
  funext y
  show I.x d (((cfg0.win 1).blk t).view.emb y) = I.x d y
  rw [emb_blk1]

/-! ## The two tables -/

/-- The off-token table: the payload of the whole reshaped argument. -/
theorem final3 (I : FillIn F) (d : Dev nD) : (fdat I d).arrAt 3 cfg0.N = (k0_pay4 (I.x d) : Vec F S16x16 .f32) := by
  refine (fdat I d).arrAt_eq_of_cover 3 _ (fun t _ => ?_) (fun i => ⟨t0_15, (flush0_3 _).mpr rfl, ?_⟩)
  · show (cfg0.win 3).cut (grid0.coords t) ((fdat I d).after 3 t) = _
    rw [after_3]; unfold tblB; rw [inBlk_1]
    funext j
    show k0_pay4 (I.x d) j = k0_pay4 (I.x d) (((cfg0.win 3).blk t).view.emb j)
    rw [emb_blk3]
  · have h := ((cfg0.win 3).blk t0_15).view.emb_mem_set i
    rwa [emb_blk3] at h
/-- The on-token table. -/
theorem final4 (I : FillIn F) (d : Dev nD) : (fdat I d).arrAt 4 cfg0.N = (k0_pay5 (I.x d) : Vec F S16x16 .f32) := by
  refine (fdat I d).arrAt_eq_of_cover 4 _ (fun t _ => ?_) (fun i => ⟨t0_15, (flush0_4 _).mpr rfl, ?_⟩)
  · show (cfg0.win 4).cut (grid0.coords t) ((fdat I d).after 4 t) = _
    rw [after_4]; unfold tblP; rw [inBlk_1]
    funext j
    show k0_pay5 (I.x d) j = k0_pay5 (I.x d) (((cfg0.win 4).blk t).view.emb j)
    rw [emb_blk4]
  · have h := ((cfg0.win 4).blk t0_15).view.emb_mem_set i
    rwa [emb_blk4] at h

/-! ## The filled array -/

/-- The grid point whose block holds row `b` of the result. -/
def ptOf (b : Fin 32) : Fin cfg0.N := ⟨b.val / 2, by rw [show cfg0.N = 16 from N_0]; omega⟩
/-- An index of the result inside its block. -/
def inIdx (j : S32x8x100000.Idx) : S2x8x100000.Idx :=
  ix3 (⟨(j 0).val % 2, Nat.mod_lt _ (by decide)⟩ : Fin 2) (j 1 : Fin 8) (j 2 : Fin 100000)

/-- The filled array as one function of the argument: at (b, q, v) the body's payload of the two rows read at grid point
    `b / 2`, at (b % 2, q, v). -/
def fillV (a : Vec F S32x8 .f32) : Vec F S32x8x100000 .f32 := fun j => fillBlk (grid0.coords (ptOf (j 0))) a (inIdx j)

/-- What point `t` writes back is block `t` of `fillV` of the argument. -/
theorem flushed2_eq (I : FillIn F) (d : Dev nD) (t : Fin cfg0.N) :
    (fdat I d).flushed 2 t = ((cfg0.win 2).blk t).view.read (Elt F) (fillV (I.a d)) := by
  show (cfg0.win 2).cut (grid0.coords t) ((fdat I d).after 2 t) = _
  rw [after_2, inBlk_0]
  obtain ⟨-, -, -, -, e0, e1, e2, -⟩ := idx_facts t
  funext y
  show fillBlk (grid0.coords t) (I.a d) y = fillV (I.a d) (((cfg0.win 2).blk t).view.emb y)
  unfold fillV
  have hy0 : (y 0).val < 2 := (y 0).isLt
  have hp : ptOf ((((cfg0.win 2).blk t).view.emb y) 0) = t := by
    apply Fin.ext
    show (win0_2.index t (0 : Fin 3) * 2 + 1 * (y 0).val) / 2 = t.val
    omega
  have hy : inIdx (((cfg0.win 2).blk t).view.emb y) = y := by
    funext a; apply Fin.ext
    match a with
    | ⟨0, _⟩ => show (win0_2.index t (0 : Fin 3) * 2 + 1 * (y 0).val) % 2 = (y 0).val; omega
    | ⟨1, _⟩ => show win0_2.index t (1 : Fin 3) * 8 + 1 * (y 1).val = (y 1).val; omega
    | ⟨2, _⟩ => show win0_2.index t (2 : Fin 3) * 100000 + 1 * (y 2).val = (y 2).val; omega
  rw [hp, hy]

/-- Every index of the result is in the block of the point that holds its row. -/
theorem cover2 (i : S32x8x100000.Idx) : ∃ t : Fin cfg0.N, (cfg0.win 2).flush t = true ∧ i ∈ ((cfg0.win 2).blk t).view.set := by
  refine ⟨ptOf (i 0), flush0_2 _, ?_⟩
  obtain ⟨-, -, -, -, e0, e1, e2, -⟩ := idx_facts (ptOf (i 0))
  have hi0 : (i 0).val < 32 := (i 0).isLt
  have hpt : (ptOf (i 0)).val = (i 0).val / 2 := rfl
  have h := ((cfg0.win 2).blk (ptOf (i 0))).view.emb_mem_set (inIdx i)
  have he : ((cfg0.win 2).blk (ptOf (i 0))).view.emb (inIdx i) = i := by
    funext a; apply Fin.ext
    match a with
    | ⟨0, _⟩ => show win0_2.index (ptOf (i 0)) (0 : Fin 3) * 2 + 1 * ((i 0).val % 2) = (i 0).val; omega
    | ⟨1, _⟩ => show win0_2.index (ptOf (i 0)) (1 : Fin 3) * 8 + 1 * (i 1).val = (i 1).val; omega
    | ⟨2, _⟩ => show win0_2.index (ptOf (i 0)) (2 : Fin 3) * 100000 + 1 * (i 2).val = (i 2).val; omega
  rwa [he] at h

/-- The filled array after the run. -/
theorem final2 (I : FillIn F) (d : Dev nD) : (fdat I d).arrAt 2 cfg0.N = fillV (I.a d) :=
  (fdat I d).arrAt_eq_of_cover 2 (fillV (I.a d)) (fun t _ => flushed2_eq I d t) cover2

/-! ## The region, with its values -/

/-- What the region leaves: the argument and its reshape as they were, the filled array, the two tables. -/
def fillPost (I : FillIn F) (d : Dev nD) : sProp 𝕄 :=
  iprop((aLoc d ↦{fullShare} I.a d) ∗ (xLoc d ↦{fullShare} I.x d) ∗ (fLoc d ↦{fullShare} fillV (I.a d))
    ∗ (bLoc d ↦{fullShare} (k0_pay4 (I.x d) : Vec F S16x16 .f32)) ∗ (pLoc d ↦{fullShare} (k0_pay5 (I.x d) : Vec F S16x16 .f32))
    ∗ ∃ W, ⌜∀ p ∈ W, p.2 = none⌝ ∗ owes (T d : Thread nD τ) (I.O d) W)

theorem fillPostAt_eq (I : FillIn F) (d : Dev nD) : fillPostAt I d = fillPost I d := by
  unfold fillPostAt fillPost
  rw [final2, final3, final4]

/-- THE REGION WITH ITS VALUES: from the region boundary, the five arrays and what the TensorCore owes, the level facts
    and the pipeline's ghost state, the region's call runs to the region boundary, the filled array and the two tables
    for any continuation. -/
theorem wp_fill (I : FillIn F) (hO : ∀ d g, I.O d g none = 0) (d : Dev nD) {α : Type}
    (k : PUnit → Prog (TpuEff nD τ sig (Elt F) (SparseCore.Sig (ΛP (F := F)) 1) .tc) α) (Φ : α → sProp 𝕄) :
    iprop(levAts (K (F := F)).L (K (F := F)).lev ∗ boundary (T d : Thread nD τ) ∗ fillPre I d
        ∗ Pipeline.cellsGhost (Pipeline.pin (pcfgs (F := F)) adm) EP 0 d ∗ Pipeline.toksInit (Pipeline.pin (pcfgs (F := F)) adm) EP 0 d
        ∗ (iprop(boundary (T d : Thread nD τ) ∗ fillPost I d) -∗ wp frame (wpE ((K (F := F)).defs D) 𝒱 (T d) none) Set.univ (k ⟨⟩) Φ))
      ⊢ wp frame (wpE ((K (F := F)).defs D) 𝒱 (T d) none) Set.univ (.op (.customCall (SparseCore.inner (Pipeline.entry 0)) ()) k) Φ := by
  rw [← fillPostAt_eq]
  exact wp_fill_at I hO d k Φ

end Cert.Kernel.Hand

end
-- ==== Proof.MainTcBits.lean ====
import proofs.«211088_g14680198218050_cont_week2b_81_31_alg».proof.Proof.CommonBits
import proofs.«211088_g14680198218050_cont_week2b_81_31_alg».proof.Proof.LaunchElemBits
import proofs.«211088_g14680198218050_cont_week2b_81_31_alg».proof.Proof.FillValueBits

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]

/-! ## @main on the TensorCore -/

abbrev a' : DevRef τ sig := Proc.devRef .tc (main_arg0 : Ref sig .tc)
abbrev i' : DevRef τ sig := Proc.devRef .tc (main_arg1 : Ref sig .tc)
abbrev x' : DevRef τ sig := Proc.devRef .tc (main_v0 : Ref sig .tc)
abbrev f' : DevRef τ sig := Proc.devRef .tc (main_v1_0 : Ref sig .tc)
abbrev b' : DevRef τ sig := Proc.devRef .tc (main_v1_1 : Ref sig .tc)
abbrev p' : DevRef τ sig := Proc.devRef .tc (main_v1_2 : Ref sig .tc)
abbrev j' : DevRef τ sig := Proc.devRef .tc (main_v2 : Ref sig .tc)
abbrev o' : DevRef τ sig := Proc.devRef .tc (main_v3 : Ref sig .tc)

/-- The TensorCore's arrays, all unscoped. -/
abbrev S8 : Finset (DevRef τ sig) := {a', i', x', f', b', p', j', o'}

abbrev op1 : HloOp τ sig (Elt F) := StableHlo.reshape main_arg0 main_v0 rfl Cert.Kernel.Gen.shapeCasts_S32x8_S16x16
abbrev op2 : HloOp τ sig (Elt F) := StableHlo.reshape main_arg1 main_v2 rfl Cert.Kernel.Gen.shapeCasts_S32x8_S16x16
abbrev op3 : HloOp τ sig (Elt F) := StableHlo.unary main_v1_0 main_v3 id

/-- The two tables as functions of the reshaped log-SNR: the region's stored payloads. -/
abbrev baseT (x : Vec F S16x16 .f32) : Vec F S16x16 .f32 := k0_pay4 x
abbrev peakT (x : Vec F S16x16 .f32) : Vec F S16x16 .f32 := k0_pay5 x

variable (m : (ℓ : Loc nD τ sig) → Buf (Elt F) ℓ) (ρ : Dev nD → PrngReg)

/-- The arrays' contents along @main: at the launch; after the first reshape; after the region; after the second
    reshape; after the copy. -/
def V0 (d : Dev nD) : Valuation τ sig (Elt F) := fun b => m (d, b)
def V1 (d : Dev nD) : Valuation τ sig (Elt F) := (op1 (F := F)).result (V0 m d)
def V2 (d : Dev nD) : Valuation τ sig (Elt F) :=
  Function.update (Function.update (Function.update (V1 m d) f' (fillV (V1 m d a'))) b' (baseT (V1 m d x'))) p' (peakT (V1 m d x'))
def V3 (d : Dev nD) : Valuation τ sig (Elt F) := (op2 (F := F)).result (V2 m d)
def V4 (d : Dev nD) : Valuation τ sig (Elt F) := (op3 (F := F)).result (V3 m d)

/-- The arrays the SparseCore call starts from. -/
def vals : Vals F := ⟨fun d => V4 m d o', fun d => V4 m d b', fun d => V4 m d p', fun d => V4 m d j'⟩

theorem held_S8 (d : Dev nD) (W : Valuation τ sig (Elt F)) :
    (held (T d) S8 W : sProp 𝕄) = iprop((aLoc d ↦{fullShare} W a') ∗ (iLoc d ↦{fullShare} W i') ∗ (xLoc d ↦{fullShare} W x') ∗ (fLoc d ↦{fullShare} W f')
      ∗ (bLoc d ↦{fullShare} W b') ∗ (pLoc d ↦{fullShare} W p') ∗ (jLoc d ↦{fullShare} W j') ∗ (oLoc d ↦{fullShare} W o')) := by
  unfold held S8
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((aLoc d ↦{fullShare} W main_arg0) ∗ (iLoc d ↦{fullShare} W main_arg1) ∗ (xLoc d ↦{fullShare} W main_v0) ∗ (fLoc d ↦{fullShare} W main_v1_0)
      ∗ (bLoc d ↦{fullShare} W main_v1_1) ∗ (pLoc d ↦{fullShare} W main_v1_2) ∗ (jLoc d ↦{fullShare} W main_v2) ∗ (oLoc d ↦{fullShare} W main_v3)) := by
  unfold unscopedBufs
  rw [show (Finset.univ.filter fun b : Ref sig .tc => ¬ b.isScoped) = {main_arg0, main_arg1, main_v0, main_v1_0, main_v1_1, main_v1_2, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem unscoped_held (d : Dev nD) : (unscopedBufs d (fun b => m ((SparseCore.T d).loc b)) : sProp 𝕄) = held (T d) S8 (V0 m d) := by
  rw [unscopedBufs_eq, held_S8]; rfl

end Cert.Kernel.Hand

end
-- ==== Proof.ValuesBits.lean ====
/- The arrays' contents along @main in closed form: the filled array, the two tables and the
   reshaped token ids the SparseCore call starts from, as functions of the two arguments; and
   the token ids' range, from the precondition. -/
import proofs.«211088_g14680198218050_cont_week2b_81_31_alg».proof.Proof.MainTcBits
import proofs.«211088_g14680198218050_cont_week2b_81_31_alg».proof.Proof.PreIds
import proofs.«211088_g14680198218050_cont_week2b_81_31_alg».proof.Proof.Reshape

noncomputable section

namespace Cert.Kernel.Hand

open Cert.Kernel Cert.Kernel.Gen

open Idealize.ShloMosaic
open Idealize.ShloMosaic.SparseCore (S V T)

variable {F : FTy → Type} [FloatOps F]

variable (m : (ℓ : Loc nD τ sig) → Buf (Elt F) ℓ)

/-! ## One step at a time -/

theorem V1_of_ne (d : Dev nD) {r : Ref sig .tc} (h : r ≠ main_v0) :
    V1 m d (Proc.devRef .tc r) = V0 m d (Proc.devRef .tc r) := by
  unfold V1; exact StableHlo.reshape_result_ne' _ _ _ _ _ h

theorem V1_x (d : Dev nD) :
    V1 m d x' = shapeCast S16x16 (V0 m d a') shapeCasts_S32x8_S16x16 := by
  unfold V1; exact (StableHlo.reshape_result' _ _ _ _ _).trans rfl

theorem V3_of_ne (d : Dev nD) {r : Ref sig .tc} (h : r ≠ main_v2) :
    V3 m d (Proc.devRef .tc r) = V2 m d (Proc.devRef .tc r) := by
  unfold V3; exact StableHlo.reshape_result_ne' _ _ _ _ _ h

theorem V3_j (d : Dev nD) :
    V3 m d j' = shapeCast S16x16 (V2 m d i') shapeCasts_S32x8_S16x16 := by
  unfold V3; exact (StableHlo.reshape_result' _ _ _ _ _).trans rfl

theorem V4_of_ne (d : Dev nD) {r : Ref sig .tc} (h : r ≠ main_v3) :
    V4 m d (Proc.devRef .tc r) = V3 m d (Proc.devRef .tc r) := by
  unfold V4; exact StableHlo.unary_result_ne' _ _ _ _ h

theorem V4_o (d : Dev nD) : V4 m d o' = V3 m d f' := by
  unfold V4; exact StableHlo.unary_result' _ _ _ _

theorem V2_f (d : Dev nD) : V2 m d f' = fillV (V1 m d a') := by
  unfold V2
  rw [Function.update_of_ne (by decide : (f' : DevRef τ sig) ≠ p'),
    Function.update_of_ne (by decide : (f' : DevRef τ sig) ≠ b'), Function.update_self]

theorem V2_b (d : Dev nD) : V2 m d b' = baseT (V1 m d x') := by
  unfold V2
  rw [Function.update_of_ne (by decide : (b' : DevRef τ sig) ≠ p'), Function.update_self]

theorem V2_p (d : Dev nD) : V2 m d p' = peakT (V1 m d x') := by
  unfold V2
  rw [Function.update_self]

theorem V2_of_ne (d : Dev nD) (r : DevRef τ sig) (hf : r ≠ f') (hb : r ≠ b') (hp : r ≠ p') :
    V2 m d r = V1 m d r := by
  unfold V2
  rw [Function.update_of_ne hp, Function.update_of_ne hb, Function.update_of_ne hf]

/-! ## The arguments are never written -/

theorem V4_a (d : Dev nD) : V4 m d a' = m (aLoc d) := by
  rw [V4_of_ne m d (by decide : (main_arg0 : Ref sig .tc) ≠ main_v3),
    V3_of_ne m d (by decide : (main_arg0 : Ref sig .tc) ≠ main_v2),
    V2_of_ne m d _ (by decide) (by decide) (by decide),
    V1_of_ne m d (by decide : (main_arg0 : Ref sig .tc) ≠ main_v0)]
  rfl

theorem V4_i (d : Dev nD) : V4 m d i' = m (iLoc d) := by
  rw [V4_of_ne m d (by decide : (main_arg1 : Ref sig .tc) ≠ main_v3),
    V3_of_ne m d (by decide : (main_arg1 : Ref sig .tc) ≠ main_v2),
    V2_of_ne m d _ (by decide) (by decide) (by decide),
    V1_of_ne m d (by decide : (main_arg1 : Ref sig .tc) ≠ main_v0)]
  rfl

theorem V1_a (d : Dev nD) : V1 m d a' = m (aLoc d) := by
  rw [V1_of_ne m d (by decide : (main_arg0 : Ref sig .tc) ≠ main_v0)]; rfl

theorem V2_i (d : Dev nD) : V2 m d i' = m (iLoc d) := by
  rw [V2_of_ne m d _ (by decide) (by decide) (by decide),
    V1_of_ne m d (by decide : (main_arg1 : Ref sig .tc) ≠ main_v0)]
  rfl

/-- The log-SNR argument reshaped to 16×16. -/
theorem V1_x_eq (d : Dev nD) :
    V1 m d x' = shapeCast S16x16 (m (aLoc d)) shapeCasts_S32x8_S16x16 := by
  rw [V1_x]; rfl

/-! ## What the SparseCore call starts from -/

theorem vals_fv (d : Dev nD) : (vals m).fv d = fillV (m (aLoc d)) := by
  show V4 m d o' = _
  rw [V4_o, V3_of_ne m d (by decide : (main_v1_0 : Ref sig .tc) ≠ main_v2), V2_f, V1_a]

theorem vals_bv (d : Dev nD) :
    (vals m).bv d = baseT (shapeCast S16x16 (m (aLoc d)) shapeCasts_S32x8_S16x16) := by
  show V4 m d b' = _
  rw [V4_of_ne m d (by decide : (main_v1_1 : Ref sig .tc) ≠ main_v3),
    V3_of_ne m d (by decide : (main_v1_1 : Ref sig .tc) ≠ main_v2), V2_b, V1_x_eq]

theorem vals_pv (d : Dev nD) :
    (vals m).pv d = peakT (shapeCast S16x16 (m (aLoc d)) shapeCasts_S32x8_S16x16) := by
  show V4 m d p' = _
  rw [V4_of_ne m d (by decide : (main_v1_2 : Ref sig .tc) ≠ main_v3),
    V3_of_ne m d (by decide : (main_v1_2 : Ref sig .tc) ≠ main_v2), V2_p, V1_x_eq]

theorem vals_iv (d : Dev nD) :
    (vals m).iv d = shapeCast S16x16 (m (iLoc d)) shapeCasts_S32x8_S16x16 := by
  show V4 m d j' = _
  rw [V4_of_ne m d (by decide : (main_v2 : Ref sig .tc) ≠ main_v3), V3_j, V2_i]

/-! ## The token ids' range -/

/-- Where the precondition holds on every device, every reshaped token id is below 100000. -/
theorem idsOK_of_pre
    (h : ∀ d : Dev nD, Cert.Pre_input_domain.fn (F := F) (m (aLoc d)) (m (iLoc d)) = fun _ => 1#1) :
    IdsOK (vals m) := by
  intro d t
  rw [vals_iv]
  rw [Cert.Reshape.shapeCast_32x8_16x16_apply]
  exact Cert.PreIds.ids_lt _ _ (h d) _

end Cert.Kernel.Hand

end
-- ==== Proof.MainRun.lean ====
import proofs.«211088_g14680198218050_cont_week2b_81_31_alg».proof.Proof.Common
import proofs.«211088_g14680198218050_cont_week2b_81_31_alg».proof.Proof.MainTc
import proofs.«211088_g14680198218050_cont_week2b_81_31_alg».proof.Proof.Values

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]
variable (m : (ℓ : Loc nD τ sig) → Buf (Elt F) ℓ) (ρ : Dev nD → PrngReg)

theorem Otc_none (d : Dev nD) (n : ℕ) (g : GSem nD τ sig) : (K (F := F)).Otc d n g none = 0 := by
  by_contra h
  have := (K (F := F)).lev_of_Otc_pos (Nat.pos_of_ne_zero h); rw [SparseCore.Cfg.lev_none] at this; omega

theorem wbelow_zero_iff (d : Dev nD) (W : Waits sig (HIx 1)) : (K (F := F)).WBelow (T d) W (8 * 0) ↔ ∀ p ∈ W, p.2 = none := by
  unfold SparseCore.Cfg.WBelow
  refine forall_congr' fun p => forall_congr' fun _ => ?_
  rcases hp : p.2 with _ | q
  · simp
  · have := (K (F := F)).lev_some_pos ((T d : Thread nD τ), p.1) q
    constructor
    · intro h; omega
    · intro h; exact absurd h (by simp)

theorem st0_eq (d : Dev nD) : (bigSep Finset.univ fun c : Fin ((K (F := F)).nCore 0) => (P (vals m)).st 0 d c)
    = iprop(bPts (vals m) d ∗ pPts (vals m) d ∗ iPts (vals m) d ∗ oPts d ((vals m).fv d)) :=
  bigSep_univ_of_subsingleton (0 : Fin 1)
theorem dn0_eq (d : Dev nD) : (bigSep Finset.univ fun c : Fin ((K (F := F)).nCore 0) => (P (vals m)).dn 0 d c)
    = iprop(bPts (vals m) d ∗ pPts (vals m) d ∗ iPts (vals m) d ∗ oPts d (outV (vals m) d)) :=
  bigSep_univ_of_subsingleton (0 : Fin 1)

/-- What @main leaves the claim: the two arguments at their launch contents, the result at what the tiles left. -/
abbrev FIN (d : Dev nD) : sProp 𝕄 := iprop((aLoc d ↦{fullShare} m (aLoc d)) ∗ (iLoc d ↦{fullShare} m (iLoc d)) ∗ (oLoc d ↦{fullShare} outV (vals m) d))

theorem hop1 : (op1 (F := F)).bufs ⊆ S8 := show ({a', x'} : Finset (DevRef τ sig)) ⊆ S8 by decide
theorem hop2 : (op2 (F := F)).bufs ⊆ S8 := show ({i', j'} : Finset (DevRef τ sig)) ⊆ S8 by decide
theorem hop3 : (op3 (F := F)).bufs ⊆ S8 := show ({f', o'} : Finset (DevRef τ sig)) ⊆ S8 by decide

theorem held_V2 (d : Dev nD) :
    (held (T d) S8 (V2 m d) : sProp 𝕄) = iprop((aLoc d ↦{fullShare} V1 m d a') ∗ (iLoc d ↦{fullShare} V1 m d i') ∗ (xLoc d ↦{fullShare} V1 m d x')
      ∗ (fLoc d ↦{fullShare} fillV (V1 m d a')) ∗ (bLoc d ↦{fullShare} baseT (V1 m d x')) ∗ (pLoc d ↦{fullShare} peakT (V1 m d x'))
      ∗ (jLoc d ↦{fullShare} V1 m d j') ∗ (oLoc d ↦{fullShare} V1 m d o')) := by
  rw [held_S8, V2_of_ne m d a' (by decide) (by decide) (by decide), V2_of_ne m d i' (by decide) (by decide) (by decide),
    V2_of_ne m d x' (by decide) (by decide) (by decide), V2_f, V2_b, V2_p, V2_of_ne m d j' (by decide) (by decide) (by decide),
    V2_of_ne m d o' (by decide) (by decide) (by decide)]

/-- The region's inputs on device `d`: the arrays as the first reshape left them, what the TensorCore owes. -/
def fillIn : FillIn F :=
  ⟨fun d => V1 m d a', fun d => V1 m d x', fun d => V1 m d f', fun d => V1 m d b', fun d => V1 m d p', fun d => (K (F := F)).Otc d 0⟩

theorem fillPre_eq (d : Dev nD) : (fillPre (fillIn m) d : sProp 𝕄)
    = iprop((aLoc d ↦{fullShare} V1 m d a') ∗ (xLoc d ↦{fullShare} V1 m d x') ∗ (fLoc d ↦{fullShare} V1 m d f') ∗ (bLoc d ↦{fullShare} V1 m d b') ∗ (pLoc d ↦{fullShare} V1 m d p')
      ∗ ∃ W, ⌜∀ p ∈ W, p.2 = none⌝ ∗ owes (T d) ((K (F := F)).Otc d 0) W) := rfl
theorem fillPost_eq (d : Dev nD) : (fillPost (fillIn m) d : sProp 𝕄)
    = iprop((aLoc d ↦{fullShare} V1 m d a') ∗ (xLoc d ↦{fullShare} V1 m d x') ∗ (fLoc d ↦{fullShare} fillV (V1 m d a')) ∗ (bLoc d ↦{fullShare} baseT (V1 m d x')) ∗ (pLoc d ↦{fullShare} peakT (V1 m d x'))
      ∗ ∃ W, ⌜∀ p ∈ W, p.2 = none⌝ ∗ owes (T d) ((K (F := F)).Otc d 0) W) := rfl

theorem tcSt_owes (d : Dev nD) (n : ℕ) (P₀ : (K (F := F)).Pay (nD := nD) (Val := Elt F) (Name := ℕ) (U := UU)) :
    ((K (F := F)).tcSt EH d n : sProp 𝕄) ⊢ iprop((∃ W, ⌜(K (F := F)).WBelow (T d) W (8 * n)⌝ ∗ owes (T d) ((K (F := F)).Otc d n) W)
      ∗ ((∃ W, ⌜(K (F := F)).WBelow (T d) W (8 * n)⌝ ∗ owes (T d) ((K (F := F)).Otc d n) W) -∗ (K (F := F)).tcSt EH d n)) := by
  unfold SparseCore.Cfg.tcSt
  iintro ⟨HO, Hrest⟩
  isplitl [HO]; · iexact HO
  iintro HO
  isplitl [HO]; · iexact HO
  iexact Hrest

set_option backward.isDefEq.respectTransparency.types false in
/-- @main on device `d`'s TensorCore: the reshape of the log-SNR, the kernel region, the reshape of the ids, the copy of
    the filled array into the result's buffer, the SparseCore call. -/
theorem hmain (κ : GSem nD τ sig → ℕ) (d : Dev nD) :
    iprop((K (F := F)).ctx EH (P (vals m)) κ ∗ (K (F := F)).tcSt EH d 0 ∗ (K (F := F)).tcRes m ρ d ∗ G₀ (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, HG⟩
  ihave #Hlev := ((K (F := F)).ctx_levAts κ) $$ Hctx
  iapply (wp_hlo_within 𝒱 (SparseCore.T d) none Set.univ (op := op1) (S := S8) hop1 (V := V0 m d)) $$ [Hb Hheld]
  · isplitl [Hb]; · iexact Hb
    iexact Hheld
  iintro ⟨Hb, Hheld⟩
  ihave Hh := (Entails.of_eq (held_S8 (F := F) d _)) $$ Hheld
  icases Hh with ⟨Ha, Hi, Hx, Hf, Hbb, Hp, Hj, Ho⟩
  ihave Hs := (tcSt_owes (F := F) d 0 (P (vals m))) $$ Hst
  icases Hs with ⟨⟨%W, %hW, HO⟩, Hclose⟩
  rw [wp_ret]; imodintro
  iapply (wp_fill (F := F) (fillIn m) (fun d g => Otc_none (F := F) d 0 g) d (fun x => Prog.ret x) _) $$ [Hb Ha Hx Hf Hbb Hp HO HG Hi Hj Ho Hclose]
  isplitr; · iexact Hlev
  isplitl [Hb]; · iexact Hb
  isplitl [Ha Hx Hf Hbb Hp HO]
  · rw [fillPre_eq]
    isplitl [Ha]; · iexact Ha
    isplitl [Hx]; · iexact Hx
    isplitl [Hf]; · iexact Hf
    isplitl [Hbb]; · iexact Hbb
    isplitl [Hp]; · iexact Hp
    iexists W; isplitr
    · ipureintro; exact (wbelow_zero_iff (F := F) d W).mp hW
    · iexact HO
  icases HG with ⟨Hg, Ht⟩
  isplitl [Hg]; · iexact Hg
  isplitl [Ht]; · iexact Ht
  iintro ⟨Hb, Hpost⟩
  ihave Hpost := (Entails.of_eq (fillPost_eq (F := F) m d)) $$ Hpost
  icases Hpost with ⟨Ha, Hx, Hf, Hbb, Hp, %W', %hW', HO⟩
  rw [wp_ret]; imodintro
  ihave Hheld := (Entails.of_eq (held_V2 (F := F) m d).symm) $$ [Ha Hi Hx Hf Hbb Hp Hj Ho]
  · isplitl [Ha]; · iexact Ha
    isplitl [Hi]; · iexact Hi
    isplitl [Hx]; · iexact Hx
    isplitl [Hf]; · iexact Hf
    isplitl [Hbb]; · iexact Hbb
    isplitl [Hp]; · iexact Hp
    isplitl [Hj]; · iexact Hj
    iexact Ho
  iapply (wp_hlo_within 𝒱 (SparseCore.T d) none Set.univ (op := op2) (S := S8) hop2 (V := V2 m d)) $$ [Hb Hheld]
  · isplitl [Hb]; · iexact Hb
    iexact Hheld
  iintro ⟨Hb, Hheld⟩
  rw [wp_ret]; imodintro
  iapply (wp_hlo_within 𝒱 (SparseCore.T d) none Set.univ (op := op3) (S := S8) hop3 (V := V3 m d)) $$ [Hb Hheld]
  · isplitl [Hb]; · iexact Hb
    iexact Hheld
  iintro ⟨Hb, Hheld⟩
  rw [wp_ret]; imodintro
  ihave Hh := (Entails.of_eq (held_S8 (F := F) d _)) $$ Hheld
  icases Hh with ⟨Ha, Hi, Hx, Hf, Hbb, Hp, Hj, Ho⟩
  ihave Hst := Hclose $$ [HO]
  · iexists W'; isplitr
    · ipureintro; exact (wbelow_zero_iff (F := F) d W').mpr hW'
    · iexact HO
  iapply ((K (F := F)).wp_run (D (F := F)) 𝒱 (EH := EH) (P := P (vals m)) κ d 0) $$ [Hst Hbb Hp Hj Ho Ha Hi]
  isplitr; · iexact Hctx
  isplitl [Hst]; · iexact Hst
  isplitl [Hbb Hp Hj Ho]
  · rw [st0_eq]
    isplitl [Hbb]; · iexact Hbb
    isplitl [Hp]; · iexact Hp
    isplitl [Hj]; · iexact Hj
    iexact Ho
  iintro ⟨Hst, Hdn⟩
  ihave Hdn' := (Entails.of_eq (dn0_eq (F := F) m d)) $$ Hdn
  icases Hdn' with ⟨-, -, -, Ho⟩
  imodintro
  isplitl [Hst]; · iexact Hst
  isplitl [Ha]; · rw [← V4_a (F := F) m d]; iexact Ha
  isplitl [Hi]; · rw [← V4_i (F := F) m d]; iexact Hi
  iexact Ho

end Cert.KernelIdeal.Hand

end
-- ==== Proof.Run.lean ====
import proofs.«211088_g14680198218050_cont_week2b_81_31_alg».proof.Proof.Common
import proofs.«211088_g14680198218050_cont_week2b_81_31_alg».proof.Proof.MainRun

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]
variable (m : (ℓ : Loc nD τ sig) → Buf (Elt F) ℓ) (ρ : Dev nD → PrngReg)

/-! ## The program's run -/

def fq (d : Dev nD) (s' : Phys nD τ sig (Elt F)) : Prop :=
  s'.mem.mem (oLoc d) = outV (vals m) d ∧ s'.mem.mem (aLoc d) = m (aLoc d) ∧ s'.mem.mem (iLoc d) = m (iLoc d)

theorem hfin (d : Dev nD) (s' : Phys nD τ sig (Elt F)) : iprop(FIN m d ∗ SI s') ⊢ (⌜fq m d s'⌝ : sProp 𝕄) := by
  iintro ⟨⟨Ha, Hi, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (SI_pointsTo_agree (st := s') (ℓ := oLoc d) (I := Finset.univ) (q := fullShare) (f := outV (vals m) d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-- What the run leaves: the result at what the tiles left, the arguments unchanged. -/
def QC : PUnit × MemSt nD τ sig (Elt F) → Prop := fun r =>
  ∀ c : Dev nD, r.2.mem (oLoc c) = outV (vals m) c ∧ r.2.mem (aLoc c) = m (aLoc c) ∧ r.2.mem (iLoc c) = m (iLoc c)

/-- Every weakly fair execution of the program's threads terminates, nothing faulting, with the result array at what the
    tiles leave and the arguments unchanged — given one tile's task. -/
theorem run_main_of [∀ e, Nonempty (Elt F e)] (htile : (K (F := F)).TileObl (D (F := F)) 𝒱 (P (vals m)) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (vals m)) facts v₀
    (fun q hq => match q with | 0 => nomatch hq)
    (fun q _ => match q with | 0 => htile)
    (fun q _ => match q with | 0 => SparseCore.Cfg.VecSplit.of_plain (vecSplit (vals m)))
    m ρ main (fun d => G₀ (F := F) d) (FIN m) (u₀ (F := F)) (sep_elim_left.trans (hu₀ (vals m))) (hmain m ρ) (fq m) (hfin m) (QC m) (fun _ h => h)

end Cert.KernelIdeal.Hand

end
-- ==== Proof.ScArith.lean ====
/- The integer arithmetic of the data-dependent slice offsets of the second kernel: each printed
   offsets chain (the row word, the column numeral, floor division by 16 spelt with its sign
   correction and multiplied back by 16) in closed form for a token id below 100000, and the
   side conditions that the slices stay inside the array. -/
import proofs.«211088_g14680198218050_cont_week2b_81_31_alg».proof.KernelIdeal
import Mathlib.Tactic

namespace Cert.KernelIdeal.ScArith

open Idealize.ShloMosaic
open Cert.KernelIdeal

/-- The start of the 16-aligned block that holds the word `v`: `v` floor-divided by 16 — the
    quotient rounded toward zero, lowered by one when the signs of dividend and divisor differ
    and the remainder is not zero — times 16. -/
def blockStart (v : BitVec 32) : BitVec 32 :=
  let c0a : BitVec 32 := 0#32
  let sgtv : BitVec 1 := Scalar.cmpi .sgt v c0a
  let sgtvw : BitVec 32 := Scalar.extui sgtv
  let c0b : BitVec 32 := 0#32
  let sltv : BitVec 1 := Scalar.cmpi .slt v c0b
  let sltvw : BitVec 32 := Scalar.extui sltv
  let signv : BitVec 32 := Scalar.subi sgtvw sltvw
  let c16 : BitVec 32 := 16#32
  let c0c : BitVec 32 := 0#32
  let sgtd : BitVec 1 := Scalar.cmpi .sgt c16 c0c
  let sgtdw : BitVec 32 := Scalar.extui sgtd
  let c0d : BitVec 32 := 0#32
  let sltd : BitVec 1 := Scalar.cmpi .slt c16 c0d
  let sltdw : BitVec 32 := Scalar.extui sltd
  let signd : BitVec 32 := Scalar.subi sgtdw sltdw
  let differ : BitVec 1 := Scalar.cmpi .ne signv signd
  let rem : BitVec 32 := Scalar.remsi v c16
  let c0e : BitVec 32 := 0#32
  let remNe : BitVec 1 := Scalar.cmpi .ne rem c0e
  let fix : BitVec 1 := Scalar.andi differ remNe
  let quot : BitVec 32 := Scalar.divsi v c16
  let c1 : BitVec 32 := 1#32
  let quotLess : BitVec 32 := Scalar.subi quot c1
  let fl : BitVec 32 := Scalar.select fix quotLess quot
  let c16' : BitVec 32 := 16#32
  Scalar.muli fl c16'

/-- The row word of tile `s`: `2 * s + k`. -/
def rowWord (i : grid1.Coords) (k : BitVec 32) : BitVec 32 :=
  Scalar.addi (Scalar.muli (BitVec.ofNat 32 (i 1).val) 2#32) k

theorem msb_of_lt (v : BitVec 32) (hv : v.toNat < 100000) : v.msb = false := by
  rw [BitVec.msb_eq_false_iff_two_mul_lt]; omega

/-- Signed division by 16 of a word with the sign bit clear is the unsigned one. -/
theorem divsi16 (v : BitVec 32) (h : v.msb = false) : Scalar.divsi v 16#32 = v / 16#32 := by
  have hc : ¬ IntOp.SDivCorner v 16#32 := by
    rintro (h0 | ⟨_, h1⟩)
    · exact absurd h0 (by decide)
    · exact absurd h1 (by decide)
  have h16 : (16#32 : BitVec 32).msb = false := by decide
  simp only [Scalar.divsi, IntOp.divsi, if_neg hc, BitVec.sdiv_eq, h, h16, BitVec.udiv_eq]

/-- Signed remainder by 16 of a word with the sign bit clear is the unsigned one. -/
theorem remsi16 (v : BitVec 32) (h : v.msb = false) : Scalar.remsi v 16#32 = v % 16#32 := by
  have hc : ¬ IntOp.SDivCorner v 16#32 := by
    rintro (h0 | ⟨_, h1⟩)
    · exact absurd h0 (by decide)
    · exact absurd h1 (by decide)
  have h16 : (16#32 : BitVec 32).msb = false := by decide
  simp only [Scalar.remsi, IntOp.remsi, if_neg hc, BitVec.srem_eq, h, h16, BitVec.umod_eq]

theorem cmpi_sgt_zero (v : BitVec 32) (hm : v.msb = false) (hpos : 0 < v.toNat) :
    Scalar.cmpi .sgt v 0#32 = 1#1 := by
  have h : (0#32 : BitVec 32).slt v = true := by
    have := BitVec.toInt_eq_toNat_of_msb hm
    simp only [BitVec.slt, BitVec.toInt_zero, this, decide_eq_true_eq]
    omega
  show BitVec.ofBool ((0#32 : BitVec 32).slt v) = 1#1
  rw [h]; rfl

theorem cmpi_slt_zero (v : BitVec 32) (hm : v.msb = false) :
    Scalar.cmpi .slt v 0#32 = 0#1 := by
  have h : v.slt (0#32) = false := by
    have := BitVec.toInt_eq_toNat_of_msb hm
    simp only [BitVec.slt, BitVec.toInt_zero, this, decide_eq_false_iff_not]
    omega
  show BitVec.ofBool (v.slt (0#32)) = 0#1
  rw [h]; rfl

/-- For a word below 100000 the sign correction never fires: the block start is the unsigned
    quotient by 16, times 16. A positive word has the divisor's sign; zero has remainder zero. -/
theorem blockStart_eq (v : BitVec 32) (hv : v.toNat < 100000) :
    blockStart v = (v / 16#32) * 16#32 := by
  have hm := msb_of_lt v hv
  rcases Nat.eq_zero_or_pos v.toNat with h0 | hpos
  · have : v = 0#32 := BitVec.eq_of_toNat_eq (by simpa using h0)
    subst this; decide
  · unfold blockStart
    simp only [divsi16 v hm, remsi16 v hm, cmpi_sgt_zero v hm hpos, cmpi_slt_zero v hm]
    have hd : Scalar.cmpi .ne (Scalar.subi (Scalar.extui 1#1) (Scalar.extui 0#1))
        (Scalar.subi (Scalar.extui (Scalar.cmpi .sgt 16#32 0#32))
          (Scalar.extui (Scalar.cmpi .slt 16#32 0#32))) = 0#1 := by decide
    rw [hd]
    simp only [Scalar.andi, IntOp.andi, BitVec.zero_and, Scalar.select, Scalar.muli, IntOp.muli]
    rw [if_neg (by decide)]

theorem blockStart_toNat (v : BitVec 32) (hv : v.toNat < 100000) :
    (blockStart v).toNat = 16 * (v.toNat / 16) := by
  rw [blockStart_eq v hv, BitVec.toNat_mul, BitVec.toNat_udiv]
  have h16 : (16#32 : BitVec 32).toNat = 16 := rfl
  rw [h16]; omega

theorem rowWord_toNat (i : grid1.Coords) (k : BitVec 32) (hk : k.toNat ≤ 1) :
    (rowWord i k).toNat = 2 * (i 1).val + k.toNat := by
  have hs : (i 1).val < 16 := (i 1).isLt
  unfold rowWord
  simp only [Scalar.addi, Scalar.muli, IntOp.addi, IntOp.muli, BitVec.toNat_add, BitVec.toNat_mul,
    BitVec.toNat_ofNat]
  omega

theorem rowWord0_toNat (i : grid1.Coords) : (rowWord i 0#32).toNat = 2 * (i 1).val + 0 :=
  rowWord_toNat i 0#32 (by decide)

theorem rowWord1_toNat (i : grid1.Coords) : (rowWord i 1#32).toNat = 2 * (i 1).val + 1 :=
  rowWord_toNat i 1#32 (by decide)

/-- A 1×1×16 slice at row `r < 32`, column `c < 8` and lane offset `b` with `b + 16 ≤ 100000`
    lies inside the 32×8×100000 array. -/
theorem inb_of (r c b : Nat) (hr : r < 32) (hc : c < 8) (hb : b + 16 ≤ 100000) :
    ∀ a, (![r, c, b] : Fin 3 → Nat) a + S1x1x16.size a ≤ S32x8x100000.size a := by
  intro a
  fin_cases a
  · show r + 1 ≤ 32; omega
  · show c + 1 ≤ 8; omega
  · show b + 16 ≤ 100000; omega

/-! ## The sixteen destination slices, the views the waits re-bind, and the side conditions -/

theorem k1_off2_eq (i : grid1.Coords) (v : BitVec 32) (hv : v.toNat < 100000) :
    k1_off2 i v = ![2 * (i 1).val + 0, 0, 16 * (v.toNat / 16)] := by
  have h : k1_off2 i v = ![(rowWord i 0#32).toNat, 0, (blockStart v).toNat] := rfl
  rw [h, rowWord0_toNat, blockStart_toNat v hv]

theorem k1_off3_eq (i : grid1.Coords) (v : BitVec 32) (hv : v.toNat < 100000) :
    k1_off3 i v = ![2 * (i 1).val + 0, 1, 16 * (v.toNat / 16)] := by
  have h : k1_off3 i v = ![(rowWord i 0#32).toNat, 1, (blockStart v).toNat] := rfl
  rw [h, rowWord0_toNat, blockStart_toNat v hv]

theorem k1_off4_eq (i : grid1.Coords) (v : BitVec 32) (hv : v.toNat < 100000) :
    k1_off4 i v = ![2 * (i 1).val + 0, 2, 16 * (v.toNat / 16)] := by
  have h : k1_off4 i v = ![(rowWord i 0#32).toNat, 2, (blockStart v).toNat] := rfl
  rw [h, rowWord0_toNat, blockStart_toNat v hv]

theorem k1_off5_eq (i : grid1.Coords) (v : BitVec 32) (hv : v.toNat < 100000) :
    k1_off5 i v = ![2 * (i 1).val + 0, 3, 16 * (v.toNat / 16)] := by
  have h : k1_off5 i v = ![(rowWord i 0#32).toNat, 3, (blockStart v).toNat] := rfl
  rw [h, rowWord0_toNat, blockStart_toNat v hv]

theorem k1_off6_eq (i : grid1.Coords) (v : BitVec 32) (hv : v.toNat < 100000) :
    k1_off6 i v = ![2 * (i 1).val + 0, 4, 16 * (v.toNat / 16)] := by
  have h : k1_off6 i v = ![(rowWord i 0#32).toNat, 4, (blockStart v).toNat] := rfl
  rw [h, rowWord0_toNat, blockStart_toNat v hv]

theorem k1_off7_eq (i : grid1.Coords) (v : BitVec 32) (hv : v.toNat < 100000) :
    k1_off7 i v = ![2 * (i 1).val + 0, 5, 16 * (v.toNat / 16)] := by
  have h : k1_off7 i v = ![(rowWord i 0#32).toNat, 5, (blockStart v).toNat] := rfl
  rw [h, rowWord0_toNat, blockStart_toNat v hv]

theorem k1_off8_eq (i : grid1.Coords) (v : BitVec 32) (hv : v.toNat < 100000) :
    k1_off8 i v = ![2 * (i 1).val + 0, 6, 16 * (v.toNat / 16)] := by
  have h : k1_off8 i v = ![(rowWord i 0#32).toNat, 6, (blockStart v).toNat] := rfl
  rw [h, rowWord0_toNat, blockStart_toNat v hv]

theorem k1_off9_eq (i : grid1.Coords) (v : BitVec 32) (hv : v.toNat < 100000) :
    k1_off9 i v = ![2 * (i 1).val + 0, 7, 16 * (v.toNat / 16)] := by
  have h : k1_off9 i v = ![(rowWord i 0#32).toNat, 7, (blockStart v).toNat] := rfl
  rw [h, rowWord0_toNat, blockStart_toNat v hv]

theorem k1_off10_eq (i : grid1.Coords) (v : BitVec 32) (hv : v.toNat < 100000) :
    k1_off10 i v = ![2 * (i 1).val + 1, 0, 16 * (v.toNat / 16)] := by
  have h : k1_off10 i v = ![(rowWord i 1#32).toNat, 0, (blockStart v).toNat] := rfl
  rw [h, rowWord1_toNat, blockStart_toNat v hv]

theorem k1_off11_eq (i : grid1.Coords) (v : BitVec 32) (hv : v.toNat < 100000) :
    k1_off11 i v = ![2 * (i 1).val + 1, 1, 16 * (v.toNat / 16)] := by
  have h : k1_off11 i v = ![(rowWord i 1#32).toNat, 1, (blockStart v).toNat] := rfl
  rw [h, rowWord1_toNat, blockStart_toNat v hv]

theorem k1_off12_eq (i : grid1.Coords) (v : BitVec 32) (hv : v.toNat < 100000) :
    k1_off12 i v = ![2 * (i 1).val + 1, 2, 16 * (v.toNat / 16)] := by
  have h : k1_off12 i v = ![(rowWord i 1#32).toNat, 2, (blockStart v).toNat] := rfl
  rw [h, rowWord1_toNat, blockStart_toNat v hv]

theorem k1_off13_eq (i : grid1.Coords) (v : BitVec 32) (hv : v.toNat < 100000) :
    k1_off13 i v = ![2 * (i 1).val + 1, 3, 16 * (v.toNat / 16)] := by
  have h : k1_off13 i v = ![(rowWord i 1#32).toNat, 3, (blockStart v).toNat] := rfl
  rw [h, rowWord1_toNat, blockStart_toNat v hv]

theorem k1_off14_eq (i : grid1.Coords) (v : BitVec 32) (hv : v.toNat < 100000) :
    k1_off14 i v = ![2 * (i 1).val + 1, 4, 16 * (v.toNat / 16)] := by
  have h : k1_off14 i v = ![(rowWord i 1#32).toNat, 4, (blockStart v).toNat] := rfl
  rw [h, rowWord1_toNat, blockStart_toNat v hv]

theorem k1_off15_eq (i : grid1.Coords) (v : BitVec 32) (hv : v.toNat < 100000) :
    k1_off15 i v = ![2 * (i 1).val + 1, 5, 16 * (v.toNat / 16)] := by
  have h : k1_off15 i v = ![(rowWord i 1#32).toNat, 5, (blockStart v).toNat] := rfl
  rw [h, rowWord1_toNat, blockStart_toNat v hv]

theorem k1_off16_eq (i : grid1.Coords) (v : BitVec 32) (hv : v.toNat < 100000) :
    k1_off16 i v = ![2 * (i 1).val + 1, 6, 16 * (v.toNat / 16)] := by
  have h : k1_off16 i v = ![(rowWord i 1#32).toNat, 6, (blockStart v).toNat] := rfl
  rw [h, rowWord1_toNat, blockStart_toNat v hv]

theorem k1_off17_eq (i : grid1.Coords) (v : BitVec 32) (hv : v.toNat < 100000) :
    k1_off17 i v = ![2 * (i 1).val + 1, 7, 16 * (v.toNat / 16)] := by
  have h : k1_off17 i v = ![(rowWord i 1#32).toNat, 7, (blockStart v).toNat] := rfl
  rw [h, rowWord1_toNat, blockStart_toNat v hv]

theorem k1_off18_eq (i : grid1.Coords) (v : BitVec 32) (hv : v.toNat < 100000) :
    k1_off18 i v = ![2 * (i 1).val + 0, 0, 16 * (v.toNat / 16)] := by
  have h : k1_off18 i v = ![(rowWord i 0#32).toNat, 0, (blockStart v).toNat] := rfl
  rw [h, rowWord0_toNat, blockStart_toNat v hv]

theorem k1_off19_eq (i : grid1.Coords) (v : BitVec 32) (hv : v.toNat < 100000) :
    k1_off19 i v = ![2 * (i 1).val + 0, 1, 16 * (v.toNat / 16)] := by
  have h : k1_off19 i v = ![(rowWord i 0#32).toNat, 1, (blockStart v).toNat] := rfl
  rw [h, rowWord0_toNat, blockStart_toNat v hv]

theorem k1_off20_eq (i : grid1.Coords) (v : BitVec 32) (hv : v.toNat < 100000) :
    k1_off20 i v = ![2 * (i 1).val + 0, 2, 16 * (v.toNat / 16)] := by
  have h : k1_off20 i v = ![(rowWord i 0#32).toNat, 2, (blockStart v).toNat] := rfl
  rw [h, rowWord0_toNat, blockStart_toNat v hv]

theorem k1_off21_eq (i : grid1.Coords) (v : BitVec 32) (hv : v.toNat < 100000) :
    k1_off21 i v = ![2 * (i 1).val + 0, 3, 16 * (v.toNat / 16)] := by
  have h : k1_off21 i v = ![(rowWord i 0#32).toNat, 3, (blockStart v).toNat] := rfl
  rw [h, rowWord0_toNat, blockStart_toNat v hv]

theorem k1_off22_eq (i : grid1.Coords) (v : BitVec 32) (hv : v.toNat < 100000) :
    k1_off22 i v = ![2 * (i 1).val + 0, 4, 16 * (v.toNat / 16)] := by
  have h : k1_off22 i v = ![(rowWord i 0#32).toNat, 4, (blockStart v).toNat] := rfl
  rw [h, rowWord0_toNat, blockStart_toNat v hv]

theorem k1_off23_eq (i : grid1.Coords) (v : BitVec 32) (hv : v.toNat < 100000) :
    k1_off23 i v = ![2 * (i 1).val + 0, 5, 16 * (v.toNat / 16)] := by
  have h : k1_off23 i v = ![(rowWord i 0#32).toNat, 5, (blockStart v).toNat] := rfl
  rw [h, rowWord0_toNat, blockStart_toNat v hv]

theorem k1_off24_eq (i : grid1.Coords) (v : BitVec 32) (hv : v.toNat < 100000) :
    k1_off24 i v = ![2 * (i 1).val + 0, 6, 16 * (v.toNat / 16)] := by
  have h : k1_off24 i v = ![(rowWord i 0#32).toNat, 6, (blockStart v).toNat] := rfl
  rw [h, rowWord0_toNat, blockStart_toNat v hv]

theorem k1_off25_eq (i : grid1.Coords) (v : BitVec 32) (hv : v.toNat < 100000) :
    k1_off25 i v = ![2 * (i 1).val + 0, 7, 16 * (v.toNat / 16)] := by
  have h : k1_off25 i v = ![(rowWord i 0#32).toNat, 7, (blockStart v).toNat] := rfl
  rw [h, rowWord0_toNat, blockStart_toNat v hv]

theorem k1_off26_eq (i : grid1.Coords) (v : BitVec 32) (hv : v.toNat < 100000) :
    k1_off26 i v = ![2 * (i 1).val + 1, 0, 16 * (v.toNat / 16)] := by
  have h : k1_off26 i v = ![(rowWord i 1#32).toNat, 0, (blockStart v).toNat] := rfl
  rw [h, rowWord1_toNat, blockStart_toNat v hv]

theorem k1_off27_eq (i : grid1.Coords) (v : BitVec 32) (hv : v.toNat < 100000) :
    k1_off27 i v = ![2 * (i 1).val + 1, 1, 16 * (v.toNat / 16)] := by
  have h : k1_off27 i v = ![(rowWord i 1#32).toNat, 1, (blockStart v).toNat] := rfl
  rw [h, rowWord1_toNat, blockStart_toNat v hv]

theorem k1_off28_eq (i : grid1.Coords) (v : BitVec 32) (hv : v.toNat < 100000) :
    k1_off28 i v = ![2 * (i 1).val + 1, 2, 16 * (v.toNat / 16)] := by
  have h : k1_off28 i v = ![(rowWord i 1#32).toNat, 2, (blockStart v).toNat] := rfl
  rw [h, rowWord1_toNat, blockStart_toNat v hv]

theorem k1_off29_eq (i : grid1.Coords) (v : BitVec 32) (hv : v.toNat < 100000) :
    k1_off29 i v = ![2 * (i 1).val + 1, 3, 16 * (v.toNat / 16)] := by
  have h : k1_off29 i v = ![(rowWord i 1#32).toNat, 3, (blockStart v).toNat] := rfl
  rw [h, rowWord1_toNat, blockStart_toNat v hv]

theorem k1_off30_eq (i : grid1.Coords) (v : BitVec 32) (hv : v.toNat < 100000) :
    k1_off30 i v = ![2 * (i 1).val + 1, 4, 16 * (v.toNat / 16)] := by
  have h : k1_off30 i v = ![(rowWord i 1#32).toNat, 4, (blockStart v).toNat] := rfl
  rw [h, rowWord1_toNat, blockStart_toNat v hv]

theorem k1_off31_eq (i : grid1.Coords) (v : BitVec 32) (hv : v.toNat < 100000) :
    k1_off31 i v = ![2 * (i 1).val + 1, 5, 16 * (v.toNat / 16)] := by
  have h : k1_off31 i v = ![(rowWord i 1#32).toNat, 5, (blockStart v).toNat] := rfl
  rw [h, rowWord1_toNat, blockStart_toNat v hv]

theorem k1_off32_eq (i : grid1.Coords) (v : BitVec 32) (hv : v.toNat < 100000) :
    k1_off32 i v = ![2 * (i 1).val + 1, 6, 16 * (v.toNat / 16)] := by
  have h : k1_off32 i v = ![(rowWord i 1#32).toNat, 6, (blockStart v).toNat] := rfl
  rw [h, rowWord1_toNat, blockStart_toNat v hv]

theorem k1_chk1_of (i : grid1.Coords) (v : BitVec 32) (hv : v.toNat < 100000) : k1_chk1 i v := by
  have hs : (i 1).val < 16 := (i 1).isLt
  unfold k1_chk1
  refine ⟨?_, ?_⟩
  · rw [k1_off2_eq i v hv]; exact inb_of _ _ _ (by omega) (by omega) (by omega)
  · rw [k1_off18_eq i v hv]; exact inb_of _ _ _ (by omega) (by omega) (by omega)

theorem k1_chk2_of (i : grid1.Coords) (v : BitVec 32) (hv : v.toNat < 100000) : k1_chk2 i v := by
  have hs : (i 1).val < 16 := (i 1).isLt
  unfold k1_chk2
  refine ⟨?_, ?_⟩
  · rw [k1_off3_eq i v hv]; exact inb_of _ _ _ (by omega) (by omega) (by omega)
  · rw [k1_off19_eq i v hv]; exact inb_of _ _ _ (by omega) (by omega) (by omega)

theorem k1_chk3_of (i : grid1.Coords) (v : BitVec 32) (hv : v.toNat < 100000) : k1_chk3 i v := by
  have hs : (i 1).val < 16 := (i 1).isLt
  unfold k1_chk3
  refine ⟨?_, ?_⟩
  · rw [k1_off4_eq i v hv]; exact inb_of _ _ _ (by omega) (by omega) (by omega)
  · rw [k1_off20_eq i v hv]; exact inb_of _ _ _ (by omega) (by omega) (by omega)

theorem k1_chk4_of (i : grid1.Coords) (v : BitVec 32) (hv : v.toNat < 100000) : k1_chk4 i v := by
  have hs : (i 1).val < 16 := (i 1).isLt
  unfold k1_chk4
  refine ⟨?_, ?_⟩
  · rw [k1_off5_eq i v hv]; exact inb_of _ _ _ (by omega) (by omega) (by omega)
  · rw [k1_off21_eq i v hv]; exact inb_of _ _ _ (by omega) (by omega) (by omega)

theorem k1_chk5_of (i : grid1.Coords) (v : BitVec 32) (hv : v.toNat < 100000) : k1_chk5 i v := by
  have hs : (i 1).val < 16 := (i 1).isLt
  unfold k1_chk5
  refine ⟨?_, ?_⟩
  · rw [k1_off6_eq i v hv]; exact inb_of _ _ _ (by omega) (by omega) (by omega)
  · rw [k1_off22_eq i v hv]; exact inb_of _ _ _ (by omega) (by omega) (by omega)

theorem k1_chk6_of (i : grid1.Coords) (v : BitVec 32) (hv : v.toNat < 100000) : k1_chk6 i v := by
  have hs : (i 1).val < 16 := (i 1).isLt
  unfold k1_chk6
  refine ⟨?_, ?_⟩
  · rw [k1_off7_eq i v hv]; exact inb_of _ _ _ (by omega) (by omega) (by omega)
  · rw [k1_off23_eq i v hv]; exact inb_of _ _ _ (by omega) (by omega) (by omega)

theorem k1_chk7_of (i : grid1.Coords) (v : BitVec 32) (hv : v.toNat < 100000) : k1_chk7 i v := by
  have hs : (i 1).val < 16 := (i 1).isLt
  unfold k1_chk7
  refine ⟨?_, ?_⟩
  · rw [k1_off8_eq i v hv]; exact inb_of _ _ _ (by omega) (by omega) (by omega)
  · rw [k1_off24_eq i v hv]; exact inb_of _ _ _ (by omega) (by omega) (by omega)

theorem k1_chk8_of (i : grid1.Coords) (v : BitVec 32) (hv : v.toNat < 100000) : k1_chk8 i v := by
  have hs : (i 1).val < 16 := (i 1).isLt
  unfold k1_chk8
  refine ⟨?_, ?_⟩
  · rw [k1_off9_eq i v hv]; exact inb_of _ _ _ (by omega) (by omega) (by omega)
  · rw [k1_off25_eq i v hv]; exact inb_of _ _ _ (by omega) (by omega) (by omega)

theorem k1_chk9_of (i : grid1.Coords) (v : BitVec 32) (hv : v.toNat < 100000) : k1_chk9 i v := by
  have hs : (i 1).val < 16 := (i 1).isLt
  unfold k1_chk9
  refine ⟨?_, ?_⟩
  · rw [k1_off10_eq i v hv]; exact inb_of _ _ _ (by omega) (by omega) (by omega)
  · rw [k1_off26_eq i v hv]; exact inb_of _ _ _ (by omega) (by omega) (by omega)

theorem k1_chk10_of (i : grid1.Coords) (v : BitVec 32) (hv : v.toNat < 100000) : k1_chk10 i v := by
  have hs : (i 1).val < 16 := (i 1).isLt
  unfold k1_chk10
  refine ⟨?_, ?_⟩
  · rw [k1_off11_eq i v hv]; exact inb_of _ _ _ (by omega) (by omega) (by omega)
  · rw [k1_off27_eq i v hv]; exact inb_of _ _ _ (by omega) (by omega) (by omega)

theorem k1_chk11_of (i : grid1.Coords) (v : BitVec 32) (hv : v.toNat < 100000) : k1_chk11 i v := by
  have hs : (i 1).val < 16 := (i 1).isLt
  unfold k1_chk11
  refine ⟨?_, ?_⟩
  · rw [k1_off12_eq i v hv]; exact inb_of _ _ _ (by omega) (by omega) (by omega)
  · rw [k1_off28_eq i v hv]; exact inb_of _ _ _ (by omega) (by omega) (by omega)

theorem k1_chk12_of (i : grid1.Coords) (v : BitVec 32) (hv : v.toNat < 100000) : k1_chk12 i v := by
  have hs : (i 1).val < 16 := (i 1).isLt
  unfold k1_chk12
  refine ⟨?_, ?_⟩
  · rw [k1_off13_eq i v hv]; exact inb_of _ _ _ (by omega) (by omega) (by omega)
  · rw [k1_off29_eq i v hv]; exact inb_of _ _ _ (by omega) (by omega) (by omega)

theorem k1_chk13_of (i : grid1.Coords) (v : BitVec 32) (hv : v.toNat < 100000) : k1_chk13 i v := by
  have hs : (i 1).val < 16 := (i 1).isLt
  unfold k1_chk13
  refine ⟨?_, ?_⟩
  · rw [k1_off14_eq i v hv]; exact inb_of _ _ _ (by omega) (by omega) (by omega)
  · rw [k1_off30_eq i v hv]; exact inb_of _ _ _ (by omega) (by omega) (by omega)

theorem k1_chk14_of (i : grid1.Coords) (v : BitVec 32) (hv : v.toNat < 100000) : k1_chk14 i v := by
  have hs : (i 1).val < 16 := (i 1).isLt
  unfold k1_chk14
  refine ⟨?_, ?_⟩
  · rw [k1_off15_eq i v hv]; exact inb_of _ _ _ (by omega) (by omega) (by omega)
  · rw [k1_off31_eq i v hv]; exact inb_of _ _ _ (by omega) (by omega) (by omega)

theorem k1_chk15_of (i : grid1.Coords) (v : BitVec 32) (hv : v.toNat < 100000) : k1_chk15 i v := by
  have hs : (i 1).val < 16 := (i 1).isLt
  unfold k1_chk15
  refine ⟨?_, ?_⟩
  · rw [k1_off16_eq i v hv]; exact inb_of _ _ _ (by omega) (by omega) (by omega)
  · rw [k1_off32_eq i v hv]; exact inb_of _ _ _ (by omega) (by omega) (by omega)

theorem k1_chk16_of (i : grid1.Coords) (v : BitVec 32) (hv : v.toNat < 100000) : k1_chk16 i v := by
  have hs : (i 1).val < 16 := (i 1).isLt
  unfold k1_chk16
  rw [k1_off17_eq i v hv]; exact inb_of _ _ _ (by omega) (by omega) (by omega)

end Cert.KernelIdeal.ScArith
-- ==== Proof.ScPay.lean ====
/- The vectors the second kernel stores, lane by lane: each is the select of a peak value
   against a base value on the one lane whose number is the token id's remainder by 16. -/
import proofs.«211088_g14680198218050_cont_week2b_81_31_alg».proof.Proof.Gen.KernelIdeal.Skeleton
import proofs.«211088_g14680198218050_cont_week2b_81_31_alg».proof.Proof.ScArith
import Idealize.ShloMosaic.Lib.Pipeline.Value
import Mathlib.Tactic

namespace Cert.KernelIdeal.ScPay

open Idealize.ShloMosaic Idealize.SL.Sem
open Cert.KernelIdeal Cert.KernelIdeal.Gen Cert.KernelIdeal.ScArith

variable {F : FTy → Type} [FloatOps F]

/-- The word less the start of its block of 16 is its remainder by 16. -/
theorem laneWord_toNat (v : BitVec 32) (hv : v.toNat < 100000) :
    (Scalar.subi v (blockStart v)).toNat = v.toNat % 16 := by
  rw [blockStart_eq v hv]
  simp only [Scalar.subi, IntOp.subi]
  rw [BitVec.toNat_sub, BitVec.toNat_mul, BitVec.toNat_udiv]
  have h16 : (16#32 : BitVec 32).toNat = 16 := rfl
  rw [h16]; omega

/-- The lane numbers of one register: lane `l` holds the word `l`. -/
theorem iota_lane (l : S16.Idx) :
    iota .scVector S16 32 [0] iota_S16_d0_w32_scVector l = BitVec.ofNat 32 (l 0).val := by
  simp [iota]

/-- Element `0` of the one-element block at offset `q` is element `q`. -/
theorem extractAt_slice {α : Type} (x : S16.Idx → α) (q : Nat) (hs : S16.Slices ![q] S1)
    (hp : ∀ a, (![0] : Fin 1 → Nat) a < S1.size a) (hq : ∀ a, (![q] : Fin 1 → Nat) a < S16.size a) :
    extractAt ![0] (extractStridedSlice S1 ![q] x hs) hp = extractAt ![q] x hq := by
  unfold extractAt extractStridedSlice
  congr 1; funext a; apply Fin.ext; fin_cases a; simp

/-- A select, on the lanes equal to a word's remainder by 16, of one broadcast value against
    another: at lane `l` it is the first exactly when `l` is that remainder. -/
theorem selLane {α : Type} (v30 : IVec S16 32)
    (h30 : ∀ l : S16.Idx, v30 l = BitVec.ofNat 32 (l 0).val)
    (v : BitVec 32) (hv : v.toNat < 100000) (pk bs : α) (l : S16.Idx) :
    shapeCast S16 (select (cmpi .eq v30 (broadcast S16 (Scalar.subi v (blockStart v))))
      (broadcast S16 pk) (broadcast S16 bs)) shapeCasts_S16_S16 l
      = if (l 0).val = v.toNat % 16 then pk else bs := by
  rw [shapeCast_self]
  have hl : (l 0).val < 16 := (l 0).isLt
  have hw := laneWord_toNat v hv
  have key : (BitVec.ofNat 32 (l 0).val = Scalar.subi v (blockStart v)) ↔ (l 0).val = v.toNat % 16 := by
    rw [← BitVec.toNat_inj, BitVec.toNat_ofNat, hw]
    constructor <;> intro h <;> omega
  show (if BitVec.ofBool (v30 l == Scalar.subi v (blockStart v)) = 1#1 then pk else bs) = _
  rw [h30 l]
  by_cases h : (l 0).val = v.toNat % 16
  · have e : (BitVec.ofNat 32 (l 0).val == Scalar.subi v (blockStart v)) = true := by
      simpa using key.mpr h
    rw [e, if_pos h]; rfl
  · have e : (BitVec.ofNat 32 (l 0).val == Scalar.subi v (blockStart v)) = false := by
      simpa using (not_congr key).mpr h
    rw [e, if_neg h]; rfl

/-! ## The sixteen stored vectors

Each statement names the arguments exactly as the preceding part of the body computes and hands
them on (a prefix of the floor-division chain of the token id `v`). -/

theorem k1_pay5_apply (v25 v27 : FVec F S16 .f32) (v30 : IVec S16 32)
    (h30 : ∀ l : S16.Idx, v30 l = BitVec.ofNat 32 (l 0).val)
    (v : BitVec 32) (hv : v.toNat < 100000) (l : S16.Idx) :
    k1_pay5 v25 v27 v30 v
        16#32 (Scalar.divsi v 16#32) 0#32 l
      = if (l 0).val = v.toNat % 16 then extractAt ![0] v27 else extractAt ![0] v25 := by
  have h : k1_pay5 v25 v27 v30 v
        16#32 (Scalar.divsi v 16#32) 0#32
      = shapeCast S16 (select (cmpi .eq v30 (broadcast S16 (Scalar.subi v (blockStart v))))
          (broadcast S16 (extractAt ![0] (extractStridedSlice S1 ![0] v27 slices_S16_o0_S1) inpos_S1_p0))
          (broadcast S16 (extractAt ![0] (extractStridedSlice S1 ![0] v25 slices_S16_o0_S1) inpos_S1_p0)))
          shapeCasts_S16_S16 := rfl
  rw [h, selLane v30 h30 v hv, extractAt_slice, extractAt_slice]

theorem k1_pay7_apply (v25 v27 : FVec F S16 .f32) (v30 : IVec S16 32)
    (h30 : ∀ l : S16.Idx, v30 l = BitVec.ofNat 32 (l 0).val)
    (v : BitVec 32) (hv : v.toNat < 100000) (l : S16.Idx) :
    k1_pay7 v25 v27 v30 v
        16#32 (Scalar.divsi v 16#32) (Scalar.extui (Scalar.cmpi .sgt v 0#32)) l
      = if (l 0).val = v.toNat % 16 then extractAt ![1] v27 else extractAt ![1] v25 := by
  have h : k1_pay7 v25 v27 v30 v
        16#32 (Scalar.divsi v 16#32) (Scalar.extui (Scalar.cmpi .sgt v 0#32))
      = shapeCast S16 (select (cmpi .eq v30 (broadcast S16 (Scalar.subi v (blockStart v))))
          (broadcast S16 (extractAt ![0] (extractStridedSlice S1 ![1] v27 slices_S16_o1_S1) inpos_S1_p0))
          (broadcast S16 (extractAt ![0] (extractStridedSlice S1 ![1] v25 slices_S16_o1_S1) inpos_S1_p0)))
          shapeCasts_S16_S16 := rfl
  rw [h, selLane v30 h30 v hv, extractAt_slice, extractAt_slice]

theorem k1_pay9_apply (v25 v27 : FVec F S16 .f32) (v30 : IVec S16 32)
    (h30 : ∀ l : S16.Idx, v30 l = BitVec.ofNat 32 (l 0).val)
    (v : BitVec 32) (hv : v.toNat < 100000) (l : S16.Idx) :
    k1_pay9 v25 v27 v30 v
        16#32 (Scalar.divsi v 16#32) (Scalar.extui (Scalar.cmpi .sgt v 0#32)) (Scalar.cmpi .slt v
        0#32) l
      = if (l 0).val = v.toNat % 16 then extractAt ![2] v27 else extractAt ![2] v25 := by
  have h : k1_pay9 v25 v27 v30 v
        16#32 (Scalar.divsi v 16#32) (Scalar.extui (Scalar.cmpi .sgt v 0#32)) (Scalar.cmpi .slt v
        0#32)
      = shapeCast S16 (select (cmpi .eq v30 (broadcast S16 (Scalar.subi v (blockStart v))))
          (broadcast S16 (extractAt ![0] (extractStridedSlice S1 ![2] v27 slices_S16_o2_S1) inpos_S1_p0))
          (broadcast S16 (extractAt ![0] (extractStridedSlice S1 ![2] v25 slices_S16_o2_S1) inpos_S1_p0)))
          shapeCasts_S16_S16 := rfl
  rw [h, selLane v30 h30 v hv, extractAt_slice, extractAt_slice]

theorem k1_pay11_apply (v25 v27 : FVec F S16 .f32) (v30 : IVec S16 32)
    (h30 : ∀ l : S16.Idx, v30 l = BitVec.ofNat 32 (l 0).val)
    (v : BitVec 32) (hv : v.toNat < 100000) (l : S16.Idx) :
    k1_pay11 v25 v27 v30 v
        16#32 (Scalar.divsi v 16#32) (Scalar.subi (Scalar.extui (Scalar.cmpi .sgt v 0#32))
        (Scalar.extui (Scalar.cmpi .slt v 0#32))) l
      = if (l 0).val = v.toNat % 16 then extractAt ![3] v27 else extractAt ![3] v25 := by
  have h : k1_pay11 v25 v27 v30 v
        16#32 (Scalar.divsi v 16#32) (Scalar.subi (Scalar.extui (Scalar.cmpi .sgt v 0#32))
        (Scalar.extui (Scalar.cmpi .slt v 0#32)))
      = shapeCast S16 (select (cmpi .eq v30 (broadcast S16 (Scalar.subi v (blockStart v))))
          (broadcast S16 (extractAt ![0] (extractStridedSlice S1 ![3] v27 slices_S16_o3_S1) inpos_S1_p0))
          (broadcast S16 (extractAt ![0] (extractStridedSlice S1 ![3] v25 slices_S16_o3_S1) inpos_S1_p0)))
          shapeCasts_S16_S16 := rfl
  rw [h, selLane v30 h30 v hv, extractAt_slice, extractAt_slice]

theorem k1_pay13_apply (v25 v27 : FVec F S16 .f32) (v30 : IVec S16 32)
    (h30 : ∀ l : S16.Idx, v30 l = BitVec.ofNat 32 (l 0).val)
    (v : BitVec 32) (hv : v.toNat < 100000) (l : S16.Idx) :
    k1_pay13 v25 v27 v30 v
        16#32 (Scalar.divsi v 16#32) (Scalar.subi (Scalar.extui (Scalar.cmpi .sgt v 0#32))
        (Scalar.extui (Scalar.cmpi .slt v 0#32))) (Scalar.cmpi .sgt 16#32 0#32) l
      = if (l 0).val = v.toNat % 16 then extractAt ![4] v27 else extractAt ![4] v25 := by
  have h : k1_pay13 v25 v27 v30 v
        16#32 (Scalar.divsi v 16#32) (Scalar.subi (Scalar.extui (Scalar.cmpi .sgt v 0#32))
        (Scalar.extui (Scalar.cmpi .slt v 0#32))) (Scalar.cmpi .sgt 16#32 0#32)
      = shapeCast S16 (select (cmpi .eq v30 (broadcast S16 (Scalar.subi v (blockStart v))))
          (broadcast S16 (extractAt ![0] (extractStridedSlice S1 ![4] v27 slices_S16_o4_S1) inpos_S1_p0))
          (broadcast S16 (extractAt ![0] (extractStridedSlice S1 ![4] v25 slices_S16_o4_S1) inpos_S1_p0)))
          shapeCasts_S16_S16 := rfl
  rw [h, selLane v30 h30 v hv, extractAt_slice, extractAt_slice]

theorem k1_pay15_apply (v25 v27 : FVec F S16 .f32) (v30 : IVec S16 32)
    (h30 : ∀ l : S16.Idx, v30 l = BitVec.ofNat 32 (l 0).val)
    (v : BitVec 32) (hv : v.toNat < 100000) (l : S16.Idx) :
    k1_pay15 v25 v27 v30 v
        16#32 (Scalar.divsi v 16#32) (Scalar.subi (Scalar.extui (Scalar.cmpi .sgt v 0#32))
        (Scalar.extui (Scalar.cmpi .slt v 0#32))) (Scalar.extui (Scalar.cmpi .sgt 16#32 0#32)) 0#32 l
      = if (l 0).val = v.toNat % 16 then extractAt ![5] v27 else extractAt ![5] v25 := by
  have h : k1_pay15 v25 v27 v30 v
        16#32 (Scalar.divsi v 16#32) (Scalar.subi (Scalar.extui (Scalar.cmpi .sgt v 0#32))
        (Scalar.extui (Scalar.cmpi .slt v 0#32))) (Scalar.extui (Scalar.cmpi .sgt 16#32 0#32)) 0#32
      = shapeCast S16 (select (cmpi .eq v30 (broadcast S16 (Scalar.subi v (blockStart v))))
          (broadcast S16 (extractAt ![0] (extractStridedSlice S1 ![5] v27 slices_S16_o5_S1) inpos_S1_p0))
          (broadcast S16 (extractAt ![0] (extractStridedSlice S1 ![5] v25 slices_S16_o5_S1) inpos_S1_p0)))
          shapeCasts_S16_S16 := rfl
  rw [h, selLane v30 h30 v hv, extractAt_slice, extractAt_slice]

theorem k1_pay17_apply (v25 v27 : FVec F S16 .f32) (v30 : IVec S16 32)
    (h30 : ∀ l : S16.Idx, v30 l = BitVec.ofNat 32 (l 0).val)
    (v : BitVec 32) (hv : v.toNat < 100000) (l : S16.Idx) :
    k1_pay17 v25 v27 v30 v
        16#32 (Scalar.divsi v 16#32) (Scalar.subi (Scalar.extui (Scalar.cmpi .sgt v 0#32))
        (Scalar.extui (Scalar.cmpi .slt v 0#32))) (Scalar.extui (Scalar.cmpi .sgt 16#32 0#32))
        (Scalar.extui (Scalar.cmpi .slt 16#32 0#32)) l
      = if (l 0).val = v.toNat % 16 then extractAt ![6] v27 else extractAt ![6] v25 := by
  have h : k1_pay17 v25 v27 v30 v
        16#32 (Scalar.divsi v 16#32) (Scalar.subi (Scalar.extui (Scalar.cmpi .sgt v 0#32))
        (Scalar.extui (Scalar.cmpi .slt v 0#32))) (Scalar.extui (Scalar.cmpi .sgt 16#32 0#32))
        (Scalar.extui (Scalar.cmpi .slt 16#32 0#32))
      = shapeCast S16 (select (cmpi .eq v30 (broadcast S16 (Scalar.subi v (blockStart v))))
          (broadcast S16 (extractAt ![0] (extractStridedSlice S1 ![6] v27 slices_S16_o6_S1) inpos_S1_p0))
          (broadcast S16 (extractAt ![0] (extractStridedSlice S1 ![6] v25 slices_S16_o6_S1) inpos_S1_p0)))
          shapeCasts_S16_S16 := rfl
  rw [h, selLane v30 h30 v hv, extractAt_slice, extractAt_slice]

theorem k1_pay19_apply (v25 v27 : FVec F S16 .f32) (v30 : IVec S16 32)
    (h30 : ∀ l : S16.Idx, v30 l = BitVec.ofNat 32 (l 0).val)
    (v : BitVec 32) (hv : v.toNat < 100000) (l : S16.Idx) :
    k1_pay19 v25 v27 v30 v
        16#32 (Scalar.divsi v 16#32) (Scalar.cmpi .ne (Scalar.subi (Scalar.extui (Scalar.cmpi .sgt v
        0#32)) (Scalar.extui (Scalar.cmpi .slt v 0#32))) (Scalar.subi (Scalar.extui (Scalar.cmpi
        .sgt 16#32 0#32)) (Scalar.extui (Scalar.cmpi .slt 16#32 0#32)))) l
      = if (l 0).val = v.toNat % 16 then extractAt ![7] v27 else extractAt ![7] v25 := by
  have h : k1_pay19 v25 v27 v30 v
        16#32 (Scalar.divsi v 16#32) (Scalar.cmpi .ne (Scalar.subi (Scalar.extui (Scalar.cmpi .sgt v
        0#32)) (Scalar.extui (Scalar.cmpi .slt v 0#32))) (Scalar.subi (Scalar.extui (Scalar.cmpi
        .sgt 16#32 0#32)) (Scalar.extui (Scalar.cmpi .slt 16#32 0#32))))
      = shapeCast S16 (select (cmpi .eq v30 (broadcast S16 (Scalar.subi v (blockStart v))))
          (broadcast S16 (extractAt ![0] (extractStridedSlice S1 ![7] v27 slices_S16_o7_S1) inpos_S1_p0))
          (broadcast S16 (extractAt ![0] (extractStridedSlice S1 ![7] v25 slices_S16_o7_S1) inpos_S1_p0)))
          shapeCasts_S16_S16 := rfl
  rw [h, selLane v30 h30 v hv, extractAt_slice, extractAt_slice]

theorem k1_pay21_apply (v25 v27 : FVec F S16 .f32) (v30 : IVec S16 32)
    (h30 : ∀ l : S16.Idx, v30 l = BitVec.ofNat 32 (l 0).val)
    (v : BitVec 32) (hv : v.toNat < 100000) (l : S16.Idx) :
    k1_pay21 v25 v27 v30 v
        (Scalar.divsi v 16#32) (Scalar.cmpi .ne (Scalar.subi (Scalar.extui (Scalar.cmpi .sgt v
        0#32)) (Scalar.extui (Scalar.cmpi .slt v 0#32))) (Scalar.subi (Scalar.extui (Scalar.cmpi
        .sgt 16#32 0#32)) (Scalar.extui (Scalar.cmpi .slt 16#32 0#32)))) (Scalar.remsi v 16#32) 0#32 l
      = if (l 0).val = v.toNat % 16 then extractAt ![8] v27 else extractAt ![8] v25 := by
  have h : k1_pay21 v25 v27 v30 v
        (Scalar.divsi v 16#32) (Scalar.cmpi .ne (Scalar.subi (Scalar.extui (Scalar.cmpi .sgt v
        0#32)) (Scalar.extui (Scalar.cmpi .slt v 0#32))) (Scalar.subi (Scalar.extui (Scalar.cmpi
        .sgt 16#32 0#32)) (Scalar.extui (Scalar.cmpi .slt 16#32 0#32)))) (Scalar.remsi v 16#32) 0#32
      = shapeCast S16 (select (cmpi .eq v30 (broadcast S16 (Scalar.subi v (blockStart v))))
          (broadcast S16 (extractAt ![0] (extractStridedSlice S1 ![8] v27 slices_S16_o8_S1) inpos_S1_p0))
          (broadcast S16 (extractAt ![0] (extractStridedSlice S1 ![8] v25 slices_S16_o8_S1) inpos_S1_p0)))
          shapeCasts_S16_S16 := rfl
  rw [h, selLane v30 h30 v hv, extractAt_slice, extractAt_slice]

theorem k1_pay23_apply (v25 v27 : FVec F S16 .f32) (v30 : IVec S16 32)
    (h30 : ∀ l : S16.Idx, v30 l = BitVec.ofNat 32 (l 0).val)
    (v : BitVec 32) (hv : v.toNat < 100000) (l : S16.Idx) :
    k1_pay23 v25 v27 v30 v
        (Scalar.divsi v 16#32) (Scalar.andi (Scalar.cmpi .ne (Scalar.subi (Scalar.extui (Scalar.cmpi
        .sgt v 0#32)) (Scalar.extui (Scalar.cmpi .slt v 0#32))) (Scalar.subi (Scalar.extui
        (Scalar.cmpi .sgt 16#32 0#32)) (Scalar.extui (Scalar.cmpi .slt 16#32 0#32)))) (Scalar.cmpi
        .ne (Scalar.remsi v 16#32) 0#32)) l
      = if (l 0).val = v.toNat % 16 then extractAt ![9] v27 else extractAt ![9] v25 := by
  have h : k1_pay23 v25 v27 v30 v
        (Scalar.divsi v 16#32) (Scalar.andi (Scalar.cmpi .ne (Scalar.subi (Scalar.extui (Scalar.cmpi
        .sgt v 0#32)) (Scalar.extui (Scalar.cmpi .slt v 0#32))) (Scalar.subi (Scalar.extui
        (Scalar.cmpi .sgt 16#32 0#32)) (Scalar.extui (Scalar.cmpi .slt 16#32 0#32)))) (Scalar.cmpi
        .ne (Scalar.remsi v 16#32) 0#32))
      = shapeCast S16 (select (cmpi .eq v30 (broadcast S16 (Scalar.subi v (blockStart v))))
          (broadcast S16 (extractAt ![0] (extractStridedSlice S1 ![9] v27 slices_S16_o9_S1) inpos_S1_p0))
          (broadcast S16 (extractAt ![0] (extractStridedSlice S1 ![9] v25 slices_S16_o9_S1) inpos_S1_p0)))
          shapeCasts_S16_S16 := rfl
  rw [h, selLane v30 h30 v hv, extractAt_slice, extractAt_slice]

theorem k1_pay25_apply (v25 v27 : FVec F S16 .f32) (v30 : IVec S16 32)
    (h30 : ∀ l : S16.Idx, v30 l = BitVec.ofNat 32 (l 0).val)
    (v : BitVec 32) (hv : v.toNat < 100000) (l : S16.Idx) :
    k1_pay25 v25 v27 v30 v
        (Scalar.divsi v 16#32) (Scalar.andi (Scalar.cmpi .ne (Scalar.subi (Scalar.extui (Scalar.cmpi
        .sgt v 0#32)) (Scalar.extui (Scalar.cmpi .slt v 0#32))) (Scalar.subi (Scalar.extui
        (Scalar.cmpi .sgt 16#32 0#32)) (Scalar.extui (Scalar.cmpi .slt 16#32 0#32)))) (Scalar.cmpi
        .ne (Scalar.remsi v 16#32) 0#32)) (Scalar.subi (Scalar.divsi v 16#32) 1#32) l
      = if (l 0).val = v.toNat % 16 then extractAt ![10] v27 else extractAt ![10] v25 := by
  have h : k1_pay25 v25 v27 v30 v
        (Scalar.divsi v 16#32) (Scalar.andi (Scalar.cmpi .ne (Scalar.subi (Scalar.extui (Scalar.cmpi
        .sgt v 0#32)) (Scalar.extui (Scalar.cmpi .slt v 0#32))) (Scalar.subi (Scalar.extui
        (Scalar.cmpi .sgt 16#32 0#32)) (Scalar.extui (Scalar.cmpi .slt 16#32 0#32)))) (Scalar.cmpi
        .ne (Scalar.remsi v 16#32) 0#32)) (Scalar.subi (Scalar.divsi v 16#32) 1#32)
      = shapeCast S16 (select (cmpi .eq v30 (broadcast S16 (Scalar.subi v (blockStart v))))
          (broadcast S16 (extractAt ![0] (extractStridedSlice S1 ![10] v27 slices_S16_o10_S1) inpos_S1_p0))
          (broadcast S16 (extractAt ![0] (extractStridedSlice S1 ![10] v25 slices_S16_o10_S1) inpos_S1_p0)))
          shapeCasts_S16_S16 := rfl
  rw [h, selLane v30 h30 v hv, extractAt_slice, extractAt_slice]

theorem k1_pay27_apply (v25 v27 : FVec F S16 .f32) (v30 : IVec S16 32)
    (h30 : ∀ l : S16.Idx, v30 l = BitVec.ofNat 32 (l 0).val)
    (v : BitVec 32) (hv : v.toNat < 100000) (l : S16.Idx) :
    k1_pay27 v25 v27 v30 v
        (Scalar.select (Scalar.andi (Scalar.cmpi .ne (Scalar.subi (Scalar.extui (Scalar.cmpi .sgt v
        0#32)) (Scalar.extui (Scalar.cmpi .slt v 0#32))) (Scalar.subi (Scalar.extui (Scalar.cmpi
        .sgt 16#32 0#32)) (Scalar.extui (Scalar.cmpi .slt 16#32 0#32)))) (Scalar.cmpi .ne
        (Scalar.remsi v 16#32) 0#32)) (Scalar.subi (Scalar.divsi v 16#32) 1#32) (Scalar.divsi v
        16#32)) 16#32 l
      = if (l 0).val = v.toNat % 16 then extractAt ![11] v27 else extractAt ![11] v25 := by
  have h : k1_pay27 v25 v27 v30 v
        (Scalar.select (Scalar.andi (Scalar.cmpi .ne (Scalar.subi (Scalar.extui (Scalar.cmpi .sgt v
        0#32)) (Scalar.extui (Scalar.cmpi .slt v 0#32))) (Scalar.subi (Scalar.extui (Scalar.cmpi
        .sgt 16#32 0#32)) (Scalar.extui (Scalar.cmpi .slt 16#32 0#32)))) (Scalar.cmpi .ne
        (Scalar.remsi v 16#32) 0#32)) (Scalar.subi (Scalar.divsi v 16#32) 1#32) (Scalar.divsi v
        16#32)) 16#32
      = shapeCast S16 (select (cmpi .eq v30 (broadcast S16 (Scalar.subi v (blockStart v))))
          (broadcast S16 (extractAt ![0] (extractStridedSlice S1 ![11] v27 slices_S16_o11_S1) inpos_S1_p0))
          (broadcast S16 (extractAt ![0] (extractStridedSlice S1 ![11] v25 slices_S16_o11_S1) inpos_S1_p0)))
          shapeCasts_S16_S16 := rfl
  rw [h, selLane v30 h30 v hv, extractAt_slice, extractAt_slice]

theorem k1_pay29_apply (v25 v27 : FVec F S16 .f32) (v30 : IVec S16 32)
    (h30 : ∀ l : S16.Idx, v30 l = BitVec.ofNat 32 (l 0).val)
    (v : BitVec 32) (hv : v.toNat < 100000) (l : S16.Idx) :
    k1_pay29 v25 v27 v30
        (Scalar.subi v (Scalar.muli (Scalar.select (Scalar.andi (Scalar.cmpi .ne (Scalar.subi
        (Scalar.extui (Scalar.cmpi .sgt v 0#32)) (Scalar.extui (Scalar.cmpi .slt v 0#32)))
        (Scalar.subi (Scalar.extui (Scalar.cmpi .sgt 16#32 0#32)) (Scalar.extui (Scalar.cmpi .slt
        16#32 0#32)))) (Scalar.cmpi .ne (Scalar.remsi v 16#32) 0#32)) (Scalar.subi (Scalar.divsi v
        16#32) 1#32) (Scalar.divsi v 16#32)) 16#32)) l
      = if (l 0).val = v.toNat % 16 then extractAt ![12] v27 else extractAt ![12] v25 := by
  have h : k1_pay29 v25 v27 v30
        (Scalar.subi v (Scalar.muli (Scalar.select (Scalar.andi (Scalar.cmpi .ne (Scalar.subi
        (Scalar.extui (Scalar.cmpi .sgt v 0#32)) (Scalar.extui (Scalar.cmpi .slt v 0#32)))
        (Scalar.subi (Scalar.extui (Scalar.cmpi .sgt 16#32 0#32)) (Scalar.extui (Scalar.cmpi .slt
        16#32 0#32)))) (Scalar.cmpi .ne (Scalar.remsi v 16#32) 0#32)) (Scalar.subi (Scalar.divsi v
        16#32) 1#32) (Scalar.divsi v 16#32)) 16#32))
      = shapeCast S16 (select (cmpi .eq v30 (broadcast S16 (Scalar.subi v (blockStart v))))
          (broadcast S16 (extractAt ![0] (extractStridedSlice S1 ![12] v27 slices_S16_o12_S1) inpos_S1_p0))
          (broadcast S16 (extractAt ![0] (extractStridedSlice S1 ![12] v25 slices_S16_o12_S1) inpos_S1_p0)))
          shapeCasts_S16_S16 := rfl
  rw [h, selLane v30 h30 v hv, extractAt_slice, extractAt_slice]

theorem k1_pay32_apply (v25 v27 : FVec F S16 .f32) (v29 v30 : IVec S16 32)
    (h30 : ∀ l : S16.Idx, v30 l = BitVec.ofNat 32 (l 0).val)
    (hv : (extractAt ![0] (k1_pay30 v29) inpos_S1_p0).toNat < 100000) (l : S16.Idx) :
    k1_pay32 v25 v27 (k1_pay31 v29 v30) l
      = if (l 0).val = (extractAt ![0] (k1_pay30 v29) inpos_S1_p0).toNat % 16
        then extractAt ![13] v27 else extractAt ![13] v25 := by
  have h : k1_pay32 v25 v27 (k1_pay31 v29 v30)
      = shapeCast S16 (select (cmpi .eq v30 (broadcast S16 (Scalar.subi (extractAt ![0] (k1_pay30 v29) inpos_S1_p0) (blockStart (extractAt ![0] (k1_pay30 v29) inpos_S1_p0)))))
          (broadcast S16 (extractAt ![0] (extractStridedSlice S1 ![13] v27 slices_S16_o13_S1) inpos_S1_p0))
          (broadcast S16 (extractAt ![0] (extractStridedSlice S1 ![13] v25 slices_S16_o13_S1) inpos_S1_p0)))
          shapeCasts_S16_S16 := rfl
  rw [h, selLane v30 h30 _ hv, extractAt_slice, extractAt_slice]

theorem k1_pay36_apply (v25 v27 : FVec F S16 .f32) (v29 v30 : IVec S16 32)
    (h30 : ∀ l : S16.Idx, v30 l = BitVec.ofNat 32 (l 0).val)
    (hv : (extractAt ![0] (k1_pay33 v29) inpos_S1_p0).toNat < 100000) (l : S16.Idx) :
    k1_pay36 v25 (k1_pay34 v29 v30) (k1_pay35 v27) l
      = if (l 0).val = (extractAt ![0] (k1_pay33 v29) inpos_S1_p0).toNat % 16
        then extractAt ![14] v27 else extractAt ![14] v25 := by
  have h : k1_pay36 v25 (k1_pay34 v29 v30) (k1_pay35 v27)
      = shapeCast S16 (select (cmpi .eq v30 (broadcast S16 (Scalar.subi (extractAt ![0] (k1_pay33 v29) inpos_S1_p0) (blockStart (extractAt ![0] (k1_pay33 v29) inpos_S1_p0)))))
          (broadcast S16 (extractAt ![0] (extractStridedSlice S1 ![14] v27 slices_S16_o14_S1) inpos_S1_p0))
          (broadcast S16 (extractAt ![0] (extractStridedSlice S1 ![14] v25 slices_S16_o14_S1) inpos_S1_p0)))
          shapeCasts_S16_S16 := rfl
  rw [h, selLane v30 h30 _ hv, extractAt_slice, extractAt_slice]

theorem k1_pay41_apply (v25 v27 : FVec F S16 .f32) (v29 v30 : IVec S16 32)
    (h30 : ∀ l : S16.Idx, v30 l = BitVec.ofNat 32 (l 0).val)
    (hv : (extractAt ![0] (k1_pay37 v29) inpos_S1_p0).toNat < 100000) (l : S16.Idx) :
    k1_pay41 (k1_pay38 v29 v30) (k1_pay39 v27) (k1_pay40 v25) l
      = if (l 0).val = (extractAt ![0] (k1_pay37 v29) inpos_S1_p0).toNat % 16
        then extractAt ![15] v27 else extractAt ![15] v25 := by
  have h : k1_pay41 (k1_pay38 v29 v30) (k1_pay39 v27) (k1_pay40 v25)
      = shapeCast S16 (select (cmpi .eq v30 (broadcast S16 (Scalar.subi (extractAt ![0] (k1_pay37 v29) inpos_S1_p0) (blockStart (extractAt ![0] (k1_pay37 v29) inpos_S1_p0)))))
          (broadcast S16 (extractAt ![0] (extractStridedSlice S1 ![15] v27 slices_S16_o15_S1) inpos_S1_p0))
          (broadcast S16 (extractAt ![0] (extractStridedSlice S1 ![15] v25 slices_S16_o15_S1) inpos_S1_p0)))
          shapeCasts_S16_S16 := rfl
  rw [h, selLane v30 h30 _ hv, extractAt_slice, extractAt_slice]

/-! ## The token ids and the two value rows as the body reads them -/

theorem k1_pay1_eq (v24 : Vec F S16 .f32) : k1_pay1 v24 = v24 := shapeCast_self _ _
theorem k1_pay2_eq (v26 : Vec F S16 .f32) : k1_pay2 v26 = v26 := shapeCast_self _ _
theorem k1_pay3_eq (v28 : Vec F S16 .i32) : k1_pay3 v28 = v28 := shapeCast_self _ _

theorem k1_pay4_at (v28 : Vec F S16 .i32) :
    extractAt ![0] (k1_pay4 v28) inpos_S1_p0 = extractAt ![0] (k1_pay3 v28) :=
  extractAt_slice (k1_pay3 v28) 0 slices_S16_o0_S1 inpos_S1_p0 _

theorem k1_pay6_at (v29 : IVec S16 32) :
    extractAt ![0] (k1_pay6 v29) inpos_S1_p0 = extractAt ![1] v29 :=
  extractAt_slice v29 1 slices_S16_o1_S1 inpos_S1_p0 _

theorem k1_pay8_at (v29 : IVec S16 32) :
    extractAt ![0] (k1_pay8 v29) inpos_S1_p0 = extractAt ![2] v29 :=
  extractAt_slice v29 2 slices_S16_o2_S1 inpos_S1_p0 _

theorem k1_pay10_at (v29 : IVec S16 32) :
    extractAt ![0] (k1_pay10 v29) inpos_S1_p0 = extractAt ![3] v29 :=
  extractAt_slice v29 3 slices_S16_o3_S1 inpos_S1_p0 _

theorem k1_pay12_at (v29 : IVec S16 32) :
    extractAt ![0] (k1_pay12 v29) inpos_S1_p0 = extractAt ![4] v29 :=
  extractAt_slice v29 4 slices_S16_o4_S1 inpos_S1_p0 _

theorem k1_pay14_at (v29 : IVec S16 32) :
    extractAt ![0] (k1_pay14 v29) inpos_S1_p0 = extractAt ![5] v29 :=
  extractAt_slice v29 5 slices_S16_o5_S1 inpos_S1_p0 _

theorem k1_pay16_at (v29 : IVec S16 32) :
    extractAt ![0] (k1_pay16 v29) inpos_S1_p0 = extractAt ![6] v29 :=
  extractAt_slice v29 6 slices_S16_o6_S1 inpos_S1_p0 _

theorem k1_pay18_at (v29 : IVec S16 32) :
    extractAt ![0] (k1_pay18 v29) inpos_S1_p0 = extractAt ![7] v29 :=
  extractAt_slice v29 7 slices_S16_o7_S1 inpos_S1_p0 _

theorem k1_pay20_at (v29 : IVec S16 32) :
    extractAt ![0] (k1_pay20 v29) inpos_S1_p0 = extractAt ![8] v29 :=
  extractAt_slice v29 8 slices_S16_o8_S1 inpos_S1_p0 _

theorem k1_pay22_at (v29 : IVec S16 32) :
    extractAt ![0] (k1_pay22 v29) inpos_S1_p0 = extractAt ![9] v29 :=
  extractAt_slice v29 9 slices_S16_o9_S1 inpos_S1_p0 _

theorem k1_pay24_at (v29 : IVec S16 32) :
    extractAt ![0] (k1_pay24 v29) inpos_S1_p0 = extractAt ![10] v29 :=
  extractAt_slice v29 10 slices_S16_o10_S1 inpos_S1_p0 _

theorem k1_pay26_at (v29 : IVec S16 32) :
    extractAt ![0] (k1_pay26 v29) inpos_S1_p0 = extractAt ![11] v29 :=
  extractAt_slice v29 11 slices_S16_o11_S1 inpos_S1_p0 _

theorem k1_pay28_at (v29 : IVec S16 32) :
    extractAt ![0] (k1_pay28 v29) inpos_S1_p0 = extractAt ![12] v29 :=
  extractAt_slice v29 12 slices_S16_o12_S1 inpos_S1_p0 _

theorem k1_pay30_at (v29 : IVec S16 32) :
    extractAt ![0] (k1_pay30 v29) inpos_S1_p0 = extractAt ![13] v29 :=
  extractAt_slice v29 13 slices_S16_o13_S1 inpos_S1_p0 _

theorem k1_pay33_at (v29 : IVec S16 32) :
    extractAt ![0] (k1_pay33 v29) inpos_S1_p0 = extractAt ![14] v29 :=
  extractAt_slice v29 14 slices_S16_o14_S1 inpos_S1_p0 _

theorem k1_pay37_at (v29 : IVec S16 32) :
    extractAt ![0] (k1_pay37 v29) inpos_S1_p0 = extractAt ![15] v29 :=
  extractAt_slice v29 15 slices_S16_o15_S1 inpos_S1_p0 _

end Cert.KernelIdeal.ScPay
-- ==== Proof.TileSetup.lean ====
/-
  One vector subcore's task of the scatter kernel: the setting.  The task's place, its scratch buffers and its one DMA
  semaphore among the subcore's own; row `i 1` of a 16×16 table and a block of sixteen lanes of the result as the task
  slices them, with their element sets; the blocks' geometry (membership, inclusion in the tile's slab, disjointness of
  blocks at different (row, column) positions); what the loads of the three fetched rows read; what a copy leaves on a
  block, lane by lane; what the staging buffer's slice holds right after the store that filled it.
-/
import proofs.«211088_g14680198218050_cont_week2b_81_31_alg».proof.Proof.Common
import proofs.«211088_g14680198218050_cont_week2b_81_31_alg».proof.Proof.ScArith
import proofs.«211088_g14680198218050_cont_week2b_81_31_alg».proof.Proof.Gen.KernelIdeal.Skeleton
import proofs.«211088_g14680198218050_cont_week2b_81_31_alg».proof.Proof.ScPay

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
open Idealize.ShloMosaic.ValueIdx

/-! ## One tile's task at a symbolic place -/

section Tile

variable (d : Dev nD) (i : grid1.Coords)

abbrev cT (i : grid1.Coords) : Fin τ.nSC := (i 0).castLE hcore1
abbrev sT (i : grid1.Coords) : Fin τ.nSub := (i 1).castLE hsub1
theorem bound1_one : grid1.bound 1 = 16 := rfl
abbrev tI (i : grid1.Coords) : Fin 16 := Fin.cast bound1_one (i 1)

abbrev s0 : Memref sig .scVector .vmem S16 .f32 := Memref.whole cc1_scratch0
abbrev s1 : Memref sig .scVector .vmem S16 .f32 := Memref.whole cc1_scratch1
abbrev s2 : Memref sig .scVector .vmem S16 .i32 := Memref.whole cc1_scratch2
abbrev s3 : Memref sig .scVector .vmem S256 .f32 := Memref.whole cc1_scratch3

abbrev semCell (d : Dev nD) (i : grid1.Coords) : GSem nD τ sig := (V d (cT i) (sT i), .dma cc1_scratch4.sem)

theorem ownSems0_V :
    (ownSems0 (V d (cT i) (sT i)) : sProp 𝕄)
      = iprop(semVal (semCell d i) 0 ∗ bigSep ((ownCells (V d (cT i) (sT i))).erase (semCell d i)) fun g => semVal g 0) := by
  unfold SparseCore.Cfg.ownSems0
  exact SparseCore.bigSep_erase' ((mem_ownCells (g := semCell d i)).mpr ⟨rfl, by
    show (SemLoc.dma cc1_scratch4.sem : SemLoc sig).isScoped .scVector = true; decide⟩)

theorem ownBufs_V :
    (ownBufs (V d (cT i) (sT i)) : sProp 𝕄)
      = iprop((∃ f, (V d (cT i) (sT i)).loc cc1_scratch0 ↦{fullShare} f) ∗ (∃ f, (V d (cT i) (sT i)).loc cc1_scratch1 ↦{fullShare} f)
          ∗ (∃ f, (V d (cT i) (sT i)).loc cc1_scratch2 ↦{fullShare} f) ∗ (∃ f, (V d (cT i) (sT i)).loc cc1_scratch3 ↦{fullShare} f)
          ∗ bigSep (((((ownRefs (τ := τ) (.scVector (cT i) (sT i))).erase ((Proc.scVector (cT i) (sT i)).devRef cc1_scratch0)).erase
              ((Proc.scVector (cT i) (sT i)).devRef cc1_scratch1)).erase ((Proc.scVector (cT i) (sT i)).devRef cc1_scratch2)).erase
              ((Proc.scVector (cT i) (sT i)).devRef cc1_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cT i) (sT i))
    (b := (Proc.scVector (cT i) (sT i)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cT i) (sT i)) (b := (Proc.scVector (cT i) (sT i)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cT i) (sT i)) (b := (Proc.scVector (cT i) (sT i)).devRef cc1_scratch2) rfl⟩⟩),
    SparseCore.bigSep_erase' (Finset.mem_erase.mpr ⟨fun e => absurd (Proc.devRef_injective _ e) (show (cc1_scratch3 : Ref sig .scVector) ≠ cc1_scratch2 by decide),
      Finset.mem_erase.mpr ⟨fun e => absurd (Proc.devRef_injective _ e) (show (cc1_scratch3 : Ref sig .scVector) ≠ cc1_scratch1 by decide),
      Finset.mem_erase.mpr ⟨fun e => absurd (Proc.devRef_injective _ e) (show (cc1_scratch3 : Ref sig .scVector) ≠ cc1_scratch0 by decide),
    SparseCore.Cfg.mem_ownRefs_of_owner (p := Proc.scVector (cT i) (sT i)) (b := (Proc.scVector (cT i) (sT i)).devRef cc1_scratch3) rfl⟩⟩⟩)]

/-- Row `i 1` of a 16×16 table, as the task slices it. -/
abbrev rowK (i : grid1.Coords) : Rect S16x16 := Rect.unit (s := S16x16) (k1_off1 i) S1x16.size (k1_off1_inb i)
abbrev bRowK (i : grid1.Coords) : Memref sig .scVector .hbm S16 .f32 := ((bV : Memref sig .scVector .hbm S16x16 .f32).slice (rowK i) (fun _ => rfl)).squeeze S16 squeezes_S1x16_S16
abbrev pRowK (i : grid1.Coords) : Memref sig .scVector .hbm S16 .f32 := ((pV : Memref sig .scVector .hbm S16x16 .f32).slice (rowK i) (fun _ => rfl)).squeeze S16 squeezes_S1x16_S16
abbrev iRowK (i : grid1.Coords) : Memref sig .scVector .hbm S16 .i32 := ((iV : Memref sig .scVector .hbm S16x16 .i32).slice (rowK i) (fun _ => rfl)).squeeze S16 squeezes_S1x16_S16

theorem rowK_eq : rowK i = row (tI i) := by
  unfold rowK row Rect.part Rect.block
  congr 1 <;> funext a
  · rw [k1_off1_eq]
    match a with
    | 0 => simp [Shape.partIx, Shape.partSize]
    | 1 => simp [Shape.partIx, Shape.partSize]
  · match a with
    | 0 => simp [Shape.partSize]
    | 1 => simp [Shape.partSize]

theorem set_bRowK : (bRowK i).view.set = rowSet (tI i) := by
  show (((bV : Memref sig .scVector .hbm S16x16 .f32).view.slice (rowK i)).reshape S16 squeezes_S1x16_S16.numel_eq).set = (row (tI i)).set
  rw [View.set_reshape]
  exact (View.set_slice_whole main_v1_1_scv (rowK i)).trans (by rw [rowK_eq])
theorem set_pRowK : (pRowK i).view.set = rowSet (tI i) := by
  show (((pV : Memref sig .scVector .hbm S16x16 .f32).view.slice (rowK i)).reshape S16 squeezes_S1x16_S16.numel_eq).set = (row (tI i)).set
  rw [View.set_reshape]
  exact (View.set_slice_whole main_v1_2_scv (rowK i)).trans (by rw [rowK_eq])
theorem set_iRowK : (iRowK i).view.set = rowSet (tI i) := by
  show (((iV : Memref sig .scVector .hbm S16x16 .i32).view.slice (rowK i)).reshape S16 squeezes_S1x16_S16.numel_eq).set = (row (tI i)).set
  rw [View.set_reshape]
  exact (View.set_slice_whole main_v2_scv (rowK i)).trans (by rw [rowK_eq])

theorem pts_bRowK (f : Buf (Elt F) (bLoc d)) :
    ((bRowK i).view.loc (V d (cT i) (sT i)) ↦[(bRowK i).view.set]{fullShare} f : sProp 𝕄) = bLoc d ↦[rowSet (tI i)]{fullShare} f := by
  rw [set_bRowK]
theorem pts_pRowK (f : Buf (Elt F) (pLoc d)) :
    ((pRowK i).view.loc (V d (cT i) (sT i)) ↦[(pRowK i).view.set]{fullShare} f : sProp 𝕄) = pLoc d ↦[rowSet (tI i)]{fullShare} f := by
  rw [set_pRowK]
theorem pts_iRowK (f : Buf (Elt F) (jLoc d)) :
    ((iRowK i).view.loc (V d (cT i) (sT i)) ↦[(iRowK i).view.set]{fullShare} f : sProp 𝕄) = jLoc d ↦[rowSet (tI i)]{fullShare} f := by
  rw [set_iRowK]
theorem pts_s0 (f : Buf (Elt F) ((V d (cT i) (sT i)).loc cc1_scratch0)) :
    ((s0 : Memref sig .scVector .vmem S16 .f32).view.loc (V d (cT i) (sT i)) ↦[(s0 : Memref sig .scVector .vmem S16 .f32).view.set]{fullShare} f : sProp 𝕄)
      = (V d (cT i) (sT i)).loc cc1_scratch0 ↦{fullShare} f := by
  simp only [Memref.view_whole, View.set_whole]
theorem pts_s1 (f : Buf (Elt F) ((V d (cT i) (sT i)).loc cc1_scratch1)) :
    ((s1 : Memref sig .scVector .vmem S16 .f32).view.loc (V d (cT i) (sT i)) ↦[(s1 : Memref sig .scVector .vmem S16 .f32).view.set]{fullShare} f : sProp 𝕄)
      = (V d (cT i) (sT i)).loc cc1_scratch1 ↦{fullShare} f := by
  simp only [Memref.view_whole, View.set_whole]
theorem pts_s2 (f : Buf (Elt F) ((V d (cT i) (sT i)).loc cc1_scratch2)) :
    ((s2 : Memref sig .scVector .vmem S16 .i32).view.loc (V d (cT i) (sT i)) ↦[(s2 : Memref sig .scVector .vmem S16 .i32).view.set]{fullShare} f : sProp 𝕄)
      = (V d (cT i) (sT i)).loc cc1_scratch2 ↦{fullShare} f := by
  simp only [Memref.view_whole, View.set_whole]
theorem pts_s3 (f : Buf (Elt F) ((V d (cT i) (sT i)).loc cc1_scratch3)) :
    ((s3 : Memref sig .scVector .vmem S256 .f32).view.loc (V d (cT i) (sT i)) ↦[(s3 : Memref sig .scVector .vmem S256 .f32).view.set]{fullShare} f : sProp 𝕄)
      = (V d (cT i) (sT i)).loc cc1_scratch3 ↦{fullShare} f := by
  simp only [Memref.view_whole, View.set_whole]

/-- A block of sixteen lanes of the result, as the task slices it at offsets `o`. -/
abbrev winR (o : Fin 3 → ℕ) (h : ∀ a, o a + S1x1x16.size a ≤ S32x8x100000.size a) : Rect S32x8x100000 :=
  Rect.unit (s := S32x8x100000) o S1x1x16.size h
abbrev winM (o : Fin 3 → ℕ) (h : ∀ a, o a + S1x1x16.size a ≤ S32x8x100000.size a) : Memref sig .scVector .hbm S16 .f32 :=
  ((oV : Memref sig .scVector .hbm S32x8x100000 .f32).slice (winR o h) (fun _ => rfl)).squeeze S16 squeezes_S1x1x16_S16

theorem set_winM (o : Fin 3 → ℕ) (h : ∀ a, o a + S1x1x16.size a ≤ S32x8x100000.size a) : (winM o h).view.set = (winR o h).set := by
  show (((oV : Memref sig .scVector .hbm S32x8x100000 .f32).view.slice (winR o h)).reshape S16 squeezes_S1x1x16_S16.numel_eq).set = (winR o h).set
  rw [View.set_reshape]
  exact View.set_slice_whole main_v3_scv (winR o h)

theorem pts_winM (o : Fin 3 → ℕ) (h : ∀ a, o a + S1x1x16.size a ≤ S32x8x100000.size a) (f : Buf (Elt F) (oLoc d)) :
    ((winM o h).view.loc (V d (cT i) (sT i)) ↦[(winM o h).view.set]{fullShare} f : sProp 𝕄) = oLoc d ↦[(winR o h).set]{fullShare} f := by
  rw [set_winM]

/-- A block carved out of a held part of the result. -/
theorem carve (S : Finset S32x8x100000.Idx) (o : Fin 3 → ℕ) (h : ∀ a, o a + S1x1x16.size a ≤ S32x8x100000.size a) (f : Buf (Elt F) (oLoc d))
    (hsub : (winR o h).set ⊆ S) :
    (oLoc d ↦[S]{fullShare} f : sProp 𝕄)
      ⊢ iprop(((winM o h).view.loc (V d (cT i) (sT i)) ↦[(winM o h).view.set]{fullShare} f) ∗ oLoc d ↦[S \ (winR o h).set]{fullShare} f) := by
  rw [pts_winM]
  exact (pointsTo_split_subset hsub).1

variable [FloatOps F] (vals : Vals F)

/-! ## Geometry: the sixteen blocks of a tile and its slab -/

omit [FloatOps F] in
theorem mem_winR {o : Fin 3 → ℕ} {h : ∀ a, o a + S1x1x16.size a ≤ S32x8x100000.size a} {j : S32x8x100000.Idx} :
    j ∈ (winR o h).set ↔ (j 0).val = o 0 ∧ (j 1).val = o 1 ∧ o 2 ≤ (j 2).val ∧ (j 2).val < o 2 + 16 := by
  rw [Rect.mem_set_unit]
  constructor
  · intro H
    have h0 := H 0; have h1 := H 1; have h2 := H 2
    simp at h0 h1 h2
    omega
  · rintro ⟨h0, h1, h2, h3⟩ a
    fin_cases a <;> simp <;> omega

omit [FloatOps F] in
theorem mem_slab {t : Fin 16} {j : S32x8x100000.Idx} : j ∈ slabSet t ↔ 2 * t.val ≤ (j 0).val ∧ (j 0).val < 2 * t.val + 2 := by
  rw [Rect.mem_set_unit]
  constructor
  · intro H
    have h0 := H 0
    simp [Shape.partIx, Shape.partSize] at h0
    omega
  · rintro ⟨h0, h1⟩ a
    have := (j 1).isLt; have := (j 2).isLt
    fin_cases a <;> simp [Shape.partIx, Shape.partSize] at * <;> omega

omit [FloatOps F] in
theorem win_sub_slab (o : Fin 3 → ℕ) (h : ∀ a, o a + S1x1x16.size a ≤ S32x8x100000.size a) (r c b : ℕ) (e : o = ![r, c, b])
    (hr : 2 * (i 1).val ≤ r ∧ r < 2 * (i 1).val + 2) : (winR o h).set ⊆ slabSet (tI i) := by
  subst e
  intro j hj
  rw [mem_winR] at hj
  rw [mem_slab]
  simp at hj ⊢
  omega

omit [FloatOps F] in
theorem win_disj (o o' : Fin 3 → ℕ) (h : ∀ a, o a + S1x1x16.size a ≤ S32x8x100000.size a) (h' : ∀ a, o' a + S1x1x16.size a ≤ S32x8x100000.size a)
    (r c b r' c' b' : ℕ) (e : o = ![r, c, b]) (e' : o' = ![r', c', b']) (hne : r ≠ r' ∨ c ≠ c') :
    Disjoint (winR o h).set (winR o' h').set := by
  subst e e'
  rw [Finset.disjoint_left]
  intro j hj hj'
  rw [mem_winR] at hj hj'
  simp at hj hj'
  omega

/-! ## What the loads read -/

omit [FloatOps F] in
theorem reshape_row (h : S16.numel = S1x16.numel) (j : S16.Idx) : Shape.reshapeEquiv h j = (ix2 (0 : Fin 1) (j 0) : S1x16.Idx) :=
  Shape.reshapeEquiv_eq_of_rowMajor h (by rw [Shape.rowMajor_val_two, Shape.rowMajor_val_one]; simp)

omit [FloatOps F] in
theorem reshape_blk (h : S16.numel = S1x1x16.numel) (j : S16.Idx) : Shape.reshapeEquiv h j = (ix3 (0 : Fin 1) (0 : Fin 1) (j 0) : S1x1x16.Idx) :=
  Shape.reshapeEquiv_eq_of_rowMajor h (by rw [Shape.rowMajor_val_three, Shape.rowMajor_val_one]; simp)

omit [FloatOps F] in
theorem rowK_emb (x : S1x16.Idx) : ((rowK i).emb x : S16x16.Idx) = ix2 (tI i) ⟨(x 1).val, by have := (x 1).isLt; simpa using this⟩ := by
  funext a; apply Fin.ext
  have h0 : (x 0).val = 0 := by have := (x 0).isLt; simp at this; omega
  fin_cases a
  · show (k1_off1 i) 0 + 1 * (x 0).val = (i 1).val
    rw [Gen.k1_off1_eq, h0]; simp
  · show (k1_off1 i) 1 + 1 * (x 1).val = (x 1).val
    rw [Gen.k1_off1_eq]; simp

omit [FloatOps F] in
theorem emb_iRowK (j : S16.Idx) : ((iRowK i).view.emb j : S16x16.Idx) = ix2 (tI i) (j 0) := by
  show (rowK i).emb (Shape.reshapeEquiv squeezes_S1x16_S16.numel_eq j) = _
  rw [reshape_row, rowK_emb]
  rfl
omit [FloatOps F] in
theorem emb_bRowK (j : S16.Idx) : ((bRowK i).view.emb j : S16x16.Idx) = ix2 (tI i) (j 0) := by
  show (rowK i).emb (Shape.reshapeEquiv squeezes_S1x16_S16.numel_eq j) = _
  rw [reshape_row, rowK_emb]
  rfl
omit [FloatOps F] in
theorem emb_pRowK (j : S16.Idx) : ((pRowK i).view.emb j : S16x16.Idx) = ix2 (tI i) (j 0) := by
  show (rowK i).emb (Shape.reshapeEquiv squeezes_S1x16_S16.numel_eq j) = _
  rw [reshape_row, rowK_emb]
  rfl

omit [FloatOps F] in
theorem read_iRow (j : S16.Idx) : View.read (Elt F) (iRowK i).view (vals.iv d) j = vals.iv d (ix2 (tI i) (j 0)) := by
  refine ((View.read_apply _ _).trans (cast_eq _ _)).trans ?_
  rw [emb_iRowK]
  rfl
omit [FloatOps F] in
theorem read_bRow (j : S16.Idx) : View.read (Elt F) (bRowK i).view (vals.bv d) j = vals.bv d (ix2 (tI i) (j 0)) := by
  refine ((View.read_apply _ _).trans (cast_eq _ _)).trans ?_
  rw [emb_bRowK]
  rfl
omit [FloatOps F] in
theorem read_pRow (j : S16.Idx) : View.read (Elt F) (pRowK i).view (vals.pv d) j = vals.pv d (ix2 (tI i) (j 0)) := by
  refine ((View.read_apply _ _).trans (cast_eq _ _)).trans ?_
  rw [emb_pRowK]
  rfl

omit [FloatOps F] in
theorem rS_idx (j : S16.Idx) : (Rect.unit (s := S16) ![0] S16.size inb_S16_S16_0).toLoadRect.idx j = j := by
  funext a; apply Fin.ext
  rw [LoadRect.idx_apply, Subsingleton.elim a 0]
  show 0 + 1 * (j 0).val = (j 0).val
  simp

/-- A load of the whole of a sixteen-word scratch after one whole write reads what was written. -/
theorem readCov_whole16 {κ : Kind} {sp : Space} {e : EltTy} (v : View sig κ sp S16 e) (w : S16.Idx → Elt F e) (j : S16.Idx) :
    v.readCov [⟨Rect.whole S16, w⟩] (Rect.unit (s := S16) ![0] S16.size inb_S16_S16_0).toLoadRect j = w j := by
  rw [View.readCov_eq_canon']
  show View.canon [⟨Rect.whole S16, w⟩] ((Rect.unit (s := S16) ![0] S16.size inb_S16_S16_0).toLoadRect.idx j) = w j
  rw [rS_idx]
  have := View.canon_cons_emb (Rect.whole S16) w [] j
  rwa [Rect.emb_whole_apply] at this

/-! ## A block of the result, lane by lane -/

omit [FloatOps F] in
theorem winR_emb (o : Fin 3 → ℕ) (h : ∀ a, o a + S1x1x16.size a ≤ S32x8x100000.size a) (x : S1x1x16.Idx) (a : Fin 3) :
    ((winR o h).emb x a).val = o a + (x a).val := by
  show o a + 1 * (x a).val = _
  simp

omit [FloatOps F] in
theorem emb_winM (o : Fin 3 → ℕ) (h : ∀ a, o a + S1x1x16.size a ≤ S32x8x100000.size a) (l : S16.Idx) :
    (((winM o h).view.emb l : S32x8x100000.Idx) 0).val = o 0 ∧ (((winM o h).view.emb l : S32x8x100000.Idx) 1).val = o 1
      ∧ (((winM o h).view.emb l : S32x8x100000.Idx) 2).val = o 2 + (l 0).val := by
  have e : ((winM o h).view.emb l : S32x8x100000.Idx) = (winR o h).emb (Shape.reshapeEquiv squeezes_S1x1x16_S16.numel_eq l) := rfl
  rw [e, reshape_blk]
  refine ⟨?_, ?_, ?_⟩
  · rw [winR_emb]; rfl
  · rw [winR_emb]; rfl
  · rw [winR_emb]; rfl

/-- What a copy of sixteen words leaves on its block: lane `l` of the block holds word `l` of the payload. -/
theorem landed_apply (o : Fin 3 → ℕ) (h : ∀ a, o a + S1x1x16.size a ≤ S32x8x100000.size a) (f : Buf (Elt F) (oLoc d))
    (pay : S16.Idx → Elt F .f32) (l : S16.Idx) :
    (winM o h).view.writes (Elt F) f [⟨Rect.whole S16, pay⟩] ((winM o h).view.emb l) = pay l := by
  have := View.read_writes_cons_emb (Val := Elt F) (winM o h).view f (Rect.whole S16) pay [] l
  rw [Rect.emb_whole_apply] at this
  exact ((View.read_apply _ _).trans (cast_eq _ _)).symm.trans this

/-- Reading a sixteen-lane slice of the staging buffer right after the store that filled it gives the stored vector. -/
theorem read_staged (r : Rect S256) (hr : ∀ a, r.stride a = 1) (w : r.shape.Idx → Elt F .f32) (L : List (View.Piece (Elt F) S256 .f32))
    (f3 : Buf (Elt F) ((V d (cT i) (sT i)).loc cc1_scratch3)) (x : r.shape.Idx) :
    View.read (Elt F) ((s3 : Memref sig .scVector .vmem S256 .f32).slice r hr).view (s3.view.writes (Elt F) f3 (⟨r, w⟩ :: L)) x = w x := by
  have := View.read_writes_cons_emb (Val := Elt F) (s3 : Memref sig .scVector .vmem S256 .f32).view f3 r w L x
  refine Eq.trans ?_ this
  rw [View.read_apply, View.read_apply]
  rfl

end Tile

end Cert.KernelIdeal.Hand

end
-- ==== Proof.OutVLemmas.lean ====
/- The array the tiles leave, read at one index: inside the aligned block of a position of
   tile `t` it is the select of the two tables' entries on the lane of the token id; on the
   tile's rows outside every such block it is what the copy left. -/
import proofs.«211088_g14680198218050_cont_week2b_81_31_alg».proof.Proof.Common

noncomputable section

namespace Cert.KernelIdeal.Hand

open Cert.KernelIdeal Cert.KernelIdeal.Gen

open Idealize.ShloMosaic

variable {F : FTy → Type}

/-- The array the tiles leave at `j`, with the position's table index spelt from `j`'s row and column. -/
theorem outV_apply (vals : Vals F) (d : Dev nD) (j : S32x8x100000.Idx) :
    outV vals d j
      = if 16 * (((vals.iv d (ValueIdx.ix2 (tileOf (j 0)) (posOf (j 0) (j 1)) : S16x16.Idx) : BitVec 32)).toNat / 16) ≤ (j 2).val
            ∧ (j 2).val < 16 * (((vals.iv d (ValueIdx.ix2 (tileOf (j 0)) (posOf (j 0) (j 1)) : S16x16.Idx) : BitVec 32)).toNat / 16) + 16 then
          (if (j 2).val = ((vals.iv d (ValueIdx.ix2 (tileOf (j 0)) (posOf (j 0) (j 1)) : S16x16.Idx) : BitVec 32)).toNat
            then vals.pv d (ValueIdx.ix2 (tileOf (j 0)) (posOf (j 0) (j 1)) : S16x16.Idx)
            else vals.bv d (ValueIdx.ix2 (tileOf (j 0)) (posOf (j 0) (j 1)) : S16x16.Idx))
        else vals.fv d j := rfl

/-- Row `2 t + q / 8`, column `q % 8` is position `q` of tile `t`. -/
theorem tileOf_posOf_eq (t q : Fin 16) (j : S32x8x100000.Idx)
    (h0 : (j 0).val = 2 * t.val + q.val / 8) (h1 : (j 1).val = q.val % 8) :
    (ValueIdx.ix2 (tileOf (j 0)) (posOf (j 0) (j 1)) : S16x16.Idx) = ValueIdx.ix2 t q := by
  have hq := q.isLt
  have ht : tileOf (j 0) = t := Fin.ext (by show (j 0).val / 2 = t.val; omega)
  have hp : posOf (j 0) (j 1) = q := Fin.ext (by show (j 0).val % 2 * 8 + (j 1).val = q.val; omega)
  rw [ht, hp]

/-- On the rows of tile `t`, outside every position's block, the tiles leave what the copy left. -/
theorem outV_off (vals : Vals F) (d : Dev nD) (t : Fin 16) (j : S32x8x100000.Idx)
    (hj : 2 * t.val ≤ (j 0).val ∧ (j 0).val < 2 * t.val + 2)
    (hout : ∀ q : Fin 16, ¬ ((j 0).val = 2 * t.val + q.val / 8 ∧ (j 1).val = q.val % 8
      ∧ 16 * (((vals.iv d (ValueIdx.ix2 t q) : BitVec 32)).toNat / 16) ≤ (j 2).val
      ∧ (j 2).val < 16 * (((vals.iv d (ValueIdx.ix2 t q) : BitVec 32)).toNat / 16) + 16)) :
    outV vals d j = vals.fv d j := by
  have hc : (j 1).val < 8 := (j 1).isLt
  have e0 : (j 0).val = 2 * t.val + (posOf (j 0) (j 1)).val / 8 := by
    show (j 0).val = 2 * t.val + ((j 0).val % 2 * 8 + (j 1).val) / 8; omega
  have e1 : (j 1).val = (posOf (j 0) (j 1)).val % 8 := by
    show (j 1).val = ((j 0).val % 2 * 8 + (j 1).val) % 8; omega
  have hT := tileOf_posOf_eq t (posOf (j 0) (j 1)) j e0 e1
  rw [outV_apply, hT, if_neg]
  intro hcond
  exact hout (posOf (j 0) (j 1)) ⟨e0, e1, hcond.1, hcond.2⟩

/-- Inside the block of position `q` of tile `t` the tiles leave the on-token table's entry on the
    lane of the token id and the off-token table's entry on the other lanes. -/
theorem outV_on (vals : Vals F) (d : Dev nD) (t q : Fin 16) (j : S32x8x100000.Idx)
    (h0 : (j 0).val = 2 * t.val + q.val / 8) (h1 : (j 1).val = q.val % 8)
    (h2 : 16 * (((vals.iv d (ValueIdx.ix2 t q) : BitVec 32)).toNat / 16) ≤ (j 2).val
      ∧ (j 2).val < 16 * (((vals.iv d (ValueIdx.ix2 t q) : BitVec 32)).toNat / 16) + 16) :
    outV vals d j
      = if (j 2).val - 16 * (((vals.iv d (ValueIdx.ix2 t q) : BitVec 32)).toNat / 16)
            = ((vals.iv d (ValueIdx.ix2 t q) : BitVec 32)).toNat % 16
        then vals.pv d (ValueIdx.ix2 t q) else vals.bv d (ValueIdx.ix2 t q) := by
  rw [outV_apply, tileOf_posOf_eq t q j h0 h1, if_pos h2]
  by_cases h : (j 2).val = ((vals.iv d (ValueIdx.ix2 t q) : BitVec 32)).toNat
  · rw [if_pos h, if_pos (by omega)]
  · rw [if_neg h, if_neg (by omega)]

end Cert.KernelIdeal.Hand

end
-- ==== Proof.TileReads.lean ====
/-
  What one vector subcore's task loads after its three fetches — row `i 1` of the two tables and of the token ids,
  element by element — and the complement of a block of sixteen lanes, condition by condition.
-/
import proofs.«211088_g14680198218050_cont_week2b_81_31_alg».proof.Proof.TileSetup
import proofs.«211088_g14680198218050_cont_week2b_81_31_alg».proof.Proof.OutVLemmas

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

section Reads

variable (d : Dev nD) (i : grid1.Coords) [FloatOps F] (vals : Vals F)

/-- The three vectors the task loads from its scratch after the three fetches: row `i 1` of the two tables and of the ids. -/
theorem loaded_b (j : S16.Idx) :
    shapeCast S16 ((s0 : Memref sig .scVector .vmem S16 .f32).view.readCov
        [⟨Rect.whole S16, ReadAs.same.apply (View.read (Elt F) (bRowK i).view (vals.bv d))⟩]
        (Rect.unit (s := S16) ![0] S16.size inb_S16_S16_0).toLoadRect) shapeCasts_S16_S16 j = vals.bv d (ix2 (tI i) (j 0)) := by
  exact (congrFun (shapeCast_self (s := S16) _ shapeCasts_S16_S16) j).trans ((readCov_whole16 _ _ j).trans (read_bRow d i vals j))
theorem loaded_p (j : S16.Idx) :
    shapeCast S16 ((s1 : Memref sig .scVector .vmem S16 .f32).view.readCov
        [⟨Rect.whole S16, ReadAs.same.apply (View.read (Elt F) (pRowK i).view (vals.pv d))⟩]
        (Rect.unit (s := S16) ![0] S16.size inb_S16_S16_0).toLoadRect) shapeCasts_S16_S16 j = vals.pv d (ix2 (tI i) (j 0)) := by
  exact (congrFun (shapeCast_self (s := S16) _ shapeCasts_S16_S16) j).trans ((readCov_whole16 _ _ j).trans (read_pRow d i vals j))
theorem loaded_i (j : S16.Idx) :
    shapeCast S16 ((s2 : Memref sig .scVector .vmem S16 .i32).view.readCov
        [⟨Rect.whole S16, ReadAs.same.apply (View.read (Elt F) (iRowK i).view (vals.iv d))⟩]
        (Rect.unit (s := S16) ![0] S16.size inb_S16_S16_0).toLoadRect) shapeCasts_S16_S16 j = vals.iv d (ix2 (tI i) (j 0)) := by
  exact (congrFun (shapeCast_self (s := S16) _ shapeCasts_S16_S16) j).trans ((readCov_whole16 _ _ j).trans (read_iRow d i vals j))

omit [FloatOps F] in
/-- Off a block: one of the block's four conditions fails. -/
theorem not_mem_win (o : Fin 3 → ℕ) (h : ∀ a, o a + S1x1x16.size a ≤ S32x8x100000.size a) (r c b : ℕ) (e : o = ![r, c, b])
    (j : S32x8x100000.Idx) (hj : j ∉ (winR o h).set) : ¬ ((j 0).val = r ∧ (j 1).val = c ∧ b ≤ (j 2).val ∧ (j 2).val < b + 16) := by
  subst e
  intro H
  exact hj (mem_winR.mpr (by simpa using H))

end Reads

end Cert.KernelIdeal.Hand

end
-- ==== Proof.TileBlock.lean ====
/- What one landed copy leaves on its block of sixteen lanes is what the tiles leave there:
   the on-token entry on the token id's lane, the off-token entry on the others. -/
import proofs.«211088_g14680198218050_cont_week2b_81_31_alg».proof.Proof.TileSetup
import proofs.«211088_g14680198218050_cont_week2b_81_31_alg».proof.Proof.OutVLemmas

noncomputable section

namespace Cert.KernelIdeal.Hand

open Cert.KernelIdeal Cert.KernelIdeal.Gen

open Idealize.ShloMosaic

section

variable {F : FTy → Type} [FloatOps F]

/-- The block at row `2 s + q / 8`, column `q % 8`, lanes from `16 (v / 16)`, after a copy of the
    select vector of position `q` has landed on it, holds the array the tiles leave. -/
theorem landed_eq_outV (vals : Vals F) (d : Dev nD) (i : grid1.Coords) (q : Fin 16) (o : Fin 3 → ℕ)
    (h : ∀ a, o a + S1x1x16.size a ≤ S32x8x100000.size a) (v : BitVec 32) (K C : ℕ)
    (hK : K = q.val / 8) (hC : C = q.val % 8)
    (ho : o = ![2 * (i 1).val + K, C, 16 * (v.toNat / 16)])
    (hv : v = vals.iv d (ValueIdx.ix2 (tI i) q))
    (pay : S16.Idx → Elt F .f32)
    (hpay : ∀ l : S16.Idx, pay l = if (l 0).val = v.toNat % 16 then vals.pv d (ValueIdx.ix2 (tI i) q)
      else vals.bv d (ValueIdx.ix2 (tI i) q)) :
    ∀ j ∈ (winR o h).set,
      (winM o h).view.writes (Elt F) (vals.fv d) [⟨Rect.whole S16, pay⟩] j = outV vals d j := by
  intro j hj
  rw [← set_winM] at hj
  obtain ⟨l, -, rfl⟩ := Finset.mem_map.1 hj
  obtain ⟨e0, e1, e2⟩ := emb_winM o h l
  subst hK hC ho hv
  have hl : (l 0).val < 16 := (l 0).isLt
  have e0' : (((winM _ h).view.emb l : S32x8x100000.Idx) 0).val = 2 * (tI i).val + q.val / 8 := e0
  have e1' : (((winM _ h).view.emb l : S32x8x100000.Idx) 1).val = q.val % 8 := e1
  have e2' : (((winM _ h).view.emb l : S32x8x100000.Idx) 2).val
      = 16 * (((vals.iv d (ValueIdx.ix2 (tI i) q) : BitVec 32)).toNat / 16) + (l 0).val := e2
  rw [landed_apply (d := d) (h := h) (f := vals.fv d) (pay := pay) (l := l),
    outV_on vals d (tI i) q _ e0' e1' ⟨by omega, by omega⟩, hpay l]
  by_cases hc : (l 0).val = ((vals.iv d (ValueIdx.ix2 (tI i) q) : BitVec 32)).toNat % 16
  · rw [if_pos hc, if_pos (by omega)]
  · rw [if_neg hc, if_neg (by omega)]

end

end Cert.KernelIdeal.Hand

end
-- ==== Proof.Tile.lean ====
/-
  One vector subcore's task of the scatter kernel, and with it the launch theorem's obligation for the kernel.
  The task fetches row `i 1` of the off-token table, of the on-token table and of the reshaped token ids into its
  scratch (three copies on one semaphore, three waits), loads the three rows, and then, for each of its sixteen
  positions, stores the select vector of the position — the on-token value on the lane that is the token id's
  remainder by 16, the off-token value on the others — into its own sixteen lanes of the staging buffer and copies
  them to the aligned block of sixteen lanes of the result that holds the token id; sixteen waits follow.  The copies
  out are outstanding together on the one semaphore: no store touches a lane an outstanding copy reads (each position
  has its own sixteen lanes of the staging buffer) and the sixteen destination blocks lie at sixteen different
  (row, column) positions of the tile's slab, so they are pairwise disjoint; each is carved out of the slab before its
  copy is issued and comes back, at the last wait, holding the select vector.  Every piece of the slab is then
  restated at the one function `outV`, and the pieces are joined.
-/
import proofs.«211088_g14680198218050_cont_week2b_81_31_alg».proof.Proof.TileSetup
import proofs.«211088_g14680198218050_cont_week2b_81_31_alg».proof.Proof.OutVLemmas
import proofs.«211088_g14680198218050_cont_week2b_81_31_alg».proof.Proof.TileReads
import proofs.«211088_g14680198218050_cont_week2b_81_31_alg».proof.Proof.TileBlock

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

section Body

variable (d : Dev nD) (i : grid1.Coords) [FloatOps F] (vals : Vals F)

omit [FloatOps F] in
/-- A wait at the kernels' own index added to the recorded waits keeps them within the allowed ones. -/
theorem ins_default {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp

set_option maxHeartbeats 16000000 in
/-- One tile's task: the three rows fetched, loaded, and for each of the sixteen positions the block of sixteen lanes
    holding the position's token id overwritten by the select vector; the slab is left at `outV`. -/
theorem tile_body (hI : IdsOK vals) (O : CellTallies nD τ sig (HIx 1)) (W : Waits sig (HIx 1)) (hO : ∀ g, O g none = 0) :
    iprop(levAts (K (F := F)).L (K (F := F)).lev ∗ emp
        ∗ (bRowPts vals d (tI i) ∗ pRowPts vals d (tI i) ∗ iRowPts vals d (tI i) ∗ oSlabPts d (tI i) (vals.fv d))
        ∗ scopedBufs (V d (cT i) (sT i)) ∗ scopedSems0 (V d (cT i) (sT i)) ∗ owes (V d (cT i) (sT i)) O W)
      ⊢ wp frame (wpE (defs₀ (F := F)) 𝒱₀ (V d (cT i) (sT i)) none) Set.univ
          (cc1__sc_scatter i bV (Memref.isWhole_whole _) pV (Memref.isWhole_whole _) iV (Memref.isWhole_whole _)
            oV (Memref.isWhole_whole _) oV (Memref.isWhole_whole _)
            s0 (Memref.isWhole_whole _) s1 (Memref.isWhole_whole _) s2 (Memref.isWhole_whole _) s3 (Memref.isWhole_whole _) cc1_scratch4)
          fun _ => iprop((bRowPts vals d (tI i) ∗ pRowPts vals d (tI i) ∗ iRowPts vals d (tI i) ∗ oSlabPts d (tI i) (outV vals d))
            ∗ scopedBufs (V d (cT i) (sT i)) ∗ scopedSems0 (V d (cT i) (sT i))
            ∗ ∃ W', ⌜∀ p ∈ W', p ∈ W ∨ p.2 = none⌝ ∗ owes (V d (cT i) (sT i)) O W') := by
  rw [(K (F := F)).scopedBufs_V facts d (cT i) (sT i), SparseCore.Cfg.scopedSems0_V (Val := Elt F) d (cT i) (sT i), ownSems0_V, ownBufs_V]
  simp only [cc1__sc_scatter_eq_skeleton]; unfold cc1__sc_scatter_skel
  iintro ⟨#Hlv, -, ⟨Hb, Hp, Hi, Ho⟩, ⟨⟨%f0, Hs0⟩, ⟨%f1, Hs1⟩, ⟨%f2, Hs2⟩, ⟨%f3, Hs3⟩, Hbufs⟩, ⟨Hsem, Hsems⟩, HO⟩
  ihave Hmw := ((K (F := F)).mayWaits_none (thr := V d (cT i) (sT i)) hO) $$ Hlv
  ihave Hb' := (Entails.of_eq (pts_bRowK (F := F) d i _).symm) $$ Hb
  ihave Hp' := (Entails.of_eq (pts_pRowK (F := F) d i _).symm) $$ Hp
  ihave Hi' := (Entails.of_eq (pts_iRowK (F := F) d i _).symm) $$ Hi
  ihave Hs0' := (Entails.of_eq (pts_s0 (F := F) d i _).symm) $$ Hs0
  ihave Hs1' := (Entails.of_eq (pts_s1 (F := F) d i _).symm) $$ Hs1
  ihave Hs2' := (Entails.of_eq (pts_s2 (F := F) d i _).symm) $$ Hs2
  ihave Hs3' := (Entails.of_eq (pts_s3 (F := F) d i _).symm) $$ Hs3
  -- the three fetches share the semaphore: a batch of three; then the three loads
  have _plan : Transfers.BatchOf (V d (cT i) (sT i)) (SemLoc.dma (sig := sig) cc1_scratch4.sem) 3 := trivial
  sl_exec
  -- position 0: its token id, in range; its block of the result, inside the slab and apart from the earlier ones
  have hvid0 : tile_body.sl.v32 d i vals = vals.iv d (ix2 (tI i) 0) :=
    (ScPay.extractAt_slice (tile_body.sl.v29 d i vals) 0 slices_S16_o0_S1 inpos_S1_p0 (by decide)).trans (loaded_i d i vals _)
  have hlt0 : (tile_body.sl.v32 d i vals).toNat < 100000 := by rw [hvid0]; exact hI d _
  have hc0 : k1_chk1 i (tile_body.sl.v32 d i vals) := ScArith.k1_chk1_of i _ hlt0
  have he0 := ScArith.k1_off2_eq i _ hlt0
  have hs0_0 := win_sub_slab i _ (k1_off2_inb i _ hc0) _ _ _ he0 (by omega)
  ihave Hsp := (carve (F := F) d i _ (k1_off2 i (tile_body.sl.v32 d i vals)) (k1_off2_inb i _ hc0) _ hs0_0) $$ Ho
  icases Hsp with ⟨Hw0, Ho⟩
  -- the sixteen copies out share the semaphore too: a batch of sixteen
  clear _plan
  have _plan : Transfers.BatchOf (V d (cT i) (sT i)) (SemLoc.dma (sig := sig) cc1_scratch4.sem) 16 := trivial
  sl_exec
  -- position 1: its token id, in range; its block of the result, inside the slab and apart from the earlier ones
  have hvid1 : tile_body.sl.v73 d i vals = vals.iv d (ix2 (tI i) 1) :=
    (ScPay.extractAt_slice (tile_body.sl.v29 d i vals) 1 slices_S16_o1_S1 inpos_S1_p0 (by decide)).trans (loaded_i d i vals _)
  have hlt1 : (tile_body.sl.v73 d i vals).toNat < 100000 := by rw [hvid1]; exact hI d _
  have hc1 : k1_chk2 i (tile_body.sl.v73 d i vals) := ScArith.k1_chk2_of i _ hlt1
  have he1 := ScArith.k1_off3_eq i _ hlt1
  have hs1_0 := win_sub_slab i _ (k1_off3_inb i _ hc1) _ _ _ he1 (by omega)
  have hs1_1 := Finset.subset_sdiff.mpr ⟨hs1_0, win_disj _ _ (k1_off3_inb i _ hc1) (k1_off2_inb i _ hc0) _ _ _ _ _ _ he1 he0 (by omega)⟩
  ihave Hsp := (carve (F := F) d i _ (k1_off3 i (tile_body.sl.v73 d i vals)) (k1_off3_inb i _ hc1) _ hs1_1) $$ Ho
  icases Hsp with ⟨Hw1, Ho⟩
  sl_exec
  -- position 2: its token id, in range; its block of the result, inside the slab and apart from the earlier ones
  have hvid2 : tile_body.sl.v114 d i vals = vals.iv d (ix2 (tI i) 2) :=
    (ScPay.extractAt_slice (tile_body.sl.v29 d i vals) 2 slices_S16_o2_S1 inpos_S1_p0 (by decide)).trans (loaded_i d i vals _)
  have hlt2 : (tile_body.sl.v114 d i vals).toNat < 100000 := by rw [hvid2]; exact hI d _
  have hc2 : k1_chk3 i (tile_body.sl.v114 d i vals) := ScArith.k1_chk3_of i _ hlt2
  have he2 := ScArith.k1_off4_eq i _ hlt2
  have hs2_0 := win_sub_slab i _ (k1_off4_inb i _ hc2) _ _ _ he2 (by omega)
  have hs2_1 := Finset.subset_sdiff.mpr ⟨hs2_0, win_disj _ _ (k1_off4_inb i _ hc2) (k1_off2_inb i _ hc0) _ _ _ _ _ _ he2 he0 (by omega)⟩
  have hs2_2 := Finset.subset_sdiff.mpr ⟨hs2_1, win_disj _ _ (k1_off4_inb i _ hc2) (k1_off3_inb i _ hc1) _ _ _ _ _ _ he2 he1 (by omega)⟩
  ihave Hsp := (carve (F := F) d i _ (k1_off4 i (tile_body.sl.v114 d i vals)) (k1_off4_inb i _ hc2) _ hs2_2) $$ Ho
  icases Hsp with ⟨Hw2, Ho⟩
  sl_exec
  -- position 3: its token id, in range; its block of the result, inside the slab and apart from the earlier ones
  have hvid3 : tile_body.sl.v155 d i vals = vals.iv d (ix2 (tI i) 3) :=
    (ScPay.extractAt_slice (tile_body.sl.v29 d i vals) 3 slices_S16_o3_S1 inpos_S1_p0 (by decide)).trans (loaded_i d i vals _)
  have hlt3 : (tile_body.sl.v155 d i vals).toNat < 100000 := by rw [hvid3]; exact hI d _
  have hc3 : k1_chk4 i (tile_body.sl.v155 d i vals) := ScArith.k1_chk4_of i _ hlt3
  have he3 := ScArith.k1_off5_eq i _ hlt3
  have hs3_0 := win_sub_slab i _ (k1_off5_inb i _ hc3) _ _ _ he3 (by omega)
  have hs3_1 := Finset.subset_sdiff.mpr ⟨hs3_0, win_disj _ _ (k1_off5_inb i _ hc3) (k1_off2_inb i _ hc0) _ _ _ _ _ _ he3 he0 (by omega)⟩
  have hs3_2 := Finset.subset_sdiff.mpr ⟨hs3_1, win_disj _ _ (k1_off5_inb i _ hc3) (k1_off3_inb i _ hc1) _ _ _ _ _ _ he3 he1 (by omega)⟩
  have hs3_3 := Finset.subset_sdiff.mpr ⟨hs3_2, win_disj _ _ (k1_off5_inb i _ hc3) (k1_off4_inb i _ hc2) _ _ _ _ _ _ he3 he2 (by omega)⟩
  ihave Hsp := (carve (F := F) d i _ (k1_off5 i (tile_body.sl.v155 d i vals)) (k1_off5_inb i _ hc3) _ hs3_3) $$ Ho
  icases Hsp with ⟨Hw3, Ho⟩
  sl_exec
  -- position 4: its token id, in range; its block of the result, inside the slab and apart from the earlier ones
  have hvid4 : tile_body.sl.v196 d i vals = vals.iv d (ix2 (tI i) 4) :=
    (ScPay.extractAt_slice (tile_body.sl.v29 d i vals) 4 slices_S16_o4_S1 inpos_S1_p0 (by decide)).trans (loaded_i d i vals _)
  have hlt4 : (tile_body.sl.v196 d i vals).toNat < 100000 := by rw [hvid4]; exact hI d _
  have hc4 : k1_chk5 i (tile_body.sl.v196 d i vals) := ScArith.k1_chk5_of i _ hlt4
  have he4 := ScArith.k1_off6_eq i _ hlt4
  have hs4_0 := win_sub_slab i _ (k1_off6_inb i _ hc4) _ _ _ he4 (by omega)
  have hs4_1 := Finset.subset_sdiff.mpr ⟨hs4_0, win_disj _ _ (k1_off6_inb i _ hc4) (k1_off2_inb i _ hc0) _ _ _ _ _ _ he4 he0 (by omega)⟩
  have hs4_2 := Finset.subset_sdiff.mpr ⟨hs4_1, win_disj _ _ (k1_off6_inb i _ hc4) (k1_off3_inb i _ hc1) _ _ _ _ _ _ he4 he1 (by omega)⟩
  have hs4_3 := Finset.subset_sdiff.mpr ⟨hs4_2, win_disj _ _ (k1_off6_inb i _ hc4) (k1_off4_inb i _ hc2) _ _ _ _ _ _ he4 he2 (by omega)⟩
  have hs4_4 := Finset.subset_sdiff.mpr ⟨hs4_3, win_disj _ _ (k1_off6_inb i _ hc4) (k1_off5_inb i _ hc3) _ _ _ _ _ _ he4 he3 (by omega)⟩
  ihave Hsp := (carve (F := F) d i _ (k1_off6 i (tile_body.sl.v196 d i vals)) (k1_off6_inb i _ hc4) _ hs4_4) $$ Ho
  icases Hsp with ⟨Hw4, Ho⟩
  sl_exec
  -- position 5: its token id, in range; its block of the result, inside the slab and apart from the earlier ones
  have hvid5 : tile_body.sl.v237 d i vals = vals.iv d (ix2 (tI i) 5) :=
    (ScPay.extractAt_slice (tile_body.sl.v29 d i vals) 5 slices_S16_o5_S1 inpos_S1_p0 (by decide)).trans (loaded_i d i vals _)
  have hlt5 : (tile_body.sl.v237 d i vals).toNat < 100000 := by rw [hvid5]; exact hI d _
  have hc5 : k1_chk6 i (tile_body.sl.v237 d i vals) := ScArith.k1_chk6_of i _ hlt5
  have he5 := ScArith.k1_off7_eq i _ hlt5
  have hs5_0 := win_sub_slab i _ (k1_off7_inb i _ hc5) _ _ _ he5 (by omega)
  have hs5_1 := Finset.subset_sdiff.mpr ⟨hs5_0, win_disj _ _ (k1_off7_inb i _ hc5) (k1_off2_inb i _ hc0) _ _ _ _ _ _ he5 he0 (by omega)⟩
  have hs5_2 := Finset.subset_sdiff.mpr ⟨hs5_1, win_disj _ _ (k1_off7_inb i _ hc5) (k1_off3_inb i _ hc1) _ _ _ _ _ _ he5 he1 (by omega)⟩
  have hs5_3 := Finset.subset_sdiff.mpr ⟨hs5_2, win_disj _ _ (k1_off7_inb i _ hc5) (k1_off4_inb i _ hc2) _ _ _ _ _ _ he5 he2 (by omega)⟩
  have hs5_4 := Finset.subset_sdiff.mpr ⟨hs5_3, win_disj _ _ (k1_off7_inb i _ hc5) (k1_off5_inb i _ hc3) _ _ _ _ _ _ he5 he3 (by omega)⟩
  have hs5_5 := Finset.subset_sdiff.mpr ⟨hs5_4, win_disj _ _ (k1_off7_inb i _ hc5) (k1_off6_inb i _ hc4) _ _ _ _ _ _ he5 he4 (by omega)⟩
  ihave Hsp := (carve (F := F) d i _ (k1_off7 i (tile_body.sl.v237 d i vals)) (k1_off7_inb i _ hc5) _ hs5_5) $$ Ho
  icases Hsp with ⟨Hw5, Ho⟩
  sl_exec
  -- position 6: its token id, in range; its block of the result, inside the slab and apart from the earlier ones
  have hvid6 : tile_body.sl.v278 d i vals = vals.iv d (ix2 (tI i) 6) :=
    (ScPay.extractAt_slice (tile_body.sl.v29 d i vals) 6 slices_S16_o6_S1 inpos_S1_p0 (by decide)).trans (loaded_i d i vals _)
  have hlt6 : (tile_body.sl.v278 d i vals).toNat < 100000 := by rw [hvid6]; exact hI d _
  have hc6 : k1_chk7 i (tile_body.sl.v278 d i vals) := ScArith.k1_chk7_of i _ hlt6
  have he6 := ScArith.k1_off8_eq i _ hlt6
  have hs6_0 := win_sub_slab i _ (k1_off8_inb i _ hc6) _ _ _ he6 (by omega)
  have hs6_1 := Finset.subset_sdiff.mpr ⟨hs6_0, win_disj _ _ (k1_off8_inb i _ hc6) (k1_off2_inb i _ hc0) _ _ _ _ _ _ he6 he0 (by omega)⟩
  have hs6_2 := Finset.subset_sdiff.mpr ⟨hs6_1, win_disj _ _ (k1_off8_inb i _ hc6) (k1_off3_inb i _ hc1) _ _ _ _ _ _ he6 he1 (by omega)⟩
  have hs6_3 := Finset.subset_sdiff.mpr ⟨hs6_2, win_disj _ _ (k1_off8_inb i _ hc6) (k1_off4_inb i _ hc2) _ _ _ _ _ _ he6 he2 (by omega)⟩
  have hs6_4 := Finset.subset_sdiff.mpr ⟨hs6_3, win_disj _ _ (k1_off8_inb i _ hc6) (k1_off5_inb i _ hc3) _ _ _ _ _ _ he6 he3 (by omega)⟩
  have hs6_5 := Finset.subset_sdiff.mpr ⟨hs6_4, win_disj _ _ (k1_off8_inb i _ hc6) (k1_off6_inb i _ hc4) _ _ _ _ _ _ he6 he4 (by omega)⟩
  have hs6_6 := Finset.subset_sdiff.mpr ⟨hs6_5, win_disj _ _ (k1_off8_inb i _ hc6) (k1_off7_inb i _ hc5) _ _ _ _ _ _ he6 he5 (by omega)⟩
  ihave Hsp := (carve (F := F) d i _ (k1_off8 i (tile_body.sl.v278 d i vals)) (k1_off8_inb i _ hc6) _ hs6_6) $$ Ho
  icases Hsp with ⟨Hw6, Ho⟩
  sl_exec
  -- position 7: its token id, in range; its block of the result, inside the slab and apart from the earlier ones
  have hvid7 : tile_body.sl.v319 d i vals = vals.iv d (ix2 (tI i) 7) :=
    (ScPay.extractAt_slice (tile_body.sl.v29 d i vals) 7 slices_S16_o7_S1 inpos_S1_p0 (by decide)).trans (loaded_i d i vals _)
  have hlt7 : (tile_body.sl.v319 d i vals).toNat < 100000 := by rw [hvid7]; exact hI d _
  have hc7 : k1_chk8 i (tile_body.sl.v319 d i vals) := ScArith.k1_chk8_of i _ hlt7
  have he7 := ScArith.k1_off9_eq i _ hlt7
  have hs7_0 := win_sub_slab i _ (k1_off9_inb i _ hc7) _ _ _ he7 (by omega)
  have hs7_1 := Finset.subset_sdiff.mpr ⟨hs7_0, win_disj _ _ (k1_off9_inb i _ hc7) (k1_off2_inb i _ hc0) _ _ _ _ _ _ he7 he0 (by omega)⟩
  have hs7_2 := Finset.subset_sdiff.mpr ⟨hs7_1, win_disj _ _ (k1_off9_inb i _ hc7) (k1_off3_inb i _ hc1) _ _ _ _ _ _ he7 he1 (by omega)⟩
  have hs7_3 := Finset.subset_sdiff.mpr ⟨hs7_2, win_disj _ _ (k1_off9_inb i _ hc7) (k1_off4_inb i _ hc2) _ _ _ _ _ _ he7 he2 (by omega)⟩
  have hs7_4 := Finset.subset_sdiff.mpr ⟨hs7_3, win_disj _ _ (k1_off9_inb i _ hc7) (k1_off5_inb i _ hc3) _ _ _ _ _ _ he7 he3 (by omega)⟩
  have hs7_5 := Finset.subset_sdiff.mpr ⟨hs7_4, win_disj _ _ (k1_off9_inb i _ hc7) (k1_off6_inb i _ hc4) _ _ _ _ _ _ he7 he4 (by omega)⟩
  have hs7_6 := Finset.subset_sdiff.mpr ⟨hs7_5, win_disj _ _ (k1_off9_inb i _ hc7) (k1_off7_inb i _ hc5) _ _ _ _ _ _ he7 he5 (by omega)⟩
  have hs7_7 := Finset.subset_sdiff.mpr ⟨hs7_6, win_disj _ _ (k1_off9_inb i _ hc7) (k1_off8_inb i _ hc6) _ _ _ _ _ _ he7 he6 (by omega)⟩
  ihave Hsp := (carve (F := F) d i _ (k1_off9 i (tile_body.sl.v319 d i vals)) (k1_off9_inb i _ hc7) _ hs7_7) $$ Ho
  icases Hsp with ⟨Hw7, Ho⟩
  sl_exec
  -- position 8: its token id, in range; its block of the result, inside the slab and apart from the earlier ones
  have hvid8 : tile_body.sl.v360 d i vals = vals.iv d (ix2 (tI i) 8) :=
    (ScPay.extractAt_slice (tile_body.sl.v29 d i vals) 8 slices_S16_o8_S1 inpos_S1_p0 (by decide)).trans (loaded_i d i vals _)
  have hlt8 : (tile_body.sl.v360 d i vals).toNat < 100000 := by rw [hvid8]; exact hI d _
  have hc8 : k1_chk9 i (tile_body.sl.v360 d i vals) := ScArith.k1_chk9_of i _ hlt8
  have he8 := ScArith.k1_off10_eq i _ hlt8
  have hs8_0 := win_sub_slab i _ (k1_off10_inb i _ hc8) _ _ _ he8 (by omega)
  have hs8_1 := Finset.subset_sdiff.mpr ⟨hs8_0, win_disj _ _ (k1_off10_inb i _ hc8) (k1_off2_inb i _ hc0) _ _ _ _ _ _ he8 he0 (by omega)⟩
  have hs8_2 := Finset.subset_sdiff.mpr ⟨hs8_1, win_disj _ _ (k1_off10_inb i _ hc8) (k1_off3_inb i _ hc1) _ _ _ _ _ _ he8 he1 (by omega)⟩
  have hs8_3 := Finset.subset_sdiff.mpr ⟨hs8_2, win_disj _ _ (k1_off10_inb i _ hc8) (k1_off4_inb i _ hc2) _ _ _ _ _ _ he8 he2 (by omega)⟩
  have hs8_4 := Finset.subset_sdiff.mpr ⟨hs8_3, win_disj _ _ (k1_off10_inb i _ hc8) (k1_off5_inb i _ hc3) _ _ _ _ _ _ he8 he3 (by omega)⟩
  have hs8_5 := Finset.subset_sdiff.mpr ⟨hs8_4, win_disj _ _ (k1_off10_inb i _ hc8) (k1_off6_inb i _ hc4) _ _ _ _ _ _ he8 he4 (by omega)⟩
  have hs8_6 := Finset.subset_sdiff.mpr ⟨hs8_5, win_disj _ _ (k1_off10_inb i _ hc8) (k1_off7_inb i _ hc5) _ _ _ _ _ _ he8 he5 (by omega)⟩
  have hs8_7 := Finset.subset_sdiff.mpr ⟨hs8_6, win_disj _ _ (k1_off10_inb i _ hc8) (k1_off8_inb i _ hc6) _ _ _ _ _ _ he8 he6 (by omega)⟩
  have hs8_8 := Finset.subset_sdiff.mpr ⟨hs8_7, win_disj _ _ (k1_off10_inb i _ hc8) (k1_off9_inb i _ hc7) _ _ _ _ _ _ he8 he7 (by omega)⟩
  ihave Hsp := (carve (F := F) d i _ (k1_off10 i (tile_body.sl.v360 d i vals)) (k1_off10_inb i _ hc8) _ hs8_8) $$ Ho
  icases Hsp with ⟨Hw8, Ho⟩
  sl_exec
  -- position 9: its token id, in range; its block of the result, inside the slab and apart from the earlier ones
  have hvid9 : tile_body.sl.v401 d i vals = vals.iv d (ix2 (tI i) 9) :=
    (ScPay.extractAt_slice (tile_body.sl.v29 d i vals) 9 slices_S16_o9_S1 inpos_S1_p0 (by decide)).trans (loaded_i d i vals _)
  have hlt9 : (tile_body.sl.v401 d i vals).toNat < 100000 := by rw [hvid9]; exact hI d _
  have hc9 : k1_chk10 i (tile_body.sl.v401 d i vals) := ScArith.k1_chk10_of i _ hlt9
  have he9 := ScArith.k1_off11_eq i _ hlt9
  have hs9_0 := win_sub_slab i _ (k1_off11_inb i _ hc9) _ _ _ he9 (by omega)
  have hs9_1 := Finset.subset_sdiff.mpr ⟨hs9_0, win_disj _ _ (k1_off11_inb i _ hc9) (k1_off2_inb i _ hc0) _ _ _ _ _ _ he9 he0 (by omega)⟩
  have hs9_2 := Finset.subset_sdiff.mpr ⟨hs9_1, win_disj _ _ (k1_off11_inb i _ hc9) (k1_off3_inb i _ hc1) _ _ _ _ _ _ he9 he1 (by omega)⟩
  have hs9_3 := Finset.subset_sdiff.mpr ⟨hs9_2, win_disj _ _ (k1_off11_inb i _ hc9) (k1_off4_inb i _ hc2) _ _ _ _ _ _ he9 he2 (by omega)⟩
  have hs9_4 := Finset.subset_sdiff.mpr ⟨hs9_3, win_disj _ _ (k1_off11_inb i _ hc9) (k1_off5_inb i _ hc3) _ _ _ _ _ _ he9 he3 (by omega)⟩
  have hs9_5 := Finset.subset_sdiff.mpr ⟨hs9_4, win_disj _ _ (k1_off11_inb i _ hc9) (k1_off6_inb i _ hc4) _ _ _ _ _ _ he9 he4 (by omega)⟩
  have hs9_6 := Finset.subset_sdiff.mpr ⟨hs9_5, win_disj _ _ (k1_off11_inb i _ hc9) (k1_off7_inb i _ hc5) _ _ _ _ _ _ he9 he5 (by omega)⟩
  have hs9_7 := Finset.subset_sdiff.mpr ⟨hs9_6, win_disj _ _ (k1_off11_inb i _ hc9) (k1_off8_inb i _ hc6) _ _ _ _ _ _ he9 he6 (by omega)⟩
  have hs9_8 := Finset.subset_sdiff.mpr ⟨hs9_7, win_disj _ _ (k1_off11_inb i _ hc9) (k1_off9_inb i _ hc7) _ _ _ _ _ _ he9 he7 (by omega)⟩
  have hs9_9 := Finset.subset_sdiff.mpr ⟨hs9_8, win_disj _ _ (k1_off11_inb i _ hc9) (k1_off10_inb i _ hc8) _ _ _ _ _ _ he9 he8 (by omega)⟩
  ihave Hsp := (carve (F := F) d i _ (k1_off11 i (tile_body.sl.v401 d i vals)) (k1_off11_inb i _ hc9) _ hs9_9) $$ Ho
  icases Hsp with ⟨Hw9, Ho⟩
  sl_exec
  -- position 10: its token id, in range; its block of the result, inside the slab and apart from the earlier ones
  have hvid10 : tile_body.sl.v442 d i vals = vals.iv d (ix2 (tI i) 10) :=
    (ScPay.extractAt_slice (tile_body.sl.v29 d i vals) 10 slices_S16_o10_S1 inpos_S1_p0 (by decide)).trans (loaded_i d i vals _)
  have hlt10 : (tile_body.sl.v442 d i vals).toNat < 100000 := by rw [hvid10]; exact hI d _
  have hc10 : k1_chk11 i (tile_body.sl.v442 d i vals) := ScArith.k1_chk11_of i _ hlt10
  have he10 := ScArith.k1_off12_eq i _ hlt10
  have hs10_0 := win_sub_slab i _ (k1_off12_inb i _ hc10) _ _ _ he10 (by omega)
  have hs10_1 := Finset.subset_sdiff.mpr ⟨hs10_0, win_disj _ _ (k1_off12_inb i _ hc10) (k1_off2_inb i _ hc0) _ _ _ _ _ _ he10 he0 (by omega)⟩
  have hs10_2 := Finset.subset_sdiff.mpr ⟨hs10_1, win_disj _ _ (k1_off12_inb i _ hc10) (k1_off3_inb i _ hc1) _ _ _ _ _ _ he10 he1 (by omega)⟩
  have hs10_3 := Finset.subset_sdiff.mpr ⟨hs10_2, win_disj _ _ (k1_off12_inb i _ hc10) (k1_off4_inb i _ hc2) _ _ _ _ _ _ he10 he2 (by omega)⟩
  have hs10_4 := Finset.subset_sdiff.mpr ⟨hs10_3, win_disj _ _ (k1_off12_inb i _ hc10) (k1_off5_inb i _ hc3) _ _ _ _ _ _ he10 he3 (by omega)⟩
  have hs10_5 := Finset.subset_sdiff.mpr ⟨hs10_4, win_disj _ _ (k1_off12_inb i _ hc10) (k1_off6_inb i _ hc4) _ _ _ _ _ _ he10 he4 (by omega)⟩
  have hs10_6 := Finset.subset_sdiff.mpr ⟨hs10_5, win_disj _ _ (k1_off12_inb i _ hc10) (k1_off7_inb i _ hc5) _ _ _ _ _ _ he10 he5 (by omega)⟩
  have hs10_7 := Finset.subset_sdiff.mpr ⟨hs10_6, win_disj _ _ (k1_off12_inb i _ hc10) (k1_off8_inb i _ hc6) _ _ _ _ _ _ he10 he6 (by omega)⟩
  have hs10_8 := Finset.subset_sdiff.mpr ⟨hs10_7, win_disj _ _ (k1_off12_inb i _ hc10) (k1_off9_inb i _ hc7) _ _ _ _ _ _ he10 he7 (by omega)⟩
  have hs10_9 := Finset.subset_sdiff.mpr ⟨hs10_8, win_disj _ _ (k1_off12_inb i _ hc10) (k1_off10_inb i _ hc8) _ _ _ _ _ _ he10 he8 (by omega)⟩
  have hs10_10 := Finset.subset_sdiff.mpr ⟨hs10_9, win_disj _ _ (k1_off12_inb i _ hc10) (k1_off11_inb i _ hc9) _ _ _ _ _ _ he10 he9 (by omega)⟩
  ihave Hsp := (carve (F := F) d i _ (k1_off12 i (tile_body.sl.v442 d i vals)) (k1_off12_inb i _ hc10) _ hs10_10) $$ Ho
  icases Hsp with ⟨Hw10, Ho⟩
  sl_exec
  -- position 11: its token id, in range; its block of the result, inside the slab and apart from the earlier ones
  have hvid11 : tile_body.sl.v483 d i vals = vals.iv d (ix2 (tI i) 11) :=
    (ScPay.extractAt_slice (tile_body.sl.v29 d i vals) 11 slices_S16_o11_S1 inpos_S1_p0 (by decide)).trans (loaded_i d i vals _)
  have hlt11 : (tile_body.sl.v483 d i vals).toNat < 100000 := by rw [hvid11]; exact hI d _
  have hc11 : k1_chk12 i (tile_body.sl.v483 d i vals) := ScArith.k1_chk12_of i _ hlt11
  have he11 := ScArith.k1_off13_eq i _ hlt11
  have hs11_0 := win_sub_slab i _ (k1_off13_inb i _ hc11) _ _ _ he11 (by omega)
  have hs11_1 := Finset.subset_sdiff.mpr ⟨hs11_0, win_disj _ _ (k1_off13_inb i _ hc11) (k1_off2_inb i _ hc0) _ _ _ _ _ _ he11 he0 (by omega)⟩
  have hs11_2 := Finset.subset_sdiff.mpr ⟨hs11_1, win_disj _ _ (k1_off13_inb i _ hc11) (k1_off3_inb i _ hc1) _ _ _ _ _ _ he11 he1 (by omega)⟩
  have hs11_3 := Finset.subset_sdiff.mpr ⟨hs11_2, win_disj _ _ (k1_off13_inb i _ hc11) (k1_off4_inb i _ hc2) _ _ _ _ _ _ he11 he2 (by omega)⟩
  have hs11_4 := Finset.subset_sdiff.mpr ⟨hs11_3, win_disj _ _ (k1_off13_inb i _ hc11) (k1_off5_inb i _ hc3) _ _ _ _ _ _ he11 he3 (by omega)⟩
  have hs11_5 := Finset.subset_sdiff.mpr ⟨hs11_4, win_disj _ _ (k1_off13_inb i _ hc11) (k1_off6_inb i _ hc4) _ _ _ _ _ _ he11 he4 (by omega)⟩
  have hs11_6 := Finset.subset_sdiff.mpr ⟨hs11_5, win_disj _ _ (k1_off13_inb i _ hc11) (k1_off7_inb i _ hc5) _ _ _ _ _ _ he11 he5 (by omega)⟩
  have hs11_7 := Finset.subset_sdiff.mpr ⟨hs11_6, win_disj _ _ (k1_off13_inb i _ hc11) (k1_off8_inb i _ hc6) _ _ _ _ _ _ he11 he6 (by omega)⟩
  have hs11_8 := Finset.subset_sdiff.mpr ⟨hs11_7, win_disj _ _ (k1_off13_inb i _ hc11) (k1_off9_inb i _ hc7) _ _ _ _ _ _ he11 he7 (by omega)⟩
  have hs11_9 := Finset.subset_sdiff.mpr ⟨hs11_8, win_disj _ _ (k1_off13_inb i _ hc11) (k1_off10_inb i _ hc8) _ _ _ _ _ _ he11 he8 (by omega)⟩
  have hs11_10 := Finset.subset_sdiff.mpr ⟨hs11_9, win_disj _ _ (k1_off13_inb i _ hc11) (k1_off11_inb i _ hc9) _ _ _ _ _ _ he11 he9 (by omega)⟩
  have hs11_11 := Finset.subset_sdiff.mpr ⟨hs11_10, win_disj _ _ (k1_off13_inb i _ hc11) (k1_off12_inb i _ hc10) _ _ _ _ _ _ he11 he10 (by omega)⟩
  ihave Hsp := (carve (F := F) d i _ (k1_off13 i (tile_body.sl.v483 d i vals)) (k1_off13_inb i _ hc11) _ hs11_11) $$ Ho
  icases Hsp with ⟨Hw11, Ho⟩
  sl_exec
  -- position 12: its token id, in range; its block of the result, inside the slab and apart from the earlier ones
  have hvid12 : tile_body.sl.v524 d i vals = vals.iv d (ix2 (tI i) 12) :=
    (ScPay.extractAt_slice (tile_body.sl.v29 d i vals) 12 slices_S16_o12_S1 inpos_S1_p0 (by decide)).trans (loaded_i d i vals _)
  have hlt12 : (tile_body.sl.v524 d i vals).toNat < 100000 := by rw [hvid12]; exact hI d _
  have hc12 : k1_chk13 i (tile_body.sl.v524 d i vals) := ScArith.k1_chk13_of i _ hlt12
  have he12 := ScArith.k1_off14_eq i _ hlt12
  have hs12_0 := win_sub_slab i _ (k1_off14_inb i _ hc12) _ _ _ he12 (by omega)
  have hs12_1 := Finset.subset_sdiff.mpr ⟨hs12_0, win_disj _ _ (k1_off14_inb i _ hc12) (k1_off2_inb i _ hc0) _ _ _ _ _ _ he12 he0 (by omega)⟩
  have hs12_2 := Finset.subset_sdiff.mpr ⟨hs12_1, win_disj _ _ (k1_off14_inb i _ hc12) (k1_off3_inb i _ hc1) _ _ _ _ _ _ he12 he1 (by omega)⟩
  have hs12_3 := Finset.subset_sdiff.mpr ⟨hs12_2, win_disj _ _ (k1_off14_inb i _ hc12) (k1_off4_inb i _ hc2) _ _ _ _ _ _ he12 he2 (by omega)⟩
  have hs12_4 := Finset.subset_sdiff.mpr ⟨hs12_3, win_disj _ _ (k1_off14_inb i _ hc12) (k1_off5_inb i _ hc3) _ _ _ _ _ _ he12 he3 (by omega)⟩
  have hs12_5 := Finset.subset_sdiff.mpr ⟨hs12_4, win_disj _ _ (k1_off14_inb i _ hc12) (k1_off6_inb i _ hc4) _ _ _ _ _ _ he12 he4 (by omega)⟩
  have hs12_6 := Finset.subset_sdiff.mpr ⟨hs12_5, win_disj _ _ (k1_off14_inb i _ hc12) (k1_off7_inb i _ hc5) _ _ _ _ _ _ he12 he5 (by omega)⟩
  have hs12_7 := Finset.subset_sdiff.mpr ⟨hs12_6, win_disj _ _ (k1_off14_inb i _ hc12) (k1_off8_inb i _ hc6) _ _ _ _ _ _ he12 he6 (by omega)⟩
  have hs12_8 := Finset.subset_sdiff.mpr ⟨hs12_7, win_disj _ _ (k1_off14_inb i _ hc12) (k1_off9_inb i _ hc7) _ _ _ _ _ _ he12 he7 (by omega)⟩
  have hs12_9 := Finset.subset_sdiff.mpr ⟨hs12_8, win_disj _ _ (k1_off14_inb i _ hc12) (k1_off10_inb i _ hc8) _ _ _ _ _ _ he12 he8 (by omega)⟩
  have hs12_10 := Finset.subset_sdiff.mpr ⟨hs12_9, win_disj _ _ (k1_off14_inb i _ hc12) (k1_off11_inb i _ hc9) _ _ _ _ _ _ he12 he9 (by omega)⟩
  have hs12_11 := Finset.subset_sdiff.mpr ⟨hs12_10, win_disj _ _ (k1_off14_inb i _ hc12) (k1_off12_inb i _ hc10) _ _ _ _ _ _ he12 he10 (by omega)⟩
  have hs12_12 := Finset.subset_sdiff.mpr ⟨hs12_11, win_disj _ _ (k1_off14_inb i _ hc12) (k1_off13_inb i _ hc11) _ _ _ _ _ _ he12 he11 (by omega)⟩
  ihave Hsp := (carve (F := F) d i _ (k1_off14 i (tile_body.sl.v524 d i vals)) (k1_off14_inb i _ hc12) _ hs12_12) $$ Ho
  icases Hsp with ⟨Hw12, Ho⟩
  sl_exec
  -- position 13: its token id, in range; its block of the result, inside the slab and apart from the earlier ones
  have hvid13 : tile_body.sl.v565 d i vals = vals.iv d (ix2 (tI i) 13) :=
    (ScPay.extractAt_slice (tile_body.sl.v29 d i vals) 13 slices_S16_o13_S1 inpos_S1_p0 (by decide)).trans (loaded_i d i vals _)
  have hlt13 : (tile_body.sl.v565 d i vals).toNat < 100000 := by rw [hvid13]; exact hI d _
  have hc13 : k1_chk14 i (tile_body.sl.v565 d i vals) := ScArith.k1_chk14_of i _ hlt13
  have he13 := ScArith.k1_off15_eq i _ hlt13
  have hs13_0 := win_sub_slab i _ (k1_off15_inb i _ hc13) _ _ _ he13 (by omega)
  have hs13_1 := Finset.subset_sdiff.mpr ⟨hs13_0, win_disj _ _ (k1_off15_inb i _ hc13) (k1_off2_inb i _ hc0) _ _ _ _ _ _ he13 he0 (by omega)⟩
  have hs13_2 := Finset.subset_sdiff.mpr ⟨hs13_1, win_disj _ _ (k1_off15_inb i _ hc13) (k1_off3_inb i _ hc1) _ _ _ _ _ _ he13 he1 (by omega)⟩
  have hs13_3 := Finset.subset_sdiff.mpr ⟨hs13_2, win_disj _ _ (k1_off15_inb i _ hc13) (k1_off4_inb i _ hc2) _ _ _ _ _ _ he13 he2 (by omega)⟩
  have hs13_4 := Finset.subset_sdiff.mpr ⟨hs13_3, win_disj _ _ (k1_off15_inb i _ hc13) (k1_off5_inb i _ hc3) _ _ _ _ _ _ he13 he3 (by omega)⟩
  have hs13_5 := Finset.subset_sdiff.mpr ⟨hs13_4, win_disj _ _ (k1_off15_inb i _ hc13) (k1_off6_inb i _ hc4) _ _ _ _ _ _ he13 he4 (by omega)⟩
  have hs13_6 := Finset.subset_sdiff.mpr ⟨hs13_5, win_disj _ _ (k1_off15_inb i _ hc13) (k1_off7_inb i _ hc5) _ _ _ _ _ _ he13 he5 (by omega)⟩
  have hs13_7 := Finset.subset_sdiff.mpr ⟨hs13_6, win_disj _ _ (k1_off15_inb i _ hc13) (k1_off8_inb i _ hc6) _ _ _ _ _ _ he13 he6 (by omega)⟩
  have hs13_8 := Finset.subset_sdiff.mpr ⟨hs13_7, win_disj _ _ (k1_off15_inb i _ hc13) (k1_off9_inb i _ hc7) _ _ _ _ _ _ he13 he7 (by omega)⟩
  have hs13_9 := Finset.subset_sdiff.mpr ⟨hs13_8, win_disj _ _ (k1_off15_inb i _ hc13) (k1_off10_inb i _ hc8) _ _ _ _ _ _ he13 he8 (by omega)⟩
  have hs13_10 := Finset.subset_sdiff.mpr ⟨hs13_9, win_disj _ _ (k1_off15_inb i _ hc13) (k1_off11_inb i _ hc9) _ _ _ _ _ _ he13 he9 (by omega)⟩
  have hs13_11 := Finset.subset_sdiff.mpr ⟨hs13_10, win_disj _ _ (k1_off15_inb i _ hc13) (k1_off12_inb i _ hc10) _ _ _ _ _ _ he13 he10 (by omega)⟩
  have hs13_12 := Finset.subset_sdiff.mpr ⟨hs13_11, win_disj _ _ (k1_off15_inb i _ hc13) (k1_off13_inb i _ hc11) _ _ _ _ _ _ he13 he11 (by omega)⟩
  have hs13_13 := Finset.subset_sdiff.mpr ⟨hs13_12, win_disj _ _ (k1_off15_inb i _ hc13) (k1_off14_inb i _ hc12) _ _ _ _ _ _ he13 he12 (by omega)⟩
  ihave Hsp := (carve (F := F) d i _ (k1_off15 i (tile_body.sl.v565 d i vals)) (k1_off15_inb i _ hc13) _ hs13_13) $$ Ho
  icases Hsp with ⟨Hw13, Ho⟩
  sl_exec
  -- position 14: its token id, in range; its block of the result, inside the slab and apart from the earlier ones
  have hvid14 : tile_body.sl.v606 d i vals = vals.iv d (ix2 (tI i) 14) :=
    (ScPay.extractAt_slice (tile_body.sl.v29 d i vals) 14 slices_S16_o14_S1 inpos_S1_p0 (by decide)).trans (loaded_i d i vals _)
  have hlt14 : (tile_body.sl.v606 d i vals).toNat < 100000 := by rw [hvid14]; exact hI d _
  have hc14 : k1_chk15 i (tile_body.sl.v606 d i vals) := ScArith.k1_chk15_of i _ hlt14
  have he14 := ScArith.k1_off16_eq i _ hlt14
  have hs14_0 := win_sub_slab i _ (k1_off16_inb i _ hc14) _ _ _ he14 (by omega)
  have hs14_1 := Finset.subset_sdiff.mpr ⟨hs14_0, win_disj _ _ (k1_off16_inb i _ hc14) (k1_off2_inb i _ hc0) _ _ _ _ _ _ he14 he0 (by omega)⟩
  have hs14_2 := Finset.subset_sdiff.mpr ⟨hs14_1, win_disj _ _ (k1_off16_inb i _ hc14) (k1_off3_inb i _ hc1) _ _ _ _ _ _ he14 he1 (by omega)⟩
  have hs14_3 := Finset.subset_sdiff.mpr ⟨hs14_2, win_disj _ _ (k1_off16_inb i _ hc14) (k1_off4_inb i _ hc2) _ _ _ _ _ _ he14 he2 (by omega)⟩
  have hs14_4 := Finset.subset_sdiff.mpr ⟨hs14_3, win_disj _ _ (k1_off16_inb i _ hc14) (k1_off5_inb i _ hc3) _ _ _ _ _ _ he14 he3 (by omega)⟩
  have hs14_5 := Finset.subset_sdiff.mpr ⟨hs14_4, win_disj _ _ (k1_off16_inb i _ hc14) (k1_off6_inb i _ hc4) _ _ _ _ _ _ he14 he4 (by omega)⟩
  have hs14_6 := Finset.subset_sdiff.mpr ⟨hs14_5, win_disj _ _ (k1_off16_inb i _ hc14) (k1_off7_inb i _ hc5) _ _ _ _ _ _ he14 he5 (by omega)⟩
  have hs14_7 := Finset.subset_sdiff.mpr ⟨hs14_6, win_disj _ _ (k1_off16_inb i _ hc14) (k1_off8_inb i _ hc6) _ _ _ _ _ _ he14 he6 (by omega)⟩
  have hs14_8 := Finset.subset_sdiff.mpr ⟨hs14_7, win_disj _ _ (k1_off16_inb i _ hc14) (k1_off9_inb i _ hc7) _ _ _ _ _ _ he14 he7 (by omega)⟩
  have hs14_9 := Finset.subset_sdiff.mpr ⟨hs14_8, win_disj _ _ (k1_off16_inb i _ hc14) (k1_off10_inb i _ hc8) _ _ _ _ _ _ he14 he8 (by omega)⟩
  have hs14_10 := Finset.subset_sdiff.mpr ⟨hs14_9, win_disj _ _ (k1_off16_inb i _ hc14) (k1_off11_inb i _ hc9) _ _ _ _ _ _ he14 he9 (by omega)⟩
  have hs14_11 := Finset.subset_sdiff.mpr ⟨hs14_10, win_disj _ _ (k1_off16_inb i _ hc14) (k1_off12_inb i _ hc10) _ _ _ _ _ _ he14 he10 (by omega)⟩
  have hs14_12 := Finset.subset_sdiff.mpr ⟨hs14_11, win_disj _ _ (k1_off16_inb i _ hc14) (k1_off13_inb i _ hc11) _ _ _ _ _ _ he14 he11 (by omega)⟩
  have hs14_13 := Finset.subset_sdiff.mpr ⟨hs14_12, win_disj _ _ (k1_off16_inb i _ hc14) (k1_off14_inb i _ hc12) _ _ _ _ _ _ he14 he12 (by omega)⟩
  have hs14_14 := Finset.subset_sdiff.mpr ⟨hs14_13, win_disj _ _ (k1_off16_inb i _ hc14) (k1_off15_inb i _ hc13) _ _ _ _ _ _ he14 he13 (by omega)⟩
  ihave Hsp := (carve (F := F) d i _ (k1_off16 i (tile_body.sl.v606 d i vals)) (k1_off16_inb i _ hc14) _ hs14_14) $$ Ho
  icases Hsp with ⟨Hw14, Ho⟩
  sl_exec
  -- position 15: its token id, in range; its block of the result, inside the slab and apart from the earlier ones
  have hvid15 : tile_body.sl.v647 d i vals = vals.iv d (ix2 (tI i) 15) :=
    (ScPay.extractAt_slice (tile_body.sl.v29 d i vals) 15 slices_S16_o15_S1 inpos_S1_p0 (by decide)).trans (loaded_i d i vals _)
  have hlt15 : (tile_body.sl.v647 d i vals).toNat < 100000 := by rw [hvid15]; exact hI d _
  have hc15 : k1_chk16 i (tile_body.sl.v647 d i vals) := ScArith.k1_chk16_of i _ hlt15
  have he15 := ScArith.k1_off17_eq i _ hlt15
  have hs15_0 := win_sub_slab i _ (k1_off17_inb i _ hc15) _ _ _ he15 (by omega)
  have hs15_1 := Finset.subset_sdiff.mpr ⟨hs15_0, win_disj _ _ (k1_off17_inb i _ hc15) (k1_off2_inb i _ hc0) _ _ _ _ _ _ he15 he0 (by omega)⟩
  have hs15_2 := Finset.subset_sdiff.mpr ⟨hs15_1, win_disj _ _ (k1_off17_inb i _ hc15) (k1_off3_inb i _ hc1) _ _ _ _ _ _ he15 he1 (by omega)⟩
  have hs15_3 := Finset.subset_sdiff.mpr ⟨hs15_2, win_disj _ _ (k1_off17_inb i _ hc15) (k1_off4_inb i _ hc2) _ _ _ _ _ _ he15 he2 (by omega)⟩
  have hs15_4 := Finset.subset_sdiff.mpr ⟨hs15_3, win_disj _ _ (k1_off17_inb i _ hc15) (k1_off5_inb i _ hc3) _ _ _ _ _ _ he15 he3 (by omega)⟩
  have hs15_5 := Finset.subset_sdiff.mpr ⟨hs15_4, win_disj _ _ (k1_off17_inb i _ hc15) (k1_off6_inb i _ hc4) _ _ _ _ _ _ he15 he4 (by omega)⟩
  have hs15_6 := Finset.subset_sdiff.mpr ⟨hs15_5, win_disj _ _ (k1_off17_inb i _ hc15) (k1_off7_inb i _ hc5) _ _ _ _ _ _ he15 he5 (by omega)⟩
  have hs15_7 := Finset.subset_sdiff.mpr ⟨hs15_6, win_disj _ _ (k1_off17_inb i _ hc15) (k1_off8_inb i _ hc6) _ _ _ _ _ _ he15 he6 (by omega)⟩
  have hs15_8 := Finset.subset_sdiff.mpr ⟨hs15_7, win_disj _ _ (k1_off17_inb i _ hc15) (k1_off9_inb i _ hc7) _ _ _ _ _ _ he15 he7 (by omega)⟩
  have hs15_9 := Finset.subset_sdiff.mpr ⟨hs15_8, win_disj _ _ (k1_off17_inb i _ hc15) (k1_off10_inb i _ hc8) _ _ _ _ _ _ he15 he8 (by omega)⟩
  have hs15_10 := Finset.subset_sdiff.mpr ⟨hs15_9, win_disj _ _ (k1_off17_inb i _ hc15) (k1_off11_inb i _ hc9) _ _ _ _ _ _ he15 he9 (by omega)⟩
  have hs15_11 := Finset.subset_sdiff.mpr ⟨hs15_10, win_disj _ _ (k1_off17_inb i _ hc15) (k1_off12_inb i _ hc10) _ _ _ _ _ _ he15 he10 (by omega)⟩
  have hs15_12 := Finset.subset_sdiff.mpr ⟨hs15_11, win_disj _ _ (k1_off17_inb i _ hc15) (k1_off13_inb i _ hc11) _ _ _ _ _ _ he15 he11 (by omega)⟩
  have hs15_13 := Finset.subset_sdiff.mpr ⟨hs15_12, win_disj _ _ (k1_off17_inb i _ hc15) (k1_off14_inb i _ hc12) _ _ _ _ _ _ he15 he12 (by omega)⟩
  have hs15_14 := Finset.subset_sdiff.mpr ⟨hs15_13, win_disj _ _ (k1_off17_inb i _ hc15) (k1_off15_inb i _ hc13) _ _ _ _ _ _ he15 he13 (by omega)⟩
  have hs15_15 := Finset.subset_sdiff.mpr ⟨hs15_14, win_disj _ _ (k1_off17_inb i _ hc15) (k1_off16_inb i _ hc14) _ _ _ _ _ _ he15 he14 (by omega)⟩
  ihave Hsp := (carve (F := F) d i _ (k1_off17 i (tile_body.sl.v647 d i vals)) (k1_off17_inb i _ hc15) _ hs15_15) $$ Ho
  icases Hsp with ⟨Hw15, Ho⟩
  sl_exec
  sl_step
  -- position 0: the select vector stored and copied out, lane by lane
  have hpk0 : tile_body.sl.v55 d i vals = vals.pv d (ix2 (tI i) 0) :=
    (ScPay.extractAt_slice (tile_body.sl.v27 d i vals) 0 slices_S16_o0_S1 inpos_S1_p0 (by decide)).trans (loaded_p d i vals _)
  have hbs0 : tile_body.sl.v57 d i vals = vals.bv d (ix2 (tI i) 0) :=
    (ScPay.extractAt_slice (tile_body.sl.v25 d i vals) 0 slices_S16_o0_S1 inpos_S1_p0 (by decide)).trans (loaded_b d i vals _)
  have hsel0 : ∀ l : S16.Idx, tile_body.sl.v63 d i vals l = if (l 0).val = (tile_body.sl.v32 d i vals).toNat % 16 then vals.pv d (ix2 (tI i) 0) else vals.bv d (ix2 (tI i) 0) := by
    intro l; rw [← hpk0, ← hbs0]; exact ScPay.selLane tile_body.sl.v30 ScPay.iota_lane _ hlt0 _ _ l
  have hrd0 : ∀ l : S16.Idx, tile_body.sl.dma2_1 d i vals f3 l = tile_body.sl.v63 d i vals l :=
    fun l => read_staged d i (Rect.unit (s := S256) ![0] S16.size inb_S256_S16_0) (fun _ => rfl) (tile_body.sl.v63 d i vals) [] f3 l
  have hpay0 : ∀ l : S16.Idx, tile_body.sl.dma2_1 d i vals f3 l = if (l 0).val = (tile_body.sl.v32 d i vals).toNat % 16 then vals.pv d (ix2 (tI i) 0) else vals.bv d (ix2 (tI i) 0) :=
    fun l => (hrd0 l).trans (hsel0 l)
  have hland0 := landed_eq_outV vals d i 0 _ (k1_off2_inb i _ hc0) _ 0 0 rfl rfl he0 hvid0 _ hpay0
  -- position 1: the select vector stored and copied out, lane by lane
  have hpk1 : tile_body.sl.v96 d i vals = vals.pv d (ix2 (tI i) 1) :=
    (ScPay.extractAt_slice (tile_body.sl.v27 d i vals) 1 slices_S16_o1_S1 inpos_S1_p0 (by decide)).trans (loaded_p d i vals _)
  have hbs1 : tile_body.sl.v98 d i vals = vals.bv d (ix2 (tI i) 1) :=
    (ScPay.extractAt_slice (tile_body.sl.v25 d i vals) 1 slices_S16_o1_S1 inpos_S1_p0 (by decide)).trans (loaded_b d i vals _)
  have hsel1 : ∀ l : S16.Idx, tile_body.sl.v104 d i vals l = if (l 0).val = (tile_body.sl.v73 d i vals).toNat % 16 then vals.pv d (ix2 (tI i) 1) else vals.bv d (ix2 (tI i) 1) := by
    intro l; rw [← hpk1, ← hbs1]; exact ScPay.selLane tile_body.sl.v30 ScPay.iota_lane _ hlt1 _ _ l
  have hrd1 : ∀ l : S16.Idx, tile_body.sl.dma2_2 d i vals f3 l = tile_body.sl.v104 d i vals l :=
    fun l => read_staged d i (Rect.unit (s := S256) ![16] S16.size inb_S256_S16_16) (fun _ => rfl) (tile_body.sl.v104 d i vals) (tile_body.sl.Hs3'_1 d i vals) f3 l
  have hpay1 : ∀ l : S16.Idx, tile_body.sl.dma2_2 d i vals f3 l = if (l 0).val = (tile_body.sl.v73 d i vals).toNat % 16 then vals.pv d (ix2 (tI i) 1) else vals.bv d (ix2 (tI i) 1) :=
    fun l => (hrd1 l).trans (hsel1 l)
  have hland1 := landed_eq_outV vals d i 1 _ (k1_off3_inb i _ hc1) _ 0 1 rfl rfl he1 hvid1 _ hpay1
  -- position 2: the select vector stored and copied out, lane by lane
  have hpk2 : tile_body.sl.v137 d i vals = vals.pv d (ix2 (tI i) 2) :=
    (ScPay.extractAt_slice (tile_body.sl.v27 d i vals) 2 slices_S16_o2_S1 inpos_S1_p0 (by decide)).trans (loaded_p d i vals _)
  have hbs2 : tile_body.sl.v139 d i vals = vals.bv d (ix2 (tI i) 2) :=
    (ScPay.extractAt_slice (tile_body.sl.v25 d i vals) 2 slices_S16_o2_S1 inpos_S1_p0 (by decide)).trans (loaded_b d i vals _)
  have hsel2 : ∀ l : S16.Idx, tile_body.sl.v145 d i vals l = if (l 0).val = (tile_body.sl.v114 d i vals).toNat % 16 then vals.pv d (ix2 (tI i) 2) else vals.bv d (ix2 (tI i) 2) := by
    intro l; rw [← hpk2, ← hbs2]; exact ScPay.selLane tile_body.sl.v30 ScPay.iota_lane _ hlt2 _ _ l
  have hrd2 : ∀ l : S16.Idx, tile_body.sl.dma2_3 d i vals f3 l = tile_body.sl.v145 d i vals l :=
    fun l => read_staged d i (Rect.unit (s := S256) ![32] S16.size inb_S256_S16_32) (fun _ => rfl) (tile_body.sl.v145 d i vals) (tile_body.sl.Hs3'_2 d i vals) f3 l
  have hpay2 : ∀ l : S16.Idx, tile_body.sl.dma2_3 d i vals f3 l = if (l 0).val = (tile_body.sl.v114 d i vals).toNat % 16 then vals.pv d (ix2 (tI i) 2) else vals.bv d (ix2 (tI i) 2) :=
    fun l => (hrd2 l).trans (hsel2 l)
  have hland2 := landed_eq_outV vals d i 2 _ (k1_off4_inb i _ hc2) _ 0 2 rfl rfl he2 hvid2 _ hpay2
  -- position 3: the select vector stored and copied out, lane by lane
  have hpk3 : tile_body.sl.v178 d i vals = vals.pv d (ix2 (tI i) 3) :=
    (ScPay.extractAt_slice (tile_body.sl.v27 d i vals) 3 slices_S16_o3_S1 inpos_S1_p0 (by decide)).trans (loaded_p d i vals _)
  have hbs3 : tile_body.sl.v180 d i vals = vals.bv d (ix2 (tI i) 3) :=
    (ScPay.extractAt_slice (tile_body.sl.v25 d i vals) 3 slices_S16_o3_S1 inpos_S1_p0 (by decide)).trans (loaded_b d i vals _)
  have hsel3 : ∀ l : S16.Idx, tile_body.sl.v186 d i vals l = if (l 0).val = (tile_body.sl.v155 d i vals).toNat % 16 then vals.pv d (ix2 (tI i) 3) else vals.bv d (ix2 (tI i) 3) := by
    intro l; rw [← hpk3, ← hbs3]; exact ScPay.selLane tile_body.sl.v30 ScPay.iota_lane _ hlt3 _ _ l
  have hrd3 : ∀ l : S16.Idx, tile_body.sl.dma2_4 d i vals f3 l = tile_body.sl.v186 d i vals l :=
    fun l => read_staged d i (Rect.unit (s := S256) ![48] S16.size inb_S256_S16_48) (fun _ => rfl) (tile_body.sl.v186 d i vals) (tile_body.sl.Hs3'_3 d i vals) f3 l
  have hpay3 : ∀ l : S16.Idx, tile_body.sl.dma2_4 d i vals f3 l = if (l 0).val = (tile_body.sl.v155 d i vals).toNat % 16 then vals.pv d (ix2 (tI i) 3) else vals.bv d (ix2 (tI i) 3) :=
    fun l => (hrd3 l).trans (hsel3 l)
  have hland3 := landed_eq_outV vals d i 3 _ (k1_off5_inb i _ hc3) _ 0 3 rfl rfl he3 hvid3 _ hpay3
  -- position 4: the select vector stored and copied out, lane by lane
  have hpk4 : tile_body.sl.v219 d i vals = vals.pv d (ix2 (tI i) 4) :=
    (ScPay.extractAt_slice (tile_body.sl.v27 d i vals) 4 slices_S16_o4_S1 inpos_S1_p0 (by decide)).trans (loaded_p d i vals _)
  have hbs4 : tile_body.sl.v221 d i vals = vals.bv d (ix2 (tI i) 4) :=
    (ScPay.extractAt_slice (tile_body.sl.v25 d i vals) 4 slices_S16_o4_S1 inpos_S1_p0 (by decide)).trans (loaded_b d i vals _)
  have hsel4 : ∀ l : S16.Idx, tile_body.sl.v227 d i vals l = if (l 0).val = (tile_body.sl.v196 d i vals).toNat % 16 then vals.pv d (ix2 (tI i) 4) else vals.bv d (ix2 (tI i) 4) := by
    intro l; rw [← hpk4, ← hbs4]; exact ScPay.selLane tile_body.sl.v30 ScPay.iota_lane _ hlt4 _ _ l
  have hrd4 : ∀ l : S16.Idx, tile_body.sl.dma2_5 d i vals f3 l = tile_body.sl.v227 d i vals l :=
    fun l => read_staged d i (Rect.unit (s := S256) ![64] S16.size inb_S256_S16_64) (fun _ => rfl) (tile_body.sl.v227 d i vals) (tile_body.sl.Hs3'_4 d i vals) f3 l
  have hpay4 : ∀ l : S16.Idx, tile_body.sl.dma2_5 d i vals f3 l = if (l 0).val = (tile_body.sl.v196 d i vals).toNat % 16 then vals.pv d (ix2 (tI i) 4) else vals.bv d (ix2 (tI i) 4) :=
    fun l => (hrd4 l).trans (hsel4 l)
  have hland4 := landed_eq_outV vals d i 4 _ (k1_off6_inb i _ hc4) _ 0 4 rfl rfl he4 hvid4 _ hpay4
  -- position 5: the select vector stored and copied out, lane by lane
  have hpk5 : tile_body.sl.v260 d i vals = vals.pv d (ix2 (tI i) 5) :=
    (ScPay.extractAt_slice (tile_body.sl.v27 d i vals) 5 slices_S16_o5_S1 inpos_S1_p0 (by decide)).trans (loaded_p d i vals _)
  have hbs5 : tile_body.sl.v262 d i vals = vals.bv d (ix2 (tI i) 5) :=
    (ScPay.extractAt_slice (tile_body.sl.v25 d i vals) 5 slices_S16_o5_S1 inpos_S1_p0 (by decide)).trans (loaded_b d i vals _)
  have hsel5 : ∀ l : S16.Idx, tile_body.sl.v268 d i vals l = if (l 0).val = (tile_body.sl.v237 d i vals).toNat % 16 then vals.pv d (ix2 (tI i) 5) else vals.bv d (ix2 (tI i) 5) := by
    intro l; rw [← hpk5, ← hbs5]; exact ScPay.selLane tile_body.sl.v30 ScPay.iota_lane _ hlt5 _ _ l
  have hrd5 : ∀ l : S16.Idx, tile_body.sl.dma2_6 d i vals f3 l = tile_body.sl.v268 d i vals l :=
    fun l => read_staged d i (Rect.unit (s := S256) ![80] S16.size inb_S256_S16_80) (fun _ => rfl) (tile_body.sl.v268 d i vals) (tile_body.sl.Hs3'_5 d i vals) f3 l
  have hpay5 : ∀ l : S16.Idx, tile_body.sl.dma2_6 d i vals f3 l = if (l 0).val = (tile_body.sl.v237 d i vals).toNat % 16 then vals.pv d (ix2 (tI i) 5) else vals.bv d (ix2 (tI i) 5) :=
    fun l => (hrd5 l).trans (hsel5 l)
  have hland5 := landed_eq_outV vals d i 5 _ (k1_off7_inb i _ hc5) _ 0 5 rfl rfl he5 hvid5 _ hpay5
  -- position 6: the select vector stored and copied out, lane by lane
  have hpk6 : tile_body.sl.v301 d i vals = vals.pv d (ix2 (tI i) 6) :=
    (ScPay.extractAt_slice (tile_body.sl.v27 d i vals) 6 slices_S16_o6_S1 inpos_S1_p0 (by decide)).trans (loaded_p d i vals _)
  have hbs6 : tile_body.sl.v303 d i vals = vals.bv d (ix2 (tI i) 6) :=
    (ScPay.extractAt_slice (tile_body.sl.v25 d i vals) 6 slices_S16_o6_S1 inpos_S1_p0 (by decide)).trans (loaded_b d i vals _)
  have hsel6 : ∀ l : S16.Idx, tile_body.sl.v309 d i vals l = if (l 0).val = (tile_body.sl.v278 d i vals).toNat % 16 then vals.pv d (ix2 (tI i) 6) else vals.bv d (ix2 (tI i) 6) := by
    intro l; rw [← hpk6, ← hbs6]; exact ScPay.selLane tile_body.sl.v30 ScPay.iota_lane _ hlt6 _ _ l
  have hrd6 : ∀ l : S16.Idx, tile_body.sl.dma2_7 d i vals f3 l = tile_body.sl.v309 d i vals l :=
    fun l => read_staged d i (Rect.unit (s := S256) ![96] S16.size inb_S256_S16_96) (fun _ => rfl) (tile_body.sl.v309 d i vals) (tile_body.sl.Hs3'_6 d i vals) f3 l
  have hpay6 : ∀ l : S16.Idx, tile_body.sl.dma2_7 d i vals f3 l = if (l 0).val = (tile_body.sl.v278 d i vals).toNat % 16 then vals.pv d (ix2 (tI i) 6) else vals.bv d (ix2 (tI i) 6) :=
    fun l => (hrd6 l).trans (hsel6 l)
  have hland6 := landed_eq_outV vals d i 6 _ (k1_off8_inb i _ hc6) _ 0 6 rfl rfl he6 hvid6 _ hpay6
  -- position 7: the select vector stored and copied out, lane by lane
  have hpk7 : tile_body.sl.v342 d i vals = vals.pv d (ix2 (tI i) 7) :=
    (ScPay.extractAt_slice (tile_body.sl.v27 d i vals) 7 slices_S16_o7_S1 inpos_S1_p0 (by decide)).trans (loaded_p d i vals _)
  have hbs7 : tile_body.sl.v344 d i vals = vals.bv d (ix2 (tI i) 7) :=
    (ScPay.extractAt_slice (tile_body.sl.v25 d i vals) 7 slices_S16_o7_S1 inpos_S1_p0 (by decide)).trans (loaded_b d i vals _)
  have hsel7 : ∀ l : S16.Idx, tile_body.sl.v350 d i vals l = if (l 0).val = (tile_body.sl.v319 d i vals).toNat % 16 then vals.pv d (ix2 (tI i) 7) else vals.bv d (ix2 (tI i) 7) := by
    intro l; rw [← hpk7, ← hbs7]; exact ScPay.selLane tile_body.sl.v30 ScPay.iota_lane _ hlt7 _ _ l
  have hrd7 : ∀ l : S16.Idx, tile_body.sl.dma2_8 d i vals f3 l = tile_body.sl.v350 d i vals l :=
    fun l => read_staged d i (Rect.unit (s := S256) ![112] S16.size inb_S256_S16_112) (fun _ => rfl) (tile_body.sl.v350 d i vals) (tile_body.sl.Hs3'_7 d i vals) f3 l
  have hpay7 : ∀ l : S16.Idx, tile_body.sl.dma2_8 d i vals f3 l = if (l 0).val = (tile_body.sl.v319 d i vals).toNat % 16 then vals.pv d (ix2 (tI i) 7) else vals.bv d (ix2 (tI i) 7) :=
    fun l => (hrd7 l).trans (hsel7 l)
  have hland7 := landed_eq_outV vals d i 7 _ (k1_off9_inb i _ hc7) _ 0 7 rfl rfl he7 hvid7 _ hpay7
  -- position 8: the select vector stored and copied out, lane by lane
  have hpk8 : tile_body.sl.v383 d i vals = vals.pv d (ix2 (tI i) 8) :=
    (ScPay.extractAt_slice (tile_body.sl.v27 d i vals) 8 slices_S16_o8_S1 inpos_S1_p0 (by decide)).trans (loaded_p d i vals _)
  have hbs8 : tile_body.sl.v385 d i vals = vals.bv d (ix2 (tI i) 8) :=
    (ScPay.extractAt_slice (tile_body.sl.v25 d i vals) 8 slices_S16_o8_S1 inpos_S1_p0 (by decide)).trans (loaded_b d i vals _)
  have hsel8 : ∀ l : S16.Idx, tile_body.sl.v391 d i vals l = if (l 0).val = (tile_body.sl.v360 d i vals).toNat % 16 then vals.pv d (ix2 (tI i) 8) else vals.bv d (ix2 (tI i) 8) := by
    intro l; rw [← hpk8, ← hbs8]; exact ScPay.selLane tile_body.sl.v30 ScPay.iota_lane _ hlt8 _ _ l
  have hrd8 : ∀ l : S16.Idx, tile_body.sl.dma2_9 d i vals f3 l = tile_body.sl.v391 d i vals l :=
    fun l => read_staged d i (Rect.unit (s := S256) ![128] S16.size inb_S256_S16_128) (fun _ => rfl) (tile_body.sl.v391 d i vals) (tile_body.sl.Hs3'_8 d i vals) f3 l
  have hpay8 : ∀ l : S16.Idx, tile_body.sl.dma2_9 d i vals f3 l = if (l 0).val = (tile_body.sl.v360 d i vals).toNat % 16 then vals.pv d (ix2 (tI i) 8) else vals.bv d (ix2 (tI i) 8) :=
    fun l => (hrd8 l).trans (hsel8 l)
  have hland8 := landed_eq_outV vals d i 8 _ (k1_off10_inb i _ hc8) _ 1 0 rfl rfl he8 hvid8 _ hpay8
  -- position 9: the select vector stored and copied out, lane by lane
  have hpk9 : tile_body.sl.v424 d i vals = vals.pv d (ix2 (tI i) 9) :=
    (ScPay.extractAt_slice (tile_body.sl.v27 d i vals) 9 slices_S16_o9_S1 inpos_S1_p0 (by decide)).trans (loaded_p d i vals _)
  have hbs9 : tile_body.sl.v426 d i vals = vals.bv d (ix2 (tI i) 9) :=
    (ScPay.extractAt_slice (tile_body.sl.v25 d i vals) 9 slices_S16_o9_S1 inpos_S1_p0 (by decide)).trans (loaded_b d i vals _)
  have hsel9 : ∀ l : S16.Idx, tile_body.sl.v432 d i vals l = if (l 0).val = (tile_body.sl.v401 d i vals).toNat % 16 then vals.pv d (ix2 (tI i) 9) else vals.bv d (ix2 (tI i) 9) := by
    intro l; rw [← hpk9, ← hbs9]; exact ScPay.selLane tile_body.sl.v30 ScPay.iota_lane _ hlt9 _ _ l
  have hrd9 : ∀ l : S16.Idx, tile_body.sl.dma2_10 d i vals f3 l = tile_body.sl.v432 d i vals l :=
    fun l => read_staged d i (Rect.unit (s := S256) ![144] S16.size inb_S256_S16_144) (fun _ => rfl) (tile_body.sl.v432 d i vals) (tile_body.sl.Hs3'_9 d i vals) f3 l
  have hpay9 : ∀ l : S16.Idx, tile_body.sl.dma2_10 d i vals f3 l = if (l 0).val = (tile_body.sl.v401 d i vals).toNat % 16 then vals.pv d (ix2 (tI i) 9) else vals.bv d (ix2 (tI i) 9) :=
    fun l => (hrd9 l).trans (hsel9 l)
  have hland9 := landed_eq_outV vals d i 9 _ (k1_off11_inb i _ hc9) _ 1 1 rfl rfl he9 hvid9 _ hpay9
  -- position 10: the select vector stored and copied out, lane by lane
  have hpk10 : tile_body.sl.v465 d i vals = vals.pv d (ix2 (tI i) 10) :=
    (ScPay.extractAt_slice (tile_body.sl.v27 d i vals) 10 slices_S16_o10_S1 inpos_S1_p0 (by decide)).trans (loaded_p d i vals _)
  have hbs10 : tile_body.sl.v467 d i vals = vals.bv d (ix2 (tI i) 10) :=
    (ScPay.extractAt_slice (tile_body.sl.v25 d i vals) 10 slices_S16_o10_S1 inpos_S1_p0 (by decide)).trans (loaded_b d i vals _)
  have hsel10 : ∀ l : S16.Idx, tile_body.sl.v473 d i vals l = if (l 0).val = (tile_body.sl.v442 d i vals).toNat % 16 then vals.pv d (ix2 (tI i) 10) else vals.bv d (ix2 (tI i) 10) := by
    intro l; rw [← hpk10, ← hbs10]; exact ScPay.selLane tile_body.sl.v30 ScPay.iota_lane _ hlt10 _ _ l
  have hrd10 : ∀ l : S16.Idx, tile_body.sl.dma2_11 d i vals f3 l = tile_body.sl.v473 d i vals l :=
    fun l => read_staged d i (Rect.unit (s := S256) ![160] S16.size inb_S256_S16_160) (fun _ => rfl) (tile_body.sl.v473 d i vals) (tile_body.sl.Hs3'_10 d i vals) f3 l
  have hpay10 : ∀ l : S16.Idx, tile_body.sl.dma2_11 d i vals f3 l = if (l 0).val = (tile_body.sl.v442 d i vals).toNat % 16 then vals.pv d (ix2 (tI i) 10) else vals.bv d (ix2 (tI i) 10) :=
    fun l => (hrd10 l).trans (hsel10 l)
  have hland10 := landed_eq_outV vals d i 10 _ (k1_off12_inb i _ hc10) _ 1 2 rfl rfl he10 hvid10 _ hpay10
  -- position 11: the select vector stored and copied out, lane by lane
  have hpk11 : tile_body.sl.v506 d i vals = vals.pv d (ix2 (tI i) 11) :=
    (ScPay.extractAt_slice (tile_body.sl.v27 d i vals) 11 slices_S16_o11_S1 inpos_S1_p0 (by decide)).trans (loaded_p d i vals _)
  have hbs11 : tile_body.sl.v508 d i vals = vals.bv d (ix2 (tI i) 11) :=
    (ScPay.extractAt_slice (tile_body.sl.v25 d i vals) 11 slices_S16_o11_S1 inpos_S1_p0 (by decide)).trans (loaded_b d i vals _)
  have hsel11 : ∀ l : S16.Idx, tile_body.sl.v514 d i vals l = if (l 0).val = (tile_body.sl.v483 d i vals).toNat % 16 then vals.pv d (ix2 (tI i) 11) else vals.bv d (ix2 (tI i) 11) := by
    intro l; rw [← hpk11, ← hbs11]; exact ScPay.selLane tile_body.sl.v30 ScPay.iota_lane _ hlt11 _ _ l
  have hrd11 : ∀ l : S16.Idx, tile_body.sl.dma2_12 d i vals f3 l = tile_body.sl.v514 d i vals l :=
    fun l => read_staged d i (Rect.unit (s := S256) ![176] S16.size inb_S256_S16_176) (fun _ => rfl) (tile_body.sl.v514 d i vals) (tile_body.sl.Hs3'_11 d i vals) f3 l
  have hpay11 : ∀ l : S16.Idx, tile_body.sl.dma2_12 d i vals f3 l = if (l 0).val = (tile_body.sl.v483 d i vals).toNat % 16 then vals.pv d (ix2 (tI i) 11) else vals.bv d (ix2 (tI i) 11) :=
    fun l => (hrd11 l).trans (hsel11 l)
  have hland11 := landed_eq_outV vals d i 11 _ (k1_off13_inb i _ hc11) _ 1 3 rfl rfl he11 hvid11 _ hpay11
  -- position 12: the select vector stored and copied out, lane by lane
  have hpk12 : tile_body.sl.v547 d i vals = vals.pv d (ix2 (tI i) 12) :=
    (ScPay.extractAt_slice (tile_body.sl.v27 d i vals) 12 slices_S16_o12_S1 inpos_S1_p0 (by decide)).trans (loaded_p d i vals _)
  have hbs12 : tile_body.sl.v549 d i vals = vals.bv d (ix2 (tI i) 12) :=
    (ScPay.extractAt_slice (tile_body.sl.v25 d i vals) 12 slices_S16_o12_S1 inpos_S1_p0 (by decide)).trans (loaded_b d i vals _)
  have hsel12 : ∀ l : S16.Idx, tile_body.sl.v555 d i vals l = if (l 0).val = (tile_body.sl.v524 d i vals).toNat % 16 then vals.pv d (ix2 (tI i) 12) else vals.bv d (ix2 (tI i) 12) := by
    intro l; rw [← hpk12, ← hbs12]; exact ScPay.selLane tile_body.sl.v30 ScPay.iota_lane _ hlt12 _ _ l
  have hrd12 : ∀ l : S16.Idx, tile_body.sl.dma2_13 d i vals f3 l = tile_body.sl.v555 d i vals l :=
    fun l => read_staged d i (Rect.unit (s := S256) ![192] S16.size inb_S256_S16_192) (fun _ => rfl) (tile_body.sl.v555 d i vals) (tile_body.sl.Hs3'_12 d i vals) f3 l
  have hpay12 : ∀ l : S16.Idx, tile_body.sl.dma2_13 d i vals f3 l = if (l 0).val = (tile_body.sl.v524 d i vals).toNat % 16 then vals.pv d (ix2 (tI i) 12) else vals.bv d (ix2 (tI i) 12) :=
    fun l => (hrd12 l).trans (hsel12 l)
  have hland12 := landed_eq_outV vals d i 12 _ (k1_off14_inb i _ hc12) _ 1 4 rfl rfl he12 hvid12 _ hpay12
  -- position 13: the select vector stored and copied out, lane by lane
  have hpk13 : tile_body.sl.v588 d i vals = vals.pv d (ix2 (tI i) 13) :=
    (ScPay.extractAt_slice (tile_body.sl.v27 d i vals) 13 slices_S16_o13_S1 inpos_S1_p0 (by decide)).trans (loaded_p d i vals _)
  have hbs13 : tile_body.sl.v590 d i vals = vals.bv d (ix2 (tI i) 13) :=
    (ScPay.extractAt_slice (tile_body.sl.v25 d i vals) 13 slices_S16_o13_S1 inpos_S1_p0 (by decide)).trans (loaded_b d i vals _)
  have hsel13 : ∀ l : S16.Idx, tile_body.sl.v596 d i vals l = if (l 0).val = (tile_body.sl.v565 d i vals).toNat % 16 then vals.pv d (ix2 (tI i) 13) else vals.bv d (ix2 (tI i) 13) := by
    intro l; rw [← hpk13, ← hbs13]; exact ScPay.selLane tile_body.sl.v30 ScPay.iota_lane _ hlt13 _ _ l
  have hrd13 : ∀ l : S16.Idx, tile_body.sl.dma2_14 d i vals f3 l = tile_body.sl.v596 d i vals l :=
    fun l => read_staged d i (Rect.unit (s := S256) ![208] S16.size inb_S256_S16_208) (fun _ => rfl) (tile_body.sl.v596 d i vals) (tile_body.sl.Hs3'_13 d i vals) f3 l
  have hpay13 : ∀ l : S16.Idx, tile_body.sl.dma2_14 d i vals f3 l = if (l 0).val = (tile_body.sl.v565 d i vals).toNat % 16 then vals.pv d (ix2 (tI i) 13) else vals.bv d (ix2 (tI i) 13) :=
    fun l => (hrd13 l).trans (hsel13 l)
  have hland13 := landed_eq_outV vals d i 13 _ (k1_off15_inb i _ hc13) _ 1 5 rfl rfl he13 hvid13 _ hpay13
  -- position 14: the select vector stored and copied out, lane by lane
  have hpk14 : tile_body.sl.v629 d i vals = vals.pv d (ix2 (tI i) 14) :=
    (ScPay.extractAt_slice (tile_body.sl.v27 d i vals) 14 slices_S16_o14_S1 inpos_S1_p0 (by decide)).trans (loaded_p d i vals _)
  have hbs14 : tile_body.sl.v631 d i vals = vals.bv d (ix2 (tI i) 14) :=
    (ScPay.extractAt_slice (tile_body.sl.v25 d i vals) 14 slices_S16_o14_S1 inpos_S1_p0 (by decide)).trans (loaded_b d i vals _)
  have hsel14 : ∀ l : S16.Idx, tile_body.sl.v637 d i vals l = if (l 0).val = (tile_body.sl.v606 d i vals).toNat % 16 then vals.pv d (ix2 (tI i) 14) else vals.bv d (ix2 (tI i) 14) := by
    intro l; rw [← hpk14, ← hbs14]; exact ScPay.selLane tile_body.sl.v30 ScPay.iota_lane _ hlt14 _ _ l
  have hrd14 : ∀ l : S16.Idx, tile_body.sl.dma2_15 d i vals f3 l = tile_body.sl.v637 d i vals l :=
    fun l => read_staged d i (Rect.unit (s := S256) ![224] S16.size inb_S256_S16_224) (fun _ => rfl) (tile_body.sl.v637 d i vals) (tile_body.sl.Hs3'_14 d i vals) f3 l
  have hpay14 : ∀ l : S16.Idx, tile_body.sl.dma2_15 d i vals f3 l = if (l 0).val = (tile_body.sl.v606 d i vals).toNat % 16 then vals.pv d (ix2 (tI i) 14) else vals.bv d (ix2 (tI i) 14) :=
    fun l => (hrd14 l).trans (hsel14 l)
  have hland14 := landed_eq_outV vals d i 14 _ (k1_off16_inb i _ hc14) _ 1 6 rfl rfl he14 hvid14 _ hpay14
  -- position 15: the select vector stored and copied out, lane by lane
  have hpk15 : tile_body.sl.v670 d i vals = vals.pv d (ix2 (tI i) 15) :=
    (ScPay.extractAt_slice (tile_body.sl.v27 d i vals) 15 slices_S16_o15_S1 inpos_S1_p0 (by decide)).trans (loaded_p d i vals _)
  have hbs15 : tile_body.sl.v672 d i vals = vals.bv d (ix2 (tI i) 15) :=
    (ScPay.extractAt_slice (tile_body.sl.v25 d i vals) 15 slices_S16_o15_S1 inpos_S1_p0 (by decide)).trans (loaded_b d i vals _)
  have hsel15 : ∀ l : S16.Idx, tile_body.sl.v678 d i vals l = if (l 0).val = (tile_body.sl.v647 d i vals).toNat % 16 then vals.pv d (ix2 (tI i) 15) else vals.bv d (ix2 (tI i) 15) := by
    intro l; rw [← hpk15, ← hbs15]; exact ScPay.selLane tile_body.sl.v30 ScPay.iota_lane _ hlt15 _ _ l
  have hrd15 : ∀ l : S16.Idx, tile_body.sl.dma2_16 d i vals f3 l = tile_body.sl.v678 d i vals l :=
    fun l => read_staged d i (Rect.unit (s := S256) ![240] S16.size inb_S256_S16_240) (fun _ => rfl) (tile_body.sl.v678 d i vals) (tile_body.sl.Hs3'_15 d i vals) f3 l
  have hpay15 : ∀ l : S16.Idx, tile_body.sl.dma2_16 d i vals f3 l = if (l 0).val = (tile_body.sl.v647 d i vals).toNat % 16 then vals.pv d (ix2 (tI i) 15) else vals.bv d (ix2 (tI i) 15) :=
    fun l => (hrd15 l).trans (hsel15 l)
  have hland15 := landed_eq_outV vals d i 15 _ (k1_off17_inb i _ hc15) _ 1 7 rfl rfl he15 hvid15 _ hpay15
  -- off the sixteen blocks the slab is as it was, and there `outV` is what it was
  have hrest : ∀ j : S32x8x100000.Idx, j ∈ slabSet (tI i) →
      j ∉ (winR (k1_off2 i (tile_body.sl.v32 d i vals)) (k1_off2_inb i _ hc0)).set →
      j ∉ (winR (k1_off3 i (tile_body.sl.v73 d i vals)) (k1_off3_inb i _ hc1)).set →
      j ∉ (winR (k1_off4 i (tile_body.sl.v114 d i vals)) (k1_off4_inb i _ hc2)).set →
      j ∉ (winR (k1_off5 i (tile_body.sl.v155 d i vals)) (k1_off5_inb i _ hc3)).set →
      j ∉ (winR (k1_off6 i (tile_body.sl.v196 d i vals)) (k1_off6_inb i _ hc4)).set →
      j ∉ (winR (k1_off7 i (tile_body.sl.v237 d i vals)) (k1_off7_inb i _ hc5)).set →
      j ∉ (winR (k1_off8 i (tile_body.sl.v278 d i vals)) (k1_off8_inb i _ hc6)).set →
      j ∉ (winR (k1_off9 i (tile_body.sl.v319 d i vals)) (k1_off9_inb i _ hc7)).set →
      j ∉ (winR (k1_off10 i (tile_body.sl.v360 d i vals)) (k1_off10_inb i _ hc8)).set →
      j ∉ (winR (k1_off11 i (tile_body.sl.v401 d i vals)) (k1_off11_inb i _ hc9)).set →
      j ∉ (winR (k1_off12 i (tile_body.sl.v442 d i vals)) (k1_off12_inb i _ hc10)).set →
      j ∉ (winR (k1_off13 i (tile_body.sl.v483 d i vals)) (k1_off13_inb i _ hc11)).set →
      j ∉ (winR (k1_off14 i (tile_body.sl.v524 d i vals)) (k1_off14_inb i _ hc12)).set →
      j ∉ (winR (k1_off15 i (tile_body.sl.v565 d i vals)) (k1_off15_inb i _ hc13)).set →
      j ∉ (winR (k1_off16 i (tile_body.sl.v606 d i vals)) (k1_off16_inb i _ hc14)).set →
      j ∉ (winR (k1_off17 i (tile_body.sl.v647 d i vals)) (k1_off17_inb i _ hc15)).set →
      vals.fv d j = outV vals d j := by
    intro j hjs hn0 hn1 hn2 hn3 hn4 hn5 hn6 hn7 hn8 hn9 hn10 hn11 hn12 hn13 hn14 hn15
    have hnn0 := not_mem_win _ _ _ _ _ he0 j hn0
    rw [hvid0] at hnn0
    have hnn1 := not_mem_win _ _ _ _ _ he1 j hn1
    rw [hvid1] at hnn1
    have hnn2 := not_mem_win _ _ _ _ _ he2 j hn2
    rw [hvid2] at hnn2
    have hnn3 := not_mem_win _ _ _ _ _ he3 j hn3
    rw [hvid3] at hnn3
    have hnn4 := not_mem_win _ _ _ _ _ he4 j hn4
    rw [hvid4] at hnn4
    have hnn5 := not_mem_win _ _ _ _ _ he5 j hn5
    rw [hvid5] at hnn5
    have hnn6 := not_mem_win _ _ _ _ _ he6 j hn6
    rw [hvid6] at hnn6
    have hnn7 := not_mem_win _ _ _ _ _ he7 j hn7
    rw [hvid7] at hnn7
    have hnn8 := not_mem_win _ _ _ _ _ he8 j hn8
    rw [hvid8] at hnn8
    have hnn9 := not_mem_win _ _ _ _ _ he9 j hn9
    rw [hvid9] at hnn9
    have hnn10 := not_mem_win _ _ _ _ _ he10 j hn10
    rw [hvid10] at hnn10
    have hnn11 := not_mem_win _ _ _ _ _ he11 j hn11
    rw [hvid11] at hnn11
    have hnn12 := not_mem_win _ _ _ _ _ he12 j hn12
    rw [hvid12] at hnn12
    have hnn13 := not_mem_win _ _ _ _ _ he13 j hn13
    rw [hvid13] at hnn13
    have hnn14 := not_mem_win _ _ _ _ _ he14 j hn14
    rw [hvid14] at hnn14
    have hnn15 := not_mem_win _ _ _ _ _ he15 j hn15
    rw [hvid15] at hnn15
    refine (outV_off vals d (tI i) j (mem_slab.mp hjs) ?_).symm
    intro q
    fin_cases q
    · exact hnn0
    · exact hnn1
    · exact hnn2
    · exact hnn3
    · exact hnn4
    · exact hnn5
    · exact hnn6
    · exact hnn7
    · exact hnn8
    · exact hnn9
    · exact hnn10
    · exact hnn11
    · exact hnn12
    · exact hnn13
    · exact hnn14
    · exact hnn15
  isplitl [Hb' Hp' Hi' Ho Hw0 Hw1 Hw2 Hw3 Hw4 Hw5 Hw6 Hw7 Hw8 Hw9 Hw10 Hw11 Hw12 Hw13 Hw14 Hw15]
  · isplitl [Hb']; · iapply (Entails.of_eq (pts_bRowK (F := F) d i _)); iexact Hb'
    isplitl [Hp']; · iapply (Entails.of_eq (pts_pRowK (F := F) d i _)); iexact Hp'
    isplitl [Hi']; · iapply (Entails.of_eq (pts_iRowK (F := F) d i _)); iexact Hi'
    -- every piece at the one function `outV`, then the pieces joined, the last block first
    ihave Ho := (Entails.of_eq (pointsTo_congr (g := outV vals d) (fun j hj => by
      simp only [Finset.mem_sdiff] at hj
      obtain ⟨⟨⟨⟨⟨⟨⟨⟨⟨⟨⟨⟨⟨⟨⟨⟨hjs, hn0⟩, hn1⟩, hn2⟩, hn3⟩, hn4⟩, hn5⟩, hn6⟩, hn7⟩, hn8⟩, hn9⟩, hn10⟩, hn11⟩, hn12⟩, hn13⟩, hn14⟩, hn15⟩ := hj
      exact hrest j hjs hn0 hn1 hn2 hn3 hn4 hn5 hn6 hn7 hn8 hn9 hn10 hn11 hn12 hn13 hn14 hn15))) $$ Ho
    ihave Hw15 := (Entails.of_eq ((pts_winM (F := F) d i _ _ _).trans (pointsTo_congr (g := outV vals d) hland15))) $$ Hw15
    ihave Ho := ((pointsTo_split_subset (ℓ := oLoc d) hs15_15).2) $$ [Hw15 Ho]
    · isplitl [Hw15]; · iexact Hw15
      iexact Ho
    ihave Hw14 := (Entails.of_eq ((pts_winM (F := F) d i _ _ _).trans (pointsTo_congr (g := outV vals d) hland14))) $$ Hw14
    ihave Ho := ((pointsTo_split_subset (ℓ := oLoc d) hs14_14).2) $$ [Hw14 Ho]
    · isplitl [Hw14]; · iexact Hw14
      iexact Ho
    ihave Hw13 := (Entails.of_eq ((pts_winM (F := F) d i _ _ _).trans (pointsTo_congr (g := outV vals d) hland13))) $$ Hw13
    ihave Ho := ((pointsTo_split_subset (ℓ := oLoc d) hs13_13).2) $$ [Hw13 Ho]
    · isplitl [Hw13]; · iexact Hw13
      iexact Ho
    ihave Hw12 := (Entails.of_eq ((pts_winM (F := F) d i _ _ _).trans (pointsTo_congr (g := outV vals d) hland12))) $$ Hw12
    ihave Ho := ((pointsTo_split_subset (ℓ := oLoc d) hs12_12).2) $$ [Hw12 Ho]
    · isplitl [Hw12]; · iexact Hw12
      iexact Ho
    ihave Hw11 := (Entails.of_eq ((pts_winM (F := F) d i _ _ _).trans (pointsTo_congr (g := outV vals d) hland11))) $$ Hw11
    ihave Ho := ((pointsTo_split_subset (ℓ := oLoc d) hs11_11).2) $$ [Hw11 Ho]
    · isplitl [Hw11]; · iexact Hw11
      iexact Ho
    ihave Hw10 := (Entails.of_eq ((pts_winM (F := F) d i _ _ _).trans (pointsTo_congr (g := outV vals d) hland10))) $$ Hw10
    ihave Ho := ((pointsTo_split_subset (ℓ := oLoc d) hs10_10).2) $$ [Hw10 Ho]
    · isplitl [Hw10]; · iexact Hw10
      iexact Ho
    ihave Hw9 := (Entails.of_eq ((pts_winM (F := F) d i _ _ _).trans (pointsTo_congr (g := outV vals d) hland9))) $$ Hw9
    ihave Ho := ((pointsTo_split_subset (ℓ := oLoc d) hs9_9).2) $$ [Hw9 Ho]
    · isplitl [Hw9]; · iexact Hw9
      iexact Ho
    ihave Hw8 := (Entails.of_eq ((pts_winM (F := F) d i _ _ _).trans (pointsTo_congr (g := outV vals d) hland8))) $$ Hw8
    ihave Ho := ((pointsTo_split_subset (ℓ := oLoc d) hs8_8).2) $$ [Hw8 Ho]
    · isplitl [Hw8]; · iexact Hw8
      iexact Ho
    ihave Hw7 := (Entails.of_eq ((pts_winM (F := F) d i _ _ _).trans (pointsTo_congr (g := outV vals d) hland7))) $$ Hw7
    ihave Ho := ((pointsTo_split_subset (ℓ := oLoc d) hs7_7).2) $$ [Hw7 Ho]
    · isplitl [Hw7]; · iexact Hw7
      iexact Ho
    ihave Hw6 := (Entails.of_eq ((pts_winM (F := F) d i _ _ _).trans (pointsTo_congr (g := outV vals d) hland6))) $$ Hw6
    ihave Ho := ((pointsTo_split_subset (ℓ := oLoc d) hs6_6).2) $$ [Hw6 Ho]
    · isplitl [Hw6]; · iexact Hw6
      iexact Ho
    ihave Hw5 := (Entails.of_eq ((pts_winM (F := F) d i _ _ _).trans (pointsTo_congr (g := outV vals d) hland5))) $$ Hw5
    ihave Ho := ((pointsTo_split_subset (ℓ := oLoc d) hs5_5).2) $$ [Hw5 Ho]
    · isplitl [Hw5]; · iexact Hw5
      iexact Ho
    ihave Hw4 := (Entails.of_eq ((pts_winM (F := F) d i _ _ _).trans (pointsTo_congr (g := outV vals d) hland4))) $$ Hw4
    ihave Ho := ((pointsTo_split_subset (ℓ := oLoc d) hs4_4).2) $$ [Hw4 Ho]
    · isplitl [Hw4]; · iexact Hw4
      iexact Ho
    ihave Hw3 := (Entails.of_eq ((pts_winM (F := F) d i _ _ _).trans (pointsTo_congr (g := outV vals d) hland3))) $$ Hw3
    ihave Ho := ((pointsTo_split_subset (ℓ := oLoc d) hs3_3).2) $$ [Hw3 Ho]
    · isplitl [Hw3]; · iexact Hw3
      iexact Ho
    ihave Hw2 := (Entails.of_eq ((pts_winM (F := F) d i _ _ _).trans (pointsTo_congr (g := outV vals d) hland2))) $$ Hw2
    ihave Ho := ((pointsTo_split_subset (ℓ := oLoc d) hs2_2).2) $$ [Hw2 Ho]
    · isplitl [Hw2]; · iexact Hw2
      iexact Ho
    ihave Hw1 := (Entails.of_eq ((pts_winM (F := F) d i _ _ _).trans (pointsTo_congr (g := outV vals d) hland1))) $$ Hw1
    ihave Ho := ((pointsTo_split_subset (ℓ := oLoc d) hs1_1).2) $$ [Hw1 Ho]
    · isplitl [Hw1]; · iexact Hw1
      iexact Ho
    ihave Hw0 := (Entails.of_eq ((pts_winM (F := F) d i _ _ _).trans (pointsTo_congr (g := outV vals d) hland0))) $$ Hw0
    ihave Ho := ((pointsTo_split_subset (ℓ := oLoc d) hs0_0).2) $$ [Hw0 Ho]
    · isplitl [Hw0]; · iexact Hw0
      iexact Ho
    iexact Ho
  isplitl [Hs0' Hs1' Hs2' Hs3' Hbufs]
  · isplitl [Hs0']; · iexists _; iapply (Entails.of_eq (pts_s0 (F := F) d i _)); iexact Hs0'
    isplitl [Hs1']; · iexists _; iapply (Entails.of_eq (pts_s1 (F := F) d i _)); iexact Hs1'
    isplitl [Hs2']; · iexists _; iapply (Entails.of_eq (pts_s2 (F := F) d i _)); iexact Hs2'
    isplitl [Hs3']; · iexists _; iapply (Entails.of_eq (pts_s3 (F := F) d i _)); iexact Hs3'
    iexact Hbufs
  isplitl [Hsem Hsems]
  · isplitl [Hsem]; · iexact Hsem
    iexact Hsems
  iexists _; isplitr
  pick_goal 2
  · iexact HO
  · ipureintro
    exact ins_default _ (ins_default _ (ins_default _ (ins_default _ (ins_default _ (ins_default _ (ins_default _ (ins_default _ (ins_default _ (ins_default _ (ins_default _ (ins_default _ (ins_default _ (ins_default _ (ins_default _ (ins_default _ (ins_default _ (ins_default _ (ins_default _ (fun p hp => .inl hp)))))))))))))))))))

end Body

/-! ## The launch theorem's obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector [FloatOps F] (c : Fin τ.nSC) (s : Fin τ.nSub) :
    defs₀ (F := F) (.scVector c s) 1 ()
      = SparseCore.onTile hcore1 hsub1 (fun c s => cc1__sc_scatter (coordsV c s)
          bV (Memref.isWhole_whole _) pV (Memref.isWhole_whole _) iV (Memref.isWhole_whole _)
          oV (Memref.isWhole_whole _) oV (Memref.isWhole_whole _)
          s0 (Memref.isWhole_whole _) s1 (Memref.isWhole_whole _) s2 (Memref.isWhole_whole _) s3 (Memref.isWhole_whole _) cc1_scratch4) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The scatter kernel's body obligation: on every vector subcore of its grid, the task from the tile's rows and slab to
    the rows back and the slab at `outV`. -/
theorem tileObl [FloatOps F] (vals : Vals F) (hI : IdsOK vals) : (K (F := F)).TileObl (D (F := F)) 𝒱 (P vals) v₀ 0 := by
  intro d c i O W hO _ _
  simp only [show (P vals).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body d (coordsV ⟨_, hc.1⟩ ⟨_, hc.2⟩) vals hI O W hO).trans (wp_mono frame _ _ fun _ => obl_post)

end Cert.KernelIdeal.Hand

end
-- ==== Proof.Final.lean ====
/-
  The kernel's run, whole: every weakly fair execution of @main on the TensorCore beside the sequencers' and the sixteen
  tiles' threads terminates, nothing faulting, with the result array at what the tiles leave and the two arguments
  unchanged — the launch of the SparseCore call over one tile's task.
-/
import proofs.«211088_g14680198218050_cont_week2b_81_31_alg».proof.Proof.Run
import proofs.«211088_g14680198218050_cont_week2b_81_31_alg».proof.Proof.Tile

noncomputable section

namespace Cert.KernelIdeal.Hand

open Cert.KernelIdeal Cert.KernelIdeal.Gen
open Idealize.ShloMosaic Idealize.SL.Sem

variable {F : FTy → Type} [FloatOps F]

theorem run_main [∀ e, Nonempty (Elt F e)] (m : (ℓ : Loc nD τ sig) → Buf (Elt F) ℓ) (ρ : Dev nD → PrngReg) (hI : IdsOK (vals m)) :
    θ_run (Cert.KernelIdeal.defs (F := F)) (Cert.KernelIdeal.threads (F := F)) ⟨m, fun _ => 0, ρ⟩ (QC m) :=
  run_main_of m ρ (tileObl (vals m) hI)

end Cert.KernelIdeal.Hand

end
-- ==== Proof.MainRunBits.lean ====
import proofs.«211088_g14680198218050_cont_week2b_81_31_alg».proof.Proof.CommonBits
import proofs.«211088_g14680198218050_cont_week2b_81_31_alg».proof.Proof.MainTcBits
import proofs.«211088_g14680198218050_cont_week2b_81_31_alg».proof.Proof.ValuesBits

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]
variable (m : (ℓ : Loc nD τ sig) → Buf (Elt F) ℓ) (ρ : Dev nD → PrngReg)

theorem Otc_none (d : Dev nD) (n : ℕ) (g : GSem nD τ sig) : (K (F := F)).Otc d n g none = 0 := by
  by_contra h
  have := (K (F := F)).lev_of_Otc_pos (Nat.pos_of_ne_zero h); rw [SparseCore.Cfg.lev_none] at this; omega

theorem wbelow_zero_iff (d : Dev nD) (W : Waits sig (HIx 1)) : (K (F := F)).WBelow (T d) W (8 * 0) ↔ ∀ p ∈ W, p.2 = none := by
  unfold SparseCore.Cfg.WBelow
  refine forall_congr' fun p => forall_congr' fun _ => ?_
  rcases hp : p.2 with _ | q
  · simp
  · have := (K (F := F)).lev_some_pos ((T d : Thread nD τ), p.1) q
    constructor
    · intro h; omega
    · intro h; exact absurd h (by simp)

theorem st0_eq (d : Dev nD) : (bigSep Finset.univ fun c : Fin ((K (F := F)).nCore 0) => (P (vals m)).st 0 d c)
    = iprop(bPts (vals m) d ∗ pPts (vals m) d ∗ iPts (vals m) d ∗ oPts d ((vals m).fv d)) :=
  bigSep_univ_of_subsingleton (0 : Fin 1)
theorem dn0_eq (d : Dev nD) : (bigSep Finset.univ fun c : Fin ((K (F := F)).nCore 0) => (P (vals m)).dn 0 d c)
    = iprop(bPts (vals m) d ∗ pPts (vals m) d ∗ iPts (vals m) d ∗ oPts d (outV (vals m) d)) :=
  bigSep_univ_of_subsingleton (0 : Fin 1)

/-- What @main leaves the claim: the two arguments at their launch contents, the result at what the tiles left. -/
abbrev FIN (d : Dev nD) : sProp 𝕄 := iprop((aLoc d ↦{fullShare} m (aLoc d)) ∗ (iLoc d ↦{fullShare} m (iLoc d)) ∗ (oLoc d ↦{fullShare} outV (vals m) d))

theorem hop1 : (op1 (F := F)).bufs ⊆ S8 := show ({a', x'} : Finset (DevRef τ sig)) ⊆ S8 by decide
theorem hop2 : (op2 (F := F)).bufs ⊆ S8 := show ({i', j'} : Finset (DevRef τ sig)) ⊆ S8 by decide
theorem hop3 : (op3 (F := F)).bufs ⊆ S8 := show ({f', o'} : Finset (DevRef τ sig)) ⊆ S8 by decide

theorem held_V2 (d : Dev nD) :
    (held (T d) S8 (V2 m d) : sProp 𝕄) = iprop((aLoc d ↦{fullShare} V1 m d a') ∗ (iLoc d ↦{fullShare} V1 m d i') ∗ (xLoc d ↦{fullShare} V1 m d x')
      ∗ (fLoc d ↦{fullShare} fillV (V1 m d a')) ∗ (bLoc d ↦{fullShare} baseT (V1 m d x')) ∗ (pLoc d ↦{fullShare} peakT (V1 m d x'))
      ∗ (jLoc d ↦{fullShare} V1 m d j') ∗ (oLoc d ↦{fullShare} V1 m d o')) := by
  rw [held_S8, V2_of_ne m d a' (by decide) (by decide) (by decide), V2_of_ne m d i' (by decide) (by decide) (by decide),
    V2_of_ne m d x' (by decide) (by decide) (by decide), V2_f, V2_b, V2_p, V2_of_ne m d j' (by decide) (by decide) (by decide),
    V2_of_ne m d o' (by decide) (by decide) (by decide)]

/-- The region's inputs on device `d`: the arrays as the first reshape left them, what the TensorCore owes. -/
def fillIn : FillIn F :=
  ⟨fun d => V1 m d a', fun d => V1 m d x', fun d => V1 m d f', fun d => V1 m d b', fun d => V1 m d p', fun d => (K (F := F)).Otc d 0⟩

theorem fillPre_eq (d : Dev nD) : (fillPre (fillIn m) d : sProp 𝕄)
    = iprop((aLoc d ↦{fullShare} V1 m d a') ∗ (xLoc d ↦{fullShare} V1 m d x') ∗ (fLoc d ↦{fullShare} V1 m d f') ∗ (bLoc d ↦{fullShare} V1 m d b') ∗ (pLoc d ↦{fullShare} V1 m d p')
      ∗ ∃ W, ⌜∀ p ∈ W, p.2 = none⌝ ∗ owes (T d) ((K (F := F)).Otc d 0) W) := rfl
theorem fillPost_eq (d : Dev nD) : (fillPost (fillIn m) d : sProp 𝕄)
    = iprop((aLoc d ↦{fullShare} V1 m d a') ∗ (xLoc d ↦{fullShare} V1 m d x') ∗ (fLoc d ↦{fullShare} fillV (V1 m d a')) ∗ (bLoc d ↦{fullShare} baseT (V1 m d x')) ∗ (pLoc d ↦{fullShare} peakT (V1 m d x'))
      ∗ ∃ W, ⌜∀ p ∈ W, p.2 = none⌝ ∗ owes (T d) ((K (F := F)).Otc d 0) W) := rfl

theorem tcSt_owes (d : Dev nD) (n : ℕ) (P₀ : (K (F := F)).Pay (nD := nD) (Val := Elt F) (Name := ℕ) (U := UU)) :
    ((K (F := F)).tcSt EH d n : sProp 𝕄) ⊢ iprop((∃ W, ⌜(K (F := F)).WBelow (T d) W (8 * n)⌝ ∗ owes (T d) ((K (F := F)).Otc d n) W)
      ∗ ((∃ W, ⌜(K (F := F)).WBelow (T d) W (8 * n)⌝ ∗ owes (T d) ((K (F := F)).Otc d n) W) -∗ (K (F := F)).tcSt EH d n)) := by
  unfold SparseCore.Cfg.tcSt
  iintro ⟨HO, Hrest⟩
  isplitl [HO]; · iexact HO
  iintro HO
  isplitl [HO]; · iexact HO
  iexact Hrest

set_option backward.isDefEq.respectTransparency.types false in
/-- @main on device `d`'s TensorCore: the reshape of the log-SNR, the kernel region, the reshape of the ids, the copy of
    the filled array into the result's buffer, the SparseCore call. -/
theorem hmain (κ : GSem nD τ sig → ℕ) (d : Dev nD) :
    iprop((K (F := F)).ctx EH (P (vals m)) κ ∗ (K (F := F)).tcSt EH d 0 ∗ (K (F := F)).tcRes m ρ d ∗ G₀ (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, HG⟩
  ihave #Hlev := ((K (F := F)).ctx_levAts κ) $$ Hctx
  iapply (wp_hlo_within 𝒱 (SparseCore.T d) none Set.univ (op := op1) (S := S8) hop1 (V := V0 m d)) $$ [Hb Hheld]
  · isplitl [Hb]; · iexact Hb
    iexact Hheld
  iintro ⟨Hb, Hheld⟩
  ihave Hh := (Entails.of_eq (held_S8 (F := F) d _)) $$ Hheld
  icases Hh with ⟨Ha, Hi, Hx, Hf, Hbb, Hp, Hj, Ho⟩
  ihave Hs := (tcSt_owes (F := F) d 0 (P (vals m))) $$ Hst
  icases Hs with ⟨⟨%W, %hW, HO⟩, Hclose⟩
  rw [wp_ret]; imodintro
  iapply (wp_fill (F := F) (fillIn m) (fun d g => Otc_none (F := F) d 0 g) d (fun x => Prog.ret x) _) $$ [Hb Ha Hx Hf Hbb Hp HO HG Hi Hj Ho Hclose]
  isplitr; · iexact Hlev
  isplitl [Hb]; · iexact Hb
  isplitl [Ha Hx Hf Hbb Hp HO]
  · rw [fillPre_eq]
    isplitl [Ha]; · iexact Ha
    isplitl [Hx]; · iexact Hx
    isplitl [Hf]; · iexact Hf
    isplitl [Hbb]; · iexact Hbb
    isplitl [Hp]; · iexact Hp
    iexists W; isplitr
    · ipureintro; exact (wbelow_zero_iff (F := F) d W).mp hW
    · iexact HO
  icases HG with ⟨Hg, Ht⟩
  isplitl [Hg]; · iexact Hg
  isplitl [Ht]; · iexact Ht
  iintro ⟨Hb, Hpost⟩
  ihave Hpost := (Entails.of_eq (fillPost_eq (F := F) m d)) $$ Hpost
  icases Hpost with ⟨Ha, Hx, Hf, Hbb, Hp, %W', %hW', HO⟩
  rw [wp_ret]; imodintro
  ihave Hheld := (Entails.of_eq (held_V2 (F := F) m d).symm) $$ [Ha Hi Hx Hf Hbb Hp Hj Ho]
  · isplitl [Ha]; · iexact Ha
    isplitl [Hi]; · iexact Hi
    isplitl [Hx]; · iexact Hx
    isplitl [Hf]; · iexact Hf
    isplitl [Hbb]; · iexact Hbb
    isplitl [Hp]; · iexact Hp
    isplitl [Hj]; · iexact Hj
    iexact Ho
  iapply (wp_hlo_within 𝒱 (SparseCore.T d) none Set.univ (op := op2) (S := S8) hop2 (V := V2 m d)) $$ [Hb Hheld]
  · isplitl [Hb]; · iexact Hb
    iexact Hheld
  iintro ⟨Hb, Hheld⟩
  rw [wp_ret]; imodintro
  iapply (wp_hlo_within 𝒱 (SparseCore.T d) none Set.univ (op := op3) (S := S8) hop3 (V := V3 m d)) $$ [Hb Hheld]
  · isplitl [Hb]; · iexact Hb
    iexact Hheld
  iintro ⟨Hb, Hheld⟩
  rw [wp_ret]; imodintro
  ihave Hh := (Entails.of_eq (held_S8 (F := F) d _)) $$ Hheld
  icases Hh with ⟨Ha, Hi, Hx, Hf, Hbb, Hp, Hj, Ho⟩
  ihave Hst := Hclose $$ [HO]
  · iexists W'; isplitr
    · ipureintro; exact (wbelow_zero_iff (F := F) d W').mpr hW'
    · iexact HO
  iapply ((K (F := F)).wp_run (D (F := F)) 𝒱 (EH := EH) (P := P (vals m)) κ d 0) $$ [Hst Hbb Hp Hj Ho Ha Hi]
  isplitr; · iexact Hctx
  isplitl [Hst]; · iexact Hst
  isplitl [Hbb Hp Hj Ho]
  · rw [st0_eq]
    isplitl [Hbb]; · iexact Hbb
    isplitl [Hp]; · iexact Hp
    isplitl [Hj]; · iexact Hj
    iexact Ho
  iintro ⟨Hst, Hdn⟩
  ihave Hdn' := (Entails.of_eq (dn0_eq (F := F) m d)) $$ Hdn
  icases Hdn' with ⟨-, -, -, Ho⟩
  imodintro
  isplitl [Hst]; · iexact Hst
  isplitl [Ha]; · rw [← V4_a (F := F) m d]; iexact Ha
  isplitl [Hi]; · rw [← V4_i (F := F) m d]; iexact Hi
  iexact Ho

end Cert.Kernel.Hand

end
-- ==== Proof.RunBits.lean ====
import proofs.«211088_g14680198218050_cont_week2b_81_31_alg».proof.Proof.CommonBits
import proofs.«211088_g14680198218050_cont_week2b_81_31_alg».proof.Proof.MainRunBits

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable [FloatOps F]
variable (m : (ℓ : Loc nD τ sig) → Buf (Elt F) ℓ) (ρ : Dev nD → PrngReg)

/-! ## The program's run -/

def fq (d : Dev nD) (s' : Phys nD τ sig (Elt F)) : Prop :=
  s'.mem.mem (oLoc d) = outV (vals m) d ∧ s'.mem.mem (aLoc d) = m (aLoc d) ∧ s'.mem.mem (iLoc d) = m (iLoc d)

theorem hfin (d : Dev nD) (s' : Phys nD τ sig (Elt F)) : iprop(FIN m d ∗ SI s') ⊢ (⌜fq m d s'⌝ : sProp 𝕄) := by
  iintro ⟨⟨Ha, Hi, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (SI_pointsTo_agree (st := s') (ℓ := oLoc d) (I := Finset.univ) (q := fullShare) (f := outV (vals m) d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-- What the run leaves: the result at what the tiles left, the arguments unchanged. -/
def QC : PUnit × MemSt nD τ sig (Elt F) → Prop := fun r =>
  ∀ c : Dev nD, r.2.mem (oLoc c) = outV (vals m) c ∧ r.2.mem (aLoc c) = m (aLoc c) ∧ r.2.mem (iLoc c) = m (iLoc c)

/-- Every weakly fair execution of the program's threads terminates, nothing faulting, with the result array at what the
    tiles leave and the arguments unchanged — given one tile's task. -/
theorem run_main_of [∀ e, Nonempty (Elt F e)] (htile : (K (F := F)).TileObl (D (F := F)) 𝒱 (P (vals m)) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (vals m)) facts v₀
    (fun q hq => match q with | 0 => nomatch hq)
    (fun q _ => match q with | 0 => htile)
    (fun q _ => match q with | 0 => SparseCore.Cfg.VecSplit.of_plain (vecSplit (vals m)))
    m ρ main (fun d => G₀ (F := F) d) (FIN m) (u₀ (F := F)) (sep_elim_left.trans (hu₀ (vals m))) (hmain m ρ) (fq m) (hfin m) (QC m) (fun _ h => h)

end Cert.Kernel.Hand

end
-- ==== Proof.ScArithBits.lean ====
/- The integer arithmetic of the data-dependent slice offsets of the second kernel: each printed
   offsets chain (the row word, the column numeral, floor division by 16 spelt with its sign
   correction and multiplied back by 16) in closed form for a token id below 100000, and the
   side conditions that the slices stay inside the array. -/
import proofs.«211088_g14680198218050_cont_week2b_81_31_alg».proof.Kernel
import Mathlib.Tactic

namespace Cert.Kernel.ScArith

open Idealize.ShloMosaic
open Cert.Kernel

/-- The start of the 16-aligned block that holds the word `v`: `v` floor-divided by 16 — the
    quotient rounded toward zero, lowered by one when the signs of dividend and divisor differ
    and the remainder is not zero — times 16. -/
def blockStart (v : BitVec 32) : BitVec 32 :=
  let c0a : BitVec 32 := 0#32
  let sgtv : BitVec 1 := Scalar.cmpi .sgt v c0a
  let sgtvw : BitVec 32 := Scalar.extui sgtv
  let c0b : BitVec 32 := 0#32
  let sltv : BitVec 1 := Scalar.cmpi .slt v c0b
  let sltvw : BitVec 32 := Scalar.extui sltv
  let signv : BitVec 32 := Scalar.subi sgtvw sltvw
  let c16 : BitVec 32 := 16#32
  let c0c : BitVec 32 := 0#32
  let sgtd : BitVec 1 := Scalar.cmpi .sgt c16 c0c
  let sgtdw : BitVec 32 := Scalar.extui sgtd
  let c0d : BitVec 32 := 0#32
  let sltd : BitVec 1 := Scalar.cmpi .slt c16 c0d
  let sltdw : BitVec 32 := Scalar.extui sltd
  let signd : BitVec 32 := Scalar.subi sgtdw sltdw
  let differ : BitVec 1 := Scalar.cmpi .ne signv signd
  let rem : BitVec 32 := Scalar.remsi v c16
  let c0e : BitVec 32 := 0#32
  let remNe : BitVec 1 := Scalar.cmpi .ne rem c0e
  let fix : BitVec 1 := Scalar.andi differ remNe
  let quot : BitVec 32 := Scalar.divsi v c16
  let c1 : BitVec 32 := 1#32
  let quotLess : BitVec 32 := Scalar.subi quot c1
  let fl : BitVec 32 := Scalar.select fix quotLess quot
  let c16' : BitVec 32 := 16#32
  Scalar.muli fl c16'

/-- The row word of tile `s`: `2 * s + k`. -/
def rowWord (i : grid1.Coords) (k : BitVec 32) : BitVec 32 :=
  Scalar.addi (Scalar.muli (BitVec.ofNat 32 (i 1).val) 2#32) k

theorem msb_of_lt (v : BitVec 32) (hv : v.toNat < 100000) : v.msb = false := by
  rw [BitVec.msb_eq_false_iff_two_mul_lt]; omega

/-- Signed division by 16 of a word with the sign bit clear is the unsigned one. -/
theorem divsi16 (v : BitVec 32) (h : v.msb = false) : Scalar.divsi v 16#32 = v / 16#32 := by
  have hc : ¬ IntOp.SDivCorner v 16#32 := by
    rintro (h0 | ⟨_, h1⟩)
    · exact absurd h0 (by decide)
    · exact absurd h1 (by decide)
  have h16 : (16#32 : BitVec 32).msb = false := by decide
  simp only [Scalar.divsi, IntOp.divsi, if_neg hc, BitVec.sdiv_eq, h, h16, BitVec.udiv_eq]

/-- Signed remainder by 16 of a word with the sign bit clear is the unsigned one. -/
theorem remsi16 (v : BitVec 32) (h : v.msb = false) : Scalar.remsi v 16#32 = v % 16#32 := by
  have hc : ¬ IntOp.SDivCorner v 16#32 := by
    rintro (h0 | ⟨_, h1⟩)
    · exact absurd h0 (by decide)
    · exact absurd h1 (by decide)
  have h16 : (16#32 : BitVec 32).msb = false := by decide
  simp only [Scalar.remsi, IntOp.remsi, if_neg hc, BitVec.srem_eq, h, h16, BitVec.umod_eq]

theorem cmpi_sgt_zero (v : BitVec 32) (hm : v.msb = false) (hpos : 0 < v.toNat) :
    Scalar.cmpi .sgt v 0#32 = 1#1 := by
  have h : (0#32 : BitVec 32).slt v = true := by
    have := BitVec.toInt_eq_toNat_of_msb hm
    simp only [BitVec.slt, BitVec.toInt_zero, this, decide_eq_true_eq]
    omega
  show BitVec.ofBool ((0#32 : BitVec 32).slt v) = 1#1
  rw [h]; rfl

theorem cmpi_slt_zero (v : BitVec 32) (hm : v.msb = false) :
    Scalar.cmpi .slt v 0#32 = 0#1 := by
  have h : v.slt (0#32) = false := by
    have := BitVec.toInt_eq_toNat_of_msb hm
    simp only [BitVec.slt, BitVec.toInt_zero, this, decide_eq_false_iff_not]
    omega
  show BitVec.ofBool (v.slt (0#32)) = 0#1
  rw [h]; rfl

/-- For a word below 100000 the sign correction never fires: the block start is the unsigned
    quotient by 16, times 16. A positive word has the divisor's sign; zero has remainder zero. -/
theorem blockStart_eq (v : BitVec 32) (hv : v.toNat < 100000) :
    blockStart v = (v / 16#32) * 16#32 := by
  have hm := msb_of_lt v hv
  rcases Nat.eq_zero_or_pos v.toNat with h0 | hpos
  · have : v = 0#32 := BitVec.eq_of_toNat_eq (by simpa using h0)
    subst this; decide
  · unfold blockStart
    simp only [divsi16 v hm, remsi16 v hm, cmpi_sgt_zero v hm hpos, cmpi_slt_zero v hm]
    have hd : Scalar.cmpi .ne (Scalar.subi (Scalar.extui 1#1) (Scalar.extui 0#1))
        (Scalar.subi (Scalar.extui (Scalar.cmpi .sgt 16#32 0#32))
          (Scalar.extui (Scalar.cmpi .slt 16#32 0#32))) = 0#1 := by decide
    rw [hd]
    simp only [Scalar.andi, IntOp.andi, BitVec.zero_and, Scalar.select, Scalar.muli, IntOp.muli]
    rw [if_neg (by decide)]

theorem blockStart_toNat (v : BitVec 32) (hv : v.toNat < 100000) :
    (blockStart v).toNat = 16 * (v.toNat / 16) := by
  rw [blockStart_eq v hv, BitVec.toNat_mul, BitVec.toNat_udiv]
  have h16 : (16#32 : BitVec 32).toNat = 16 := rfl
  rw [h16]; omega

theorem rowWord_toNat (i : grid1.Coords) (k : BitVec 32) (hk : k.toNat ≤ 1) :
    (rowWord i k).toNat = 2 * (i 1).val + k.toNat := by
  have hs : (i 1).val < 16 := (i 1).isLt
  unfold rowWord
  simp only [Scalar.addi, Scalar.muli, IntOp.addi, IntOp.muli, BitVec.toNat_add, BitVec.toNat_mul,
    BitVec.toNat_ofNat]
  omega

theorem rowWord0_toNat (i : grid1.Coords) : (rowWord i 0#32).toNat = 2 * (i 1).val + 0 :=
  rowWord_toNat i 0#32 (by decide)

theorem rowWord1_toNat (i : grid1.Coords) : (rowWord i 1#32).toNat = 2 * (i 1).val + 1 :=
  rowWord_toNat i 1#32 (by decide)

/-- A 1×1×16 slice at row `r < 32`, column `c < 8` and lane offset `b` with `b + 16 ≤ 100000`
    lies inside the 32×8×100000 array. -/
theorem inb_of (r c b : Nat) (hr : r < 32) (hc : c < 8) (hb : b + 16 ≤ 100000) :
    ∀ a, (![r, c, b] : Fin 3 → Nat) a + S1x1x16.size a ≤ S32x8x100000.size a := by
  intro a
  fin_cases a
  · show r + 1 ≤ 32; omega
  · show c + 1 ≤ 8; omega
  · show b + 16 ≤ 100000; omega

/-! ## The sixteen destination slices, the views the waits re-bind, and the side conditions -/

theorem k1_off2_eq (i : grid1.Coords) (v : BitVec 32) (hv : v.toNat < 100000) :
    k1_off2 i v = ![2 * (i 1).val + 0, 0, 16 * (v.toNat / 16)] := by
  have h : k1_off2 i v = ![(rowWord i 0#32).toNat, 0, (blockStart v).toNat] := rfl
  rw [h, rowWord0_toNat, blockStart_toNat v hv]

theorem k1_off3_eq (i : grid1.Coords) (v : BitVec 32) (hv : v.toNat < 100000) :
    k1_off3 i v = ![2 * (i 1).val + 0, 1, 16 * (v.toNat / 16)] := by
  have h : k1_off3 i v = ![(rowWord i 0#32).toNat, 1, (blockStart v).toNat] := rfl
  rw [h, rowWord0_toNat, blockStart_toNat v hv]

theorem k1_off4_eq (i : grid1.Coords) (v : BitVec 32) (hv : v.toNat < 100000) :
    k1_off4 i v = ![2 * (i 1).val + 0, 2, 16 * (v.toNat / 16)] := by
  have h : k1_off4 i v = ![(rowWord i 0#32).toNat, 2, (blockStart v).toNat] := rfl
  rw [h, rowWord0_toNat, blockStart_toNat v hv]

theorem k1_off5_eq (i : grid1.Coords) (v : BitVec 32) (hv : v.toNat < 100000) :
    k1_off5 i v = ![2 * (i 1).val + 0, 3, 16 * (v.toNat / 16)] := by
  have h : k1_off5 i v = ![(rowWord i 0#32).toNat, 3, (blockStart v).toNat] := rfl
  rw [h, rowWord0_toNat, blockStart_toNat v hv]

theorem k1_off6_eq (i : grid1.Coords) (v : BitVec 32) (hv : v.toNat < 100000) :
    k1_off6 i v = ![2 * (i 1).val + 0, 4, 16 * (v.toNat / 16)] := by
  have h : k1_off6 i v = ![(rowWord i 0#32).toNat, 4, (blockStart v).toNat] := rfl
  rw [h, rowWord0_toNat, blockStart_toNat v hv]

theorem k1_off7_eq (i : grid1.Coords) (v : BitVec 32) (hv : v.toNat < 100000) :
    k1_off7 i v = ![2 * (i 1).val + 0, 5, 16 * (v.toNat / 16)] := by
  have h : k1_off7 i v = ![(rowWord i 0#32).toNat, 5, (blockStart v).toNat] := rfl
  rw [h, rowWord0_toNat, blockStart_toNat v hv]

theorem k1_off8_eq (i : grid1.Coords) (v : BitVec 32) (hv : v.toNat < 100000) :
    k1_off8 i v = ![2 * (i 1).val + 0, 6, 16 * (v.toNat / 16)] := by
  have h : k1_off8 i v = ![(rowWord i 0#32).toNat, 6, (blockStart v).toNat] := rfl
  rw [h, rowWord0_toNat, blockStart_toNat v hv]

theorem k1_off9_eq (i : grid1.Coords) (v : BitVec 32) (hv : v.toNat < 100000) :
    k1_off9 i v = ![2 * (i 1).val + 0, 7, 16 * (v.toNat / 16)] := by
  have h : k1_off9 i v = ![(rowWord i 0#32).toNat, 7, (blockStart v).toNat] := rfl
  rw [h, rowWord0_toNat, blockStart_toNat v hv]

theorem k1_off10_eq (i : grid1.Coords) (v : BitVec 32) (hv : v.toNat < 100000) :
    k1_off10 i v = ![2 * (i 1).val + 1, 0, 16 * (v.toNat / 16)] := by
  have h : k1_off10 i v = ![(rowWord i 1#32).toNat, 0, (blockStart v).toNat] := rfl
  rw [h, rowWord1_toNat, blockStart_toNat v hv]

theorem k1_off11_eq (i : grid1.Coords) (v : BitVec 32) (hv : v.toNat < 100000) :
    k1_off11 i v = ![2 * (i 1).val + 1, 1, 16 * (v.toNat / 16)] := by
  have h : k1_off11 i v = ![(rowWord i 1#32).toNat, 1, (blockStart v).toNat] := rfl
  rw [h, rowWord1_toNat, blockStart_toNat v hv]

theorem k1_off12_eq (i : grid1.Coords) (v : BitVec 32) (hv : v.toNat < 100000) :
    k1_off12 i v = ![2 * (i 1).val + 1, 2, 16 * (v.toNat / 16)] := by
  have h : k1_off12 i v = ![(rowWord i 1#32).toNat, 2, (blockStart v).toNat] := rfl
  rw [h, rowWord1_toNat, blockStart_toNat v hv]

theorem k1_off13_eq (i : grid1.Coords) (v : BitVec 32) (hv : v.toNat < 100000) :
    k1_off13 i v = ![2 * (i 1).val + 1, 3, 16 * (v.toNat / 16)] := by
  have h : k1_off13 i v = ![(rowWord i 1#32).toNat, 3, (blockStart v).toNat] := rfl
  rw [h, rowWord1_toNat, blockStart_toNat v hv]

theorem k1_off14_eq (i : grid1.Coords) (v : BitVec 32) (hv : v.toNat < 100000) :
    k1_off14 i v = ![2 * (i 1).val + 1, 4, 16 * (v.toNat / 16)] := by
  have h : k1_off14 i v = ![(rowWord i 1#32).toNat, 4, (blockStart v).toNat] := rfl
  rw [h, rowWord1_toNat, blockStart_toNat v hv]

theorem k1_off15_eq (i : grid1.Coords) (v : BitVec 32) (hv : v.toNat < 100000) :
    k1_off15 i v = ![2 * (i 1).val + 1, 5, 16 * (v.toNat / 16)] := by
  have h : k1_off15 i v = ![(rowWord i 1#32).toNat, 5, (blockStart v).toNat] := rfl
  rw [h, rowWord1_toNat, blockStart_toNat v hv]

theorem k1_off16_eq (i : grid1.Coords) (v : BitVec 32) (hv : v.toNat < 100000) :
    k1_off16 i v = ![2 * (i 1).val + 1, 6, 16 * (v.toNat / 16)] := by
  have h : k1_off16 i v = ![(rowWord i 1#32).toNat, 6, (blockStart v).toNat] := rfl
  rw [h, rowWord1_toNat, blockStart_toNat v hv]

theorem k1_off17_eq (i : grid1.Coords) (v : BitVec 32) (hv : v.toNat < 100000) :
    k1_off17 i v = ![2 * (i 1).val + 1, 7, 16 * (v.toNat / 16)] := by
  have h : k1_off17 i v = ![(rowWord i 1#32).toNat, 7, (blockStart v).toNat] := rfl
  rw [h, rowWord1_toNat, blockStart_toNat v hv]

theorem k1_off18_eq (i : grid1.Coords) (v : BitVec 32) (hv : v.toNat < 100000) :
    k1_off18 i v = ![2 * (i 1).val + 0, 0, 16 * (v.toNat / 16)] := by
  have h : k1_off18 i v = ![(rowWord i 0#32).toNat, 0, (blockStart v).toNat] := rfl
  rw [h, rowWord0_toNat, blockStart_toNat v hv]

theorem k1_off19_eq (i : grid1.Coords) (v : BitVec 32) (hv : v.toNat < 100000) :
    k1_off19 i v = ![2 * (i 1).val + 0, 1, 16 * (v.toNat / 16)] := by
  have h : k1_off19 i v = ![(rowWord i 0#32).toNat, 1, (blockStart v).toNat] := rfl
  rw [h, rowWord0_toNat, blockStart_toNat v hv]

theorem k1_off20_eq (i : grid1.Coords) (v : BitVec 32) (hv : v.toNat < 100000) :
    k1_off20 i v = ![2 * (i 1).val + 0, 2, 16 * (v.toNat / 16)] := by
  have h : k1_off20 i v = ![(rowWord i 0#32).toNat, 2, (blockStart v).toNat] := rfl
  rw [h, rowWord0_toNat, blockStart_toNat v hv]

theorem k1_off21_eq (i : grid1.Coords) (v : BitVec 32) (hv : v.toNat < 100000) :
    k1_off21 i v = ![2 * (i 1).val + 0, 3, 16 * (v.toNat / 16)] := by
  have h : k1_off21 i v = ![(rowWord i 0#32).toNat, 3, (blockStart v).toNat] := rfl
  rw [h, rowWord0_toNat, blockStart_toNat v hv]

theorem k1_off22_eq (i : grid1.Coords) (v : BitVec 32) (hv : v.toNat < 100000) :
    k1_off22 i v = ![2 * (i 1).val + 0, 4, 16 * (v.toNat / 16)] := by
  have h : k1_off22 i v = ![(rowWord i 0#32).toNat, 4, (blockStart v).toNat] := rfl
  rw [h, rowWord0_toNat, blockStart_toNat v hv]

theorem k1_off23_eq (i : grid1.Coords) (v : BitVec 32) (hv : v.toNat < 100000) :
    k1_off23 i v = ![2 * (i 1).val + 0, 5, 16 * (v.toNat / 16)] := by
  have h : k1_off23 i v = ![(rowWord i 0#32).toNat, 5, (blockStart v).toNat] := rfl
  rw [h, rowWord0_toNat, blockStart_toNat v hv]

theorem k1_off24_eq (i : grid1.Coords) (v : BitVec 32) (hv : v.toNat < 100000) :
    k1_off24 i v = ![2 * (i 1).val + 0, 6, 16 * (v.toNat / 16)] := by
  have h : k1_off24 i v = ![(rowWord i 0#32).toNat, 6, (blockStart v).toNat] := rfl
  rw [h, rowWord0_toNat, blockStart_toNat v hv]

theorem k1_off25_eq (i : grid1.Coords) (v : BitVec 32) (hv : v.toNat < 100000) :
    k1_off25 i v = ![2 * (i 1).val + 0, 7, 16 * (v.toNat / 16)] := by
  have h : k1_off25 i v = ![(rowWord i 0#32).toNat, 7, (blockStart v).toNat] := rfl
  rw [h, rowWord0_toNat, blockStart_toNat v hv]

theorem k1_off26_eq (i : grid1.Coords) (v : BitVec 32) (hv : v.toNat < 100000) :
    k1_off26 i v = ![2 * (i 1).val + 1, 0, 16 * (v.toNat / 16)] := by
  have h : k1_off26 i v = ![(rowWord i 1#32).toNat, 0, (blockStart v).toNat] := rfl
  rw [h, rowWord1_toNat, blockStart_toNat v hv]

theorem k1_off27_eq (i : grid1.Coords) (v : BitVec 32) (hv : v.toNat < 100000) :
    k1_off27 i v = ![2 * (i 1).val + 1, 1, 16 * (v.toNat / 16)] := by
  have h : k1_off27 i v = ![(rowWord i 1#32).toNat, 1, (blockStart v).toNat] := rfl
  rw [h, rowWord1_toNat, blockStart_toNat v hv]

theorem k1_off28_eq (i : grid1.Coords) (v : BitVec 32) (hv : v.toNat < 100000) :
    k1_off28 i v = ![2 * (i 1).val + 1, 2, 16 * (v.toNat / 16)] := by
  have h : k1_off28 i v = ![(rowWord i 1#32).toNat, 2, (blockStart v).toNat] := rfl
  rw [h, rowWord1_toNat, blockStart_toNat v hv]

theorem k1_off29_eq (i : grid1.Coords) (v : BitVec 32) (hv : v.toNat < 100000) :
    k1_off29 i v = ![2 * (i 1).val + 1, 3, 16 * (v.toNat / 16)] := by
  have h : k1_off29 i v = ![(rowWord i 1#32).toNat, 3, (blockStart v).toNat] := rfl
  rw [h, rowWord1_toNat, blockStart_toNat v hv]

theorem k1_off30_eq (i : grid1.Coords) (v : BitVec 32) (hv : v.toNat < 100000) :
    k1_off30 i v = ![2 * (i 1).val + 1, 4, 16 * (v.toNat / 16)] := by
  have h : k1_off30 i v = ![(rowWord i 1#32).toNat, 4, (blockStart v).toNat] := rfl
  rw [h, rowWord1_toNat, blockStart_toNat v hv]

theorem k1_off31_eq (i : grid1.Coords) (v : BitVec 32) (hv : v.toNat < 100000) :
    k1_off31 i v = ![2 * (i 1).val + 1, 5, 16 * (v.toNat / 16)] := by
  have h : k1_off31 i v = ![(rowWord i 1#32).toNat, 5, (blockStart v).toNat] := rfl
  rw [h, rowWord1_toNat, blockStart_toNat v hv]

theorem k1_off32_eq (i : grid1.Coords) (v : BitVec 32) (hv : v.toNat < 100000) :
    k1_off32 i v = ![2 * (i 1).val + 1, 6, 16 * (v.toNat / 16)] := by
  have h : k1_off32 i v = ![(rowWord i 1#32).toNat, 6, (blockStart v).toNat] := rfl
  rw [h, rowWord1_toNat, blockStart_toNat v hv]

theorem k1_chk1_of (i : grid1.Coords) (v : BitVec 32) (hv : v.toNat < 100000) : k1_chk1 i v := by
  have hs : (i 1).val < 16 := (i 1).isLt
  unfold k1_chk1
  refine ⟨?_, ?_⟩
  · rw [k1_off2_eq i v hv]; exact inb_of _ _ _ (by omega) (by omega) (by omega)
  · rw [k1_off18_eq i v hv]; exact inb_of _ _ _ (by omega) (by omega) (by omega)

theorem k1_chk2_of (i : grid1.Coords) (v : BitVec 32) (hv : v.toNat < 100000) : k1_chk2 i v := by
  have hs : (i 1).val < 16 := (i 1).isLt
  unfold k1_chk2
  refine ⟨?_, ?_⟩
  · rw [k1_off3_eq i v hv]; exact inb_of _ _ _ (by omega) (by omega) (by omega)
  · rw [k1_off19_eq i v hv]; exact inb_of _ _ _ (by omega) (by omega) (by omega)

theorem k1_chk3_of (i : grid1.Coords) (v : BitVec 32) (hv : v.toNat < 100000) : k1_chk3 i v := by
  have hs : (i 1).val < 16 := (i 1).isLt
  unfold k1_chk3
  refine ⟨?_, ?_⟩
  · rw [k1_off4_eq i v hv]; exact inb_of _ _ _ (by omega) (by omega) (by omega)
  · rw [k1_off20_eq i v hv]; exact inb_of _ _ _ (by omega) (by omega) (by omega)

theorem k1_chk4_of (i : grid1.Coords) (v : BitVec 32) (hv : v.toNat < 100000) : k1_chk4 i v := by
  have hs : (i 1).val < 16 := (i 1).isLt
  unfold k1_chk4
  refine ⟨?_, ?_⟩
  · rw [k1_off5_eq i v hv]; exact inb_of _ _ _ (by omega) (by omega) (by omega)
  · rw [k1_off21_eq i v hv]; exact inb_of _ _ _ (by omega) (by omega) (by omega)

theorem k1_chk5_of (i : grid1.Coords) (v : BitVec 32) (hv : v.toNat < 100000) : k1_chk5 i v := by
  have hs : (i 1).val < 16 := (i 1).isLt
  unfold k1_chk5
  refine ⟨?_, ?_⟩
  · rw [k1_off6_eq i v hv]; exact inb_of _ _ _ (by omega) (by omega) (by omega)
  · rw [k1_off22_eq i v hv]; exact inb_of _ _ _ (by omega) (by omega) (by omega)

theorem k1_chk6_of (i : grid1.Coords) (v : BitVec 32) (hv : v.toNat < 100000) : k1_chk6 i v := by
  have hs : (i 1).val < 16 := (i 1).isLt
  unfold k1_chk6
  refine ⟨?_, ?_⟩
  · rw [k1_off7_eq i v hv]; exact inb_of _ _ _ (by omega) (by omega) (by omega)
  · rw [k1_off23_eq i v hv]; exact inb_of _ _ _ (by omega) (by omega) (by omega)

theorem k1_chk7_of (i : grid1.Coords) (v : BitVec 32) (hv : v.toNat < 100000) : k1_chk7 i v := by
  have hs : (i 1).val < 16 := (i 1).isLt
  unfold k1_chk7
  refine ⟨?_, ?_⟩
  · rw [k1_off8_eq i v hv]; exact inb_of _ _ _ (by omega) (by omega) (by omega)
  · rw [k1_off24_eq i v hv]; exact inb_of _ _ _ (by omega) (by omega) (by omega)

theorem k1_chk8_of (i : grid1.Coords) (v : BitVec 32) (hv : v.toNat < 100000) : k1_chk8 i v := by
  have hs : (i 1).val < 16 := (i 1).isLt
  unfold k1_chk8
  refine ⟨?_, ?_⟩
  · rw [k1_off9_eq i v hv]; exact inb_of _ _ _ (by omega) (by omega) (by omega)
  · rw [k1_off25_eq i v hv]; exact inb_of _ _ _ (by omega) (by omega) (by omega)

theorem k1_chk9_of (i : grid1.Coords) (v : BitVec 32) (hv : v.toNat < 100000) : k1_chk9 i v := by
  have hs : (i 1).val < 16 := (i 1).isLt
  unfold k1_chk9
  refine ⟨?_, ?_⟩
  · rw [k1_off10_eq i v hv]; exact inb_of _ _ _ (by omega) (by omega) (by omega)
  · rw [k1_off26_eq i v hv]; exact inb_of _ _ _ (by omega) (by omega) (by omega)

theorem k1_chk10_of (i : grid1.Coords) (v : BitVec 32) (hv : v.toNat < 100000) : k1_chk10 i v := by
  have hs : (i 1).val < 16 := (i 1).isLt
  unfold k1_chk10
  refine ⟨?_, ?_⟩
  · rw [k1_off11_eq i v hv]; exact inb_of _ _ _ (by omega) (by omega) (by omega)
  · rw [k1_off27_eq i v hv]; exact inb_of _ _ _ (by omega) (by omega) (by omega)

theorem k1_chk11_of (i : grid1.Coords) (v : BitVec 32) (hv : v.toNat < 100000) : k1_chk11 i v := by
  have hs : (i 1).val < 16 := (i 1).isLt
  unfold k1_chk11
  refine ⟨?_, ?_⟩
  · rw [k1_off12_eq i v hv]; exact inb_of _ _ _ (by omega) (by omega) (by omega)
  · rw [k1_off28_eq i v hv]; exact inb_of _ _ _ (by omega) (by omega) (by omega)

theorem k1_chk12_of (i : grid1.Coords) (v : BitVec 32) (hv : v.toNat < 100000) : k1_chk12 i v := by
  have hs : (i 1).val < 16 := (i 1).isLt
  unfold k1_chk12
  refine ⟨?_, ?_⟩
  · rw [k1_off13_eq i v hv]; exact inb_of _ _ _ (by omega) (by omega) (by omega)
  · rw [k1_off29_eq i v hv]; exact inb_of _ _ _ (by omega) (by omega) (by omega)

theorem k1_chk13_of (i : grid1.Coords) (v : BitVec 32) (hv : v.toNat < 100000) : k1_chk13 i v := by
  have hs : (i 1).val < 16 := (i 1).isLt
  unfold k1_chk13
  refine ⟨?_, ?_⟩
  · rw [k1_off14_eq i v hv]; exact inb_of _ _ _ (by omega) (by omega) (by omega)
  · rw [k1_off30_eq i v hv]; exact inb_of _ _ _ (by omega) (by omega) (by omega)

theorem k1_chk14_of (i : grid1.Coords) (v : BitVec 32) (hv : v.toNat < 100000) : k1_chk14 i v := by
  have hs : (i 1).val < 16 := (i 1).isLt
  unfold k1_chk14
  refine ⟨?_, ?_⟩
  · rw [k1_off15_eq i v hv]; exact inb_of _ _ _ (by omega) (by omega) (by omega)
  · rw [k1_off31_eq i v hv]; exact inb_of _ _ _ (by omega) (by omega) (by omega)

theorem k1_chk15_of (i : grid1.Coords) (v : BitVec 32) (hv : v.toNat < 100000) : k1_chk15 i v := by
  have hs : (i 1).val < 16 := (i 1).isLt
  unfold k1_chk15
  refine ⟨?_, ?_⟩
  · rw [k1_off16_eq i v hv]; exact inb_of _ _ _ (by omega) (by omega) (by omega)
  · rw [k1_off32_eq i v hv]; exact inb_of _ _ _ (by omega) (by omega) (by omega)

theorem k1_chk16_of (i : grid1.Coords) (v : BitVec 32) (hv : v.toNat < 100000) : k1_chk16 i v := by
  have hs : (i 1).val < 16 := (i 1).isLt
  unfold k1_chk16
  rw [k1_off17_eq i v hv]; exact inb_of _ _ _ (by omega) (by omega) (by omega)

end Cert.Kernel.ScArith
-- ==== Proof.ScPayBits.lean ====
/- The vectors the second kernel stores, lane by lane: each is the select of a peak value
   against a base value on the one lane whose number is the token id's remainder by 16. -/
import proofs.«211088_g14680198218050_cont_week2b_81_31_alg».proof.Proof.Gen.Kernel.Skeleton
import proofs.«211088_g14680198218050_cont_week2b_81_31_alg».proof.Proof.ScArithBits
import Idealize.ShloMosaic.Lib.Pipeline.Value
import Mathlib.Tactic

namespace Cert.Kernel.ScPay

open Idealize.ShloMosaic Idealize.SL.Sem
open Cert.Kernel Cert.Kernel.Gen Cert.Kernel.ScArith

variable {F : FTy → Type} [FloatOps F]

/-- The word less the start of its block of 16 is its remainder by 16. -/
theorem laneWord_toNat (v : BitVec 32) (hv : v.toNat < 100000) :
    (Scalar.subi v (blockStart v)).toNat = v.toNat % 16 := by
  rw [blockStart_eq v hv]
  simp only [Scalar.subi, IntOp.subi]
  rw [BitVec.toNat_sub, BitVec.toNat_mul, BitVec.toNat_udiv]
  have h16 : (16#32 : BitVec 32).toNat = 16 := rfl
  rw [h16]; omega

/-- The lane numbers of one register: lane `l` holds the word `l`. -/
theorem iota_lane (l : S16.Idx) :
    iota .scVector S16 32 [0] iota_S16_d0_w32_scVector l = BitVec.ofNat 32 (l 0).val := by
  simp [iota]

/-- Element `0` of the one-element block at offset `q` is element `q`. -/
theorem extractAt_slice {α : Type} (x : S16.Idx → α) (q : Nat) (hs : S16.Slices ![q] S1)
    (hp : ∀ a, (![0] : Fin 1 → Nat) a < S1.size a) (hq : ∀ a, (![q] : Fin 1 → Nat) a < S16.size a) :
    extractAt ![0] (extractStridedSlice S1 ![q] x hs) hp = extractAt ![q] x hq := by
  unfold extractAt extractStridedSlice
  congr 1; funext a; apply Fin.ext; fin_cases a; simp

/-- A select, on the lanes equal to a word's remainder by 16, of one broadcast value against
    another: at lane `l` it is the first exactly when `l` is that remainder. -/
theorem selLane {α : Type} (v30 : IVec S16 32)
    (h30 : ∀ l : S16.Idx, v30 l = BitVec.ofNat 32 (l 0).val)
    (v : BitVec 32) (hv : v.toNat < 100000) (pk bs : α) (l : S16.Idx) :
    shapeCast S16 (select (cmpi .eq v30 (broadcast S16 (Scalar.subi v (blockStart v))))
      (broadcast S16 pk) (broadcast S16 bs)) shapeCasts_S16_S16 l
      = if (l 0).val = v.toNat % 16 then pk else bs := by
  rw [shapeCast_self]
  have hl : (l 0).val < 16 := (l 0).isLt
  have hw := laneWord_toNat v hv
  have key : (BitVec.ofNat 32 (l 0).val = Scalar.subi v (blockStart v)) ↔ (l 0).val = v.toNat % 16 := by
    rw [← BitVec.toNat_inj, BitVec.toNat_ofNat, hw]
    constructor <;> intro h <;> omega
  show (if BitVec.ofBool (v30 l == Scalar.subi v (blockStart v)) = 1#1 then pk else bs) = _
  rw [h30 l]
  by_cases h : (l 0).val = v.toNat % 16
  · have e : (BitVec.ofNat 32 (l 0).val == Scalar.subi v (blockStart v)) = true := by
      simpa using key.mpr h
    rw [e, if_pos h]; rfl
  · have e : (BitVec.ofNat 32 (l 0).val == Scalar.subi v (blockStart v)) = false := by
      simpa using (not_congr key).mpr h
    rw [e, if_neg h]; rfl

/-! ## The sixteen stored vectors

Each statement names the arguments exactly as the preceding part of the body computes and hands
them on (a prefix of the floor-division chain of the token id `v`). -/

theorem k1_pay5_apply (v25 v27 : FVec F S16 .f32) (v30 : IVec S16 32)
    (h30 : ∀ l : S16.Idx, v30 l = BitVec.ofNat 32 (l 0).val)
    (v : BitVec 32) (hv : v.toNat < 100000) (l : S16.Idx) :
    k1_pay5 v25 v27 v30 v
        16#32 (Scalar.divsi v 16#32) 0#32 l
      = if (l 0).val = v.toNat % 16 then extractAt ![0] v27 else extractAt ![0] v25 := by
  have h : k1_pay5 v25 v27 v30 v
        16#32 (Scalar.divsi v 16#32) 0#32
      = shapeCast S16 (select (cmpi .eq v30 (broadcast S16 (Scalar.subi v (blockStart v))))
          (broadcast S16 (extractAt ![0] (extractStridedSlice S1 ![0] v27 slices_S16_o0_S1) inpos_S1_p0))
          (broadcast S16 (extractAt ![0] (extractStridedSlice S1 ![0] v25 slices_S16_o0_S1) inpos_S1_p0)))
          shapeCasts_S16_S16 := rfl
  rw [h, selLane v30 h30 v hv, extractAt_slice, extractAt_slice]

theorem k1_pay7_apply (v25 v27 : FVec F S16 .f32) (v30 : IVec S16 32)
    (h30 : ∀ l : S16.Idx, v30 l = BitVec.ofNat 32 (l 0).val)
    (v : BitVec 32) (hv : v.toNat < 100000) (l : S16.Idx) :
    k1_pay7 v25 v27 v30 v
        16#32 (Scalar.divsi v 16#32) (Scalar.extui (Scalar.cmpi .sgt v 0#32)) l
      = if (l 0).val = v.toNat % 16 then extractAt ![1] v27 else extractAt ![1] v25 := by
  have h : k1_pay7 v25 v27 v30 v
        16#32 (Scalar.divsi v 16#32) (Scalar.extui (Scalar.cmpi .sgt v 0#32))
      = shapeCast S16 (select (cmpi .eq v30 (broadcast S16 (Scalar.subi v (blockStart v))))
          (broadcast S16 (extractAt ![0] (extractStridedSlice S1 ![1] v27 slices_S16_o1_S1) inpos_S1_p0))
          (broadcast S16 (extractAt ![0] (extractStridedSlice S1 ![1] v25 slices_S16_o1_S1) inpos_S1_p0)))
          shapeCasts_S16_S16 := rfl
  rw [h, selLane v30 h30 v hv, extractAt_slice, extractAt_slice]

theorem k1_pay9_apply (v25 v27 : FVec F S16 .f32) (v30 : IVec S16 32)
    (h30 : ∀ l : S16.Idx, v30 l = BitVec.ofNat 32 (l 0).val)
    (v : BitVec 32) (hv : v.toNat < 100000) (l : S16.Idx) :
    k1_pay9 v25 v27 v30 v
        16#32 (Scalar.divsi v 16#32) (Scalar.extui (Scalar.cmpi .sgt v 0#32)) (Scalar.cmpi .slt v
        0#32) l
      = if (l 0).val = v.toNat % 16 then extractAt ![2] v27 else extractAt ![2] v25 := by
  have h : k1_pay9 v25 v27 v30 v
        16#32 (Scalar.divsi v 16#32) (Scalar.extui (Scalar.cmpi .sgt v 0#32)) (Scalar.cmpi .slt v
        0#32)
      = shapeCast S16 (select (cmpi .eq v30 (broadcast S16 (Scalar.subi v (blockStart v))))
          (broadcast S16 (extractAt ![0] (extractStridedSlice S1 ![2] v27 slices_S16_o2_S1) inpos_S1_p0))
          (broadcast S16 (extractAt ![0] (extractStridedSlice S1 ![2] v25 slices_S16_o2_S1) inpos_S1_p0)))
          shapeCasts_S16_S16 := rfl
  rw [h, selLane v30 h30 v hv, extractAt_slice, extractAt_slice]

theorem k1_pay11_apply (v25 v27 : FVec F S16 .f32) (v30 : IVec S16 32)
    (h30 : ∀ l : S16.Idx, v30 l = BitVec.ofNat 32 (l 0).val)
    (v : BitVec 32) (hv : v.toNat < 100000) (l : S16.Idx) :
    k1_pay11 v25 v27 v30 v
        16#32 (Scalar.divsi v 16#32) (Scalar.subi (Scalar.extui (Scalar.cmpi .sgt v 0#32))
        (Scalar.extui (Scalar.cmpi .slt v 0#32))) l
      = if (l 0).val = v.toNat % 16 then extractAt ![3] v27 else extractAt ![3] v25 := by
  have h : k1_pay11 v25 v27 v30 v
        16#32 (Scalar.divsi v 16#32) (Scalar.subi (Scalar.extui (Scalar.cmpi .sgt v 0#32))
        (Scalar.extui (Scalar.cmpi .slt v 0#32)))
      = shapeCast S16 (select (cmpi .eq v30 (broadcast S16 (Scalar.subi v (blockStart v))))
          (broadcast S16 (extractAt ![0] (extractStridedSlice S1 ![3] v27 slices_S16_o3_S1) inpos_S1_p0))
          (broadcast S16 (extractAt ![0] (extractStridedSlice S1 ![3] v25 slices_S16_o3_S1) inpos_S1_p0)))
          shapeCasts_S16_S16 := rfl
  rw [h, selLane v30 h30 v hv, extractAt_slice, extractAt_slice]

theorem k1_pay13_apply (v25 v27 : FVec F S16 .f32) (v30 : IVec S16 32)
    (h30 : ∀ l : S16.Idx, v30 l = BitVec.ofNat 32 (l 0).val)
    (v : BitVec 32) (hv : v.toNat < 100000) (l : S16.Idx) :
    k1_pay13 v25 v27 v30 v
        16#32 (Scalar.divsi v 16#32) (Scalar.subi (Scalar.extui (Scalar.cmpi .sgt v 0#32))
        (Scalar.extui (Scalar.cmpi .slt v 0#32))) (Scalar.cmpi .sgt 16#32 0#32) l
      = if (l 0).val = v.toNat % 16 then extractAt ![4] v27 else extractAt ![4] v25 := by
  have h : k1_pay13 v25 v27 v30 v
        16#32 (Scalar.divsi v 16#32) (Scalar.subi (Scalar.extui (Scalar.cmpi .sgt v 0#32))
        (Scalar.extui (Scalar.cmpi .slt v 0#32))) (Scalar.cmpi .sgt 16#32 0#32)
      = shapeCast S16 (select (cmpi .eq v30 (broadcast S16 (Scalar.subi v (blockStart v))))
          (broadcast S16 (extractAt ![0] (extractStridedSlice S1 ![4] v27 slices_S16_o4_S1) inpos_S1_p0))
          (broadcast S16 (extractAt ![0] (extractStridedSlice S1 ![4] v25 slices_S16_o4_S1) inpos_S1_p0)))
          shapeCasts_S16_S16 := rfl
  rw [h, selLane v30 h30 v hv, extractAt_slice, extractAt_slice]

theorem k1_pay15_apply (v25 v27 : FVec F S16 .f32) (v30 : IVec S16 32)
    (h30 : ∀ l : S16.Idx, v30 l = BitVec.ofNat 32 (l 0).val)
    (v : BitVec 32) (hv : v.toNat < 100000) (l : S16.Idx) :
    k1_pay15 v25 v27 v30 v
        16#32 (Scalar.divsi v 16#32) (Scalar.subi (Scalar.extui (Scalar.cmpi .sgt v 0#32))
        (Scalar.extui (Scalar.cmpi .slt v 0#32))) (Scalar.extui (Scalar.cmpi .sgt 16#32 0#32)) 0#32 l
      = if (l 0).val = v.toNat % 16 then extractAt ![5] v27 else extractAt ![5] v25 := by
  have h : k1_pay15 v25 v27 v30 v
        16#32 (Scalar.divsi v 16#32) (Scalar.subi (Scalar.extui (Scalar.cmpi .sgt v 0#32))
        (Scalar.extui (Scalar.cmpi .slt v 0#32))) (Scalar.extui (Scalar.cmpi .sgt 16#32 0#32)) 0#32
      = shapeCast S16 (select (cmpi .eq v30 (broadcast S16 (Scalar.subi v (blockStart v))))
          (broadcast S16 (extractAt ![0] (extractStridedSlice S1 ![5] v27 slices_S16_o5_S1) inpos_S1_p0))
          (broadcast S16 (extractAt ![0] (extractStridedSlice S1 ![5] v25 slices_S16_o5_S1) inpos_S1_p0)))
          shapeCasts_S16_S16 := rfl
  rw [h, selLane v30 h30 v hv, extractAt_slice, extractAt_slice]

theorem k1_pay17_apply (v25 v27 : FVec F S16 .f32) (v30 : IVec S16 32)
    (h30 : ∀ l : S16.Idx, v30 l = BitVec.ofNat 32 (l 0).val)
    (v : BitVec 32) (hv : v.toNat < 100000) (l : S16.Idx) :
    k1_pay17 v25 v27 v30 v
        16#32 (Scalar.divsi v 16#32) (Scalar.subi (Scalar.extui (Scalar.cmpi .sgt v 0#32))
        (Scalar.extui (Scalar.cmpi .slt v 0#32))) (Scalar.extui (Scalar.cmpi .sgt 16#32 0#32))
        (Scalar.extui (Scalar.cmpi .slt 16#32 0#32)) l
      = if (l 0).val = v.toNat % 16 then extractAt ![6] v27 else extractAt ![6] v25 := by
  have h : k1_pay17 v25 v27 v30 v
        16#32 (Scalar.divsi v 16#32) (Scalar.subi (Scalar.extui (Scalar.cmpi .sgt v 0#32))
        (Scalar.extui (Scalar.cmpi .slt v 0#32))) (Scalar.extui (Scalar.cmpi .sgt 16#32 0#32))
        (Scalar.extui (Scalar.cmpi .slt 16#32 0#32))
      = shapeCast S16 (select (cmpi .eq v30 (broadcast S16 (Scalar.subi v (blockStart v))))
          (broadcast S16 (extractAt ![0] (extractStridedSlice S1 ![6] v27 slices_S16_o6_S1) inpos_S1_p0))
          (broadcast S16 (extractAt ![0] (extractStridedSlice S1 ![6] v25 slices_S16_o6_S1) inpos_S1_p0)))
          shapeCasts_S16_S16 := rfl
  rw [h, selLane v30 h30 v hv, extractAt_slice, extractAt_slice]

theorem k1_pay19_apply (v25 v27 : FVec F S16 .f32) (v30 : IVec S16 32)
    (h30 : ∀ l : S16.Idx, v30 l = BitVec.ofNat 32 (l 0).val)
    (v : BitVec 32) (hv : v.toNat < 100000) (l : S16.Idx) :
    k1_pay19 v25 v27 v30 v
        16#32 (Scalar.divsi v 16#32) (Scalar.cmpi .ne (Scalar.subi (Scalar.extui (Scalar.cmpi .sgt v
        0#32)) (Scalar.extui (Scalar.cmpi .slt v 0#32))) (Scalar.subi (Scalar.extui (Scalar.cmpi
        .sgt 16#32 0#32)) (Scalar.extui (Scalar.cmpi .slt 16#32 0#32)))) l
      = if (l 0).val = v.toNat % 16 then extractAt ![7] v27 else extractAt ![7] v25 := by
  have h : k1_pay19 v25 v27 v30 v
        16#32 (Scalar.divsi v 16#32) (Scalar.cmpi .ne (Scalar.subi (Scalar.extui (Scalar.cmpi .sgt v
        0#32)) (Scalar.extui (Scalar.cmpi .slt v 0#32))) (Scalar.subi (Scalar.extui (Scalar.cmpi
        .sgt 16#32 0#32)) (Scalar.extui (Scalar.cmpi .slt 16#32 0#32))))
      = shapeCast S16 (select (cmpi .eq v30 (broadcast S16 (Scalar.subi v (blockStart v))))
          (broadcast S16 (extractAt ![0] (extractStridedSlice S1 ![7] v27 slices_S16_o7_S1) inpos_S1_p0))
          (broadcast S16 (extractAt ![0] (extractStridedSlice S1 ![7] v25 slices_S16_o7_S1) inpos_S1_p0)))
          shapeCasts_S16_S16 := rfl
  rw [h, selLane v30 h30 v hv, extractAt_slice, extractAt_slice]

theorem k1_pay21_apply (v25 v27 : FVec F S16 .f32) (v30 : IVec S16 32)
    (h30 : ∀ l : S16.Idx, v30 l = BitVec.ofNat 32 (l 0).val)
    (v : BitVec 32) (hv : v.toNat < 100000) (l : S16.Idx) :
    k1_pay21 v25 v27 v30 v
        (Scalar.divsi v 16#32) (Scalar.cmpi .ne (Scalar.subi (Scalar.extui (Scalar.cmpi .sgt v
        0#32)) (Scalar.extui (Scalar.cmpi .slt v 0#32))) (Scalar.subi (Scalar.extui (Scalar.cmpi
        .sgt 16#32 0#32)) (Scalar.extui (Scalar.cmpi .slt 16#32 0#32)))) (Scalar.remsi v 16#32) 0#32 l
      = if (l 0).val = v.toNat % 16 then extractAt ![8] v27 else extractAt ![8] v25 := by
  have h : k1_pay21 v25 v27 v30 v
        (Scalar.divsi v 16#32) (Scalar.cmpi .ne (Scalar.subi (Scalar.extui (Scalar.cmpi .sgt v
        0#32)) (Scalar.extui (Scalar.cmpi .slt v 0#32))) (Scalar.subi (Scalar.extui (Scalar.cmpi
        .sgt 16#32 0#32)) (Scalar.extui (Scalar.cmpi .slt 16#32 0#32)))) (Scalar.remsi v 16#32) 0#32
      = shapeCast S16 (select (cmpi .eq v30 (broadcast S16 (Scalar.subi v (blockStart v))))
          (broadcast S16 (extractAt ![0] (extractStridedSlice S1 ![8] v27 slices_S16_o8_S1) inpos_S1_p0))
          (broadcast S16 (extractAt ![0] (extractStridedSlice S1 ![8] v25 slices_S16_o8_S1) inpos_S1_p0)))
          shapeCasts_S16_S16 := rfl
  rw [h, selLane v30 h30 v hv, extractAt_slice, extractAt_slice]

theorem k1_pay23_apply (v25 v27 : FVec F S16 .f32) (v30 : IVec S16 32)
    (h30 : ∀ l : S16.Idx, v30 l = BitVec.ofNat 32 (l 0).val)
    (v : BitVec 32) (hv : v.toNat < 100000) (l : S16.Idx) :
    k1_pay23 v25 v27 v30 v
        (Scalar.divsi v 16#32) (Scalar.andi (Scalar.cmpi .ne (Scalar.subi (Scalar.extui (Scalar.cmpi
        .sgt v 0#32)) (Scalar.extui (Scalar.cmpi .slt v 0#32))) (Scalar.subi (Scalar.extui
        (Scalar.cmpi .sgt 16#32 0#32)) (Scalar.extui (Scalar.cmpi .slt 16#32 0#32)))) (Scalar.cmpi
        .ne (Scalar.remsi v 16#32) 0#32)) l
      = if (l 0).val = v.toNat % 16 then extractAt ![9] v27 else extractAt ![9] v25 := by
  have h : k1_pay23 v25 v27 v30 v
        (Scalar.divsi v 16#32) (Scalar.andi (Scalar.cmpi .ne (Scalar.subi (Scalar.extui (Scalar.cmpi
        .sgt v 0#32)) (Scalar.extui (Scalar.cmpi .slt v 0#32))) (Scalar.subi (Scalar.extui
        (Scalar.cmpi .sgt 16#32 0#32)) (Scalar.extui (Scalar.cmpi .slt 16#32 0#32)))) (Scalar.cmpi
        .ne (Scalar.remsi v 16#32) 0#32))
      = shapeCast S16 (select (cmpi .eq v30 (broadcast S16 (Scalar.subi v (blockStart v))))
          (broadcast S16 (extractAt ![0] (extractStridedSlice S1 ![9] v27 slices_S16_o9_S1) inpos_S1_p0))
          (broadcast S16 (extractAt ![0] (extractStridedSlice S1 ![9] v25 slices_S16_o9_S1) inpos_S1_p0)))
          shapeCasts_S16_S16 := rfl
  rw [h, selLane v30 h30 v hv, extractAt_slice, extractAt_slice]

theorem k1_pay25_apply (v25 v27 : FVec F S16 .f32) (v30 : IVec S16 32)
    (h30 : ∀ l : S16.Idx, v30 l = BitVec.ofNat 32 (l 0).val)
    (v : BitVec 32) (hv : v.toNat < 100000) (l : S16.Idx) :
    k1_pay25 v25 v27 v30 v
        (Scalar.divsi v 16#32) (Scalar.andi (Scalar.cmpi .ne (Scalar.subi (Scalar.extui (Scalar.cmpi
        .sgt v 0#32)) (Scalar.extui (Scalar.cmpi .slt v 0#32))) (Scalar.subi (Scalar.extui
        (Scalar.cmpi .sgt 16#32 0#32)) (Scalar.extui (Scalar.cmpi .slt 16#32 0#32)))) (Scalar.cmpi
        .ne (Scalar.remsi v 16#32) 0#32)) (Scalar.subi (Scalar.divsi v 16#32) 1#32) l
      = if (l 0).val = v.toNat % 16 then extractAt ![10] v27 else extractAt ![10] v25 := by
  have h : k1_pay25 v25 v27 v30 v
        (Scalar.divsi v 16#32) (Scalar.andi (Scalar.cmpi .ne (Scalar.subi (Scalar.extui (Scalar.cmpi
        .sgt v 0#32)) (Scalar.extui (Scalar.cmpi .slt v 0#32))) (Scalar.subi (Scalar.extui
        (Scalar.cmpi .sgt 16#32 0#32)) (Scalar.extui (Scalar.cmpi .slt 16#32 0#32)))) (Scalar.cmpi
        .ne (Scalar.remsi v 16#32) 0#32)) (Scalar.subi (Scalar.divsi v 16#32) 1#32)
      = shapeCast S16 (select (cmpi .eq v30 (broadcast S16 (Scalar.subi v (blockStart v))))
          (broadcast S16 (extractAt ![0] (extractStridedSlice S1 ![10] v27 slices_S16_o10_S1) inpos_S1_p0))
          (broadcast S16 (extractAt ![0] (extractStridedSlice S1 ![10] v25 slices_S16_o10_S1) inpos_S1_p0)))
          shapeCasts_S16_S16 := rfl
  rw [h, selLane v30 h30 v hv, extractAt_slice, extractAt_slice]

theorem k1_pay27_apply (v25 v27 : FVec F S16 .f32) (v30 : IVec S16 32)
    (h30 : ∀ l : S16.Idx, v30 l = BitVec.ofNat 32 (l 0).val)
    (v : BitVec 32) (hv : v.toNat < 100000) (l : S16.Idx) :
    k1_pay27 v25 v27 v30 v
        (Scalar.select (Scalar.andi (Scalar.cmpi .ne (Scalar.subi (Scalar.extui (Scalar.cmpi .sgt v
        0#32)) (Scalar.extui (Scalar.cmpi .slt v 0#32))) (Scalar.subi (Scalar.extui (Scalar.cmpi
        .sgt 16#32 0#32)) (Scalar.extui (Scalar.cmpi .slt 16#32 0#32)))) (Scalar.cmpi .ne
        (Scalar.remsi v 16#32) 0#32)) (Scalar.subi (Scalar.divsi v 16#32) 1#32) (Scalar.divsi v
        16#32)) 16#32 l
      = if (l 0).val = v.toNat % 16 then extractAt ![11] v27 else extractAt ![11] v25 := by
  have h : k1_pay27 v25 v27 v30 v
        (Scalar.select (Scalar.andi (Scalar.cmpi .ne (Scalar.subi (Scalar.extui (Scalar.cmpi .sgt v
        0#32)) (Scalar.extui (Scalar.cmpi .slt v 0#32))) (Scalar.subi (Scalar.extui (Scalar.cmpi
        .sgt 16#32 0#32)) (Scalar.extui (Scalar.cmpi .slt 16#32 0#32)))) (Scalar.cmpi .ne
        (Scalar.remsi v 16#32) 0#32)) (Scalar.subi (Scalar.divsi v 16#32) 1#32) (Scalar.divsi v
        16#32)) 16#32
      = shapeCast S16 (select (cmpi .eq v30 (broadcast S16 (Scalar.subi v (blockStart v))))
          (broadcast S16 (extractAt ![0] (extractStridedSlice S1 ![11] v27 slices_S16_o11_S1) inpos_S1_p0))
          (broadcast S16 (extractAt ![0] (extractStridedSlice S1 ![11] v25 slices_S16_o11_S1) inpos_S1_p0)))
          shapeCasts_S16_S16 := rfl
  rw [h, selLane v30 h30 v hv, extractAt_slice, extractAt_slice]

theorem k1_pay29_apply (v25 v27 : FVec F S16 .f32) (v30 : IVec S16 32)
    (h30 : ∀ l : S16.Idx, v30 l = BitVec.ofNat 32 (l 0).val)
    (v : BitVec 32) (hv : v.toNat < 100000) (l : S16.Idx) :
    k1_pay29 v25 v27 v30
        (Scalar.subi v (Scalar.muli (Scalar.select (Scalar.andi (Scalar.cmpi .ne (Scalar.subi
        (Scalar.extui (Scalar.cmpi .sgt v 0#32)) (Scalar.extui (Scalar.cmpi .slt v 0#32)))
        (Scalar.subi (Scalar.extui (Scalar.cmpi .sgt 16#32 0#32)) (Scalar.extui (Scalar.cmpi .slt
        16#32 0#32)))) (Scalar.cmpi .ne (Scalar.remsi v 16#32) 0#32)) (Scalar.subi (Scalar.divsi v
        16#32) 1#32) (Scalar.divsi v 16#32)) 16#32)) l
      = if (l 0).val = v.toNat % 16 then extractAt ![12] v27 else extractAt ![12] v25 := by
  have h : k1_pay29 v25 v27 v30
        (Scalar.subi v (Scalar.muli (Scalar.select (Scalar.andi (Scalar.cmpi .ne (Scalar.subi
        (Scalar.extui (Scalar.cmpi .sgt v 0#32)) (Scalar.extui (Scalar.cmpi .slt v 0#32)))
        (Scalar.subi (Scalar.extui (Scalar.cmpi .sgt 16#32 0#32)) (Scalar.extui (Scalar.cmpi .slt
        16#32 0#32)))) (Scalar.cmpi .ne (Scalar.remsi v 16#32) 0#32)) (Scalar.subi (Scalar.divsi v
        16#32) 1#32) (Scalar.divsi v 16#32)) 16#32))
      = shapeCast S16 (select (cmpi .eq v30 (broadcast S16 (Scalar.subi v (blockStart v))))
          (broadcast S16 (extractAt ![0] (extractStridedSlice S1 ![12] v27 slices_S16_o12_S1) inpos_S1_p0))
          (broadcast S16 (extractAt ![0] (extractStridedSlice S1 ![12] v25 slices_S16_o12_S1) inpos_S1_p0)))
          shapeCasts_S16_S16 := rfl
  rw [h, selLane v30 h30 v hv, extractAt_slice, extractAt_slice]

theorem k1_pay32_apply (v25 v27 : FVec F S16 .f32) (v29 v30 : IVec S16 32)
    (h30 : ∀ l : S16.Idx, v30 l = BitVec.ofNat 32 (l 0).val)
    (hv : (extractAt ![0] (k1_pay30 v29) inpos_S1_p0).toNat < 100000) (l : S16.Idx) :
    k1_pay32 v25 v27 (k1_pay31 v29 v30) l
      = if (l 0).val = (extractAt ![0] (k1_pay30 v29) inpos_S1_p0).toNat % 16
        then extractAt ![13] v27 else extractAt ![13] v25 := by
  have h : k1_pay32 v25 v27 (k1_pay31 v29 v30)
      = shapeCast S16 (select (cmpi .eq v30 (broadcast S16 (Scalar.subi (extractAt ![0] (k1_pay30 v29) inpos_S1_p0) (blockStart (extractAt ![0] (k1_pay30 v29) inpos_S1_p0)))))
          (broadcast S16 (extractAt ![0] (extractStridedSlice S1 ![13] v27 slices_S16_o13_S1) inpos_S1_p0))
          (broadcast S16 (extractAt ![0] (extractStridedSlice S1 ![13] v25 slices_S16_o13_S1) inpos_S1_p0)))
          shapeCasts_S16_S16 := rfl
  rw [h, selLane v30 h30 _ hv, extractAt_slice, extractAt_slice]

theorem k1_pay36_apply (v25 v27 : FVec F S16 .f32) (v29 v30 : IVec S16 32)
    (h30 : ∀ l : S16.Idx, v30 l = BitVec.ofNat 32 (l 0).val)
    (hv : (extractAt ![0] (k1_pay33 v29) inpos_S1_p0).toNat < 100000) (l : S16.Idx) :
    k1_pay36 v25 (k1_pay34 v29 v30) (k1_pay35 v27) l
      = if (l 0).val = (extractAt ![0] (k1_pay33 v29) inpos_S1_p0).toNat % 16
        then extractAt ![14] v27 else extractAt ![14] v25 := by
  have h : k1_pay36 v25 (k1_pay34 v29 v30) (k1_pay35 v27)
      = shapeCast S16 (select (cmpi .eq v30 (broadcast S16 (Scalar.subi (extractAt ![0] (k1_pay33 v29) inpos_S1_p0) (blockStart (extractAt ![0] (k1_pay33 v29) inpos_S1_p0)))))
          (broadcast S16 (extractAt ![0] (extractStridedSlice S1 ![14] v27 slices_S16_o14_S1) inpos_S1_p0))
          (broadcast S16 (extractAt ![0] (extractStridedSlice S1 ![14] v25 slices_S16_o14_S1) inpos_S1_p0)))
          shapeCasts_S16_S16 := rfl
  rw [h, selLane v30 h30 _ hv, extractAt_slice, extractAt_slice]

theorem k1_pay41_apply (v25 v27 : FVec F S16 .f32) (v29 v30 : IVec S16 32)
    (h30 : ∀ l : S16.Idx, v30 l = BitVec.ofNat 32 (l 0).val)
    (hv : (extractAt ![0] (k1_pay37 v29) inpos_S1_p0).toNat < 100000) (l : S16.Idx) :
    k1_pay41 (k1_pay38 v29 v30) (k1_pay39 v27) (k1_pay40 v25) l
      = if (l 0).val = (extractAt ![0] (k1_pay37 v29) inpos_S1_p0).toNat % 16
        then extractAt ![15] v27 else extractAt ![15] v25 := by
  have h : k1_pay41 (k1_pay38 v29 v30) (k1_pay39 v27) (k1_pay40 v25)
      = shapeCast S16 (select (cmpi .eq v30 (broadcast S16 (Scalar.subi (extractAt ![0] (k1_pay37 v29) inpos_S1_p0) (blockStart (extractAt ![0] (k1_pay37 v29) inpos_S1_p0)))))
          (broadcast S16 (extractAt ![0] (extractStridedSlice S1 ![15] v27 slices_S16_o15_S1) inpos_S1_p0))
          (broadcast S16 (extractAt ![0] (extractStridedSlice S1 ![15] v25 slices_S16_o15_S1) inpos_S1_p0)))
          shapeCasts_S16_S16 := rfl
  rw [h, selLane v30 h30 _ hv, extractAt_slice, extractAt_slice]

/-! ## The token ids and the two value rows as the body reads them -/

theorem k1_pay1_eq (v24 : Vec F S16 .f32) : k1_pay1 v24 = v24 := shapeCast_self _ _
theorem k1_pay2_eq (v26 : Vec F S16 .f32) : k1_pay2 v26 = v26 := shapeCast_self _ _
theorem k1_pay3_eq (v28 : Vec F S16 .i32) : k1_pay3 v28 = v28 := shapeCast_self _ _

theorem k1_pay4_at (v28 : Vec F S16 .i32) :
    extractAt ![0] (k1_pay4 v28) inpos_S1_p0 = extractAt ![0] (k1_pay3 v28) :=
  extractAt_slice (k1_pay3 v28) 0 slices_S16_o0_S1 inpos_S1_p0 _

theorem k1_pay6_at (v29 : IVec S16 32) :
    extractAt ![0] (k1_pay6 v29) inpos_S1_p0 = extractAt ![1] v29 :=
  extractAt_slice v29 1 slices_S16_o1_S1 inpos_S1_p0 _

theorem k1_pay8_at (v29 : IVec S16 32) :
    extractAt ![0] (k1_pay8 v29) inpos_S1_p0 = extractAt ![2] v29 :=
  extractAt_slice v29 2 slices_S16_o2_S1 inpos_S1_p0 _

theorem k1_pay10_at (v29 : IVec S16 32) :
    extractAt ![0] (k1_pay10 v29) inpos_S1_p0 = extractAt ![3] v29 :=
  extractAt_slice v29 3 slices_S16_o3_S1 inpos_S1_p0 _

theorem k1_pay12_at (v29 : IVec S16 32) :
    extractAt ![0] (k1_pay12 v29) inpos_S1_p0 = extractAt ![4] v29 :=
  extractAt_slice v29 4 slices_S16_o4_S1 inpos_S1_p0 _

theorem k1_pay14_at (v29 : IVec S16 32) :
    extractAt ![0] (k1_pay14 v29) inpos_S1_p0 = extractAt ![5] v29 :=
  extractAt_slice v29 5 slices_S16_o5_S1 inpos_S1_p0 _

theorem k1_pay16_at (v29 : IVec S16 32) :
    extractAt ![0] (k1_pay16 v29) inpos_S1_p0 = extractAt ![6] v29 :=
  extractAt_slice v29 6 slices_S16_o6_S1 inpos_S1_p0 _

theorem k1_pay18_at (v29 : IVec S16 32) :
    extractAt ![0] (k1_pay18 v29) inpos_S1_p0 = extractAt ![7] v29 :=
  extractAt_slice v29 7 slices_S16_o7_S1 inpos_S1_p0 _

theorem k1_pay20_at (v29 : IVec S16 32) :
    extractAt ![0] (k1_pay20 v29) inpos_S1_p0 = extractAt ![8] v29 :=
  extractAt_slice v29 8 slices_S16_o8_S1 inpos_S1_p0 _

theorem k1_pay22_at (v29 : IVec S16 32) :
    extractAt ![0] (k1_pay22 v29) inpos_S1_p0 = extractAt ![9] v29 :=
  extractAt_slice v29 9 slices_S16_o9_S1 inpos_S1_p0 _

theorem k1_pay24_at (v29 : IVec S16 32) :
    extractAt ![0] (k1_pay24 v29) inpos_S1_p0 = extractAt ![10] v29 :=
  extractAt_slice v29 10 slices_S16_o10_S1 inpos_S1_p0 _

theorem k1_pay26_at (v29 : IVec S16 32) :
    extractAt ![0] (k1_pay26 v29) inpos_S1_p0 = extractAt ![11] v29 :=
  extractAt_slice v29 11 slices_S16_o11_S1 inpos_S1_p0 _

theorem k1_pay28_at (v29 : IVec S16 32) :
    extractAt ![0] (k1_pay28 v29) inpos_S1_p0 = extractAt ![12] v29 :=
  extractAt_slice v29 12 slices_S16_o12_S1 inpos_S1_p0 _

theorem k1_pay30_at (v29 : IVec S16 32) :
    extractAt ![0] (k1_pay30 v29) inpos_S1_p0 = extractAt ![13] v29 :=
  extractAt_slice v29 13 slices_S16_o13_S1 inpos_S1_p0 _

theorem k1_pay33_at (v29 : IVec S16 32) :
    extractAt ![0] (k1_pay33 v29) inpos_S1_p0 = extractAt ![14] v29 :=
  extractAt_slice v29 14 slices_S16_o14_S1 inpos_S1_p0 _

theorem k1_pay37_at (v29 : IVec S16 32) :
    extractAt ![0] (k1_pay37 v29) inpos_S1_p0 = extractAt ![15] v29 :=
  extractAt_slice v29 15 slices_S16_o15_S1 inpos_S1_p0 _

end Cert.Kernel.ScPay
-- ==== Proof.TileSetupBits.lean ====
/-
  One vector subcore's task of the scatter kernel: the setting.  The task's place, its scratch buffers and its one DMA
  semaphore among the subcore's own; row `i 1` of a 16×16 table and a block of sixteen lanes of the result as the task
  slices them, with their element sets; the blocks' geometry (membership, inclusion in the tile's slab, disjointness of
  blocks at different (row, column) positions); what the loads of the three fetched rows read; what a copy leaves on a
  block, lane by lane; what the staging buffer's slice holds right after the store that filled it.
-/
import proofs.«211088_g14680198218050_cont_week2b_81_31_alg».proof.Proof.CommonBits
import proofs.«211088_g14680198218050_cont_week2b_81_31_alg».proof.Proof.ScArithBits
import proofs.«211088_g14680198218050_cont_week2b_81_31_alg».proof.Proof.Gen.Kernel.Skeleton
import proofs.«211088_g14680198218050_cont_week2b_81_31_alg».proof.Proof.ScPayBits

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
open Idealize.ShloMosaic.ValueIdx

/-! ## One tile's task at a symbolic place -/

section Tile

variable (d : Dev nD) (i : grid1.Coords)

abbrev cT (i : grid1.Coords) : Fin τ.nSC := (i 0).castLE hcore1
abbrev sT (i : grid1.Coords) : Fin τ.nSub := (i 1).castLE hsub1
theorem bound1_one : grid1.bound 1 = 16 := rfl
abbrev tI (i : grid1.Coords) : Fin 16 := Fin.cast bound1_one (i 1)

abbrev s0 : Memref sig .scVector .vmem S16 .f32 := Memref.whole cc1_scratch0
abbrev s1 : Memref sig .scVector .vmem S16 .f32 := Memref.whole cc1_scratch1
abbrev s2 : Memref sig .scVector .vmem S16 .i32 := Memref.whole cc1_scratch2
abbrev s3 : Memref sig .scVector .vmem S256 .f32 := Memref.whole cc1_scratch3

abbrev semCell (d : Dev nD) (i : grid1.Coords) : GSem nD τ sig := (V d (cT i) (sT i), .dma cc1_scratch4.sem)

theorem ownSems0_V :
    (ownSems0 (V d (cT i) (sT i)) : sProp 𝕄)
      = iprop(semVal (semCell d i) 0 ∗ bigSep ((ownCells (V d (cT i) (sT i))).erase (semCell d i)) fun g => semVal g 0) := by
  unfold SparseCore.Cfg.ownSems0
  exact SparseCore.bigSep_erase' ((mem_ownCells (g := semCell d i)).mpr ⟨rfl, by
    show (SemLoc.dma cc1_scratch4.sem : SemLoc sig).isScoped .scVector = true; decide⟩)

theorem ownBufs_V :
    (ownBufs (V d (cT i) (sT i)) : sProp 𝕄)
      = iprop((∃ f, (V d (cT i) (sT i)).loc cc1_scratch0 ↦{fullShare} f) ∗ (∃ f, (V d (cT i) (sT i)).loc cc1_scratch1 ↦{fullShare} f)
          ∗ (∃ f, (V d (cT i) (sT i)).loc cc1_scratch2 ↦{fullShare} f) ∗ (∃ f, (V d (cT i) (sT i)).loc cc1_scratch3 ↦{fullShare} f)
          ∗ bigSep (((((ownRefs (τ := τ) (.scVector (cT i) (sT i))).erase ((Proc.scVector (cT i) (sT i)).devRef cc1_scratch0)).erase
              ((Proc.scVector (cT i) (sT i)).devRef cc1_scratch1)).erase ((Proc.scVector (cT i) (sT i)).devRef cc1_scratch2)).erase
              ((Proc.scVector (cT i) (sT i)).devRef cc1_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cT i) (sT i))
    (b := (Proc.scVector (cT i) (sT i)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cT i) (sT i)) (b := (Proc.scVector (cT i) (sT i)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cT i) (sT i)) (b := (Proc.scVector (cT i) (sT i)).devRef cc1_scratch2) rfl⟩⟩),
    SparseCore.bigSep_erase' (Finset.mem_erase.mpr ⟨fun e => absurd (Proc.devRef_injective _ e) (show (cc1_scratch3 : Ref sig .scVector) ≠ cc1_scratch2 by decide),
      Finset.mem_erase.mpr ⟨fun e => absurd (Proc.devRef_injective _ e) (show (cc1_scratch3 : Ref sig .scVector) ≠ cc1_scratch1 by decide),
      Finset.mem_erase.mpr ⟨fun e => absurd (Proc.devRef_injective _ e) (show (cc1_scratch3 : Ref sig .scVector) ≠ cc1_scratch0 by decide),
    SparseCore.Cfg.mem_ownRefs_of_owner (p := Proc.scVector (cT i) (sT i)) (b := (Proc.scVector (cT i) (sT i)).devRef cc1_scratch3) rfl⟩⟩⟩)]

/-- Row `i 1` of a 16×16 table, as the task slices it. -/
abbrev rowK (i : grid1.Coords) : Rect S16x16 := Rect.unit (s := S16x16) (k1_off1 i) S1x16.size (k1_off1_inb i)
abbrev bRowK (i : grid1.Coords) : Memref sig .scVector .hbm S16 .f32 := ((bV : Memref sig .scVector .hbm S16x16 .f32).slice (rowK i) (fun _ => rfl)).squeeze S16 squeezes_S1x16_S16
abbrev pRowK (i : grid1.Coords) : Memref sig .scVector .hbm S16 .f32 := ((pV : Memref sig .scVector .hbm S16x16 .f32).slice (rowK i) (fun _ => rfl)).squeeze S16 squeezes_S1x16_S16
abbrev iRowK (i : grid1.Coords) : Memref sig .scVector .hbm S16 .i32 := ((iV : Memref sig .scVector .hbm S16x16 .i32).slice (rowK i) (fun _ => rfl)).squeeze S16 squeezes_S1x16_S16

theorem rowK_eq : rowK i = row (tI i) := by
  unfold rowK row Rect.part Rect.block
  congr 1 <;> funext a
  · rw [k1_off1_eq]
    match a with
    | 0 => simp [Shape.partIx, Shape.partSize]
    | 1 => simp [Shape.partIx, Shape.partSize]
  · match a with
    | 0 => simp [Shape.partSize]
    | 1 => simp [Shape.partSize]

theorem set_bRowK : (bRowK i).view.set = rowSet (tI i) := by
  show (((bV : Memref sig .scVector .hbm S16x16 .f32).view.slice (rowK i)).reshape S16 squeezes_S1x16_S16.numel_eq).set = (row (tI i)).set
  rw [View.set_reshape]
  exact (View.set_slice_whole main_v1_1_scv (rowK i)).trans (by rw [rowK_eq])
theorem set_pRowK : (pRowK i).view.set = rowSet (tI i) := by
  show (((pV : Memref sig .scVector .hbm S16x16 .f32).view.slice (rowK i)).reshape S16 squeezes_S1x16_S16.numel_eq).set = (row (tI i)).set
  rw [View.set_reshape]
  exact (View.set_slice_whole main_v1_2_scv (rowK i)).trans (by rw [rowK_eq])
theorem set_iRowK : (iRowK i).view.set = rowSet (tI i) := by
  show (((iV : Memref sig .scVector .hbm S16x16 .i32).view.slice (rowK i)).reshape S16 squeezes_S1x16_S16.numel_eq).set = (row (tI i)).set
  rw [View.set_reshape]
  exact (View.set_slice_whole main_v2_scv (rowK i)).trans (by rw [rowK_eq])

theorem pts_bRowK (f : Buf (Elt F) (bLoc d)) :
    ((bRowK i).view.loc (V d (cT i) (sT i)) ↦[(bRowK i).view.set]{fullShare} f : sProp 𝕄) = bLoc d ↦[rowSet (tI i)]{fullShare} f := by
  rw [set_bRowK]
theorem pts_pRowK (f : Buf (Elt F) (pLoc d)) :
    ((pRowK i).view.loc (V d (cT i) (sT i)) ↦[(pRowK i).view.set]{fullShare} f : sProp 𝕄) = pLoc d ↦[rowSet (tI i)]{fullShare} f := by
  rw [set_pRowK]
theorem pts_iRowK (f : Buf (Elt F) (jLoc d)) :
    ((iRowK i).view.loc (V d (cT i) (sT i)) ↦[(iRowK i).view.set]{fullShare} f : sProp 𝕄) = jLoc d ↦[rowSet (tI i)]{fullShare} f := by
  rw [set_iRowK]
theorem pts_s0 (f : Buf (Elt F) ((V d (cT i) (sT i)).loc cc1_scratch0)) :
    ((s0 : Memref sig .scVector .vmem S16 .f32).view.loc (V d (cT i) (sT i)) ↦[(s0 : Memref sig .scVector .vmem S16 .f32).view.set]{fullShare} f : sProp 𝕄)
      = (V d (cT i) (sT i)).loc cc1_scratch0 ↦{fullShare} f := by
  simp only [Memref.view_whole, View.set_whole]
theorem pts_s1 (f : Buf (Elt F) ((V d (cT i) (sT i)).loc cc1_scratch1)) :
    ((s1 : Memref sig .scVector .vmem S16 .f32).view.loc (V d (cT i) (sT i)) ↦[(s1 : Memref sig .scVector .vmem S16 .f32).view.set]{fullShare} f : sProp 𝕄)
      = (V d (cT i) (sT i)).loc cc1_scratch1 ↦{fullShare} f := by
  simp only [Memref.view_whole, View.set_whole]
theorem pts_s2 (f : Buf (Elt F) ((V d (cT i) (sT i)).loc cc1_scratch2)) :
    ((s2 : Memref sig .scVector .vmem S16 .i32).view.loc (V d (cT i) (sT i)) ↦[(s2 : Memref sig .scVector .vmem S16 .i32).view.set]{fullShare} f : sProp 𝕄)
      = (V d (cT i) (sT i)).loc cc1_scratch2 ↦{fullShare} f := by
  simp only [Memref.view_whole, View.set_whole]
theorem pts_s3 (f : Buf (Elt F) ((V d (cT i) (sT i)).loc cc1_scratch3)) :
    ((s3 : Memref sig .scVector .vmem S256 .f32).view.loc (V d (cT i) (sT i)) ↦[(s3 : Memref sig .scVector .vmem S256 .f32).view.set]{fullShare} f : sProp 𝕄)
      = (V d (cT i) (sT i)).loc cc1_scratch3 ↦{fullShare} f := by
  simp only [Memref.view_whole, View.set_whole]

/-- A block of sixteen lanes of the result, as the task slices it at offsets `o`. -/
abbrev winR (o : Fin 3 → ℕ) (h : ∀ a, o a + S1x1x16.size a ≤ S32x8x100000.size a) : Rect S32x8x100000 :=
  Rect.unit (s := S32x8x100000) o S1x1x16.size h
abbrev winM (o : Fin 3 → ℕ) (h : ∀ a, o a + S1x1x16.size a ≤ S32x8x100000.size a) : Memref sig .scVector .hbm S16 .f32 :=
  ((oV : Memref sig .scVector .hbm S32x8x100000 .f32).slice (winR o h) (fun _ => rfl)).squeeze S16 squeezes_S1x1x16_S16

theorem set_winM (o : Fin 3 → ℕ) (h : ∀ a, o a + S1x1x16.size a ≤ S32x8x100000.size a) : (winM o h).view.set = (winR o h).set := by
  show (((oV : Memref sig .scVector .hbm S32x8x100000 .f32).view.slice (winR o h)).reshape S16 squeezes_S1x1x16_S16.numel_eq).set = (winR o h).set
  rw [View.set_reshape]
  exact View.set_slice_whole main_v3_scv (winR o h)

theorem pts_winM (o : Fin 3 → ℕ) (h : ∀ a, o a + S1x1x16.size a ≤ S32x8x100000.size a) (f : Buf (Elt F) (oLoc d)) :
    ((winM o h).view.loc (V d (cT i) (sT i)) ↦[(winM o h).view.set]{fullShare} f : sProp 𝕄) = oLoc d ↦[(winR o h).set]{fullShare} f := by
  rw [set_winM]

/-- A block carved out of a held part of the result. -/
theorem carve (S : Finset S32x8x100000.Idx) (o : Fin 3 → ℕ) (h : ∀ a, o a + S1x1x16.size a ≤ S32x8x100000.size a) (f : Buf (Elt F) (oLoc d))
    (hsub : (winR o h).set ⊆ S) :
    (oLoc d ↦[S]{fullShare} f : sProp 𝕄)
      ⊢ iprop(((winM o h).view.loc (V d (cT i) (sT i)) ↦[(winM o h).view.set]{fullShare} f) ∗ oLoc d ↦[S \ (winR o h).set]{fullShare} f) := by
  rw [pts_winM]
  exact (pointsTo_split_subset hsub).1

variable [FloatOps F] (vals : Vals F)

/-! ## Geometry: the sixteen blocks of a tile and its slab -/

omit [FloatOps F] in
theorem mem_winR {o : Fin 3 → ℕ} {h : ∀ a, o a + S1x1x16.size a ≤ S32x8x100000.size a} {j : S32x8x100000.Idx} :
    j ∈ (winR o h).set ↔ (j 0).val = o 0 ∧ (j 1).val = o 1 ∧ o 2 ≤ (j 2).val ∧ (j 2).val < o 2 + 16 := by
  rw [Rect.mem_set_unit]
  constructor
  · intro H
    have h0 := H 0; have h1 := H 1; have h2 := H 2
    simp at h0 h1 h2
    omega
  · rintro ⟨h0, h1, h2, h3⟩ a
    fin_cases a <;> simp <;> omega

omit [FloatOps F] in
theorem mem_slab {t : Fin 16} {j : S32x8x100000.Idx} : j ∈ slabSet t ↔ 2 * t.val ≤ (j 0).val ∧ (j 0).val < 2 * t.val + 2 := by
  rw [Rect.mem_set_unit]
  constructor
  · intro H
    have h0 := H 0
    simp [Shape.partIx, Shape.partSize] at h0
    omega
  · rintro ⟨h0, h1⟩ a
    have := (j 1).isLt; have := (j 2).isLt
    fin_cases a <;> simp [Shape.partIx, Shape.partSize] at * <;> omega

omit [FloatOps F] in
theorem win_sub_slab (o : Fin 3 → ℕ) (h : ∀ a, o a + S1x1x16.size a ≤ S32x8x100000.size a) (r c b : ℕ) (e : o = ![r, c, b])
    (hr : 2 * (i 1).val ≤ r ∧ r < 2 * (i 1).val + 2) : (winR o h).set ⊆ slabSet (tI i) := by
  subst e
  intro j hj
  rw [mem_winR] at hj
  rw [mem_slab]
  simp at hj ⊢
  omega

omit [FloatOps F] in
theorem win_disj (o o' : Fin 3 → ℕ) (h : ∀ a, o a + S1x1x16.size a ≤ S32x8x100000.size a) (h' : ∀ a, o' a + S1x1x16.size a ≤ S32x8x100000.size a)
    (r c b r' c' b' : ℕ) (e : o = ![r, c, b]) (e' : o' = ![r', c', b']) (hne : r ≠ r' ∨ c ≠ c') :
    Disjoint (winR o h).set (winR o' h').set := by
  subst e e'
  rw [Finset.disjoint_left]
  intro j hj hj'
  rw [mem_winR] at hj hj'
  simp at hj hj'
  omega

/-! ## What the loads read -/

omit [FloatOps F] in
theorem reshape_row (h : S16.numel = S1x16.numel) (j : S16.Idx) : Shape.reshapeEquiv h j = (ix2 (0 : Fin 1) (j 0) : S1x16.Idx) :=
  Shape.reshapeEquiv_eq_of_rowMajor h (by rw [Shape.rowMajor_val_two, Shape.rowMajor_val_one]; simp)

omit [FloatOps F] in
theorem reshape_blk (h : S16.numel = S1x1x16.numel) (j : S16.Idx) : Shape.reshapeEquiv h j = (ix3 (0 : Fin 1) (0 : Fin 1) (j 0) : S1x1x16.Idx) :=
  Shape.reshapeEquiv_eq_of_rowMajor h (by rw [Shape.rowMajor_val_three, Shape.rowMajor_val_one]; simp)

omit [FloatOps F] in
theorem rowK_emb (x : S1x16.Idx) : ((rowK i).emb x : S16x16.Idx) = ix2 (tI i) ⟨(x 1).val, by have := (x 1).isLt; simpa using this⟩ := by
  funext a; apply Fin.ext
  have h0 : (x 0).val = 0 := by have := (x 0).isLt; simp at this; omega
  fin_cases a
  · show (k1_off1 i) 0 + 1 * (x 0).val = (i 1).val
    rw [Gen.k1_off1_eq, h0]; simp
  · show (k1_off1 i) 1 + 1 * (x 1).val = (x 1).val
    rw [Gen.k1_off1_eq]; simp

omit [FloatOps F] in
theorem emb_iRowK (j : S16.Idx) : ((iRowK i).view.emb j : S16x16.Idx) = ix2 (tI i) (j 0) := by
  show (rowK i).emb (Shape.reshapeEquiv squeezes_S1x16_S16.numel_eq j) = _
  rw [reshape_row, rowK_emb]
  rfl
omit [FloatOps F] in
theorem emb_bRowK (j : S16.Idx) : ((bRowK i).view.emb j : S16x16.Idx) = ix2 (tI i) (j 0) := by
  show (rowK i).emb (Shape.reshapeEquiv squeezes_S1x16_S16.numel_eq j) = _
  rw [reshape_row, rowK_emb]
  rfl
omit [FloatOps F] in
theorem emb_pRowK (j : S16.Idx) : ((pRowK i).view.emb j : S16x16.Idx) = ix2 (tI i) (j 0) := by
  show (rowK i).emb (Shape.reshapeEquiv squeezes_S1x16_S16.numel_eq j) = _
  rw [reshape_row, rowK_emb]
  rfl

omit [FloatOps F] in
theorem read_iRow (j : S16.Idx) : View.read (Elt F) (iRowK i).view (vals.iv d) j = vals.iv d (ix2 (tI i) (j 0)) := by
  refine ((View.read_apply _ _).trans (cast_eq _ _)).trans ?_
  rw [emb_iRowK]
  rfl
omit [FloatOps F] in
theorem read_bRow (j : S16.Idx) : View.read (Elt F) (bRowK i).view (vals.bv d) j = vals.bv d (ix2 (tI i) (j 0)) := by
  refine ((View.read_apply _ _).trans (cast_eq _ _)).trans ?_
  rw [emb_bRowK]
  rfl
omit [FloatOps F] in
theorem read_pRow (j : S16.Idx) : View.read (Elt F) (pRowK i).view (vals.pv d) j = vals.pv d (ix2 (tI i) (j 0)) := by
  refine ((View.read_apply _ _).trans (cast_eq _ _)).trans ?_
  rw [emb_pRowK]
  rfl

omit [FloatOps F] in
theorem rS_idx (j : S16.Idx) : (Rect.unit (s := S16) ![0] S16.size inb_S16_S16_0).toLoadRect.idx j = j := by
  funext a; apply Fin.ext
  rw [LoadRect.idx_apply, Subsingleton.elim a 0]
  show 0 + 1 * (j 0).val = (j 0).val
  simp

/-- A load of the whole of a sixteen-word scratch after one whole write reads what was written. -/
theorem readCov_whole16 {κ : Kind} {sp : Space} {e : EltTy} (v : View sig κ sp S16 e) (w : S16.Idx → Elt F e) (j : S16.Idx) :
    v.readCov [⟨Rect.whole S16, w⟩] (Rect.unit (s := S16) ![0] S16.size inb_S16_S16_0).toLoadRect j = w j := by
  rw [View.readCov_eq_canon']
  show View.canon [⟨Rect.whole S16, w⟩] ((Rect.unit (s := S16) ![0] S16.size inb_S16_S16_0).toLoadRect.idx j) = w j
  rw [rS_idx]
  have := View.canon_cons_emb (Rect.whole S16) w [] j
  rwa [Rect.emb_whole_apply] at this

/-! ## A block of the result, lane by lane -/

omit [FloatOps F] in
theorem winR_emb (o : Fin 3 → ℕ) (h : ∀ a, o a + S1x1x16.size a ≤ S32x8x100000.size a) (x : S1x1x16.Idx) (a : Fin 3) :
    ((winR o h).emb x a).val = o a + (x a).val := by
  show o a + 1 * (x a).val = _
  simp

omit [FloatOps F] in
theorem emb_winM (o : Fin 3 → ℕ) (h : ∀ a, o a + S1x1x16.size a ≤ S32x8x100000.size a) (l : S16.Idx) :
    (((winM o h).view.emb l : S32x8x100000.Idx) 0).val = o 0 ∧ (((winM o h).view.emb l : S32x8x100000.Idx) 1).val = o 1
      ∧ (((winM o h).view.emb l : S32x8x100000.Idx) 2).val = o 2 + (l 0).val := by
  have e : ((winM o h).view.emb l : S32x8x100000.Idx) = (winR o h).emb (Shape.reshapeEquiv squeezes_S1x1x16_S16.numel_eq l) := rfl
  rw [e, reshape_blk]
  refine ⟨?_, ?_, ?_⟩
  · rw [winR_emb]; rfl
  · rw [winR_emb]; rfl
  · rw [winR_emb]; rfl

/-- What a copy of sixteen words leaves on its block: lane `l` of the block holds word `l` of the payload. -/
theorem landed_apply (o : Fin 3 → ℕ) (h : ∀ a, o a + S1x1x16.size a ≤ S32x8x100000.size a) (f : Buf (Elt F) (oLoc d))
    (pay : S16.Idx → Elt F .f32) (l : S16.Idx) :
    (winM o h).view.writes (Elt F) f [⟨Rect.whole S16, pay⟩] ((winM o h).view.emb l) = pay l := by
  have := View.read_writes_cons_emb (Val := Elt F) (winM o h).view f (Rect.whole S16) pay [] l
  rw [Rect.emb_whole_apply] at this
  exact ((View.read_apply _ _).trans (cast_eq _ _)).symm.trans this

/-- Reading a sixteen-lane slice of the staging buffer right after the store that filled it gives the stored vector. -/
theorem read_staged (r : Rect S256) (hr : ∀ a, r.stride a = 1) (w : r.shape.Idx → Elt F .f32) (L : List (View.Piece (Elt F) S256 .f32))
    (f3 : Buf (Elt F) ((V d (cT i) (sT i)).loc cc1_scratch3)) (x : r.shape.Idx) :
    View.read (Elt F) ((s3 : Memref sig .scVector .vmem S256 .f32).slice r hr).view (s3.view.writes (Elt F) f3 (⟨r, w⟩ :: L)) x = w x := by
  have := View.read_writes_cons_emb (Val := Elt F) (s3 : Memref sig .scVector .vmem S256 .f32).view f3 r w L x
  refine Eq.trans ?_ this
  rw [View.read_apply, View.read_apply]
  rfl

end Tile

end Cert.Kernel.Hand

end
-- ==== Proof.OutVLemmasBits.lean ====
/- The array the tiles leave, read at one index: inside the aligned block of a position of
   tile `t` it is the select of the two tables' entries on the lane of the token id; on the
   tile's rows outside every such block it is what the copy left. -/
import proofs.«211088_g14680198218050_cont_week2b_81_31_alg».proof.Proof.CommonBits

noncomputable section

namespace Cert.Kernel.Hand

open Cert.Kernel Cert.Kernel.Gen

open Idealize.ShloMosaic

variable {F : FTy → Type}

/-- The array the tiles leave at `j`, with the position's table index spelt from `j`'s row and column. -/
theorem outV_apply (vals : Vals F) (d : Dev nD) (j : S32x8x100000.Idx) :
    outV vals d j
      = if 16 * (((vals.iv d (ValueIdx.ix2 (tileOf (j 0)) (posOf (j 0) (j 1)) : S16x16.Idx) : BitVec 32)).toNat / 16) ≤ (j 2).val
            ∧ (j 2).val < 16 * (((vals.iv d (ValueIdx.ix2 (tileOf (j 0)) (posOf (j 0) (j 1)) : S16x16.Idx) : BitVec 32)).toNat / 16) + 16 then
          (if (j 2).val = ((vals.iv d (ValueIdx.ix2 (tileOf (j 0)) (posOf (j 0) (j 1)) : S16x16.Idx) : BitVec 32)).toNat
            then vals.pv d (ValueIdx.ix2 (tileOf (j 0)) (posOf (j 0) (j 1)) : S16x16.Idx)
            else vals.bv d (ValueIdx.ix2 (tileOf (j 0)) (posOf (j 0) (j 1)) : S16x16.Idx))
        else vals.fv d j := rfl

/-- Row `2 t + q / 8`, column `q % 8` is position `q` of tile `t`. -/
theorem tileOf_posOf_eq (t q : Fin 16) (j : S32x8x100000.Idx)
    (h0 : (j 0).val = 2 * t.val + q.val / 8) (h1 : (j 1).val = q.val % 8) :
    (ValueIdx.ix2 (tileOf (j 0)) (posOf (j 0) (j 1)) : S16x16.Idx) = ValueIdx.ix2 t q := by
  have hq := q.isLt
  have ht : tileOf (j 0) = t := Fin.ext (by show (j 0).val / 2 = t.val; omega)
  have hp : posOf (j 0) (j 1) = q := Fin.ext (by show (j 0).val % 2 * 8 + (j 1).val = q.val; omega)
  rw [ht, hp]

/-- On the rows of tile `t`, outside every position's block, the tiles leave what the copy left. -/
theorem outV_off (vals : Vals F) (d : Dev nD) (t : Fin 16) (j : S32x8x100000.Idx)
    (hj : 2 * t.val ≤ (j 0).val ∧ (j 0).val < 2 * t.val + 2)
    (hout : ∀ q : Fin 16, ¬ ((j 0).val = 2 * t.val + q.val / 8 ∧ (j 1).val = q.val % 8
      ∧ 16 * (((vals.iv d (ValueIdx.ix2 t q) : BitVec 32)).toNat / 16) ≤ (j 2).val
      ∧ (j 2).val < 16 * (((vals.iv d (ValueIdx.ix2 t q) : BitVec 32)).toNat / 16) + 16)) :
    outV vals d j = vals.fv d j := by
  have hc : (j 1).val < 8 := (j 1).isLt
  have e0 : (j 0).val = 2 * t.val + (posOf (j 0) (j 1)).val / 8 := by
    show (j 0).val = 2 * t.val + ((j 0).val % 2 * 8 + (j 1).val) / 8; omega
  have e1 : (j 1).val = (posOf (j 0) (j 1)).val % 8 := by
    show (j 1).val = ((j 0).val % 2 * 8 + (j 1).val) % 8; omega
  have hT := tileOf_posOf_eq t (posOf (j 0) (j 1)) j e0 e1
  rw [outV_apply, hT, if_neg]
  intro hcond
  exact hout (posOf (j 0) (j 1)) ⟨e0, e1, hcond.1, hcond.2⟩

/-- Inside the block of position `q` of tile `t` the tiles leave the on-token table's entry on the
    lane of the token id and the off-token table's entry on the other lanes. -/
theorem outV_on (vals : Vals F) (d : Dev nD) (t q : Fin 16) (j : S32x8x100000.Idx)
    (h0 : (j 0).val = 2 * t.val + q.val / 8) (h1 : (j 1).val = q.val % 8)
    (h2 : 16 * (((vals.iv d (ValueIdx.ix2 t q) : BitVec 32)).toNat / 16) ≤ (j 2).val
      ∧ (j 2).val < 16 * (((vals.iv d (ValueIdx.ix2 t q) : BitVec 32)).toNat / 16) + 16) :
    outV vals d j
      = if (j 2).val - 16 * (((vals.iv d (ValueIdx.ix2 t q) : BitVec 32)).toNat / 16)
            = ((vals.iv d (ValueIdx.ix2 t q) : BitVec 32)).toNat % 16
        then vals.pv d (ValueIdx.ix2 t q) else vals.bv d (ValueIdx.ix2 t q) := by
  rw [outV_apply, tileOf_posOf_eq t q j h0 h1, if_pos h2]
  by_cases h : (j 2).val = ((vals.iv d (ValueIdx.ix2 t q) : BitVec 32)).toNat
  · rw [if_pos h, if_pos (by omega)]
  · rw [if_neg h, if_neg (by omega)]

end Cert.Kernel.Hand

end
-- ==== Proof.TileReadsBits.lean ====
/-
  What one vector subcore's task loads after its three fetches — row `i 1` of the two tables and of the token ids,
  element by element — and the complement of a block of sixteen lanes, condition by condition.
-/
import proofs.«211088_g14680198218050_cont_week2b_81_31_alg».proof.Proof.TileSetupBits
import proofs.«211088_g14680198218050_cont_week2b_81_31_alg».proof.Proof.OutVLemmasBits

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

section Reads

variable (d : Dev nD) (i : grid1.Coords) [FloatOps F] (vals : Vals F)

/-- The three vectors the task loads from its scratch after the three fetches: row `i 1` of the two tables and of the ids. -/
theorem loaded_b (j : S16.Idx) :
    shapeCast S16 ((s0 : Memref sig .scVector .vmem S16 .f32).view.readCov
        [⟨Rect.whole S16, ReadAs.same.apply (View.read (Elt F) (bRowK i).view (vals.bv d))⟩]
        (Rect.unit (s := S16) ![0] S16.size inb_S16_S16_0).toLoadRect) shapeCasts_S16_S16 j = vals.bv d (ix2 (tI i) (j 0)) := by
  exact (congrFun (shapeCast_self (s := S16) _ shapeCasts_S16_S16) j).trans ((readCov_whole16 _ _ j).trans (read_bRow d i vals j))
theorem loaded_p (j : S16.Idx) :
    shapeCast S16 ((s1 : Memref sig .scVector .vmem S16 .f32).view.readCov
        [⟨Rect.whole S16, ReadAs.same.apply (View.read (Elt F) (pRowK i).view (vals.pv d))⟩]
        (Rect.unit (s := S16) ![0] S16.size inb_S16_S16_0).toLoadRect) shapeCasts_S16_S16 j = vals.pv d (ix2 (tI i) (j 0)) := by
  exact (congrFun (shapeCast_self (s := S16) _ shapeCasts_S16_S16) j).trans ((readCov_whole16 _ _ j).trans (read_pRow d i vals j))
theorem loaded_i (j : S16.Idx) :
    shapeCast S16 ((s2 : Memref sig .scVector .vmem S16 .i32).view.readCov
        [⟨Rect.whole S16, ReadAs.same.apply (View.read (Elt F) (iRowK i).view (vals.iv d))⟩]
        (Rect.unit (s := S16) ![0] S16.size inb_S16_S16_0).toLoadRect) shapeCasts_S16_S16 j = vals.iv d (ix2 (tI i) (j 0)) := by
  exact (congrFun (shapeCast_self (s := S16) _ shapeCasts_S16_S16) j).trans ((readCov_whole16 _ _ j).trans (read_iRow d i vals j))

omit [FloatOps F] in
/-- Off a block: one of the block's four conditions fails. -/
theorem not_mem_win (o : Fin 3 → ℕ) (h : ∀ a, o a + S1x1x16.size a ≤ S32x8x100000.size a) (r c b : ℕ) (e : o = ![r, c, b])
    (j : S32x8x100000.Idx) (hj : j ∉ (winR o h).set) : ¬ ((j 0).val = r ∧ (j 1).val = c ∧ b ≤ (j 2).val ∧ (j 2).val < b + 16) := by
  subst e
  intro H
  exact hj (mem_winR.mpr (by simpa using H))

end Reads

end Cert.Kernel.Hand

end
-- ==== Proof.TileBlockBits.lean ====
/- What one landed copy leaves on its block of sixteen lanes is what the tiles leave there:
   the on-token entry on the token id's lane, the off-token entry on the others. -/
import proofs.«211088_g14680198218050_cont_week2b_81_31_alg».proof.Proof.TileSetupBits
import proofs.«211088_g14680198218050_cont_week2b_81_31_alg».proof.Proof.OutVLemmasBits

noncomputable section

namespace Cert.Kernel.Hand

open Cert.Kernel Cert.Kernel.Gen

open Idealize.ShloMosaic

section

variable {F : FTy → Type} [FloatOps F]

/-- The block at row `2 s + q / 8`, column `q % 8`, lanes from `16 (v / 16)`, after a copy of the
    select vector of position `q` has landed on it, holds the array the tiles leave. -/
theorem landed_eq_outV (vals : Vals F) (d : Dev nD) (i : grid1.Coords) (q : Fin 16) (o : Fin 3 → ℕ)
    (h : ∀ a, o a + S1x1x16.size a ≤ S32x8x100000.size a) (v : BitVec 32) (K C : ℕ)
    (hK : K = q.val / 8) (hC : C = q.val % 8)
    (ho : o = ![2 * (i 1).val + K, C, 16 * (v.toNat / 16)])
    (hv : v = vals.iv d (ValueIdx.ix2 (tI i) q))
    (pay : S16.Idx → Elt F .f32)
    (hpay : ∀ l : S16.Idx, pay l = if (l 0).val = v.toNat % 16 then vals.pv d (ValueIdx.ix2 (tI i) q)
      else vals.bv d (ValueIdx.ix2 (tI i) q)) :
    ∀ j ∈ (winR o h).set,
      (winM o h).view.writes (Elt F) (vals.fv d) [⟨Rect.whole S16, pay⟩] j = outV vals d j := by
  intro j hj
  rw [← set_winM] at hj
  obtain ⟨l, -, rfl⟩ := Finset.mem_map.1 hj
  obtain ⟨e0, e1, e2⟩ := emb_winM o h l
  subst hK hC ho hv
  have hl : (l 0).val < 16 := (l 0).isLt
  have e0' : (((winM _ h).view.emb l : S32x8x100000.Idx) 0).val = 2 * (tI i).val + q.val / 8 := e0
  have e1' : (((winM _ h).view.emb l : S32x8x100000.Idx) 1).val = q.val % 8 := e1
  have e2' : (((winM _ h).view.emb l : S32x8x100000.Idx) 2).val
      = 16 * (((vals.iv d (ValueIdx.ix2 (tI i) q) : BitVec 32)).toNat / 16) + (l 0).val := e2
  rw [landed_apply (d := d) (h := h) (f := vals.fv d) (pay := pay) (l := l),
    outV_on vals d (tI i) q _ e0' e1' ⟨by omega, by omega⟩, hpay l]
  by_cases hc : (l 0).val = ((vals.iv d (ValueIdx.ix2 (tI i) q) : BitVec 32)).toNat % 16
  · rw [if_pos hc, if_pos (by omega)]
  · rw [if_neg hc, if_neg (by omega)]

end

end Cert.Kernel.Hand

end
-- ==== Proof.TileBits.lean ====
/-
  One vector subcore's task of the scatter kernel, and with it the launch theorem's obligation for the kernel.
  The task fetches row `i 1` of the off-token table, of the on-token table and of the reshaped token ids into its
  scratch (three copies on one semaphore, three waits), loads the three rows, and then, for each of its sixteen
  positions, stores the select vector of the position — the on-token value on the lane that is the token id's
  remainder by 16, the off-token value on the others — into its own sixteen lanes of the staging buffer and copies
  them to the aligned block of sixteen lanes of the result that holds the token id; sixteen waits follow.  The copies
  out are outstanding together on the one semaphore: no store touches a lane an outstanding copy reads (each position
  has its own sixteen lanes of the staging buffer) and the sixteen destination blocks lie at sixteen different
  (row, column) positions of the tile's slab, so they are pairwise disjoint; each is carved out of the slab before its
  copy is issued and comes back, at the last wait, holding the select vector.  Every piece of the slab is then
  restated at the one function `outV`, and the pieces are joined.
-/
import proofs.«211088_g14680198218050_cont_week2b_81_31_alg».proof.Proof.TileSetupBits
import proofs.«211088_g14680198218050_cont_week2b_81_31_alg».proof.Proof.OutVLemmasBits
import proofs.«211088_g14680198218050_cont_week2b_81_31_alg».proof.Proof.TileReadsBits
import proofs.«211088_g14680198218050_cont_week2b_81_31_alg».proof.Proof.TileBlockBits

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

section Body

variable (d : Dev nD) (i : grid1.Coords) [FloatOps F] (vals : Vals F)

omit [FloatOps F] in
/-- A wait at the kernels' own index added to the recorded waits keeps them within the allowed ones. -/
theorem ins_default {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp

set_option maxHeartbeats 16000000 in
/-- One tile's task: the three rows fetched, loaded, and for each of the sixteen positions the block of sixteen lanes
    holding the position's token id overwritten by the select vector; the slab is left at `outV`. -/
theorem tile_body (hI : IdsOK vals) (O : CellTallies nD τ sig (HIx 1)) (W : Waits sig (HIx 1)) (hO : ∀ g, O g none = 0) :
    iprop(levAts (K (F := F)).L (K (F := F)).lev ∗ emp
        ∗ (bRowPts vals d (tI i) ∗ pRowPts vals d (tI i) ∗ iRowPts vals d (tI i) ∗ oSlabPts d (tI i) (vals.fv d))
        ∗ scopedBufs (V d (cT i) (sT i)) ∗ scopedSems0 (V d (cT i) (sT i)) ∗ owes (V d (cT i) (sT i)) O W)
      ⊢ wp frame (wpE (defs₀ (F := F)) 𝒱₀ (V d (cT i) (sT i)) none) Set.univ
          (cc1__sc_scatter i bV (Memref.isWhole_whole _) pV (Memref.isWhole_whole _) iV (Memref.isWhole_whole _)
            oV (Memref.isWhole_whole _) oV (Memref.isWhole_whole _)
            s0 (Memref.isWhole_whole _) s1 (Memref.isWhole_whole _) s2 (Memref.isWhole_whole _) s3 (Memref.isWhole_whole _) cc1_scratch4)
          fun _ => iprop((bRowPts vals d (tI i) ∗ pRowPts vals d (tI i) ∗ iRowPts vals d (tI i) ∗ oSlabPts d (tI i) (outV vals d))
            ∗ scopedBufs (V d (cT i) (sT i)) ∗ scopedSems0 (V d (cT i) (sT i))
            ∗ ∃ W', ⌜∀ p ∈ W', p ∈ W ∨ p.2 = none⌝ ∗ owes (V d (cT i) (sT i)) O W') := by
  rw [(K (F := F)).scopedBufs_V facts d (cT i) (sT i), SparseCore.Cfg.scopedSems0_V (Val := Elt F) d (cT i) (sT i), ownSems0_V, ownBufs_V]
  simp only [cc1__sc_scatter_eq_skeleton]; unfold cc1__sc_scatter_skel
  iintro ⟨#Hlv, -, ⟨Hb, Hp, Hi, Ho⟩, ⟨⟨%f0, Hs0⟩, ⟨%f1, Hs1⟩, ⟨%f2, Hs2⟩, ⟨%f3, Hs3⟩, Hbufs⟩, ⟨Hsem, Hsems⟩, HO⟩
  ihave Hmw := ((K (F := F)).mayWaits_none (thr := V d (cT i) (sT i)) hO) $$ Hlv
  ihave Hb' := (Entails.of_eq (pts_bRowK (F := F) d i _).symm) $$ Hb
  ihave Hp' := (Entails.of_eq (pts_pRowK (F := F) d i _).symm) $$ Hp
  ihave Hi' := (Entails.of_eq (pts_iRowK (F := F) d i _).symm) $$ Hi
  ihave Hs0' := (Entails.of_eq (pts_s0 (F := F) d i _).symm) $$ Hs0
  ihave Hs1' := (Entails.of_eq (pts_s1 (F := F) d i _).symm) $$ Hs1
  ihave Hs2' := (Entails.of_eq (pts_s2 (F := F) d i _).symm) $$ Hs2
  ihave Hs3' := (Entails.of_eq (pts_s3 (F := F) d i _).symm) $$ Hs3
  -- the three fetches share the semaphore: a batch of three; then the three loads
  have _plan : Transfers.BatchOf (V d (cT i) (sT i)) (SemLoc.dma (sig := sig) cc1_scratch4.sem) 3 := trivial
  sl_exec
  -- position 0: its token id, in range; its block of the result, inside the slab and apart from the earlier ones
  have hvid0 : tile_body.sl.v32 d i vals = vals.iv d (ix2 (tI i) 0) :=
    (ScPay.extractAt_slice (tile_body.sl.v29 d i vals) 0 slices_S16_o0_S1 inpos_S1_p0 (by decide)).trans (loaded_i d i vals _)
  have hlt0 : (tile_body.sl.v32 d i vals).toNat < 100000 := by rw [hvid0]; exact hI d _
  have hc0 : k1_chk1 i (tile_body.sl.v32 d i vals) := ScArith.k1_chk1_of i _ hlt0
  have he0 := ScArith.k1_off2_eq i _ hlt0
  have hs0_0 := win_sub_slab i _ (k1_off2_inb i _ hc0) _ _ _ he0 (by omega)
  ihave Hsp := (carve (F := F) d i _ (k1_off2 i (tile_body.sl.v32 d i vals)) (k1_off2_inb i _ hc0) _ hs0_0) $$ Ho
  icases Hsp with ⟨Hw0, Ho⟩
  -- the sixteen copies out share the semaphore too: a batch of sixteen
  clear _plan
  have _plan : Transfers.BatchOf (V d (cT i) (sT i)) (SemLoc.dma (sig := sig) cc1_scratch4.sem) 16 := trivial
  sl_exec
  -- position 1: its token id, in range; its block of the result, inside the slab and apart from the earlier ones
  have hvid1 : tile_body.sl.v73 d i vals = vals.iv d (ix2 (tI i) 1) :=
    (ScPay.extractAt_slice (tile_body.sl.v29 d i vals) 1 slices_S16_o1_S1 inpos_S1_p0 (by decide)).trans (loaded_i d i vals _)
  have hlt1 : (tile_body.sl.v73 d i vals).toNat < 100000 := by rw [hvid1]; exact hI d _
  have hc1 : k1_chk2 i (tile_body.sl.v73 d i vals) := ScArith.k1_chk2_of i _ hlt1
  have he1 := ScArith.k1_off3_eq i _ hlt1
  have hs1_0 := win_sub_slab i _ (k1_off3_inb i _ hc1) _ _ _ he1 (by omega)
  have hs1_1 := Finset.subset_sdiff.mpr ⟨hs1_0, win_disj _ _ (k1_off3_inb i _ hc1) (k1_off2_inb i _ hc0) _ _ _ _ _ _ he1 he0 (by omega)⟩
  ihave Hsp := (carve (F := F) d i _ (k1_off3 i (tile_body.sl.v73 d i vals)) (k1_off3_inb i _ hc1) _ hs1_1) $$ Ho
  icases Hsp with ⟨Hw1, Ho⟩
  sl_exec
  -- position 2: its token id, in range; its block of the result, inside the slab and apart from the earlier ones
  have hvid2 : tile_body.sl.v114 d i vals = vals.iv d (ix2 (tI i) 2) :=
    (ScPay.extractAt_slice (tile_body.sl.v29 d i vals) 2 slices_S16_o2_S1 inpos_S1_p0 (by decide)).trans (loaded_i d i vals _)
  have hlt2 : (tile_body.sl.v114 d i vals).toNat < 100000 := by rw [hvid2]; exact hI d _
  have hc2 : k1_chk3 i (tile_body.sl.v114 d i vals) := ScArith.k1_chk3_of i _ hlt2
  have he2 := ScArith.k1_off4_eq i _ hlt2
  have hs2_0 := win_sub_slab i _ (k1_off4_inb i _ hc2) _ _ _ he2 (by omega)
  have hs2_1 := Finset.subset_sdiff.mpr ⟨hs2_0, win_disj _ _ (k1_off4_inb i _ hc2) (k1_off2_inb i _ hc0) _ _ _ _ _ _ he2 he0 (by omega)⟩
  have hs2_2 := Finset.subset_sdiff.mpr ⟨hs2_1, win_disj _ _ (k1_off4_inb i _ hc2) (k1_off3_inb i _ hc1) _ _ _ _ _ _ he2 he1 (by omega)⟩
  ihave Hsp := (carve (F := F) d i _ (k1_off4 i (tile_body.sl.v114 d i vals)) (k1_off4_inb i _ hc2) _ hs2_2) $$ Ho
  icases Hsp with ⟨Hw2, Ho⟩
  sl_exec
  -- position 3: its token id, in range; its block of the result, inside the slab and apart from the earlier ones
  have hvid3 : tile_body.sl.v155 d i vals = vals.iv d (ix2 (tI i) 3) :=
    (ScPay.extractAt_slice (tile_body.sl.v29 d i vals) 3 slices_S16_o3_S1 inpos_S1_p0 (by decide)).trans (loaded_i d i vals _)
  have hlt3 : (tile_body.sl.v155 d i vals).toNat < 100000 := by rw [hvid3]; exact hI d _
  have hc3 : k1_chk4 i (tile_body.sl.v155 d i vals) := ScArith.k1_chk4_of i _ hlt3
  have he3 := ScArith.k1_off5_eq i _ hlt3
  have hs3_0 := win_sub_slab i _ (k1_off5_inb i _ hc3) _ _ _ he3 (by omega)
  have hs3_1 := Finset.subset_sdiff.mpr ⟨hs3_0, win_disj _ _ (k1_off5_inb i _ hc3) (k1_off2_inb i _ hc0) _ _ _ _ _ _ he3 he0 (by omega)⟩
  have hs3_2 := Finset.subset_sdiff.mpr ⟨hs3_1, win_disj _ _ (k1_off5_inb i _ hc3) (k1_off3_inb i _ hc1) _ _ _ _ _ _ he3 he1 (by omega)⟩
  have hs3_3 := Finset.subset_sdiff.mpr ⟨hs3_2, win_disj _ _ (k1_off5_inb i _ hc3) (k1_off4_inb i _ hc2) _ _ _ _ _ _ he3 he2 (by omega)⟩
  ihave Hsp := (carve (F := F) d i _ (k1_off5 i (tile_body.sl.v155 d i vals)) (k1_off5_inb i _ hc3) _ hs3_3) $$ Ho
  icases Hsp with ⟨Hw3, Ho⟩
  sl_exec
  -- position 4: its token id, in range; its block of the result, inside the slab and apart from the earlier ones
  have hvid4 : tile_body.sl.v196 d i vals = vals.iv d (ix2 (tI i) 4) :=
    (ScPay.extractAt_slice (tile_body.sl.v29 d i vals) 4 slices_S16_o4_S1 inpos_S1_p0 (by decide)).trans (loaded_i d i vals _)
  have hlt4 : (tile_body.sl.v196 d i vals).toNat < 100000 := by rw [hvid4]; exact hI d _
  have hc4 : k1_chk5 i (tile_body.sl.v196 d i vals) := ScArith.k1_chk5_of i _ hlt4
  have he4 := ScArith.k1_off6_eq i _ hlt4
  have hs4_0 := win_sub_slab i _ (k1_off6_inb i _ hc4) _ _ _ he4 (by omega)
  have hs4_1 := Finset.subset_sdiff.mpr ⟨hs4_0, win_disj _ _ (k1_off6_inb i _ hc4) (k1_off2_inb i _ hc0) _ _ _ _ _ _ he4 he0 (by omega)⟩
  have hs4_2 := Finset.subset_sdiff.mpr ⟨hs4_1, win_disj _ _ (k1_off6_inb i _ hc4) (k1_off3_inb i _ hc1) _ _ _ _ _ _ he4 he1 (by omega)⟩
  have hs4_3 := Finset.subset_sdiff.mpr ⟨hs4_2, win_disj _ _ (k1_off6_inb i _ hc4) (k1_off4_inb i _ hc2) _ _ _ _ _ _ he4 he2 (by omega)⟩
  have hs4_4 := Finset.subset_sdiff.mpr ⟨hs4_3, win_disj _ _ (k1_off6_inb i _ hc4) (k1_off5_inb i _ hc3) _ _ _ _ _ _ he4 he3 (by omega)⟩
  ihave Hsp := (carve (F := F) d i _ (k1_off6 i (tile_body.sl.v196 d i vals)) (k1_off6_inb i _ hc4) _ hs4_4) $$ Ho
  icases Hsp with ⟨Hw4, Ho⟩
  sl_exec
  -- position 5: its token id, in range; its block of the result, inside the slab and apart from the earlier ones
  have hvid5 : tile_body.sl.v237 d i vals = vals.iv d (ix2 (tI i) 5) :=
    (ScPay.extractAt_slice (tile_body.sl.v29 d i vals) 5 slices_S16_o5_S1 inpos_S1_p0 (by decide)).trans (loaded_i d i vals _)
  have hlt5 : (tile_body.sl.v237 d i vals).toNat < 100000 := by rw [hvid5]; exact hI d _
  have hc5 : k1_chk6 i (tile_body.sl.v237 d i vals) := ScArith.k1_chk6_of i _ hlt5
  have he5 := ScArith.k1_off7_eq i _ hlt5
  have hs5_0 := win_sub_slab i _ (k1_off7_inb i _ hc5) _ _ _ he5 (by omega)
  have hs5_1 := Finset.subset_sdiff.mpr ⟨hs5_0, win_disj _ _ (k1_off7_inb i _ hc5) (k1_off2_inb i _ hc0) _ _ _ _ _ _ he5 he0 (by omega)⟩
  have hs5_2 := Finset.subset_sdiff.mpr ⟨hs5_1, win_disj _ _ (k1_off7_inb i _ hc5) (k1_off3_inb i _ hc1) _ _ _ _ _ _ he5 he1 (by omega)⟩
  have hs5_3 := Finset.subset_sdiff.mpr ⟨hs5_2, win_disj _ _ (k1_off7_inb i _ hc5) (k1_off4_inb i _ hc2) _ _ _ _ _ _ he5 he2 (by omega)⟩
  have hs5_4 := Finset.subset_sdiff.mpr ⟨hs5_3, win_disj _ _ (k1_off7_inb i _ hc5) (k1_off5_inb i _ hc3) _ _ _ _ _ _ he5 he3 (by omega)⟩
  have hs5_5 := Finset.subset_sdiff.mpr ⟨hs5_4, win_disj _ _ (k1_off7_inb i _ hc5) (k1_off6_inb i _ hc4) _ _ _ _ _ _ he5 he4 (by omega)⟩
  ihave Hsp := (carve (F := F) d i _ (k1_off7 i (tile_body.sl.v237 d i vals)) (k1_off7_inb i _ hc5) _ hs5_5) $$ Ho
  icases Hsp with ⟨Hw5, Ho⟩
  sl_exec
  -- position 6: its token id, in range; its block of the result, inside the slab and apart from the earlier ones
  have hvid6 : tile_body.sl.v278 d i vals = vals.iv d (ix2 (tI i) 6) :=
    (ScPay.extractAt_slice (tile_body.sl.v29 d i vals) 6 slices_S16_o6_S1 inpos_S1_p0 (by decide)).trans (loaded_i d i vals _)
  have hlt6 : (tile_body.sl.v278 d i vals).toNat < 100000 := by rw [hvid6]; exact hI d _
  have hc6 : k1_chk7 i (tile_body.sl.v278 d i vals) := ScArith.k1_chk7_of i _ hlt6
  have he6 := ScArith.k1_off8_eq i _ hlt6
  have hs6_0 := win_sub_slab i _ (k1_off8_inb i _ hc6) _ _ _ he6 (by omega)
  have hs6_1 := Finset.subset_sdiff.mpr ⟨hs6_0, win_disj _ _ (k1_off8_inb i _ hc6) (k1_off2_inb i _ hc0) _ _ _ _ _ _ he6 he0 (by omega)⟩
  have hs6_2 := Finset.subset_sdiff.mpr ⟨hs6_1, win_disj _ _ (k1_off8_inb i _ hc6) (k1_off3_inb i _ hc1) _ _ _ _ _ _ he6 he1 (by omega)⟩
  have hs6_3 := Finset.subset_sdiff.mpr ⟨hs6_2, win_disj _ _ (k1_off8_inb i _ hc6) (k1_off4_inb i _ hc2) _ _ _ _ _ _ he6 he2 (by omega)⟩
  have hs6_4 := Finset.subset_sdiff.mpr ⟨hs6_3, win_disj _ _ (k1_off8_inb i _ hc6) (k1_off5_inb i _ hc3) _ _ _ _ _ _ he6 he3 (by omega)⟩
  have hs6_5 := Finset.subset_sdiff.mpr ⟨hs6_4, win_disj _ _ (k1_off8_inb i _ hc6) (k1_off6_inb i _ hc4) _ _ _ _ _ _ he6 he4 (by omega)⟩
  have hs6_6 := Finset.subset_sdiff.mpr ⟨hs6_5, win_disj _ _ (k1_off8_inb i _ hc6) (k1_off7_inb i _ hc5) _ _ _ _ _ _ he6 he5 (by omega)⟩
  ihave Hsp := (carve (F := F) d i _ (k1_off8 i (tile_body.sl.v278 d i vals)) (k1_off8_inb i _ hc6) _ hs6_6) $$ Ho
  icases Hsp with ⟨Hw6, Ho⟩
  sl_exec
  -- position 7: its token id, in range; its block of the result, inside the slab and apart from the earlier ones
  have hvid7 : tile_body.sl.v319 d i vals = vals.iv d (ix2 (tI i) 7) :=
    (ScPay.extractAt_slice (tile_body.sl.v29 d i vals) 7 slices_S16_o7_S1 inpos_S1_p0 (by decide)).trans (loaded_i d i vals _)
  have hlt7 : (tile_body.sl.v319 d i vals).toNat < 100000 := by rw [hvid7]; exact hI d _
  have hc7 : k1_chk8 i (tile_body.sl.v319 d i vals) := ScArith.k1_chk8_of i _ hlt7
  have he7 := ScArith.k1_off9_eq i _ hlt7
  have hs7_0 := win_sub_slab i _ (k1_off9_inb i _ hc7) _ _ _ he7 (by omega)
  have hs7_1 := Finset.subset_sdiff.mpr ⟨hs7_0, win_disj _ _ (k1_off9_inb i _ hc7) (k1_off2_inb i _ hc0) _ _ _ _ _ _ he7 he0 (by omega)⟩
  have hs7_2 := Finset.subset_sdiff.mpr ⟨hs7_1, win_disj _ _ (k1_off9_inb i _ hc7) (k1_off3_inb i _ hc1) _ _ _ _ _ _ he7 he1 (by omega)⟩
  have hs7_3 := Finset.subset_sdiff.mpr ⟨hs7_2, win_disj _ _ (k1_off9_inb i _ hc7) (k1_off4_inb i _ hc2) _ _ _ _ _ _ he7 he2 (by omega)⟩
  have hs7_4 := Finset.subset_sdiff.mpr ⟨hs7_3, win_disj _ _ (k1_off9_inb i _ hc7) (k1_off5_inb i _ hc3) _ _ _ _ _ _ he7 he3 (by omega)⟩
  have hs7_5 := Finset.subset_sdiff.mpr ⟨hs7_4, win_disj _ _ (k1_off9_inb i _ hc7) (k1_off6_inb i _ hc4) _ _ _ _ _ _ he7 he4 (by omega)⟩
  have hs7_6 := Finset.subset_sdiff.mpr ⟨hs7_5, win_disj _ _ (k1_off9_inb i _ hc7) (k1_off7_inb i _ hc5) _ _ _ _ _ _ he7 he5 (by omega)⟩
  have hs7_7 := Finset.subset_sdiff.mpr ⟨hs7_6, win_disj _ _ (k1_off9_inb i _ hc7) (k1_off8_inb i _ hc6) _ _ _ _ _ _ he7 he6 (by omega)⟩
  ihave Hsp := (carve (F := F) d i _ (k1_off9 i (tile_body.sl.v319 d i vals)) (k1_off9_inb i _ hc7) _ hs7_7) $$ Ho
  icases Hsp with ⟨Hw7, Ho⟩
  sl_exec
  -- position 8: its token id, in range; its block of the result, inside the slab and apart from the earlier ones
  have hvid8 : tile_body.sl.v360 d i vals = vals.iv d (ix2 (tI i) 8) :=
    (ScPay.extractAt_slice (tile_body.sl.v29 d i vals) 8 slices_S16_o8_S1 inpos_S1_p0 (by decide)).trans (loaded_i d i vals _)
  have hlt8 : (tile_body.sl.v360 d i vals).toNat < 100000 := by rw [hvid8]; exact hI d _
  have hc8 : k1_chk9 i (tile_body.sl.v360 d i vals) := ScArith.k1_chk9_of i _ hlt8
  have he8 := ScArith.k1_off10_eq i _ hlt8
  have hs8_0 := win_sub_slab i _ (k1_off10_inb i _ hc8) _ _ _ he8 (by omega)
  have hs8_1 := Finset.subset_sdiff.mpr ⟨hs8_0, win_disj _ _ (k1_off10_inb i _ hc8) (k1_off2_inb i _ hc0) _ _ _ _ _ _ he8 he0 (by omega)⟩
  have hs8_2 := Finset.subset_sdiff.mpr ⟨hs8_1, win_disj _ _ (k1_off10_inb i _ hc8) (k1_off3_inb i _ hc1) _ _ _ _ _ _ he8 he1 (by omega)⟩
  have hs8_3 := Finset.subset_sdiff.mpr ⟨hs8_2, win_disj _ _ (k1_off10_inb i _ hc8) (k1_off4_inb i _ hc2) _ _ _ _ _ _ he8 he2 (by omega)⟩
  have hs8_4 := Finset.subset_sdiff.mpr ⟨hs8_3, win_disj _ _ (k1_off10_inb i _ hc8) (k1_off5_inb i _ hc3) _ _ _ _ _ _ he8 he3 (by omega)⟩
  have hs8_5 := Finset.subset_sdiff.mpr ⟨hs8_4, win_disj _ _ (k1_off10_inb i _ hc8) (k1_off6_inb i _ hc4) _ _ _ _ _ _ he8 he4 (by omega)⟩
  have hs8_6 := Finset.subset_sdiff.mpr ⟨hs8_5, win_disj _ _ (k1_off10_inb i _ hc8) (k1_off7_inb i _ hc5) _ _ _ _ _ _ he8 he5 (by omega)⟩
  have hs8_7 := Finset.subset_sdiff.mpr ⟨hs8_6, win_disj _ _ (k1_off10_inb i _ hc8) (k1_off8_inb i _ hc6) _ _ _ _ _ _ he8 he6 (by omega)⟩
  have hs8_8 := Finset.subset_sdiff.mpr ⟨hs8_7, win_disj _ _ (k1_off10_inb i _ hc8) (k1_off9_inb i _ hc7) _ _ _ _ _ _ he8 he7 (by omega)⟩
  ihave Hsp := (carve (F := F) d i _ (k1_off10 i (tile_body.sl.v360 d i vals)) (k1_off10_inb i _ hc8) _ hs8_8) $$ Ho
  icases Hsp with ⟨Hw8, Ho⟩
  sl_exec
  -- position 9: its token id, in range; its block of the result, inside the slab and apart from the earlier ones
  have hvid9 : tile_body.sl.v401 d i vals = vals.iv d (ix2 (tI i) 9) :=
    (ScPay.extractAt_slice (tile_body.sl.v29 d i vals) 9 slices_S16_o9_S1 inpos_S1_p0 (by decide)).trans (loaded_i d i vals _)
  have hlt9 : (tile_body.sl.v401 d i vals).toNat < 100000 := by rw [hvid9]; exact hI d _
  have hc9 : k1_chk10 i (tile_body.sl.v401 d i vals) := ScArith.k1_chk10_of i _ hlt9
  have he9 := ScArith.k1_off11_eq i _ hlt9
  have hs9_0 := win_sub_slab i _ (k1_off11_inb i _ hc9) _ _ _ he9 (by omega)
  have hs9_1 := Finset.subset_sdiff.mpr ⟨hs9_0, win_disj _ _ (k1_off11_inb i _ hc9) (k1_off2_inb i _ hc0) _ _ _ _ _ _ he9 he0 (by omega)⟩
  have hs9_2 := Finset.subset_sdiff.mpr ⟨hs9_1, win_disj _ _ (k1_off11_inb i _ hc9) (k1_off3_inb i _ hc1) _ _ _ _ _ _ he9 he1 (by omega)⟩
  have hs9_3 := Finset.subset_sdiff.mpr ⟨hs9_2, win_disj _ _ (k1_off11_inb i _ hc9) (k1_off4_inb i _ hc2) _ _ _ _ _ _ he9 he2 (by omega)⟩
  have hs9_4 := Finset.subset_sdiff.mpr ⟨hs9_3, win_disj _ _ (k1_off11_inb i _ hc9) (k1_off5_inb i _ hc3) _ _ _ _ _ _ he9 he3 (by omega)⟩
  have hs9_5 := Finset.subset_sdiff.mpr ⟨hs9_4, win_disj _ _ (k1_off11_inb i _ hc9) (k1_off6_inb i _ hc4) _ _ _ _ _ _ he9 he4 (by omega)⟩
  have hs9_6 := Finset.subset_sdiff.mpr ⟨hs9_5, win_disj _ _ (k1_off11_inb i _ hc9) (k1_off7_inb i _ hc5) _ _ _ _ _ _ he9 he5 (by omega)⟩
  have hs9_7 := Finset.subset_sdiff.mpr ⟨hs9_6, win_disj _ _ (k1_off11_inb i _ hc9) (k1_off8_inb i _ hc6) _ _ _ _ _ _ he9 he6 (by omega)⟩
  have hs9_8 := Finset.subset_sdiff.mpr ⟨hs9_7, win_disj _ _ (k1_off11_inb i _ hc9) (k1_off9_inb i _ hc7) _ _ _ _ _ _ he9 he7 (by omega)⟩
  have hs9_9 := Finset.subset_sdiff.mpr ⟨hs9_8, win_disj _ _ (k1_off11_inb i _ hc9) (k1_off10_inb i _ hc8) _ _ _ _ _ _ he9 he8 (by omega)⟩
  ihave Hsp := (carve (F := F) d i _ (k1_off11 i (tile_body.sl.v401 d i vals)) (k1_off11_inb i _ hc9) _ hs9_9) $$ Ho
  icases Hsp with ⟨Hw9, Ho⟩
  sl_exec
  -- position 10: its token id, in range; its block of the result, inside the slab and apart from the earlier ones
  have hvid10 : tile_body.sl.v442 d i vals = vals.iv d (ix2 (tI i) 10) :=
    (ScPay.extractAt_slice (tile_body.sl.v29 d i vals) 10 slices_S16_o10_S1 inpos_S1_p0 (by decide)).trans (loaded_i d i vals _)
  have hlt10 : (tile_body.sl.v442 d i vals).toNat < 100000 := by rw [hvid10]; exact hI d _
  have hc10 : k1_chk11 i (tile_body.sl.v442 d i vals) := ScArith.k1_chk11_of i _ hlt10
  have he10 := ScArith.k1_off12_eq i _ hlt10
  have hs10_0 := win_sub_slab i _ (k1_off12_inb i _ hc10) _ _ _ he10 (by omega)
  have hs10_1 := Finset.subset_sdiff.mpr ⟨hs10_0, win_disj _ _ (k1_off12_inb i _ hc10) (k1_off2_inb i _ hc0) _ _ _ _ _ _ he10 he0 (by omega)⟩
  have hs10_2 := Finset.subset_sdiff.mpr ⟨hs10_1, win_disj _ _ (k1_off12_inb i _ hc10) (k1_off3_inb i _ hc1) _ _ _ _ _ _ he10 he1 (by omega)⟩
  have hs10_3 := Finset.subset_sdiff.mpr ⟨hs10_2, win_disj _ _ (k1_off12_inb i _ hc10) (k1_off4_inb i _ hc2) _ _ _ _ _ _ he10 he2 (by omega)⟩
  have hs10_4 := Finset.subset_sdiff.mpr ⟨hs10_3, win_disj _ _ (k1_off12_inb i _ hc10) (k1_off5_inb i _ hc3) _ _ _ _ _ _ he10 he3 (by omega)⟩
  have hs10_5 := Finset.subset_sdiff.mpr ⟨hs10_4, win_disj _ _ (k1_off12_inb i _ hc10) (k1_off6_inb i _ hc4) _ _ _ _ _ _ he10 he4 (by omega)⟩
  have hs10_6 := Finset.subset_sdiff.mpr ⟨hs10_5, win_disj _ _ (k1_off12_inb i _ hc10) (k1_off7_inb i _ hc5) _ _ _ _ _ _ he10 he5 (by omega)⟩
  have hs10_7 := Finset.subset_sdiff.mpr ⟨hs10_6, win_disj _ _ (k1_off12_inb i _ hc10) (k1_off8_inb i _ hc6) _ _ _ _ _ _ he10 he6 (by omega)⟩
  have hs10_8 := Finset.subset_sdiff.mpr ⟨hs10_7, win_disj _ _ (k1_off12_inb i _ hc10) (k1_off9_inb i _ hc7) _ _ _ _ _ _ he10 he7 (by omega)⟩
  have hs10_9 := Finset.subset_sdiff.mpr ⟨hs10_8, win_disj _ _ (k1_off12_inb i _ hc10) (k1_off10_inb i _ hc8) _ _ _ _ _ _ he10 he8 (by omega)⟩
  have hs10_10 := Finset.subset_sdiff.mpr ⟨hs10_9, win_disj _ _ (k1_off12_inb i _ hc10) (k1_off11_inb i _ hc9) _ _ _ _ _ _ he10 he9 (by omega)⟩
  ihave Hsp := (carve (F := F) d i _ (k1_off12 i (tile_body.sl.v442 d i vals)) (k1_off12_inb i _ hc10) _ hs10_10) $$ Ho
  icases Hsp with ⟨Hw10, Ho⟩
  sl_exec
  -- position 11: its token id, in range; its block of the result, inside the slab and apart from the earlier ones
  have hvid11 : tile_body.sl.v483 d i vals = vals.iv d (ix2 (tI i) 11) :=
    (ScPay.extractAt_slice (tile_body.sl.v29 d i vals) 11 slices_S16_o11_S1 inpos_S1_p0 (by decide)).trans (loaded_i d i vals _)
  have hlt11 : (tile_body.sl.v483 d i vals).toNat < 100000 := by rw [hvid11]; exact hI d _
  have hc11 : k1_chk12 i (tile_body.sl.v483 d i vals) := ScArith.k1_chk12_of i _ hlt11
  have he11 := ScArith.k1_off13_eq i _ hlt11
  have hs11_0 := win_sub_slab i _ (k1_off13_inb i _ hc11) _ _ _ he11 (by omega)
  have hs11_1 := Finset.subset_sdiff.mpr ⟨hs11_0, win_disj _ _ (k1_off13_inb i _ hc11) (k1_off2_inb i _ hc0) _ _ _ _ _ _ he11 he0 (by omega)⟩
  have hs11_2 := Finset.subset_sdiff.mpr ⟨hs11_1, win_disj _ _ (k1_off13_inb i _ hc11) (k1_off3_inb i _ hc1) _ _ _ _ _ _ he11 he1 (by omega)⟩
  have hs11_3 := Finset.subset_sdiff.mpr ⟨hs11_2, win_disj _ _ (k1_off13_inb i _ hc11) (k1_off4_inb i _ hc2) _ _ _ _ _ _ he11 he2 (by omega)⟩
  have hs11_4 := Finset.subset_sdiff.mpr ⟨hs11_3, win_disj _ _ (k1_off13_inb i _ hc11) (k1_off5_inb i _ hc3) _ _ _ _ _ _ he11 he3 (by omega)⟩
  have hs11_5 := Finset.subset_sdiff.mpr ⟨hs11_4, win_disj _ _ (k1_off13_inb i _ hc11) (k1_off6_inb i _ hc4) _ _ _ _ _ _ he11 he4 (by omega)⟩
  have hs11_6 := Finset.subset_sdiff.mpr ⟨hs11_5, win_disj _ _ (k1_off13_inb i _ hc11) (k1_off7_inb i _ hc5) _ _ _ _ _ _ he11 he5 (by omega)⟩
  have hs11_7 := Finset.subset_sdiff.mpr ⟨hs11_6, win_disj _ _ (k1_off13_inb i _ hc11) (k1_off8_inb i _ hc6) _ _ _ _ _ _ he11 he6 (by omega)⟩
  have hs11_8 := Finset.subset_sdiff.mpr ⟨hs11_7, win_disj _ _ (k1_off13_inb i _ hc11) (k1_off9_inb i _ hc7) _ _ _ _ _ _ he11 he7 (by omega)⟩
  have hs11_9 := Finset.subset_sdiff.mpr ⟨hs11_8, win_disj _ _ (k1_off13_inb i _ hc11) (k1_off10_inb i _ hc8) _ _ _ _ _ _ he11 he8 (by omega)⟩
  have hs11_10 := Finset.subset_sdiff.mpr ⟨hs11_9, win_disj _ _ (k1_off13_inb i _ hc11) (k1_off11_inb i _ hc9) _ _ _ _ _ _ he11 he9 (by omega)⟩
  have hs11_11 := Finset.subset_sdiff.mpr ⟨hs11_10, win_disj _ _ (k1_off13_inb i _ hc11) (k1_off12_inb i _ hc10) _ _ _ _ _ _ he11 he10 (by omega)⟩
  ihave Hsp := (carve (F := F) d i _ (k1_off13 i (tile_body.sl.v483 d i vals)) (k1_off13_inb i _ hc11) _ hs11_11) $$ Ho
  icases Hsp with ⟨Hw11, Ho⟩
  sl_exec
  -- position 12: its token id, in range; its block of the result, inside the slab and apart from the earlier ones
  have hvid12 : tile_body.sl.v524 d i vals = vals.iv d (ix2 (tI i) 12) :=
    (ScPay.extractAt_slice (tile_body.sl.v29 d i vals) 12 slices_S16_o12_S1 inpos_S1_p0 (by decide)).trans (loaded_i d i vals _)
  have hlt12 : (tile_body.sl.v524 d i vals).toNat < 100000 := by rw [hvid12]; exact hI d _
  have hc12 : k1_chk13 i (tile_body.sl.v524 d i vals) := ScArith.k1_chk13_of i _ hlt12
  have he12 := ScArith.k1_off14_eq i _ hlt12
  have hs12_0 := win_sub_slab i _ (k1_off14_inb i _ hc12) _ _ _ he12 (by omega)
  have hs12_1 := Finset.subset_sdiff.mpr ⟨hs12_0, win_disj _ _ (k1_off14_inb i _ hc12) (k1_off2_inb i _ hc0) _ _ _ _ _ _ he12 he0 (by omega)⟩
  have hs12_2 := Finset.subset_sdiff.mpr ⟨hs12_1, win_disj _ _ (k1_off14_inb i _ hc12) (k1_off3_inb i _ hc1) _ _ _ _ _ _ he12 he1 (by omega)⟩
  have hs12_3 := Finset.subset_sdiff.mpr ⟨hs12_2, win_disj _ _ (k1_off14_inb i _ hc12) (k1_off4_inb i _ hc2) _ _ _ _ _ _ he12 he2 (by omega)⟩
  have hs12_4 := Finset.subset_sdiff.mpr ⟨hs12_3, win_disj _ _ (k1_off14_inb i _ hc12) (k1_off5_inb i _ hc3) _ _ _ _ _ _ he12 he3 (by omega)⟩
  have hs12_5 := Finset.subset_sdiff.mpr ⟨hs12_4, win_disj _ _ (k1_off14_inb i _ hc12) (k1_off6_inb i _ hc4) _ _ _ _ _ _ he12 he4 (by omega)⟩
  have hs12_6 := Finset.subset_sdiff.mpr ⟨hs12_5, win_disj _ _ (k1_off14_inb i _ hc12) (k1_off7_inb i _ hc5) _ _ _ _ _ _ he12 he5 (by omega)⟩
  have hs12_7 := Finset.subset_sdiff.mpr ⟨hs12_6, win_disj _ _ (k1_off14_inb i _ hc12) (k1_off8_inb i _ hc6) _ _ _ _ _ _ he12 he6 (by omega)⟩
  have hs12_8 := Finset.subset_sdiff.mpr ⟨hs12_7, win_disj _ _ (k1_off14_inb i _ hc12) (k1_off9_inb i _ hc7) _ _ _ _ _ _ he12 he7 (by omega)⟩
  have hs12_9 := Finset.subset_sdiff.mpr ⟨hs12_8, win_disj _ _ (k1_off14_inb i _ hc12) (k1_off10_inb i _ hc8) _ _ _ _ _ _ he12 he8 (by omega)⟩
  have hs12_10 := Finset.subset_sdiff.mpr ⟨hs12_9, win_disj _ _ (k1_off14_inb i _ hc12) (k1_off11_inb i _ hc9) _ _ _ _ _ _ he12 he9 (by omega)⟩
  have hs12_11 := Finset.subset_sdiff.mpr ⟨hs12_10, win_disj _ _ (k1_off14_inb i _ hc12) (k1_off12_inb i _ hc10) _ _ _ _ _ _ he12 he10 (by omega)⟩
  have hs12_12 := Finset.subset_sdiff.mpr ⟨hs12_11, win_disj _ _ (k1_off14_inb i _ hc12) (k1_off13_inb i _ hc11) _ _ _ _ _ _ he12 he11 (by omega)⟩
  ihave Hsp := (carve (F := F) d i _ (k1_off14 i (tile_body.sl.v524 d i vals)) (k1_off14_inb i _ hc12) _ hs12_12) $$ Ho
  icases Hsp with ⟨Hw12, Ho⟩
  sl_exec
  -- position 13: its token id, in range; its block of the result, inside the slab and apart from the earlier ones
  have hvid13 : tile_body.sl.v565 d i vals = vals.iv d (ix2 (tI i) 13) :=
    (ScPay.extractAt_slice (tile_body.sl.v29 d i vals) 13 slices_S16_o13_S1 inpos_S1_p0 (by decide)).trans (loaded_i d i vals _)
  have hlt13 : (tile_body.sl.v565 d i vals).toNat < 100000 := by rw [hvid13]; exact hI d _
  have hc13 : k1_chk14 i (tile_body.sl.v565 d i vals) := ScArith.k1_chk14_of i _ hlt13
  have he13 := ScArith.k1_off15_eq i _ hlt13
  have hs13_0 := win_sub_slab i _ (k1_off15_inb i _ hc13) _ _ _ he13 (by omega)
  have hs13_1 := Finset.subset_sdiff.mpr ⟨hs13_0, win_disj _ _ (k1_off15_inb i _ hc13) (k1_off2_inb i _ hc0) _ _ _ _ _ _ he13 he0 (by omega)⟩
  have hs13_2 := Finset.subset_sdiff.mpr ⟨hs13_1, win_disj _ _ (k1_off15_inb i _ hc13) (k1_off3_inb i _ hc1) _ _ _ _ _ _ he13 he1 (by omega)⟩
  have hs13_3 := Finset.subset_sdiff.mpr ⟨hs13_2, win_disj _ _ (k1_off15_inb i _ hc13) (k1_off4_inb i _ hc2) _ _ _ _ _ _ he13 he2 (by omega)⟩
  have hs13_4 := Finset.subset_sdiff.mpr ⟨hs13_3, win_disj _ _ (k1_off15_inb i _ hc13) (k1_off5_inb i _ hc3) _ _ _ _ _ _ he13 he3 (by omega)⟩
  have hs13_5 := Finset.subset_sdiff.mpr ⟨hs13_4, win_disj _ _ (k1_off15_inb i _ hc13) (k1_off6_inb i _ hc4) _ _ _ _ _ _ he13 he4 (by omega)⟩
  have hs13_6 := Finset.subset_sdiff.mpr ⟨hs13_5, win_disj _ _ (k1_off15_inb i _ hc13) (k1_off7_inb i _ hc5) _ _ _ _ _ _ he13 he5 (by omega)⟩
  have hs13_7 := Finset.subset_sdiff.mpr ⟨hs13_6, win_disj _ _ (k1_off15_inb i _ hc13) (k1_off8_inb i _ hc6) _ _ _ _ _ _ he13 he6 (by omega)⟩
  have hs13_8 := Finset.subset_sdiff.mpr ⟨hs13_7, win_disj _ _ (k1_off15_inb i _ hc13) (k1_off9_inb i _ hc7) _ _ _ _ _ _ he13 he7 (by omega)⟩
  have hs13_9 := Finset.subset_sdiff.mpr ⟨hs13_8, win_disj _ _ (k1_off15_inb i _ hc13) (k1_off10_inb i _ hc8) _ _ _ _ _ _ he13 he8 (by omega)⟩
  have hs13_10 := Finset.subset_sdiff.mpr ⟨hs13_9, win_disj _ _ (k1_off15_inb i _ hc13) (k1_off11_inb i _ hc9) _ _ _ _ _ _ he13 he9 (by omega)⟩
  have hs13_11 := Finset.subset_sdiff.mpr ⟨hs13_10, win_disj _ _ (k1_off15_inb i _ hc13) (k1_off12_inb i _ hc10) _ _ _ _ _ _ he13 he10 (by omega)⟩
  have hs13_12 := Finset.subset_sdiff.mpr ⟨hs13_11, win_disj _ _ (k1_off15_inb i _ hc13) (k1_off13_inb i _ hc11) _ _ _ _ _ _ he13 he11 (by omega)⟩
  have hs13_13 := Finset.subset_sdiff.mpr ⟨hs13_12, win_disj _ _ (k1_off15_inb i _ hc13) (k1_off14_inb i _ hc12) _ _ _ _ _ _ he13 he12 (by omega)⟩
  ihave Hsp := (carve (F := F) d i _ (k1_off15 i (tile_body.sl.v565 d i vals)) (k1_off15_inb i _ hc13) _ hs13_13) $$ Ho
  icases Hsp with ⟨Hw13, Ho⟩
  sl_exec
  -- position 14: its token id, in range; its block of the result, inside the slab and apart from the earlier ones
  have hvid14 : tile_body.sl.v606 d i vals = vals.iv d (ix2 (tI i) 14) :=
    (ScPay.extractAt_slice (tile_body.sl.v29 d i vals) 14 slices_S16_o14_S1 inpos_S1_p0 (by decide)).trans (loaded_i d i vals _)
  have hlt14 : (tile_body.sl.v606 d i vals).toNat < 100000 := by rw [hvid14]; exact hI d _
  have hc14 : k1_chk15 i (tile_body.sl.v606 d i vals) := ScArith.k1_chk15_of i _ hlt14
  have he14 := ScArith.k1_off16_eq i _ hlt14
  have hs14_0 := win_sub_slab i _ (k1_off16_inb i _ hc14) _ _ _ he14 (by omega)
  have hs14_1 := Finset.subset_sdiff.mpr ⟨hs14_0, win_disj _ _ (k1_off16_inb i _ hc14) (k1_off2_inb i _ hc0) _ _ _ _ _ _ he14 he0 (by omega)⟩
  have hs14_2 := Finset.subset_sdiff.mpr ⟨hs14_1, win_disj _ _ (k1_off16_inb i _ hc14) (k1_off3_inb i _ hc1) _ _ _ _ _ _ he14 he1 (by omega)⟩
  have hs14_3 := Finset.subset_sdiff.mpr ⟨hs14_2, win_disj _ _ (k1_off16_inb i _ hc14) (k1_off4_inb i _ hc2) _ _ _ _ _ _ he14 he2 (by omega)⟩
  have hs14_4 := Finset.subset_sdiff.mpr ⟨hs14_3, win_disj _ _ (k1_off16_inb i _ hc14) (k1_off5_inb i _ hc3) _ _ _ _ _ _ he14 he3 (by omega)⟩
  have hs14_5 := Finset.subset_sdiff.mpr ⟨hs14_4, win_disj _ _ (k1_off16_inb i _ hc14) (k1_off6_inb i _ hc4) _ _ _ _ _ _ he14 he4 (by omega)⟩
  have hs14_6 := Finset.subset_sdiff.mpr ⟨hs14_5, win_disj _ _ (k1_off16_inb i _ hc14) (k1_off7_inb i _ hc5) _ _ _ _ _ _ he14 he5 (by omega)⟩
  have hs14_7 := Finset.subset_sdiff.mpr ⟨hs14_6, win_disj _ _ (k1_off16_inb i _ hc14) (k1_off8_inb i _ hc6) _ _ _ _ _ _ he14 he6 (by omega)⟩
  have hs14_8 := Finset.subset_sdiff.mpr ⟨hs14_7, win_disj _ _ (k1_off16_inb i _ hc14) (k1_off9_inb i _ hc7) _ _ _ _ _ _ he14 he7 (by omega)⟩
  have hs14_9 := Finset.subset_sdiff.mpr ⟨hs14_8, win_disj _ _ (k1_off16_inb i _ hc14) (k1_off10_inb i _ hc8) _ _ _ _ _ _ he14 he8 (by omega)⟩
  have hs14_10 := Finset.subset_sdiff.mpr ⟨hs14_9, win_disj _ _ (k1_off16_inb i _ hc14) (k1_off11_inb i _ hc9) _ _ _ _ _ _ he14 he9 (by omega)⟩
  have hs14_11 := Finset.subset_sdiff.mpr ⟨hs14_10, win_disj _ _ (k1_off16_inb i _ hc14) (k1_off12_inb i _ hc10) _ _ _ _ _ _ he14 he10 (by omega)⟩
  have hs14_12 := Finset.subset_sdiff.mpr ⟨hs14_11, win_disj _ _ (k1_off16_inb i _ hc14) (k1_off13_inb i _ hc11) _ _ _ _ _ _ he14 he11 (by omega)⟩
  have hs14_13 := Finset.subset_sdiff.mpr ⟨hs14_12, win_disj _ _ (k1_off16_inb i _ hc14) (k1_off14_inb i _ hc12) _ _ _ _ _ _ he14 he12 (by omega)⟩
  have hs14_14 := Finset.subset_sdiff.mpr ⟨hs14_13, win_disj _ _ (k1_off16_inb i _ hc14) (k1_off15_inb i _ hc13) _ _ _ _ _ _ he14 he13 (by omega)⟩
  ihave Hsp := (carve (F := F) d i _ (k1_off16 i (tile_body.sl.v606 d i vals)) (k1_off16_inb i _ hc14) _ hs14_14) $$ Ho
  icases Hsp with ⟨Hw14, Ho⟩
  sl_exec
  -- position 15: its token id, in range; its block of the result, inside the slab and apart from the earlier ones
  have hvid15 : tile_body.sl.v647 d i vals = vals.iv d (ix2 (tI i) 15) :=
    (ScPay.extractAt_slice (tile_body.sl.v29 d i vals) 15 slices_S16_o15_S1 inpos_S1_p0 (by decide)).trans (loaded_i d i vals _)
  have hlt15 : (tile_body.sl.v647 d i vals).toNat < 100000 := by rw [hvid15]; exact hI d _
  have hc15 : k1_chk16 i (tile_body.sl.v647 d i vals) := ScArith.k1_chk16_of i _ hlt15
  have he15 := ScArith.k1_off17_eq i _ hlt15
  have hs15_0 := win_sub_slab i _ (k1_off17_inb i _ hc15) _ _ _ he15 (by omega)
  have hs15_1 := Finset.subset_sdiff.mpr ⟨hs15_0, win_disj _ _ (k1_off17_inb i _ hc15) (k1_off2_inb i _ hc0) _ _ _ _ _ _ he15 he0 (by omega)⟩
  have hs15_2 := Finset.subset_sdiff.mpr ⟨hs15_1, win_disj _ _ (k1_off17_inb i _ hc15) (k1_off3_inb i _ hc1) _ _ _ _ _ _ he15 he1 (by omega)⟩
  have hs15_3 := Finset.subset_sdiff.mpr ⟨hs15_2, win_disj _ _ (k1_off17_inb i _ hc15) (k1_off4_inb i _ hc2) _ _ _ _ _ _ he15 he2 (by omega)⟩
  have hs15_4 := Finset.subset_sdiff.mpr ⟨hs15_3, win_disj _ _ (k1_off17_inb i _ hc15) (k1_off5_inb i _ hc3) _ _ _ _ _ _ he15 he3 (by omega)⟩
  have hs15_5 := Finset.subset_sdiff.mpr ⟨hs15_4, win_disj _ _ (k1_off17_inb i _ hc15) (k1_off6_inb i _ hc4) _ _ _ _ _ _ he15 he4 (by omega)⟩
  have hs15_6 := Finset.subset_sdiff.mpr ⟨hs15_5, win_disj _ _ (k1_off17_inb i _ hc15) (k1_off7_inb i _ hc5) _ _ _ _ _ _ he15 he5 (by omega)⟩
  have hs15_7 := Finset.subset_sdiff.mpr ⟨hs15_6, win_disj _ _ (k1_off17_inb i _ hc15) (k1_off8_inb i _ hc6) _ _ _ _ _ _ he15 he6 (by omega)⟩
  have hs15_8 := Finset.subset_sdiff.mpr ⟨hs15_7, win_disj _ _ (k1_off17_inb i _ hc15) (k1_off9_inb i _ hc7) _ _ _ _ _ _ he15 he7 (by omega)⟩
  have hs15_9 := Finset.subset_sdiff.mpr ⟨hs15_8, win_disj _ _ (k1_off17_inb i _ hc15) (k1_off10_inb i _ hc8) _ _ _ _ _ _ he15 he8 (by omega)⟩
  have hs15_10 := Finset.subset_sdiff.mpr ⟨hs15_9, win_disj _ _ (k1_off17_inb i _ hc15) (k1_off11_inb i _ hc9) _ _ _ _ _ _ he15 he9 (by omega)⟩
  have hs15_11 := Finset.subset_sdiff.mpr ⟨hs15_10, win_disj _ _ (k1_off17_inb i _ hc15) (k1_off12_inb i _ hc10) _ _ _ _ _ _ he15 he10 (by omega)⟩
  have hs15_12 := Finset.subset_sdiff.mpr ⟨hs15_11, win_disj _ _ (k1_off17_inb i _ hc15) (k1_off13_inb i _ hc11) _ _ _ _ _ _ he15 he11 (by omega)⟩
  have hs15_13 := Finset.subset_sdiff.mpr ⟨hs15_12, win_disj _ _ (k1_off17_inb i _ hc15) (k1_off14_inb i _ hc12) _ _ _ _ _ _ he15 he12 (by omega)⟩
  have hs15_14 := Finset.subset_sdiff.mpr ⟨hs15_13, win_disj _ _ (k1_off17_inb i _ hc15) (k1_off15_inb i _ hc13) _ _ _ _ _ _ he15 he13 (by omega)⟩
  have hs15_15 := Finset.subset_sdiff.mpr ⟨hs15_14, win_disj _ _ (k1_off17_inb i _ hc15) (k1_off16_inb i _ hc14) _ _ _ _ _ _ he15 he14 (by omega)⟩
  ihave Hsp := (carve (F := F) d i _ (k1_off17 i (tile_body.sl.v647 d i vals)) (k1_off17_inb i _ hc15) _ hs15_15) $$ Ho
  icases Hsp with ⟨Hw15, Ho⟩
  sl_exec
  sl_step
  -- position 0: the select vector stored and copied out, lane by lane
  have hpk0 : tile_body.sl.v55 d i vals = vals.pv d (ix2 (tI i) 0) :=
    (ScPay.extractAt_slice (tile_body.sl.v27 d i vals) 0 slices_S16_o0_S1 inpos_S1_p0 (by decide)).trans (loaded_p d i vals _)
  have hbs0 : tile_body.sl.v57 d i vals = vals.bv d (ix2 (tI i) 0) :=
    (ScPay.extractAt_slice (tile_body.sl.v25 d i vals) 0 slices_S16_o0_S1 inpos_S1_p0 (by decide)).trans (loaded_b d i vals _)
  have hsel0 : ∀ l : S16.Idx, tile_body.sl.v63 d i vals l = if (l 0).val = (tile_body.sl.v32 d i vals).toNat % 16 then vals.pv d (ix2 (tI i) 0) else vals.bv d (ix2 (tI i) 0) := by
    intro l; rw [← hpk0, ← hbs0]; exact ScPay.selLane tile_body.sl.v30 ScPay.iota_lane _ hlt0 _ _ l
  have hrd0 : ∀ l : S16.Idx, tile_body.sl.dma2_1 d i vals f3 l = tile_body.sl.v63 d i vals l :=
    fun l => read_staged d i (Rect.unit (s := S256) ![0] S16.size inb_S256_S16_0) (fun _ => rfl) (tile_body.sl.v63 d i vals) [] f3 l
  have hpay0 : ∀ l : S16.Idx, tile_body.sl.dma2_1 d i vals f3 l = if (l 0).val = (tile_body.sl.v32 d i vals).toNat % 16 then vals.pv d (ix2 (tI i) 0) else vals.bv d (ix2 (tI i) 0) :=
    fun l => (hrd0 l).trans (hsel0 l)
  have hland0 := landed_eq_outV vals d i 0 _ (k1_off2_inb i _ hc0) _ 0 0 rfl rfl he0 hvid0 _ hpay0
  -- position 1: the select vector stored and copied out, lane by lane
  have hpk1 : tile_body.sl.v96 d i vals = vals.pv d (ix2 (tI i) 1) :=
    (ScPay.extractAt_slice (tile_body.sl.v27 d i vals) 1 slices_S16_o1_S1 inpos_S1_p0 (by decide)).trans (loaded_p d i vals _)
  have hbs1 : tile_body.sl.v98 d i vals = vals.bv d (ix2 (tI i) 1) :=
    (ScPay.extractAt_slice (tile_body.sl.v25 d i vals) 1 slices_S16_o1_S1 inpos_S1_p0 (by decide)).trans (loaded_b d i vals _)
  have hsel1 : ∀ l : S16.Idx, tile_body.sl.v104 d i vals l = if (l 0).val = (tile_body.sl.v73 d i vals).toNat % 16 then vals.pv d (ix2 (tI i) 1) else vals.bv d (ix2 (tI i) 1) := by
    intro l; rw [← hpk1, ← hbs1]; exact ScPay.selLane tile_body.sl.v30 ScPay.iota_lane _ hlt1 _ _ l
  have hrd1 : ∀ l : S16.Idx, tile_body.sl.dma2_2 d i vals f3 l = tile_body.sl.v104 d i vals l :=
    fun l => read_staged d i (Rect.unit (s := S256) ![16] S16.size inb_S256_S16_16) (fun _ => rfl) (tile_body.sl.v104 d i vals) (tile_body.sl.Hs3'_1 d i vals) f3 l
  have hpay1 : ∀ l : S16.Idx, tile_body.sl.dma2_2 d i vals f3 l = if (l 0).val = (tile_body.sl.v73 d i vals).toNat % 16 then vals.pv d (ix2 (tI i) 1) else vals.bv d (ix2 (tI i) 1) :=
    fun l => (hrd1 l).trans (hsel1 l)
  have hland1 := landed_eq_outV vals d i 1 _ (k1_off3_inb i _ hc1) _ 0 1 rfl rfl he1 hvid1 _ hpay1
  -- position 2: the select vector stored and copied out, lane by lane
  have hpk2 : tile_body.sl.v137 d i vals = vals.pv d (ix2 (tI i) 2) :=
    (ScPay.extractAt_slice (tile_body.sl.v27 d i vals) 2 slices_S16_o2_S1 inpos_S1_p0 (by decide)).trans (loaded_p d i vals _)
  have hbs2 : tile_body.sl.v139 d i vals = vals.bv d (ix2 (tI i) 2) :=
    (ScPay.extractAt_slice (tile_body.sl.v25 d i vals) 2 slices_S16_o2_S1 inpos_S1_p0 (by decide)).trans (loaded_b d i vals _)
  have hsel2 : ∀ l : S16.Idx, tile_body.sl.v145 d i vals l = if (l 0).val = (tile_body.sl.v114 d i vals).toNat % 16 then vals.pv d (ix2 (tI i) 2) else vals.bv d (ix2 (tI i) 2) := by
    intro l; rw [← hpk2, ← hbs2]; exact ScPay.selLane tile_body.sl.v30 ScPay.iota_lane _ hlt2 _ _ l
  have hrd2 : ∀ l : S16.Idx, tile_body.sl.dma2_3 d i vals f3 l = tile_body.sl.v145 d i vals l :=
    fun l => read_staged d i (Rect.unit (s := S256) ![32] S16.size inb_S256_S16_32) (fun _ => rfl) (tile_body.sl.v145 d i vals) (tile_body.sl.Hs3'_2 d i vals) f3 l
  have hpay2 : ∀ l : S16.Idx, tile_body.sl.dma2_3 d i vals f3 l = if (l 0).val = (tile_body.sl.v114 d i vals).toNat % 16 then vals.pv d (ix2 (tI i) 2) else vals.bv d (ix2 (tI i) 2) :=
    fun l => (hrd2 l).trans (hsel2 l)
  have hland2 := landed_eq_outV vals d i 2 _ (k1_off4_inb i _ hc2) _ 0 2 rfl rfl he2 hvid2 _ hpay2
  -- position 3: the select vector stored and copied out, lane by lane
  have hpk3 : tile_body.sl.v178 d i vals = vals.pv d (ix2 (tI i) 3) :=
    (ScPay.extractAt_slice (tile_body.sl.v27 d i vals) 3 slices_S16_o3_S1 inpos_S1_p0 (by decide)).trans (loaded_p d i vals _)
  have hbs3 : tile_body.sl.v180 d i vals = vals.bv d (ix2 (tI i) 3) :=
    (ScPay.extractAt_slice (tile_body.sl.v25 d i vals) 3 slices_S16_o3_S1 inpos_S1_p0 (by decide)).trans (loaded_b d i vals _)
  have hsel3 : ∀ l : S16.Idx, tile_body.sl.v186 d i vals l = if (l 0).val = (tile_body.sl.v155 d i vals).toNat % 16 then vals.pv d (ix2 (tI i) 3) else vals.bv d (ix2 (tI i) 3) := by
    intro l; rw [← hpk3, ← hbs3]; exact ScPay.selLane tile_body.sl.v30 ScPay.iota_lane _ hlt3 _ _ l
  have hrd3 : ∀ l : S16.Idx, tile_body.sl.dma2_4 d i vals f3 l = tile_body.sl.v186 d i vals l :=
    fun l => read_staged d i (Rect.unit (s := S256) ![48] S16.size inb_S256_S16_48) (fun _ => rfl) (tile_body.sl.v186 d i vals) (tile_body.sl.Hs3'_3 d i vals) f3 l
  have hpay3 : ∀ l : S16.Idx, tile_body.sl.dma2_4 d i vals f3 l = if (l 0).val = (tile_body.sl.v155 d i vals).toNat % 16 then vals.pv d (ix2 (tI i) 3) else vals.bv d (ix2 (tI i) 3) :=
    fun l => (hrd3 l).trans (hsel3 l)
  have hland3 := landed_eq_outV vals d i 3 _ (k1_off5_inb i _ hc3) _ 0 3 rfl rfl he3 hvid3 _ hpay3
  -- position 4: the select vector stored and copied out, lane by lane
  have hpk4 : tile_body.sl.v219 d i vals = vals.pv d (ix2 (tI i) 4) :=
    (ScPay.extractAt_slice (tile_body.sl.v27 d i vals) 4 slices_S16_o4_S1 inpos_S1_p0 (by decide)).trans (loaded_p d i vals _)
  have hbs4 : tile_body.sl.v221 d i vals = vals.bv d (ix2 (tI i) 4) :=
    (ScPay.extractAt_slice (tile_body.sl.v25 d i vals) 4 slices_S16_o4_S1 inpos_S1_p0 (by decide)).trans (loaded_b d i vals _)
  have hsel4 : ∀ l : S16.Idx, tile_body.sl.v227 d i vals l = if (l 0).val = (tile_body.sl.v196 d i vals).toNat % 16 then vals.pv d (ix2 (tI i) 4) else vals.bv d (ix2 (tI i) 4) := by
    intro l; rw [← hpk4, ← hbs4]; exact ScPay.selLane tile_body.sl.v30 ScPay.iota_lane _ hlt4 _ _ l
  have hrd4 : ∀ l : S16.Idx, tile_body.sl.dma2_5 d i vals f3 l = tile_body.sl.v227 d i vals l :=
    fun l => read_staged d i (Rect.unit (s := S256) ![64] S16.size inb_S256_S16_64) (fun _ => rfl) (tile_body.sl.v227 d i vals) (tile_body.sl.Hs3'_4 d i vals) f3 l
  have hpay4 : ∀ l : S16.Idx, tile_body.sl.dma2_5 d i vals f3 l = if (l 0).val = (tile_body.sl.v196 d i vals).toNat % 16 then vals.pv d (ix2 (tI i) 4) else vals.bv d (ix2 (tI i) 4) :=
    fun l => (hrd4 l).trans (hsel4 l)
  have hland4 := landed_eq_outV vals d i 4 _ (k1_off6_inb i _ hc4) _ 0 4 rfl rfl he4 hvid4 _ hpay4
  -- position 5: the select vector stored and copied out, lane by lane
  have hpk5 : tile_body.sl.v260 d i vals = vals.pv d (ix2 (tI i) 5) :=
    (ScPay.extractAt_slice (tile_body.sl.v27 d i vals) 5 slices_S16_o5_S1 inpos_S1_p0 (by decide)).trans (loaded_p d i vals _)
  have hbs5 : tile_body.sl.v262 d i vals = vals.bv d (ix2 (tI i) 5) :=
    (ScPay.extractAt_slice (tile_body.sl.v25 d i vals) 5 slices_S16_o5_S1 inpos_S1_p0 (by decide)).trans (loaded_b d i vals _)
  have hsel5 : ∀ l : S16.Idx, tile_body.sl.v268 d i vals l = if (l 0).val = (tile_body.sl.v237 d i vals).toNat % 16 then vals.pv d (ix2 (tI i) 5) else vals.bv d (ix2 (tI i) 5) := by
    intro l; rw [← hpk5, ← hbs5]; exact ScPay.selLane tile_body.sl.v30 ScPay.iota_lane _ hlt5 _ _ l
  have hrd5 : ∀ l : S16.Idx, tile_body.sl.dma2_6 d i vals f3 l = tile_body.sl.v268 d i vals l :=
    fun l => read_staged d i (Rect.unit (s := S256) ![80] S16.size inb_S256_S16_80) (fun _ => rfl) (tile_body.sl.v268 d i vals) (tile_body.sl.Hs3'_5 d i vals) f3 l
  have hpay5 : ∀ l : S16.Idx, tile_body.sl.dma2_6 d i vals f3 l = if (l 0).val = (tile_body.sl.v237 d i vals).toNat % 16 then vals.pv d (ix2 (tI i) 5) else vals.bv d (ix2 (tI i) 5) :=
    fun l => (hrd5 l).trans (hsel5 l)
  have hland5 := landed_eq_outV vals d i 5 _ (k1_off7_inb i _ hc5) _ 0 5 rfl rfl he5 hvid5 _ hpay5
  -- position 6: the select vector stored and copied out, lane by lane
  have hpk6 : tile_body.sl.v301 d i vals = vals.pv d (ix2 (tI i) 6) :=
    (ScPay.extractAt_slice (tile_body.sl.v27 d i vals) 6 slices_S16_o6_S1 inpos_S1_p0 (by decide)).trans (loaded_p d i vals _)
  have hbs6 : tile_body.sl.v303 d i vals = vals.bv d (ix2 (tI i) 6) :=
    (ScPay.extractAt_slice (tile_body.sl.v25 d i vals) 6 slices_S16_o6_S1 inpos_S1_p0 (by decide)).trans (loaded_b d i vals _)
  have hsel6 : ∀ l : S16.Idx, tile_body.sl.v309 d i vals l = if (l 0).val = (tile_body.sl.v278 d i vals).toNat % 16 then vals.pv d (ix2 (tI i) 6) else vals.bv d (ix2 (tI i) 6) := by
    intro l; rw [← hpk6, ← hbs6]; exact ScPay.selLane tile_body.sl.v30 ScPay.iota_lane _ hlt6 _ _ l
  have hrd6 : ∀ l : S16.Idx, tile_body.sl.dma2_7 d i vals f3 l = tile_body.sl.v309 d i vals l :=
    fun l => read_staged d i (Rect.unit (s := S256) ![96] S16.size inb_S256_S16_96) (fun _ => rfl) (tile_body.sl.v309 d i vals) (tile_body.sl.Hs3'_6 d i vals) f3 l
  have hpay6 : ∀ l : S16.Idx, tile_body.sl.dma2_7 d i vals f3 l = if (l 0).val = (tile_body.sl.v278 d i vals).toNat % 16 then vals.pv d (ix2 (tI i) 6) else vals.bv d (ix2 (tI i) 6) :=
    fun l => (hrd6 l).trans (hsel6 l)
  have hland6 := landed_eq_outV vals d i 6 _ (k1_off8_inb i _ hc6) _ 0 6 rfl rfl he6 hvid6 _ hpay6
  -- position 7: the select vector stored and copied out, lane by lane
  have hpk7 : tile_body.sl.v342 d i vals = vals.pv d (ix2 (tI i) 7) :=
    (ScPay.extractAt_slice (tile_body.sl.v27 d i vals) 7 slices_S16_o7_S1 inpos_S1_p0 (by decide)).trans (loaded_p d i vals _)
  have hbs7 : tile_body.sl.v344 d i vals = vals.bv d (ix2 (tI i) 7) :=
    (ScPay.extractAt_slice (tile_body.sl.v25 d i vals) 7 slices_S16_o7_S1 inpos_S1_p0 (by decide)).trans (loaded_b d i vals _)
  have hsel7 : ∀ l : S16.Idx, tile_body.sl.v350 d i vals l = if (l 0).val = (tile_body.sl.v319 d i vals).toNat % 16 then vals.pv d (ix2 (tI i) 7) else vals.bv d (ix2 (tI i) 7) := by
    intro l; rw [← hpk7, ← hbs7]; exact ScPay.selLane tile_body.sl.v30 ScPay.iota_lane _ hlt7 _ _ l
  have hrd7 : ∀ l : S16.Idx, tile_body.sl.dma2_8 d i vals f3 l = tile_body.sl.v350 d i vals l :=
    fun l => read_staged d i (Rect.unit (s := S256) ![112] S16.size inb_S256_S16_112) (fun _ => rfl) (tile_body.sl.v350 d i vals) (tile_body.sl.Hs3'_7 d i vals) f3 l
  have hpay7 : ∀ l : S16.Idx, tile_body.sl.dma2_8 d i vals f3 l = if (l 0).val = (tile_body.sl.v319 d i vals).toNat % 16 then vals.pv d (ix2 (tI i) 7) else vals.bv d (ix2 (tI i) 7) :=
    fun l => (hrd7 l).trans (hsel7 l)
  have hland7 := landed_eq_outV vals d i 7 _ (k1_off9_inb i _ hc7) _ 0 7 rfl rfl he7 hvid7 _ hpay7
  -- position 8: the select vector stored and copied out, lane by lane
  have hpk8 : tile_body.sl.v383 d i vals = vals.pv d (ix2 (tI i) 8) :=
    (ScPay.extractAt_slice (tile_body.sl.v27 d i vals) 8 slices_S16_o8_S1 inpos_S1_p0 (by decide)).trans (loaded_p d i vals _)
  have hbs8 : tile_body.sl.v385 d i vals = vals.bv d (ix2 (tI i) 8) :=
    (ScPay.extractAt_slice (tile_body.sl.v25 d i vals) 8 slices_S16_o8_S1 inpos_S1_p0 (by decide)).trans (loaded_b d i vals _)
  have hsel8 : ∀ l : S16.Idx, tile_body.sl.v391 d i vals l = if (l 0).val = (tile_body.sl.v360 d i vals).toNat % 16 then vals.pv d (ix2 (tI i) 8) else vals.bv d (ix2 (tI i) 8) := by
    intro l; rw [← hpk8, ← hbs8]; exact ScPay.selLane tile_body.sl.v30 ScPay.iota_lane _ hlt8 _ _ l
  have hrd8 : ∀ l : S16.Idx, tile_body.sl.dma2_9 d i vals f3 l = tile_body.sl.v391 d i vals l :=
    fun l => read_staged d i (Rect.unit (s := S256) ![128] S16.size inb_S256_S16_128) (fun _ => rfl) (tile_body.sl.v391 d i vals) (tile_body.sl.Hs3'_8 d i vals) f3 l
  have hpay8 : ∀ l : S16.Idx, tile_body.sl.dma2_9 d i vals f3 l = if (l 0).val = (tile_body.sl.v360 d i vals).toNat % 16 then vals.pv d (ix2 (tI i) 8) else vals.bv d (ix2 (tI i) 8) :=
    fun l => (hrd8 l).trans (hsel8 l)
  have hland8 := landed_eq_outV vals d i 8 _ (k1_off10_inb i _ hc8) _ 1 0 rfl rfl he8 hvid8 _ hpay8
  -- position 9: the select vector stored and copied out, lane by lane
  have hpk9 : tile_body.sl.v424 d i vals = vals.pv d (ix2 (tI i) 9) :=
    (ScPay.extractAt_slice (tile_body.sl.v27 d i vals) 9 slices_S16_o9_S1 inpos_S1_p0 (by decide)).trans (loaded_p d i vals _)
  have hbs9 : tile_body.sl.v426 d i vals = vals.bv d (ix2 (tI i) 9) :=
    (ScPay.extractAt_slice (tile_body.sl.v25 d i vals) 9 slices_S16_o9_S1 inpos_S1_p0 (by decide)).trans (loaded_b d i vals _)
  have hsel9 : ∀ l : S16.Idx, tile_body.sl.v432 d i vals l = if (l 0).val = (tile_body.sl.v401 d i vals).toNat % 16 then vals.pv d (ix2 (tI i) 9) else vals.bv d (ix2 (tI i) 9) := by
    intro l; rw [← hpk9, ← hbs9]; exact ScPay.selLane tile_body.sl.v30 ScPay.iota_lane _ hlt9 _ _ l
  have hrd9 : ∀ l : S16.Idx, tile_body.sl.dma2_10 d i vals f3 l = tile_body.sl.v432 d i vals l :=
    fun l => read_staged d i (Rect.unit (s := S256) ![144] S16.size inb_S256_S16_144) (fun _ => rfl) (tile_body.sl.v432 d i vals) (tile_body.sl.Hs3'_9 d i vals) f3 l
  have hpay9 : ∀ l : S16.Idx, tile_body.sl.dma2_10 d i vals f3 l = if (l 0).val = (tile_body.sl.v401 d i vals).toNat % 16 then vals.pv d (ix2 (tI i) 9) else vals.bv d (ix2 (tI i) 9) :=
    fun l => (hrd9 l).trans (hsel9 l)
  have hland9 := landed_eq_outV vals d i 9 _ (k1_off11_inb i _ hc9) _ 1 1 rfl rfl he9 hvid9 _ hpay9
  -- position 10: the select vector stored and copied out, lane by lane
  have hpk10 : tile_body.sl.v465 d i vals = vals.pv d (ix2 (tI i) 10) :=
    (ScPay.extractAt_slice (tile_body.sl.v27 d i vals) 10 slices_S16_o10_S1 inpos_S1_p0 (by decide)).trans (loaded_p d i vals _)
  have hbs10 : tile_body.sl.v467 d i vals = vals.bv d (ix2 (tI i) 10) :=
    (ScPay.extractAt_slice (tile_body.sl.v25 d i vals) 10 slices_S16_o10_S1 inpos_S1_p0 (by decide)).trans (loaded_b d i vals _)
  have hsel10 : ∀ l : S16.Idx, tile_body.sl.v473 d i vals l = if (l 0).val = (tile_body.sl.v442 d i vals).toNat % 16 then vals.pv d (ix2 (tI i) 10) else vals.bv d (ix2 (tI i) 10) := by
    intro l; rw [← hpk10, ← hbs10]; exact ScPay.selLane tile_body.sl.v30 ScPay.iota_lane _ hlt10 _ _ l
  have hrd10 : ∀ l : S16.Idx, tile_body.sl.dma2_11 d i vals f3 l = tile_body.sl.v473 d i vals l :=
    fun l => read_staged d i (Rect.unit (s := S256) ![160] S16.size inb_S256_S16_160) (fun _ => rfl) (tile_body.sl.v473 d i vals) (tile_body.sl.Hs3'_10 d i vals) f3 l
  have hpay10 : ∀ l : S16.Idx, tile_body.sl.dma2_11 d i vals f3 l = if (l 0).val = (tile_body.sl.v442 d i vals).toNat % 16 then vals.pv d (ix2 (tI i) 10) else vals.bv d (ix2 (tI i) 10) :=
    fun l => (hrd10 l).trans (hsel10 l)
  have hland10 := landed_eq_outV vals d i 10 _ (k1_off12_inb i _ hc10) _ 1 2 rfl rfl he10 hvid10 _ hpay10
  -- position 11: the select vector stored and copied out, lane by lane
  have hpk11 : tile_body.sl.v506 d i vals = vals.pv d (ix2 (tI i) 11) :=
    (ScPay.extractAt_slice (tile_body.sl.v27 d i vals) 11 slices_S16_o11_S1 inpos_S1_p0 (by decide)).trans (loaded_p d i vals _)
  have hbs11 : tile_body.sl.v508 d i vals = vals.bv d (ix2 (tI i) 11) :=
    (ScPay.extractAt_slice (tile_body.sl.v25 d i vals) 11 slices_S16_o11_S1 inpos_S1_p0 (by decide)).trans (loaded_b d i vals _)
  have hsel11 : ∀ l : S16.Idx, tile_body.sl.v514 d i vals l = if (l 0).val = (tile_body.sl.v483 d i vals).toNat % 16 then vals.pv d (ix2 (tI i) 11) else vals.bv d (ix2 (tI i) 11) := by
    intro l; rw [← hpk11, ← hbs11]; exact ScPay.selLane tile_body.sl.v30 ScPay.iota_lane _ hlt11 _ _ l
  have hrd11 : ∀ l : S16.Idx, tile_body.sl.dma2_12 d i vals f3 l = tile_body.sl.v514 d i vals l :=
    fun l => read_staged d i (Rect.unit (s := S256) ![176] S16.size inb_S256_S16_176) (fun _ => rfl) (tile_body.sl.v514 d i vals) (tile_body.sl.Hs3'_11 d i vals) f3 l
  have hpay11 : ∀ l : S16.Idx, tile_body.sl.dma2_12 d i vals f3 l = if (l 0).val = (tile_body.sl.v483 d i vals).toNat % 16 then vals.pv d (ix2 (tI i) 11) else vals.bv d (ix2 (tI i) 11) :=
    fun l => (hrd11 l).trans (hsel11 l)
  have hland11 := landed_eq_outV vals d i 11 _ (k1_off13_inb i _ hc11) _ 1 3 rfl rfl he11 hvid11 _ hpay11
  -- position 12: the select vector stored and copied out, lane by lane
  have hpk12 : tile_body.sl.v547 d i vals = vals.pv d (ix2 (tI i) 12) :=
    (ScPay.extractAt_slice (tile_body.sl.v27 d i vals) 12 slices_S16_o12_S1 inpos_S1_p0 (by decide)).trans (loaded_p d i vals _)
  have hbs12 : tile_body.sl.v549 d i vals = vals.bv d (ix2 (tI i) 12) :=
    (ScPay.extractAt_slice (tile_body.sl.v25 d i vals) 12 slices_S16_o12_S1 inpos_S1_p0 (by decide)).trans (loaded_b d i vals _)
  have hsel12 : ∀ l : S16.Idx, tile_body.sl.v555 d i vals l = if (l 0).val = (tile_body.sl.v524 d i vals).toNat % 16 then vals.pv d (ix2 (tI i) 12) else vals.bv d (ix2 (tI i) 12) := by
    intro l; rw [← hpk12, ← hbs12]; exact ScPay.selLane tile_body.sl.v30 ScPay.iota_lane _ hlt12 _ _ l
  have hrd12 : ∀ l : S16.Idx, tile_body.sl.dma2_13 d i vals f3 l = tile_body.sl.v555 d i vals l :=
    fun l => read_staged d i (Rect.unit (s := S256) ![192] S16.size inb_S256_S16_192) (fun _ => rfl) (tile_body.sl.v555 d i vals) (tile_body.sl.Hs3'_12 d i vals) f3 l
  have hpay12 : ∀ l : S16.Idx, tile_body.sl.dma2_13 d i vals f3 l = if (l 0).val = (tile_body.sl.v524 d i vals).toNat % 16 then vals.pv d (ix2 (tI i) 12) else vals.bv d (ix2 (tI i) 12) :=
    fun l => (hrd12 l).trans (hsel12 l)
  have hland12 := landed_eq_outV vals d i 12 _ (k1_off14_inb i _ hc12) _ 1 4 rfl rfl he12 hvid12 _ hpay12
  -- position 13: the select vector stored and copied out, lane by lane
  have hpk13 : tile_body.sl.v588 d i vals = vals.pv d (ix2 (tI i) 13) :=
    (ScPay.extractAt_slice (tile_body.sl.v27 d i vals) 13 slices_S16_o13_S1 inpos_S1_p0 (by decide)).trans (loaded_p d i vals _)
  have hbs13 : tile_body.sl.v590 d i vals = vals.bv d (ix2 (tI i) 13) :=
    (ScPay.extractAt_slice (tile_body.sl.v25 d i vals) 13 slices_S16_o13_S1 inpos_S1_p0 (by decide)).trans (loaded_b d i vals _)
  have hsel13 : ∀ l : S16.Idx, tile_body.sl.v596 d i vals l = if (l 0).val = (tile_body.sl.v565 d i vals).toNat % 16 then vals.pv d (ix2 (tI i) 13) else vals.bv d (ix2 (tI i) 13) := by
    intro l; rw [← hpk13, ← hbs13]; exact ScPay.selLane tile_body.sl.v30 ScPay.iota_lane _ hlt13 _ _ l
  have hrd13 : ∀ l : S16.Idx, tile_body.sl.dma2_14 d i vals f3 l = tile_body.sl.v596 d i vals l :=
    fun l => read_staged d i (Rect.unit (s := S256) ![208] S16.size inb_S256_S16_208) (fun _ => rfl) (tile_body.sl.v596 d i vals) (tile_body.sl.Hs3'_13 d i vals) f3 l
  have hpay13 : ∀ l : S16.Idx, tile_body.sl.dma2_14 d i vals f3 l = if (l 0).val = (tile_body.sl.v565 d i vals).toNat % 16 then vals.pv d (ix2 (tI i) 13) else vals.bv d (ix2 (tI i) 13) :=
    fun l => (hrd13 l).trans (hsel13 l)
  have hland13 := landed_eq_outV vals d i 13 _ (k1_off15_inb i _ hc13) _ 1 5 rfl rfl he13 hvid13 _ hpay13
  -- position 14: the select vector stored and copied out, lane by lane
  have hpk14 : tile_body.sl.v629 d i vals = vals.pv d (ix2 (tI i) 14) :=
    (ScPay.extractAt_slice (tile_body.sl.v27 d i vals) 14 slices_S16_o14_S1 inpos_S1_p0 (by decide)).trans (loaded_p d i vals _)
  have hbs14 : tile_body.sl.v631 d i vals = vals.bv d (ix2 (tI i) 14) :=
    (ScPay.extractAt_slice (tile_body.sl.v25 d i vals) 14 slices_S16_o14_S1 inpos_S1_p0 (by decide)).trans (loaded_b d i vals _)
  have hsel14 : ∀ l : S16.Idx, tile_body.sl.v637 d i vals l = if (l 0).val = (tile_body.sl.v606 d i vals).toNat % 16 then vals.pv d (ix2 (tI i) 14) else vals.bv d (ix2 (tI i) 14) := by
    intro l; rw [← hpk14, ← hbs14]; exact ScPay.selLane tile_body.sl.v30 ScPay.iota_lane _ hlt14 _ _ l
  have hrd14 : ∀ l : S16.Idx, tile_body.sl.dma2_15 d i vals f3 l = tile_body.sl.v637 d i vals l :=
    fun l => read_staged d i (Rect.unit (s := S256) ![224] S16.size inb_S256_S16_224) (fun _ => rfl) (tile_body.sl.v637 d i vals) (tile_body.sl.Hs3'_14 d i vals) f3 l
  have hpay14 : ∀ l : S16.Idx, tile_body.sl.dma2_15 d i vals f3 l = if (l 0).val = (tile_body.sl.v606 d i vals).toNat % 16 then vals.pv d (ix2 (tI i) 14) else vals.bv d (ix2 (tI i) 14) :=
    fun l => (hrd14 l).trans (hsel14 l)
  have hland14 := landed_eq_outV vals d i 14 _ (k1_off16_inb i _ hc14) _ 1 6 rfl rfl he14 hvid14 _ hpay14
  -- position 15: the select vector stored and copied out, lane by lane
  have hpk15 : tile_body.sl.v670 d i vals = vals.pv d (ix2 (tI i) 15) :=
    (ScPay.extractAt_slice (tile_body.sl.v27 d i vals) 15 slices_S16_o15_S1 inpos_S1_p0 (by decide)).trans (loaded_p d i vals _)
  have hbs15 : tile_body.sl.v672 d i vals = vals.bv d (ix2 (tI i) 15) :=
    (ScPay.extractAt_slice (tile_body.sl.v25 d i vals) 15 slices_S16_o15_S1 inpos_S1_p0 (by decide)).trans (loaded_b d i vals _)
  have hsel15 : ∀ l : S16.Idx, tile_body.sl.v678 d i vals l = if (l 0).val = (tile_body.sl.v647 d i vals).toNat % 16 then vals.pv d (ix2 (tI i) 15) else vals.bv d (ix2 (tI i) 15) := by
    intro l; rw [← hpk15, ← hbs15]; exact ScPay.selLane tile_body.sl.v30 ScPay.iota_lane _ hlt15 _ _ l
  have hrd15 : ∀ l : S16.Idx, tile_body.sl.dma2_16 d i vals f3 l = tile_body.sl.v678 d i vals l :=
    fun l => read_staged d i (Rect.unit (s := S256) ![240] S16.size inb_S256_S16_240) (fun _ => rfl) (tile_body.sl.v678 d i vals) (tile_body.sl.Hs3'_15 d i vals) f3 l
  have hpay15 : ∀ l : S16.Idx, tile_body.sl.dma2_16 d i vals f3 l = if (l 0).val = (tile_body.sl.v647 d i vals).toNat % 16 then vals.pv d (ix2 (tI i) 15) else vals.bv d (ix2 (tI i) 15) :=
    fun l => (hrd15 l).trans (hsel15 l)
  have hland15 := landed_eq_outV vals d i 15 _ (k1_off17_inb i _ hc15) _ 1 7 rfl rfl he15 hvid15 _ hpay15
  -- off the sixteen blocks the slab is as it was, and there `outV` is what it was
  have hrest : ∀ j : S32x8x100000.Idx, j ∈ slabSet (tI i) →
      j ∉ (winR (k1_off2 i (tile_body.sl.v32 d i vals)) (k1_off2_inb i _ hc0)).set →
      j ∉ (winR (k1_off3 i (tile_body.sl.v73 d i vals)) (k1_off3_inb i _ hc1)).set →
      j ∉ (winR (k1_off4 i (tile_body.sl.v114 d i vals)) (k1_off4_inb i _ hc2)).set →
      j ∉ (winR (k1_off5 i (tile_body.sl.v155 d i vals)) (k1_off5_inb i _ hc3)).set →
      j ∉ (winR (k1_off6 i (tile_body.sl.v196 d i vals)) (k1_off6_inb i _ hc4)).set →
      j ∉ (winR (k1_off7 i (tile_body.sl.v237 d i vals)) (k1_off7_inb i _ hc5)).set →
      j ∉ (winR (k1_off8 i (tile_body.sl.v278 d i vals)) (k1_off8_inb i _ hc6)).set →
      j ∉ (winR (k1_off9 i (tile_body.sl.v319 d i vals)) (k1_off9_inb i _ hc7)).set →
      j ∉ (winR (k1_off10 i (tile_body.sl.v360 d i vals)) (k1_off10_inb i _ hc8)).set →
      j ∉ (winR (k1_off11 i (tile_body.sl.v401 d i vals)) (k1_off11_inb i _ hc9)).set →
      j ∉ (winR (k1_off12 i (tile_body.sl.v442 d i vals)) (k1_off12_inb i _ hc10)).set →
      j ∉ (winR (k1_off13 i (tile_body.sl.v483 d i vals)) (k1_off13_inb i _ hc11)).set →
      j ∉ (winR (k1_off14 i (tile_body.sl.v524 d i vals)) (k1_off14_inb i _ hc12)).set →
      j ∉ (winR (k1_off15 i (tile_body.sl.v565 d i vals)) (k1_off15_inb i _ hc13)).set →
      j ∉ (winR (k1_off16 i (tile_body.sl.v606 d i vals)) (k1_off16_inb i _ hc14)).set →
      j ∉ (winR (k1_off17 i (tile_body.sl.v647 d i vals)) (k1_off17_inb i _ hc15)).set →
      vals.fv d j = outV vals d j := by
    intro j hjs hn0 hn1 hn2 hn3 hn4 hn5 hn6 hn7 hn8 hn9 hn10 hn11 hn12 hn13 hn14 hn15
    have hnn0 := not_mem_win _ _ _ _ _ he0 j hn0
    rw [hvid0] at hnn0
    have hnn1 := not_mem_win _ _ _ _ _ he1 j hn1
    rw [hvid1] at hnn1
    have hnn2 := not_mem_win _ _ _ _ _ he2 j hn2
    rw [hvid2] at hnn2
    have hnn3 := not_mem_win _ _ _ _ _ he3 j hn3
    rw [hvid3] at hnn3
    have hnn4 := not_mem_win _ _ _ _ _ he4 j hn4
    rw [hvid4] at hnn4
    have hnn5 := not_mem_win _ _ _ _ _ he5 j hn5
    rw [hvid5] at hnn5
    have hnn6 := not_mem_win _ _ _ _ _ he6 j hn6
    rw [hvid6] at hnn6
    have hnn7 := not_mem_win _ _ _ _ _ he7 j hn7
    rw [hvid7] at hnn7
    have hnn8 := not_mem_win _ _ _ _ _ he8 j hn8
    rw [hvid8] at hnn8
    have hnn9 := not_mem_win _ _ _ _ _ he9 j hn9
    rw [hvid9] at hnn9
    have hnn10 := not_mem_win _ _ _ _ _ he10 j hn10
    rw [hvid10] at hnn10
    have hnn11 := not_mem_win _ _ _ _ _ he11 j hn11
    rw [hvid11] at hnn11
    have hnn12 := not_mem_win _ _ _ _ _ he12 j hn12
    rw [hvid12] at hnn12
    have hnn13 := not_mem_win _ _ _ _ _ he13 j hn13
    rw [hvid13] at hnn13
    have hnn14 := not_mem_win _ _ _ _ _ he14 j hn14
    rw [hvid14] at hnn14
    have hnn15 := not_mem_win _ _ _ _ _ he15 j hn15
    rw [hvid15] at hnn15
    refine (outV_off vals d (tI i) j (mem_slab.mp hjs) ?_).symm
    intro q
    fin_cases q
    · exact hnn0
    · exact hnn1
    · exact hnn2
    · exact hnn3
    · exact hnn4
    · exact hnn5
    · exact hnn6
    · exact hnn7
    · exact hnn8
    · exact hnn9
    · exact hnn10
    · exact hnn11
    · exact hnn12
    · exact hnn13
    · exact hnn14
    · exact hnn15
  isplitl [Hb' Hp' Hi' Ho Hw0 Hw1 Hw2 Hw3 Hw4 Hw5 Hw6 Hw7 Hw8 Hw9 Hw10 Hw11 Hw12 Hw13 Hw14 Hw15]
  · isplitl [Hb']; · iapply (Entails.of_eq (pts_bRowK (F := F) d i _)); iexact Hb'
    isplitl [Hp']; · iapply (Entails.of_eq (pts_pRowK (F := F) d i _)); iexact Hp'
    isplitl [Hi']; · iapply (Entails.of_eq (pts_iRowK (F := F) d i _)); iexact Hi'
    -- every piece at the one function `outV`, then the pieces joined, the last block first
    ihave Ho := (Entails.of_eq (pointsTo_congr (g := outV vals d) (fun j hj => by
      simp only [Finset.mem_sdiff] at hj
      obtain ⟨⟨⟨⟨⟨⟨⟨⟨⟨⟨⟨⟨⟨⟨⟨⟨hjs, hn0⟩, hn1⟩, hn2⟩, hn3⟩, hn4⟩, hn5⟩, hn6⟩, hn7⟩, hn8⟩, hn9⟩, hn10⟩, hn11⟩, hn12⟩, hn13⟩, hn14⟩, hn15⟩ := hj
      exact hrest j hjs hn0 hn1 hn2 hn3 hn4 hn5 hn6 hn7 hn8 hn9 hn10 hn11 hn12 hn13 hn14 hn15))) $$ Ho
    ihave Hw15 := (Entails.of_eq ((pts_winM (F := F) d i _ _ _).trans (pointsTo_congr (g := outV vals d) hland15))) $$ Hw15
    ihave Ho := ((pointsTo_split_subset (ℓ := oLoc d) hs15_15).2) $$ [Hw15 Ho]
    · isplitl [Hw15]; · iexact Hw15
      iexact Ho
    ihave Hw14 := (Entails.of_eq ((pts_winM (F := F) d i _ _ _).trans (pointsTo_congr (g := outV vals d) hland14))) $$ Hw14
    ihave Ho := ((pointsTo_split_subset (ℓ := oLoc d) hs14_14).2) $$ [Hw14 Ho]
    · isplitl [Hw14]; · iexact Hw14
      iexact Ho
    ihave Hw13 := (Entails.of_eq ((pts_winM (F := F) d i _ _ _).trans (pointsTo_congr (g := outV vals d) hland13))) $$ Hw13
    ihave Ho := ((pointsTo_split_subset (ℓ := oLoc d) hs13_13).2) $$ [Hw13 Ho]
    · isplitl [Hw13]; · iexact Hw13
      iexact Ho
    ihave Hw12 := (Entails.of_eq ((pts_winM (F := F) d i _ _ _).trans (pointsTo_congr (g := outV vals d) hland12))) $$ Hw12
    ihave Ho := ((pointsTo_split_subset (ℓ := oLoc d) hs12_12).2) $$ [Hw12 Ho]
    · isplitl [Hw12]; · iexact Hw12
      iexact Ho
    ihave Hw11 := (Entails.of_eq ((pts_winM (F := F) d i _ _ _).trans (pointsTo_congr (g := outV vals d) hland11))) $$ Hw11
    ihave Ho := ((pointsTo_split_subset (ℓ := oLoc d) hs11_11).2) $$ [Hw11 Ho]
    · isplitl [Hw11]; · iexact Hw11
      iexact Ho
    ihave Hw10 := (Entails.of_eq ((pts_winM (F := F) d i _ _ _).trans (pointsTo_congr (g := outV vals d) hland10))) $$ Hw10
    ihave Ho := ((pointsTo_split_subset (ℓ := oLoc d) hs10_10).2) $$ [Hw10 Ho]
    · isplitl [Hw10]; · iexact Hw10
      iexact Ho
    ihave Hw9 := (Entails.of_eq ((pts_winM (F := F) d i _ _ _).trans (pointsTo_congr (g := outV vals d) hland9))) $$ Hw9
    ihave Ho := ((pointsTo_split_subset (ℓ := oLoc d) hs9_9).2) $$ [Hw9 Ho]
    · isplitl [Hw9]; · iexact Hw9
      iexact Ho
    ihave Hw8 := (Entails.of_eq ((pts_winM (F := F) d i _ _ _).trans (pointsTo_congr (g := outV vals d) hland8))) $$ Hw8
    ihave Ho := ((pointsTo_split_subset (ℓ := oLoc d) hs8_8).2) $$ [Hw8 Ho]
    · isplitl [Hw8]; · iexact Hw8
      iexact Ho
    ihave Hw7 := (Entails.of_eq ((pts_winM (F := F) d i _ _ _).trans (pointsTo_congr (g := outV vals d) hland7))) $$ Hw7
    ihave Ho := ((pointsTo_split_subset (ℓ := oLoc d) hs7_7).2) $$ [Hw7 Ho]
    · isplitl [Hw7]; · iexact Hw7
      iexact Ho
    ihave Hw6 := (Entails.of_eq ((pts_winM (F := F) d i _ _ _).trans (pointsTo_congr (g := outV vals d) hland6))) $$ Hw6
    ihave Ho := ((pointsTo_split_subset (ℓ := oLoc d) hs6_6).2) $$ [Hw6 Ho]
    · isplitl [Hw6]; · iexact Hw6
      iexact Ho
    ihave Hw5 := (Entails.of_eq ((pts_winM (F := F) d i _ _ _).trans (pointsTo_congr (g := outV vals d) hland5))) $$ Hw5
    ihave Ho := ((pointsTo_split_subset (ℓ := oLoc d) hs5_5).2) $$ [Hw5 Ho]
    · isplitl [Hw5]; · iexact Hw5
      iexact Ho
    ihave Hw4 := (Entails.of_eq ((pts_winM (F := F) d i _ _ _).trans (pointsTo_congr (g := outV vals d) hland4))) $$ Hw4
    ihave Ho := ((pointsTo_split_subset (ℓ := oLoc d) hs4_4).2) $$ [Hw4 Ho]
    · isplitl [Hw4]; · iexact Hw4
      iexact Ho
    ihave Hw3 := (Entails.of_eq ((pts_winM (F := F) d i _ _ _).trans (pointsTo_congr (g := outV vals d) hland3))) $$ Hw3
    ihave Ho := ((pointsTo_split_subset (ℓ := oLoc d) hs3_3).2) $$ [Hw3 Ho]
    · isplitl [Hw3]; · iexact Hw3
      iexact Ho
    ihave Hw2 := (Entails.of_eq ((pts_winM (F := F) d i _ _ _).trans (pointsTo_congr (g := outV vals d) hland2))) $$ Hw2
    ihave Ho := ((pointsTo_split_subset (ℓ := oLoc d) hs2_2).2) $$ [Hw2 Ho]
    · isplitl [Hw2]; · iexact Hw2
      iexact Ho
    ihave Hw1 := (Entails.of_eq ((pts_winM (F := F) d i _ _ _).trans (pointsTo_congr (g := outV vals d) hland1))) $$ Hw1
    ihave Ho := ((pointsTo_split_subset (ℓ := oLoc d) hs1_1).2) $$ [Hw1 Ho]
    · isplitl [Hw1]; · iexact Hw1
      iexact Ho
    ihave Hw0 := (Entails.of_eq ((pts_winM (F := F) d i _ _ _).trans (pointsTo_congr (g := outV vals d) hland0))) $$ Hw0
    ihave Ho := ((pointsTo_split_subset (ℓ := oLoc d) hs0_0).2) $$ [Hw0 Ho]
    · isplitl [Hw0]; · iexact Hw0
      iexact Ho
    iexact Ho
  isplitl [Hs0' Hs1' Hs2' Hs3' Hbufs]
  · isplitl [Hs0']; · iexists _; iapply (Entails.of_eq (pts_s0 (F := F) d i _)); iexact Hs0'
    isplitl [Hs1']; · iexists _; iapply (Entails.of_eq (pts_s1 (F := F) d i _)); iexact Hs1'
    isplitl [Hs2']; · iexists _; iapply (Entails.of_eq (pts_s2 (F := F) d i _)); iexact Hs2'
    isplitl [Hs3']; · iexists _; iapply (Entails.of_eq (pts_s3 (F := F) d i _)); iexact Hs3'
    iexact Hbufs
  isplitl [Hsem Hsems]
  · isplitl [Hsem]; · iexact Hsem
    iexact Hsems
  iexists _; isplitr
  pick_goal 2
  · iexact HO
  · ipureintro
    exact ins_default _ (ins_default _ (ins_default _ (ins_default _ (ins_default _ (ins_default _ (ins_default _ (ins_default _ (ins_default _ (ins_default _ (ins_default _ (ins_default _ (ins_default _ (ins_default _ (ins_default _ (ins_default _ (ins_default _ (ins_default _ (ins_default _ (fun p hp => .inl hp)))))))))))))))))))

end Body

/-! ## The launch theorem's obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector [FloatOps F] (c : Fin τ.nSC) (s : Fin τ.nSub) :
    defs₀ (F := F) (.scVector c s) 1 ()
      = SparseCore.onTile hcore1 hsub1 (fun c s => cc1__sc_scatter (coordsV c s)
          bV (Memref.isWhole_whole _) pV (Memref.isWhole_whole _) iV (Memref.isWhole_whole _)
          oV (Memref.isWhole_whole _) oV (Memref.isWhole_whole _)
          s0 (Memref.isWhole_whole _) s1 (Memref.isWhole_whole _) s2 (Memref.isWhole_whole _) s3 (Memref.isWhole_whole _) cc1_scratch4) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The scatter kernel's body obligation: on every vector subcore of its grid, the task from the tile's rows and slab to
    the rows back and the slab at `outV`. -/
theorem tileObl [FloatOps F] (vals : Vals F) (hI : IdsOK vals) : (K (F := F)).TileObl (D (F := F)) 𝒱 (P vals) v₀ 0 := by
  intro d c i O W hO _ _
  simp only [show (P vals).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body d (coordsV ⟨_, hc.1⟩ ⟨_, hc.2⟩) vals hI O W hO).trans (wp_mono frame _ _ fun _ => obl_post)

end Cert.Kernel.Hand

end
-- ==== Proof.FinalBits.lean ====
/-
  The kernel's run, whole: every weakly fair execution of @main on the TensorCore beside the sequencers' and the sixteen
  tiles' threads terminates, nothing faulting, with the result array at what the tiles leave and the two arguments
  unchanged — the launch of the SparseCore call over one tile's task.
-/
import proofs.«211088_g14680198218050_cont_week2b_81_31_alg».proof.Proof.RunBits
import proofs.«211088_g14680198218050_cont_week2b_81_31_alg».proof.Proof.TileBits

noncomputable section

namespace Cert.Kernel.Hand

open Cert.Kernel Cert.Kernel.Gen
open Idealize.ShloMosaic Idealize.SL.Sem

variable {F : FTy → Type} [FloatOps F]

theorem run_main [∀ e, Nonempty (Elt F e)] (m : (ℓ : Loc nD τ sig) → Buf (Elt F) ℓ) (ρ : Dev nD → PrngReg) (hI : IdsOK (vals m)) :
    θ_run (Cert.Kernel.defs (F := F)) (Cert.Kernel.threads (F := F)) ⟨m, fun _ => 0, ρ⟩ (QC m) :=
  run_main_of m ρ (tileObl (vals m) hI)

end Cert.Kernel.Hand

end
-- ==== Proof.Assemble.lean ====
/-
  The five claims, assembled.
  The kernel's run leaves, in the result array, the array the sixteen tiles leave over the filled array and the two tables;
  read index by index that array is the specification's function of the two arguments (the bridge, over the TensorCore
  body's payloads read at an index and the row-major reshape of a 32-by-8 array to 16 by 16).  The reference's run leaves the
  same function.  Each frame is a run with the result dropped; the precondition gives the integer argument's range, which
  the kernel's indexed copies and the reference's scatter both need.  Nothing was rewritten by the idealization, so the
  preservation claim is empty.
-/
import proofs.«211088_g14680198218050_cont_week2b_81_31_alg».proof.Defs
import proofs.«211088_g14680198218050_cont_week2b_81_31_alg».proof.Proof.Gen.Kernel
import proofs.«211088_g14680198218050_cont_week2b_81_31_alg».proof.Proof.Gen.KernelIdeal
import proofs.«211088_g14680198218050_cont_week2b_81_31_alg».proof.Proof.Gen.ReferenceIdeal
import proofs.«211088_g14680198218050_cont_week2b_81_31_alg».proof.Proof.Gen.Pre_input_domain
import proofs.«211088_g14680198218050_cont_week2b_81_31_alg».proof.Proof.RefValue
import proofs.«211088_g14680198218050_cont_week2b_81_31_alg».proof.Proof.Bridge
import proofs.«211088_g14680198218050_cont_week2b_81_31_alg».proof.Proof.PreIds
import proofs.«211088_g14680198218050_cont_week2b_81_31_alg».proof.Proof.Reshape
import proofs.«211088_g14680198218050_cont_week2b_81_31_alg».proof.Proof.Values
import proofs.«211088_g14680198218050_cont_week2b_81_31_alg».proof.Proof.ValuesBits
import proofs.«211088_g14680198218050_cont_week2b_81_31_alg».proof.Proof.Final
import proofs.«211088_g14680198218050_cont_week2b_81_31_alg».proof.Proof.FinalBits

noncomputable section

namespace Cert.Assemble

open Idealize.ShloMosaic Idealize.SL.Sem Idealize.ShloMosaic.ValueIdx

/-! ## The filled array read at an index -/

section Fill
open Cert.KernelIdeal Cert.KernelIdeal.Gen Cert.KernelIdeal.Hand

/-- On the one-axis grid a point's coordinate is its number. -/
theorem coords0 : ∀ t : Fin cfg0.N, ((grid0.coords t) 0).val = t.val :=
  (by decide +kernel : ∀ t : Fin grid0.N, _)

/-- The filled array at `(b, c, v)`: the base value of the float argument at `(b, c)` — grid point `b / 2` loads rows
    `2 (b / 2)` and `2 (b / 2) + 1`, and row `b % 2` of that block is row `b`. -/
theorem fillV_read (x : FVec Ideal S32x8 .f32) (b : Fin 32) (c : Fin 8) (v : Fin 100000) :
    fillV (F := Ideal) x (ix3 b c v) = Cert.Spec.baseV (x (ix2 b c)) := by
  have hb := b.isLt
  have hc := c.isLt
  unfold fillV fillBlk
  refine Cert.Bridge.fill_at x _ (⟨b.val % 2, Nat.mod_lt _ (by decide)⟩ : Fin 2) b c v ?_
  show x ((rowsAt (grid0.coords (ptOf b))).idx (ix2 (⟨b.val % 2, Nat.mod_lt _ (by decide)⟩ : Fin 2) c)) = x (ix2 b c)
  congr 1
  funext a
  apply Fin.ext
  match a with
  | ⟨0, _⟩ =>
    show k0_off1 (grid0.coords (ptOf b)) 0 + 1 * (b.val % 2) = b.val
    rw [k0_off1_eq]
    show 2 * ((grid0.coords (ptOf b)) 0).val + 1 * (b.val % 2) = b.val
    rw [coords0]
    show 2 * (b.val / 2) + 1 * (b.val % 2) = b.val
    omega
  | ⟨1, _⟩ =>
    show k0_off1 (grid0.coords (ptOf b)) 1 + 1 * c.val = c.val
    rw [k0_off1_eq]
    show 0 + 1 * c.val = c.val
    omega

end Fill

/-! ## The array the tiles leave is the specification's -/

section Value
open Cert.KernelIdeal Cert.KernelIdeal.Gen Cert.KernelIdeal.Hand

/-- What the kernel's result array ends at is the specification's function of the two arguments' launch contents. -/
theorem outV_eq (m : (ℓ : Loc nD τ sig) → Buf (Elt Ideal) ℓ) (d : Dev nD) :
    outV (F := Ideal) (vals m) d = Cert.Spec.G (m (aLoc d)) (m (iLoc d)) := by
  refine Cert.Bridge.bridge_vals (vals m) d (m (aLoc d)) (m (iLoc d))
    (shapeCast S16x16 (m (aLoc d)) Cert.KernelIdeal.Gen.shapeCasts_S32x8_S16x16)
    (shapeCast S16x16 (m (iLoc d)) Cert.KernelIdeal.Gen.shapeCasts_S32x8_S16x16)
    (fun s q => Cert.Reshape.shapeCast_32x8_16x16 _ _ s q) (fun s q => Cert.Reshape.shapeCast_32x8_16x16 _ _ s q)
    (fun b c v => ?_) (fun t => ?_) (fun t => ?_) (vals_iv m d)
  · rw [vals_fv]; exact fillV_read _ b c v
  · rw [vals_bv]; exact Cert.TcPay.base_apply _ t
  · rw [vals_pv]; exact Cert.TcPay.peak_apply _ t

end Value

/-! ## The claims -/

/-- The word-level kernel runs and leaves its arguments unchanged: its run with the result dropped. -/
theorem frame_p : Cert.frame_Kernel := fun m ρ hpre =>
  (θ_run (Cert.Kernel.defs (F := Bits)) _ _).mono (fun _ h c => (h c).2)
    (Cert.Kernel.Hand.run_main (F := Bits) m ρ (Cert.Kernel.Hand.idsOK_of_pre m hpre))

/-- The idealized kernel runs and leaves its arguments unchanged: its run with the result dropped. -/
theorem frame_pi : Cert.frame_KernelIdeal := fun m ρ hpre =>
  (θ_run (Cert.KernelIdeal.defs (F := Ideal)) _ _).mono (fun _ h c => (h c).2)
    (Cert.KernelIdeal.Hand.run_main (F := Ideal) m ρ (Cert.KernelIdeal.Hand.idsOK_of_pre m hpre))

/-- The reference runs and leaves its arguments unchanged. -/
theorem frame_ri : Cert.frame_ReferenceIdeal := Cert.RefValue.frame_ri

/-- At the ideal instance the kernel's result array and the reference's end at one function of the arguments: the
    specification's. -/
theorem algebraic : Cert.algebraic_KernelIdeal_ReferenceIdeal := by
  intro m ρ m' ρ' hpre hagree
  have hids : ∀ (c : Dev Cert.KernelIdeal.nD) (i : Cert.Spec.S32x8.Idx),
      ((m (Cert.KernelIdeal.Hand.iLoc c) : IVec Cert.Spec.S32x8 32) i).toNat < 100000 :=
    fun c => Cert.PreIds.ids_lt (F := Ideal) _ _ (hpre c)
  refine ⟨fun c => Cert.Spec.G (m (Cert.KernelIdeal.Hand.aLoc c)) (m (Cert.KernelIdeal.Hand.iLoc c)), ?_, ?_⟩
  · exact (θ_run (Cert.KernelIdeal.defs (F := Ideal)) _ _).mono
      (fun _ h c => ⟨(h c).1.trans (outV_eq m c), (h c).2⟩)
      (Cert.KernelIdeal.Hand.run_main (F := Ideal) m ρ (Cert.KernelIdeal.Hand.idsOK_of_pre m hpre))
  · have hids' : ∀ (c : Dev Cert.ReferenceIdeal.nD) (i : Cert.Spec.S32x8.Idx),
        ((m' ((c.tc : Thread Cert.ReferenceIdeal.nD Cert.ReferenceIdeal.τ).loc Cert.ReferenceIdeal.main_arg1)
          : IVec Cert.Spec.S32x8 32) i).toNat < 100000 := by
      intro c i
      rw [(hagree c).2]
      exact hids c i
    refine (θ_run (Cert.ReferenceIdeal.defs (F := Ideal)) _ _).mono (fun _ h c => ⟨(h c).1.trans ?_, (h c).2⟩)
      (Cert.RefValue.run_G m' ρ' hids')
    rw [(hagree c).1, (hagree c).2]

theorem claim : Cert.Claim :=
  ⟨Cert.Kernel.Gen.facts, Cert.KernelIdeal.Gen.facts, Cert.ReferenceIdeal.Gen.facts, Cert.Pre_input_domain.Gen.facts,
    frame_p, frame_pi, frame_ri, trivial, algebraic⟩

end Cert.Assemble

end
-- ==== Proof.lean ====
/-
  The certificate's claim: the word-level kernel, its idealization and the idealized reference each run to the end,
  fault nowhere and leave their arguments unchanged; the idealization rewrote nothing; and at the ideal instance the
  kernel and the reference, from memories that agree on the arguments, end with equal results — at (b, q, v) the
  clipped logarithm of the uniform prior's share (1 - s) u, with the mixing rate s = logistic (log_snr[b, q]) added
  before the logarithm at the one position v = input_ids[b, q].
-/
import proofs.«211088_g14680198218050_cont_week2b_81_31_alg».proof.Defs
import proofs.«211088_g14680198218050_cont_week2b_81_31_alg».proof.Proof.Assemble

noncomputable section

namespace Cert.Proof

theorem claim : Cert.Claim := Cert.Assemble.claim

end Cert.Proof

end
